-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S128x10 .f32) (main_arg8 : FVec F S10 .f32) (main_v33 : IVec S_ 1) : IVec S_ 1 :=
  let main_v34 : FVec F S128x10 .f32 := Host.absf main_arg7
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S3x128 .f32) (main_arg5 : FVec F S3x128 .f32) (main_arg6 : FVec F S3x128 .f32) (main_arg7 : FVec F S128x10 .f32) (main_arg8 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S3x128x128 .f32) (main_arg2 : FVec F S3x128 .f32) (main_arg3 : FVec F S3x128x128 .f32) (main_arg4 : FVec F S3x128 .f32) (main_arg5 : FVec F S3x128 .f32) (main_arg6 : FVec F S3x128 .f32) (main_arg7 : FVec F S128x10 .f32) (main_arg8 : FVec F S10 .f32) (main_arg9 : IVec S2x800000 32) (main_arg10 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10x8x128 : Shape := ⟨3, ![10, 8, 128]⟩
abbrev S5000x128 : Shape := ⟨2, ![5000, 128]⟩
abbrev S1x8x128 : Shape := ⟨3, ![1, 8, 128]⟩
abbrev S6x128 : Shape := ⟨2, ![6, 128]⟩
abbrev S8x128 : Shape := ⟨2, ![8, 128]⟩
abbrev S10x1x128 : Shape := ⟨3, ![10, 1, 128]⟩
abbrev S10x128 : Shape := ⟨2, ![10, 128]⟩
abbrev S64x128 : Shape := ⟨2, ![64, 128]⟩
abbrev S50000x1 : Shape := ⟨2, ![50000, 1]⟩
abbrev S64x10 : Shape := ⟨2, ![64, 10]⟩
abbrev S1x10 : Shape := ⟨2, ![1, 10]⟩

abbrev nBuf : Space → Nat
  | .hbm => 221
  | .vmem => 60
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128x128, .f32⟩
  | 4 => ⟨S3x128, .f32⟩
  | 5 => ⟨S3x128, .f32⟩
  | 6 => ⟨S3x128, .f32⟩
  | 7 => ⟨S128x10, .f32⟩
  | 8 => ⟨S10, .f32⟩
  | 9 => ⟨S2x800000, .i32⟩
  | 10 => ⟨S50000, .i32⟩
  | 11 => ⟨S1x800000, .i32⟩
  | 12 => ⟨S800000, .i32⟩
  | 13 => ⟨S1x800000, .i32⟩
  | 14 => ⟨S800000, .i32⟩
  | 15 => ⟨S50000x128, .bf16⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .bf16⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S128, .f32⟩
  | 38 => ⟨S1x128, .f32⟩
  | 39 => ⟨S1x128, .f32⟩
  | 40 => ⟨S50000x128, .f32⟩
  | 41 => ⟨S10x8x128, .f32⟩
  | 42 => ⟨S10x1x128, .f32⟩
  | 43 => ⟨S10x128, .f32⟩
  | 44 => ⟨S10x1x128, .f32⟩
  | 45 => ⟨S10x128, .f32⟩
  | 46 => ⟨S_, .f32⟩
  | 47 => ⟨S128, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S_, .f32⟩
  | 55 => ⟨S128, .f32⟩
  | 56 => ⟨S1x128, .f32⟩
  | 57 => ⟨S10x128, .f32⟩
  | 58 => ⟨S10x128, .f32⟩
  | 59 => ⟨S10x128, .f32⟩
  | 60 => ⟨S_, .f32⟩
  | 61 => ⟨S128, .f32⟩
  | 62 => ⟨S_, .f32⟩
  | 63 => ⟨S128, .f32⟩
  | 64 => ⟨S128, .f32⟩
  | 65 => ⟨S128, .f32⟩
  | 66 => ⟨S_, .f32⟩
  | 67 => ⟨S128, .f32⟩
  | 68 => ⟨S128, .f32⟩
  | 69 => ⟨S_, .f32⟩
  | 70 => ⟨S128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S1x128, .f32⟩
  | 78 => ⟨S1x128, .f32⟩
  | 79 => ⟨S1x128, .f32⟩
  | 80 => ⟨S50000x128, .f32⟩
  | 81 => ⟨S50000x128, .bf16⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .bf16⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S1x128, .f32⟩
  | 106 => ⟨S50000x128, .f32⟩
  | 107 => ⟨S10x8x128, .f32⟩
  | 108 => ⟨S10x1x128, .f32⟩
  | 109 => ⟨S10x128, .f32⟩
  | 110 => ⟨S10x1x128, .f32⟩
  | 111 => ⟨S10x128, .f32⟩
  | 112 => ⟨S_, .f32⟩
  | 113 => ⟨S128, .f32⟩
  | 114 => ⟨S_, .f32⟩
  | 115 => ⟨S128, .f32⟩
  | 116 => ⟨S128, .f32⟩
  | 117 => ⟨S_, .f32⟩
  | 118 => ⟨S128, .f32⟩
  | 119 => ⟨S128, .f32⟩
  | 120 => ⟨S_, .f32⟩
  | 121 => ⟨S128, .f32⟩
  | 122 => ⟨S1x128, .f32⟩
  | 123 => ⟨S10x128, .f32⟩
  | 124 => ⟨S10x128, .f32⟩
  | 125 => ⟨S10x128, .f32⟩
  | 126 => ⟨S_, .f32⟩
  | 127 => ⟨S128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S128, .f32⟩
  | 6 => ⟨S128, .f32⟩
  | 7 => ⟨S_, .f32⟩
  | 8 => ⟨S128, .f32⟩
  | 9 => ⟨S128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S1x128, .f32⟩
  | 16 => ⟨S1x128, .f32⟩
  | 17 => ⟨S1x128, .f32⟩
  | 18 => ⟨S50000x128, .f32⟩
  | 19 => ⟨S50000x128, .bf16⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .bf16⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S1x128x128, .f32⟩
  | 35 => ⟨S128x128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S50000x128, .f32⟩
  | 45 => ⟨S10x8x128, .f32⟩
  | 46 => ⟨S10x1x128, .f32⟩
  | 47 => ⟨S10x128, .f32⟩
  | 48 => ⟨S10x1x128, .f32⟩
  | 49 => ⟨S10x128, .f32⟩
  | 50 => ⟨S_, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S_, .f32⟩
  | 59 => ⟨S128, .f32⟩
  | 60 => ⟨S1x128, .f32⟩
  | 61 => ⟨S10x128, .f32⟩
  | 62 => ⟨S10x128, .f32⟩
  | 63 => ⟨S10x128, .f32⟩
  | 64 => ⟨S_, .f32⟩
  | 65 => ⟨S128, .f32⟩
  | 66 => ⟨S_, .f32⟩
  | 67 => ⟨S128, .f32⟩
  | 68 => ⟨S128, .f32⟩
  | 69 => ⟨S128, .f32⟩
  | 70 => ⟨S_, .f32⟩
  | 71 => ⟨S128, .f32⟩
  | 72 => ⟨S128, .f32⟩
  | 73 => ⟨S_, .f32⟩
  | 74 => ⟨S128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S1x128, .f32⟩
  | 82 => ⟨S1x128, .f32⟩
  | 83 => ⟨S1x128, .f32⟩
  | 84 => ⟨S50000x128, .f32⟩
  | 85 => ⟨S_, .f32⟩
  | 86 => ⟨S64x128, .f32⟩
  | 87 => ⟨S50000x1, .i32⟩
  | 88 => ⟨S64x128, .f32⟩
  | 89 => ⟨S64x10, .f32⟩
  | 90 => ⟨S1x10, .f32⟩
  | 91 => ⟨S64x10, .f32⟩
  | 92 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x8x128, .f32⟩
  | .local _ .vmem, ⟨11, _⟩ => ⟨S1x8x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x8x128, .f32⟩
  | .local _ .vmem, ⟨31, _⟩ => ⟨S1x8x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x8x128, .f32⟩
  | .local _ .vmem, ⟨51, _⟩ => ⟨S1x8x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80_0 : Ref sig .tc := ⟨.hbm, 106, rfl⟩
abbrev main_v80_1 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_cst_13 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_v100 : Ref sig .tc := ⟨.hbm, 134, rfl⟩
abbrev main_cst_19 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_20 : Ref sig .tc := ⟨.hbm, 148, rfl⟩
abbrev main_v113 : Ref sig .tc := ⟨.hbm, 149, rfl⟩
abbrev main_v114 : Ref sig .tc := ⟨.hbm, 150, rfl⟩
abbrev main_c_21 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_22 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134_0 : Ref sig .tc := ⟨.hbm, 172, rfl⟩
abbrev main_v134_1 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_23 : Ref sig .tc := ⟨.hbm, 178, rfl⟩
abbrev main_v139 : Ref sig .tc := ⟨.hbm, 179, rfl⟩
abbrev main_cst_24 : Ref sig .tc := ⟨.hbm, 180, rfl⟩
abbrev main_v140 : Ref sig .tc := ⟨.hbm, 181, rfl⟩
abbrev main_v141 : Ref sig .tc := ⟨.hbm, 182, rfl⟩
abbrev main_cst_25 : Ref sig .tc := ⟨.hbm, 183, rfl⟩
abbrev main_v142 : Ref sig .tc := ⟨.hbm, 184, rfl⟩
abbrev main_v143 : Ref sig .tc := ⟨.hbm, 185, rfl⟩
abbrev main_cst_26 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_27 : Ref sig .tc := ⟨.hbm, 192, rfl⟩
abbrev main_v149 : Ref sig .tc := ⟨.hbm, 193, rfl⟩
abbrev main_cst_28 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_29 : Ref sig .tc := ⟨.hbm, 198, rfl⟩
abbrev main_v153 : Ref sig .tc := ⟨.hbm, 199, rfl⟩
abbrev main_v154 : Ref sig .tc := ⟨.hbm, 200, rfl⟩
abbrev main_cst_30 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_31 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg7_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem7_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  concatenates_S1x128_S1x128_S6x128_S8x128_d0 : Shape.Concatenates [S1x128, S1x128, S6x128] S8x128 0
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S10x8x128_S10x1x128_0_0_0 : S10x8x128.Slices ![0, 0, 0] S10x1x128
  shapeCasts_S10x1x128_S10x128 : S10x1x128.ShapeCasts S10x128
  slices_S10x8x128_S10x1x128_0_1_0 : S10x8x128.Slices ![0, 1, 0] S10x1x128
  reducesTo_S10x128_S128_d0 : S10x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S10x128_0_1 : S1x128.BroadcastsInDim S10x128 (![0, 1] : Fin 2 → Fin S10x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S10x8x128.size a
  hwx0_7 : ∀ i : grid0.Coords, EltTy.bits .f32 = 32 ∨ (Rect.block (s := S10x8x128) S1x8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x128.size a ≤ S10x8x128.size a
  hwx2_7 : ∀ i : grid2.Coords, EltTy.bits .f32 = 32 ∨ (Rect.block (s := S10x8x128) S1x8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x8x128.size a ≤ S10x8x128.size a
  hwx4_7 : ∀ i : grid4.Coords, EltTy.bits .f32 = 32 ∨ (Rect.block (s := S10x8x128) S1x8x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v79) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v80_1) S1x8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v80_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v107) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v108) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v109) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v110) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v111) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v111) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v123) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v125) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v132) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v129) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v133) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v134_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v134_1) S1x8x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v134_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v161) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v162) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v163) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v164) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v165) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64x128 : Shape := ⟨2, ![64, 128]⟩
abbrev S50000x1 : Shape := ⟨2, ![50000, 1]⟩
abbrev S64x10 : Shape := ⟨2, ![64, 10]⟩
abbrev S1x10 : Shape := ⟨2, ![1, 10]⟩

abbrev nBuf : Space → Nat
  | .hbm => 275
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128x128, .f32⟩
  | 4 => ⟨S3x128, .f32⟩
  | 5 => ⟨S3x128, .f32⟩
  | 6 => ⟨S3x128, .f32⟩
  | 7 => ⟨S128x10, .f32⟩
  | 8 => ⟨S10, .f32⟩
  | 9 => ⟨S2x800000, .i32⟩
  | 10 => ⟨S50000, .i32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S1x128x128, .f32⟩
  | 30 => ⟨S128x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S50000x128, .f32⟩
  | 113 => ⟨S1x128x128, .f32⟩
  | 114 => ⟨S128x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S50000x128, .f32⟩
  | 101 => ⟨S50000x128, .f32⟩
  | 102 => ⟨S50000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S128, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S128, .f32⟩
  | _ => ⟨S50000x128, .f32⟩

abbrev hbmTy0_2 (i : Nat) : BufTy := match i % 128 with
  | 0 => ⟨S1x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S64x128, .f32⟩
  | 13 => ⟨S50000x1, .i32⟩
  | 14 => ⟨S64x128, .f32⟩
  | 15 => ⟨S64x10, .f32⟩
  | 16 => ⟨S1x10, .f32⟩
  | 17 => ⟨S64x10, .f32⟩
  | 18 => ⟨S64x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_5 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_6 : Ref sig .tc := ⟨.hbm, 96, rfl⟩
abbrev main_v56 : Ref sig .tc := ⟨.hbm, 97, rfl⟩
abbrev main_v57 : Ref sig .tc := ⟨.hbm, 98, rfl⟩
abbrev main_c_7 : Ref sig .tc := ⟨.hbm, 99, rfl⟩
abbrev main_v58 : Ref sig .tc := ⟨.hbm, 100, rfl⟩
abbrev main_v59 : Ref sig .tc := ⟨.hbm, 101, rfl⟩
abbrev main_c_8 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_9 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_10 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_11 : Ref sig .tc := ⟨.hbm, 132, rfl⟩
abbrev main_v87 : Ref sig .tc := ⟨.hbm, 133, rfl⟩
abbrev main_cst_12 : Ref sig .tc := ⟨.hbm, 134, rfl⟩
abbrev main_v88 : Ref sig .tc := ⟨.hbm, 135, rfl⟩
abbrev main_v89 : Ref sig .tc := ⟨.hbm, 136, rfl⟩
abbrev main_c_13 : Ref sig .tc := ⟨.hbm, 137, rfl⟩
abbrev main_call1_cst : Ref sig .tc := ⟨.hbm, 138, rfl⟩
abbrev main_call1_v0 : Ref sig .tc := ⟨.hbm, 139, rfl⟩
abbrev main_call1_v1 : Ref sig .tc := ⟨.hbm, 140, rfl⟩
abbrev main_call1_cst_0 : Ref sig .tc := ⟨.hbm, 141, rfl⟩
abbrev main_call1_v2 : Ref sig .tc := ⟨.hbm, 142, rfl⟩
abbrev main_call1_v3 : Ref sig .tc := ⟨.hbm, 143, rfl⟩
abbrev main_call1_v4 : Ref sig .tc := ⟨.hbm, 144, rfl⟩
abbrev main_call1_v5 : Ref sig .tc := ⟨.hbm, 145, rfl⟩
abbrev main_call1_v6 : Ref sig .tc := ⟨.hbm, 146, rfl⟩
abbrev main_call1_v7 : Ref sig .tc := ⟨.hbm, 147, rfl⟩
abbrev main_call1_cst_1 : Ref sig .tc := ⟨.hbm, 148, rfl⟩
abbrev main_call1_v8 : Ref sig .tc := ⟨.hbm, 149, rfl⟩
abbrev main_call1_cst_2 : Ref sig .tc := ⟨.hbm, 150, rfl⟩
abbrev main_call1_v9 : Ref sig .tc := ⟨.hbm, 151, rfl⟩
abbrev main_call1_v10 : Ref sig .tc := ⟨.hbm, 152, rfl⟩
abbrev main_call1_v11 : Ref sig .tc := ⟨.hbm, 153, rfl⟩
abbrev main_call1_cst_3 : Ref sig .tc := ⟨.hbm, 154, rfl⟩
abbrev main_call1_v12 : Ref sig .tc := ⟨.hbm, 155, rfl⟩
abbrev main_call1_cst_4 : Ref sig .tc := ⟨.hbm, 156, rfl⟩
abbrev main_call1_call0_v0 : Ref sig .tc := ⟨.hbm, 157, rfl⟩
abbrev main_call1_call0_v1 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_14 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_15 : Ref sig .tc := ⟨.hbm, 180, rfl⟩
abbrev main_v110 : Ref sig .tc := ⟨.hbm, 181, rfl⟩
abbrev main_v111 : Ref sig .tc := ⟨.hbm, 182, rfl⟩
abbrev main_c_16 : Ref sig .tc := ⟨.hbm, 183, rfl⟩
abbrev main_v112 : Ref sig .tc := ⟨.hbm, 184, rfl⟩
abbrev main_v113 : Ref sig .tc := ⟨.hbm, 185, rfl⟩
abbrev main_c_17 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_18 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_cst_19 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_cst_20 : Ref sig .tc := ⟨.hbm, 216, rfl⟩
abbrev main_v141 : Ref sig .tc := ⟨.hbm, 217, rfl⟩
abbrev main_cst_21 : Ref sig .tc := ⟨.hbm, 218, rfl⟩
abbrev main_v142 : Ref sig .tc := ⟨.hbm, 219, rfl⟩
abbrev main_v143 : Ref sig .tc := ⟨.hbm, 220, rfl⟩
abbrev main_c_22 : Ref sig .tc := ⟨.hbm, 221, rfl⟩
abbrev main_call2_cst : Ref sig .tc := ⟨.hbm, 222, rfl⟩
abbrev main_call2_v0 : Ref sig .tc := ⟨.hbm, 223, rfl⟩
abbrev main_call2_v1 : Ref sig .tc := ⟨.hbm, 224, rfl⟩
abbrev main_call2_cst_0 : Ref sig .tc := ⟨.hbm, 225, rfl⟩
abbrev main_call2_v2 : Ref sig .tc := ⟨.hbm, 226, rfl⟩
abbrev main_call2_v3 : Ref sig .tc := ⟨.hbm, 227, rfl⟩
abbrev main_call2_v4 : Ref sig .tc := ⟨.hbm, 228, rfl⟩
abbrev main_call2_v5 : Ref sig .tc := ⟨.hbm, 229, rfl⟩
abbrev main_call2_v6 : Ref sig .tc := ⟨.hbm, 230, rfl⟩
abbrev main_call2_v7 : Ref sig .tc := ⟨.hbm, 231, rfl⟩
abbrev main_call2_cst_1 : Ref sig .tc := ⟨.hbm, 232, rfl⟩
abbrev main_call2_v8 : Ref sig .tc := ⟨.hbm, 233, rfl⟩
abbrev main_call2_cst_2 : Ref sig .tc := ⟨.hbm, 234, rfl⟩
abbrev main_call2_v9 : Ref sig .tc := ⟨.hbm, 235, rfl⟩
abbrev main_call2_v10 : Ref sig .tc := ⟨.hbm, 236, rfl⟩
abbrev main_call2_v11 : Ref sig .tc := ⟨.hbm, 237, rfl⟩
abbrev main_call2_cst_3 : Ref sig .tc := ⟨.hbm, 238, rfl⟩
abbrev main_call2_v12 : Ref sig .tc := ⟨.hbm, 239, rfl⟩
abbrev main_call2_cst_4 : Ref sig .tc := ⟨.hbm, 240, rfl⟩
abbrev main_call2_call0_v0 : Ref sig .tc := ⟨.hbm, 241, rfl⟩
abbrev main_call2_call0_v1 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_cst_23 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_cst_24 : Ref sig .tc := ⟨.hbm, 264, rfl⟩
abbrev main_v164 : Ref sig .tc := ⟨.hbm, 265, rfl⟩
abbrev main_v165 : Ref sig .tc := ⟨.hbm, 266, rfl⟩
abbrev main_cst_25 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  dot_S64x128_S128x10_S64x10_1_0_0_1_n_n_wf : DotDims.WF S64x128 S128x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KerRun.lean ====
/-
  The kernel program's run with its result in the post: every weakly fair execution of @main terminates, nothing
  faulting, the result buffer ends at the last boundary's contents (the fold of the seven host stretches and the six
  kernel launches over the launch memory) and the eleven argument arrays end as launched.
-/
import proofs.«141774_j48919677501954_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments, the last thread state read against the final state: the result buffer at the last
    boundary's contents, each argument as launched. -/
theorem run_out : θ_run defs (onTc (τ := τ) (main (F := F))) ⟨m, fun _ => 0, ρ⟩ (fun r => ∀ c : Dev nD,
      r.2.mem ((c.tc : Thread nD τ).loc main_v172) = W13 m ρ c (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v172 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.KRun

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«141774_j48919677501954_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.LibSageSpec.lean ====
/-
  The mathematics of a two-layer mean-aggregation graph network, as functions of whole arrays over the extended
  reals: rows of a table taken at a column of start indices, update rows summed per destination row, a per-row
  scale, column means, the normalisation of every column followed by the cut at zero, and the two ways the second
  layer may be arranged (the weight applied before or after the aggregation). No program is mentioned.
-/
import proofs.«141774_j48919677501954_2_alg».proof.Proof.LibDense
import proofs.«141774_j48919677501954_2_alg».proof.Proof.LibRows
import proofs.«141774_j48919677501954_2_alg».proof.Proof.LibScatter

noncomputable section

namespace Cert.Sage

open Idealize.ShloMosaic Idealize.ShloMosaic.ValueIdx Cert.DenseLib Cert.RowsLib

/-- A rank-two array of extended reals. -/
abbrev Mat (a b : ℕ) : Type := (⟨2, ![a, b]⟩ : Shape).Idx → EReal
/-- A vector of extended reals. -/
abbrev Vc (a : ℕ) : Type := (⟨1, ![a]⟩ : Shape).Idx → EReal
/-- A column of 32-bit start indices. -/
abbrev ICol (R : ℕ) : Type := IVec ⟨2, ![R, 1]⟩ 32

/-- Every entry is a real number (neither infinity). -/
def IsFin {s : Shape} (X : s.Idx → EReal) : Prop := ∀ i, ∃ r : ℝ, X i = (r : EReal)

variable {N C R : ℕ}

/-- Row `r` of the result is the row of `X` that start index `r` names (clamped into the table). -/
def takeRows (hN : 0 < N) (src : ICol R) (X : Mat N C) : Mat R C :=
  fun i => X (ix2 (rowOf N hN (src (ix2 (n0 := R) (i 0) (0 : Fin 1)))) (n1 := C) (i 1))

/-- Row `b` of the result is the sum of the update rows whose start index, read as a signed integer, is `b`. -/
def segSum (dst : ICol R) (U : Mat R C) : Mat N C :=
  fun i => ∑ r ∈ Finset.univ.filter (fun r : Fin R => (dst (ix2 r (0 : Fin 1))).toInt = (((i 0 : Fin N)).val : ℤ)),
    U (ix2 r (n1 := C) (i 1))

/-- Every row scaled by that row's entry of `d`. -/
def scaleRows (d : Vc N) (X : Mat N C) : Mat N C := fun i => X i * d (ix1 (n := N) (i 0))

/-- The mean aggregation: neighbours' rows taken, summed per destination, scaled by the reciprocal degree. -/
def meanAgg (hN : 0 < N) (src dst : ICol R) (d : Vc N) (X : Mat N C) : Mat N C :=
  scaleRows d (segSum dst (takeRows hN src X))

/-- The column sums (from zero) divided by the constant `cN`. -/
def colMean (cN : EReal) (X : Mat N C) : Vc C :=
  fun j => Ideal.div (0 + ∑ n : Fin N, X (ix2 n (n1 := C) (j 0))) cN

/-- The squared deviation of every entry from its column's value of `mu`. -/
def sqDev (X : Mat N C) (mu : Vc C) : Mat N C :=
  fun i => (X i - mu (ix1 (n := C) (i 1))) * (X i - mu (ix1 (n := C) (i 1)))

/-- Every column centred, scaled by the reciprocal root of its variance plus `eps`, by `gamma`, shifted by `beta`,
    and cut at zero. -/
def bnRelu (eps : EReal) (X : Mat N C) (mu var gamma beta : Vc C) : Mat N C :=
  fun i => max (((X i - mu (ix1 (n := C) (i 1))) * Ideal.rsqrt (var (ix1 (n := C) (i 1)) + eps))
    * gamma (ix1 (n := C) (i 1)) + beta (ix1 (n := C) (i 1))) 0

/-- The one row of a one-row array, as a vector. -/
def rowVec (B : Mat 1 C) : Vc C := fun j => B (ix2 (0 : Fin 1) (n1 := C) (j 0))

/-- A vector laid along every row. -/
def vrows {M : ℕ} (b : Vc C) : Mat M C := rows (M := M) fun c => b (ix1 c)

/-- The first layer before normalisation: aggregated features and own features through their weights, plus the
    bias (the bias added last). -/
def layer1 {K : ℕ} (A X : Mat N K) (Wl Wr : Mat K C) (b : Vc C) : Mat N C :=
  plus (plus (mm A Wl) (mm X Wr)) (vrows b)

/-- The hidden features: the first layer, normalised per column with its own column means and variances, cut at zero. -/
def hidden {K : ℕ} (cN eps : EReal) (A X : Mat N K) (Wl Wr : Mat K C) (b gamma beta : Vc C) : Mat N C :=
  bnRelu eps (layer1 A X Wl Wr b) (colMean cN (layer1 A X Wl Wr b))
    (colMean cN (sqDev (layer1 A X Wl Wr b) (colMean cN (layer1 A X Wl Wr b)))) gamma beta

/-- The second layer with the weight applied BEFORE the aggregation, the bias added last. -/
def outPre {K : ℕ} (hN : 0 < N) (src dst : ICol R) (d : Vc N) (H : Mat N K) (Wl Wr : Mat K C) (b : Vc C) : Mat N C :=
  plus (plus (meanAgg hN src dst d (mm H Wl)) (mm H Wr)) (vrows b)

/-- The second layer with the weight applied AFTER the aggregation, the bias added before the own-feature term. -/
def outPost {K : ℕ} (hN : 0 < N) (src dst : ICol R) (d : Vc N) (H : Mat N K) (Wl Wr : Mat K C) (b : Vc C) : Mat N C :=
  plus (plus (mm (meanAgg hN src dst d H) Wl) (vrows b)) (mm H Wr)

end Cert.Sage

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«141774_j48919677501954_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibRowNorm.lean ====
/-
  General lemmas: a row-wise normalisation on the extended reals, at any number of rows. An array `z` of M rows
  and N columns is built entry by entry as `agg + h · d + b` (a per-row weight `d`, a per-column offset `b`:
  `combine`); each row is then centred at its mean, scaled by the reciprocal square root of its mean squared
  deviation plus a constant, multiplied by a per-column gain, shifted by a per-column offset and cut at zero
  (`normRelu`). Row `p` of the result depends only on row `p` of the operands, which is what lets a result
  computed block of rows by block of rows be read as one function of the whole arrays. The same function is
  recognised in the spelling a vector unit gives it (lane sums kept as a column, columns and rows broadcast over
  the block) and in the spelling a host program gives it (sums from an initial value, two-step broadcasts).
  None mentions a program.
-/
import proofs.«141774_j48919677501954_2_alg».proof.Proof.LibRowBlocks

noncomputable section

namespace Cert.RowNorm

open Idealize.ShloMosaic Idealize.ShloMosaic.ValueIdx Cert.LayoutLib Cert.DenseLib Cert.RowBlocks

variable {M N : ℕ}

/-- `agg + h · d + b`: the weight `d` of the row, the offset `b` of the column. -/
def combine (agg h : (⟨2, ![M, N]⟩ : Shape).Idx → EReal) (d : Fin M → EReal) (b : Fin N → EReal) :
    (⟨2, ![M, N]⟩ : Shape).Idx → EReal := fun i => agg i + h i * d (i 0) + b (i 1)

/-- The mean of row `p`: the row's sum divided by `n`. -/
def mean (n : EReal) (z : (⟨2, ![M, N]⟩ : Shape).Idx → EReal) (p : Fin M) : EReal :=
  Ideal.div (∑ k : Fin N, z (ix2 p k)) n

/-- The mean squared deviation of row `p` from its mean. -/
def spread (n : EReal) (z : (⟨2, ![M, N]⟩ : Shape).Idx → EReal) (p : Fin M) : EReal :=
  Ideal.div (∑ k : Fin N, (z (ix2 p k) - mean n z p) * (z (ix2 p k) - mean n z p)) n

/-- Each row centred, scaled by `(spread + ε)^(-1/2)`, times the column's gain, plus the column's offset, cut at zero. -/
def normRelu (n ε : EReal) (z : (⟨2, ![M, N]⟩ : Shape).Idx → EReal) (g be : Fin N → EReal) :
    (⟨2, ![M, N]⟩ : Shape).Idx → EReal := fun i =>
  max ((z i - mean n z (i 0)) * Ideal.rsqrt (spread n z (i 0) + ε) * g (i 1) + be (i 1)) 0

/-- The two together. -/
def post (n ε : EReal) (agg h : (⟨2, ![M, N]⟩ : Shape).Idx → EReal) (d : Fin M → EReal) (b g be : Fin N → EReal) :
    (⟨2, ![M, N]⟩ : Shape).Idx → EReal := normRelu n ε (combine agg h d b) g be

theorem combine_apply (agg h : (⟨2, ![M, N]⟩ : Shape).Idx → EReal) (d : Fin M → EReal) (b : Fin N → EReal) (p : Fin M) (q : Fin N) :
    combine agg h d b (ix2 p q) = agg (ix2 p q) + h (ix2 p q) * d p + b q := rfl

theorem normRelu_apply (n ε : EReal) (z : (⟨2, ![M, N]⟩ : Shape).Idx → EReal) (g be : Fin N → EReal) (p : Fin M) (q : Fin N) :
    normRelu n ε z g be (ix2 p q) = max ((z (ix2 p q) - mean n z p) * Ideal.rsqrt (spread n z p + ε) * g q + be q) 0 := rfl

/-! ## Row locality -/

theorem mean_congr {M' : ℕ} (n : EReal) (z' : (⟨2, ![M', N]⟩ : Shape).Idx → EReal) (z : (⟨2, ![M, N]⟩ : Shape).Idx → EReal)
    (p' : Fin M') (p : Fin M) (hz : ∀ k : Fin N, z' (ix2 p' k) = z (ix2 p k)) : mean n z' p' = mean n z p := by
  unfold mean
  exact congrArg (Ideal.div · n) (Finset.sum_congr rfl fun k _ => hz k)

theorem spread_congr {M' : ℕ} (n : EReal) (z' : (⟨2, ![M', N]⟩ : Shape).Idx → EReal) (z : (⟨2, ![M, N]⟩ : Shape).Idx → EReal)
    (p' : Fin M') (p : Fin M) (hz : ∀ k : Fin N, z' (ix2 p' k) = z (ix2 p k)) : spread n z' p' = spread n z p := by
  unfold spread
  rw [mean_congr n z' z p' p hz]
  exact congrArg (Ideal.div · n) (Finset.sum_congr rfl fun k _ => by rw [hz k])

/-- Two arrays, of any heights, that agree on a row of each are normalised alike on those rows. -/
theorem normRelu_row {M' : ℕ} (n ε : EReal) (z' : (⟨2, ![M', N]⟩ : Shape).Idx → EReal) (z : (⟨2, ![M, N]⟩ : Shape).Idx → EReal)
    (g be : Fin N → EReal) (p' : Fin M') (p : Fin M) (hz : ∀ k : Fin N, z' (ix2 p' k) = z (ix2 p k)) (q : Fin N) :
    normRelu n ε z' g be (ix2 p' q) = normRelu n ε z g be (ix2 p q) := by
  rw [normRelu_apply, normRelu_apply, mean_congr n z' z p' p hz, spread_congr n z' z p' p hz, hz q]

/-- The same for the whole step: rows of `agg` and `h` that agree, and equal row weights, give equal rows. -/
theorem post_row {M' : ℕ} (n ε : EReal) (agg' h' : (⟨2, ![M', N]⟩ : Shape).Idx → EReal) (d' : Fin M' → EReal)
    (agg h : (⟨2, ![M, N]⟩ : Shape).Idx → EReal) (d : Fin M → EReal) (b g be : Fin N → EReal) (p' : Fin M') (p : Fin M)
    (ha : ∀ k : Fin N, agg' (ix2 p' k) = agg (ix2 p k)) (hh : ∀ k : Fin N, h' (ix2 p' k) = h (ix2 p k)) (hd : d' p' = d p)
    (q : Fin N) : post n ε agg' h' d' b g be (ix2 p' q) = post n ε agg h d b g be (ix2 p q) :=
  normRelu_row n ε _ _ g be p' p (fun k => by rw [combine_apply, combine_apply, ha k, hh k, hd]) q

/-- The same with any two indices: equal columns, rows of `agg` and `h` that agree, equal row weights. -/
theorem post_eq_of_row {M' : ℕ} (n ε : EReal) (agg' h' : (⟨2, ![M', N]⟩ : Shape).Idx → EReal) (d' : Fin M' → EReal)
    (agg h : (⟨2, ![M, N]⟩ : Shape).Idx → EReal) (d : Fin M → EReal) (b g be : Fin N → EReal)
    (j : (⟨2, ![M', N]⟩ : Shape).Idx) (i : (⟨2, ![M, N]⟩ : Shape).Idx) (hq : (j 1).val = (i 1).val)
    (ha : ∀ k : Fin N, agg' (ix2 (n0 := M') (j 0) k) = agg (ix2 (n0 := M) (i 0) k))
    (hh : ∀ k : Fin N, h' (ix2 (n0 := M') (j 0) k) = h (ix2 (n0 := M) (i 0) k)) (hd : d' (j 0) = d (i 0)) :
    post n ε agg' h' d' b g be j = post n ε agg h d b g be i := by
  obtain ⟨p', q', rfl⟩ : ∃ (p' : Fin M') (q' : Fin N), j = ix2 p' q' := ⟨j 0, j 1, eq_ix2 j⟩
  obtain ⟨p, q, rfl⟩ : ∃ (p : Fin M) (q : Fin N), i = ix2 p q := ⟨i 0, i 1, eq_ix2 i⟩
  have e : q' = q := Fin.ext hq
  subst e
  exact post_row n ε agg' h' d' agg h d b g be p' p ha hh hd q'

/-! ## Two dense layers -/

/-- An array times a matrix, plus a bias, cut at zero, times a second matrix, plus a second bias. -/
def mlp {M A B C : ℕ} (cat : (⟨2, ![M, A]⟩ : Shape).Idx → EReal) (W₁ : (⟨2, ![A, B]⟩ : Shape).Idx → EReal) (b₁ : Fin B → EReal)
    (W₂ : (⟨2, ![B, C]⟩ : Shape).Idx → EReal) (b₂ : Fin C → EReal) : (⟨2, ![M, C]⟩ : Shape).Idx → EReal :=
  biased (layer (mm cat W₁) b₁ W₂) b₂

/-- Row `p` of the two layers' result depends on row `p` of the first operand only. -/
theorem mlp_eq_of_row {M M' A B C : ℕ} (cat' : (⟨2, ![M', A]⟩ : Shape).Idx → EReal) (cat : (⟨2, ![M, A]⟩ : Shape).Idx → EReal)
    (W₁ : (⟨2, ![A, B]⟩ : Shape).Idx → EReal) (b₁ : Fin B → EReal) (W₂ : (⟨2, ![B, C]⟩ : Shape).Idx → EReal) (b₂ : Fin C → EReal)
    (j : (⟨2, ![M', C]⟩ : Shape).Idx) (i : (⟨2, ![M, C]⟩ : Shape).Idx) (hq : (j 1).val = (i 1).val)
    (hx : ∀ k : Fin A, cat' (ix2 (n0 := M') (j 0) k) = cat (ix2 (n0 := M) (i 0) k)) :
    mlp cat' W₁ b₁ W₂ b₂ j = mlp cat W₁ b₁ W₂ b₂ i :=
  biased_eq_of_entry _ _ _ _ j i rfl hq
    (layer_eq_of_row _ _ _ _ _ _ j i rfl rfl hq fun k =>
      mm_eq_of_row cat' W₁ cat W₁ (ix2 (n0 := M') (j 0) k) (ix2 (n0 := M) (i 0) k) rfl rfl fun k' => hx k')

/-! ## Layout operations as whole-array functions -/

/-- A column broadcast over the columns of a block reads the column at the row. -/
theorem broadcastTo_col (v : (⟨2, ![M, 1]⟩ : Shape).Idx → EReal) (h : (⟨2, ![M, 1]⟩ : Shape).Broadcasts ⟨2, ![M, N]⟩) :
    broadcastTo ⟨2, ![M, N]⟩ v h = fun i => v (ix2 (n0 := M) (i 0) (0 : Fin 1)) := by
  funext i
  obtain ⟨p, q, rfl⟩ : ∃ (p : Fin M) (q : Fin N), i = ix2 p q := ⟨i 0, i 1, eq_ix2 i⟩
  exact broadcastTo_col_apply v h p q

/-- A lane sum kept as a column: the row's sum, whatever the column's one coordinate. -/
theorem rowsum_vector (Z : FVec Ideal ⟨2, ![M, N]⟩ .f32) (acc : BitVec 32)
    (r : (⟨2, ![M, N]⟩ : Shape).Reduces [(1 : Fin 2)] ⟨1, ![M]⟩) (hφ : FKind.Formats FTy.f32)
    (hacc : acc = FKind.add.neutral FTy.f32 hφ) (c : (⟨1, ![M]⟩ : Shape).ShapeCasts ⟨2, ![M, 1]⟩) :
    shapeCast ⟨2, ![M, 1]⟩ (multiReduction .add [(1 : Fin 2)] ⟨1, ![M]⟩ Z acc r hφ hacc) c
      = fun i => ∑ k : Fin N, Z (ix2 (n0 := M) (i 0) k) := by
  funext i
  obtain ⟨p, u, rfl⟩ : ∃ (p : Fin M) (u : Fin 1), i = ix2 p u := ⟨i 0, i 1, eq_ix2 i⟩
  rw [shapeCast_col_apply]
  refine (Ideal.multiReduction_add_single Z acc r hφ hacc (ix1 p)).trans ?_
  exact Finset.sum_congr rfl fun k _ => congrArg Z (lift_row r p k)

/-- The host's broadcast of a column over the columns. -/
theorem broadcastInDim_col (h : (⟨2, ![M, 1]⟩ : Shape).BroadcastsInDim ⟨2, ![M, N]⟩ (![0, 1] : Fin 2 → Fin 2))
    (x : (⟨2, ![M, 1]⟩ : Shape).Idx → EReal) :
    broadcastInDim ⟨2, ![M, N]⟩ ![0, 1] h x = fun i => x (ix2 (n0 := M) (i 0) (0 : Fin 1)) := by
  funext i
  obtain ⟨p, q, rfl⟩ : ∃ (p : Fin M) (q : Fin N), i = ix2 p q := ⟨i 0, i 1, eq_ix2 i⟩
  exact broadcastInDim_col_apply h x p q

/-- The host's sum along the rows kept as a column: the initial value plus the row's sum. -/
theorem rowsum_host (Z : FVec Ideal ⟨2, ![M, N]⟩ .f32) {u : Shape} (init : u.Idx → EReal) (hu : 0 < u.numel)
    (rt : (⟨2, ![M, N]⟩ : Shape).ReducesTo [(1 : Fin 2)] ⟨1, ![M]⟩) (r : (⟨2, ![M, N]⟩ : Shape).Reduces [(1 : Fin 2)] ⟨1, ![M]⟩)
    (hb : (⟨1, ![M]⟩ : Shape).BroadcastsInDim ⟨2, ![M, 1]⟩ (![0] : Fin 1 → Fin 2)) :
    broadcastInDim ⟨2, ![M, 1]⟩ ![0] hb (Host.reduceAdd (F := Ideal) Z init rt hu)
      = fun i => init (Shape.Idx.first hu) + ∑ k : Fin N, Z (ix2 (n0 := M) (i 0) k) := by
  funext i
  obtain ⟨p, v, rfl⟩ : ∃ (p : Fin M) (v : Fin 1), i = ix2 p v := ⟨i 0, i 1, eq_ix2 i⟩
  rw [broadcastInDim_vecCol_apply]
  exact hostReduceAdd_row_apply rt r Z _ p

/-- The host's broadcast of a scalar. -/
theorem broadcastInDim_scalar {t : Shape} (h : (⟨0, ![]⟩ : Shape).BroadcastsInDim t (![] : Fin 0 → Fin t.rank))
    (x : (⟨0, ![]⟩ : Shape).Idx → EReal) : broadcastInDim t ![] h x = fun _ => x ix0 :=
  funext fun j => broadcastInDim_scalar_apply h x j

/-- The same from the zero word: the row's sum. -/
theorem rowsum_host_zero (Z : FVec Ideal ⟨2, ![M, N]⟩ .f32) (hu : 0 < (⟨0, ![]⟩ : Shape).numel)
    (rt : (⟨2, ![M, N]⟩ : Shape).ReducesTo [(1 : Fin 2)] ⟨1, ![M]⟩) (r : (⟨2, ![M, N]⟩ : Shape).Reduces [(1 : Fin 2)] ⟨1, ![M]⟩)
    (hb : (⟨1, ![M]⟩ : Shape).BroadcastsInDim ⟨2, ![M, 1]⟩ (![0] : Fin 1 → Fin 2)) :
    broadcastInDim ⟨2, ![M, 1]⟩ ![0] hb (Host.reduceAdd (F := Ideal) Z (constant (F := Ideal) ⟨0, ![]⟩ .f32 0x00000000#32) rt hu)
      = fun i => ∑ k : Fin N, Z (ix2 (n0 := M) (i 0) k) := by
  rw [rowsum_host Z _ hu rt r hb]
  funext i
  show Ideal.ofBits .f32 0x00000000#32 + _ = _
  rw [Ideal.ofBits_zero_f32, zero_add]

/-! ## The two spellings of the row normalisation -/

/-- The vector unit's spelling, on a block of any height: the lane sums kept as columns, the columns and the one-row
    operands broadcast over the block, the divisor and the constant splat. -/
theorem post_vector (nb εb : BitVec FTy.f32.bits)
    (c1 : (⟨2, ![M, N]⟩ : Shape).ShapeCasts ⟨2, ![M, N]⟩) (c2 : (⟨2, ![M, 1]⟩ : Shape).ShapeCasts ⟨2, ![M, 1]⟩)
    (c3 : (⟨2, ![1, N]⟩ : Shape).ShapeCasts ⟨2, ![1, N]⟩) (c4 : (⟨1, ![M]⟩ : Shape).ShapeCasts ⟨2, ![M, 1]⟩)
    (b1 : (⟨2, ![M, 1]⟩ : Shape).Broadcasts ⟨2, ![M, N]⟩) (b2 : (⟨2, ![1, N]⟩ : Shape).Broadcasts ⟨2, ![M, N]⟩)
    (r : (⟨2, ![M, N]⟩ : Shape).Reduces [(1 : Fin 2)] ⟨1, ![M]⟩) (hφ : FKind.Formats FTy.f32)
    (hacc : (0x00000000#32 : BitVec FTy.f32.bits) = FKind.add.neutral FTy.f32 hφ)
    (agg h : FVec Ideal ⟨2, ![M, N]⟩ .f32) (d : FVec Ideal ⟨2, ![M, 1]⟩ .f32) (b g be : FVec Ideal ⟨2, ![1, N]⟩ .f32) :
    let Z : FVec Ideal ⟨2, ![M, N]⟩ .f32 :=
      addf (addf (shapeCast ⟨2, ![M, N]⟩ agg c1) (mulf (shapeCast ⟨2, ![M, N]⟩ h c1) (broadcastTo ⟨2, ![M, N]⟩ (shapeCast ⟨2, ![M, 1]⟩ d c2) b1)))
        (broadcastTo ⟨2, ![M, N]⟩ (shapeCast ⟨2, ![1, N]⟩ b c3) b2)
    let μ : FVec Ideal ⟨2, ![M, 1]⟩ .f32 :=
      divf (shapeCast ⟨2, ![M, 1]⟩ (multiReduction .add [(1 : Fin 2)] ⟨1, ![M]⟩ Z 0x00000000#32 r hφ hacc) c4)
        (broadcast ⟨2, ![M, 1]⟩ (Scalar.ofBits (F := Ideal) .f32 nb))
    let D : FVec Ideal ⟨2, ![M, N]⟩ .f32 := subf Z (broadcastTo ⟨2, ![M, N]⟩ μ b1)
    let σ : FVec Ideal ⟨2, ![M, 1]⟩ .f32 :=
      divf (shapeCast ⟨2, ![M, 1]⟩ (multiReduction .add [(1 : Fin 2)] ⟨1, ![M]⟩ (mulf D D) 0x00000000#32 r hφ hacc) c4)
        (broadcast ⟨2, ![M, 1]⟩ (Scalar.ofBits (F := Ideal) .f32 nb))
    maximumf (addf (mulf (mulf D (broadcastTo ⟨2, ![M, N]⟩ (rsqrt (addf σ (broadcast ⟨2, ![M, 1]⟩ (Scalar.ofBits (F := Ideal) .f32 εb)))) b1))
        (broadcastTo ⟨2, ![M, N]⟩ (shapeCast ⟨2, ![1, N]⟩ g c3) b2)) (broadcastTo ⟨2, ![M, N]⟩ (shapeCast ⟨2, ![1, N]⟩ be c3) b2))
      (broadcast ⟨2, ![M, N]⟩ (Scalar.ofBits (F := Ideal) .f32 0x00000000#32))
    = post (Ideal.ofBits .f32 nb) (Ideal.ofBits .f32 εb) agg h (fun p => d (ix2 p (0 : Fin 1))) (fun q => b (ix2 (0 : Fin 1) q))
        (fun q => g (ix2 (0 : Fin 1) q)) (fun q => be (ix2 (0 : Fin 1) q)) := by
  intro Z μ D σ
  simp only [Z, μ, D, σ, shapeCast_self, broadcastTo_col, broadcastTo_eq_rows, maximumf_splat_zero]
  rw [rowsum_vector _ _ r hφ hacc c4, rowsum_vector _ _ r hφ hacc c4]
  rfl

/-- The host's spelling, on arrays of any height: sums from the zero word, two-step broadcasts, scalars broadcast. -/
theorem post_host (nb εb : BitVec FTy.f32.bits) (hu : 0 < (⟨0, ![]⟩ : Shape).numel)
    (hcb : (⟨2, ![M, 1]⟩ : Shape).BroadcastsInDim ⟨2, ![M, N]⟩ (![0, 1] : Fin 2 → Fin 2))
    (hrb : (⟨2, ![1, N]⟩ : Shape).BroadcastsInDim ⟨2, ![M, N]⟩ (![0, 1] : Fin 2 → Fin 2))
    (hvr : (⟨1, ![N]⟩ : Shape).BroadcastsInDim ⟨2, ![1, N]⟩ (![1] : Fin 1 → Fin 2))
    (hvc : (⟨1, ![M]⟩ : Shape).BroadcastsInDim ⟨2, ![M, 1]⟩ (![0] : Fin 1 → Fin 2))
    (hsc : (⟨0, ![]⟩ : Shape).BroadcastsInDim ⟨2, ![M, 1]⟩ (![] : Fin 0 → Fin 2))
    (hs0 : (⟨0, ![]⟩ : Shape).BroadcastsInDim ⟨2, ![M, N]⟩ (![] : Fin 0 → Fin 2))
    (rt : (⟨2, ![M, N]⟩ : Shape).ReducesTo [(1 : Fin 2)] ⟨1, ![M]⟩) (r : (⟨2, ![M, N]⟩ : Shape).Reduces [(1 : Fin 2)] ⟨1, ![M]⟩)
    (agg h : FVec Ideal ⟨2, ![M, N]⟩ .f32) (d : FVec Ideal ⟨2, ![M, 1]⟩ .f32) (b g be : FVec Ideal ⟨1, ![N]⟩ .f32) :
    let Z : FVec Ideal ⟨2, ![M, N]⟩ .f32 :=
      addf (addf agg (mulf h (broadcastInDim ⟨2, ![M, N]⟩ ![0, 1] hcb d)))
        (broadcastInDim ⟨2, ![M, N]⟩ ![0, 1] hrb (broadcastInDim ⟨2, ![1, N]⟩ ![1] hvr b))
    let μ : FVec Ideal ⟨2, ![M, 1]⟩ .f32 :=
      Host.divf (broadcastInDim ⟨2, ![M, 1]⟩ ![0] hvc (Host.reduceAdd (F := Ideal) Z (constant (F := Ideal) ⟨0, ![]⟩ .f32 0x00000000#32) rt hu))
        (broadcastInDim ⟨2, ![M, 1]⟩ ![] hsc (constant (F := Ideal) ⟨0, ![]⟩ .f32 nb))
    let D : FVec Ideal ⟨2, ![M, N]⟩ .f32 := subf Z (broadcastInDim ⟨2, ![M, N]⟩ ![0, 1] hcb μ)
    let σ : FVec Ideal ⟨2, ![M, 1]⟩ .f32 :=
      Host.divf (broadcastInDim ⟨2, ![M, 1]⟩ ![0] hvc (Host.reduceAdd (F := Ideal) (mulf D D) (constant (F := Ideal) ⟨0, ![]⟩ .f32 0x00000000#32) rt hu))
        (broadcastInDim ⟨2, ![M, 1]⟩ ![] hsc (constant (F := Ideal) ⟨0, ![]⟩ .f32 nb))
    maximumf (addf (mulf (mulf D (broadcastInDim ⟨2, ![M, N]⟩ ![0, 1] hcb
          (Host.rsqrt (addf σ (broadcastInDim ⟨2, ![M, 1]⟩ ![] hsc (constant (F := Ideal) ⟨0, ![]⟩ .f32 εb))))))
        (broadcastInDim ⟨2, ![M, N]⟩ ![0, 1] hrb (broadcastInDim ⟨2, ![1, N]⟩ ![1] hvr g)))
        (broadcastInDim ⟨2, ![M, N]⟩ ![0, 1] hrb (broadcastInDim ⟨2, ![1, N]⟩ ![1] hvr be)))
      (broadcastInDim ⟨2, ![M, N]⟩ ![] hs0 (constant (F := Ideal) ⟨0, ![]⟩ .f32 0x00000000#32))
    = post (Ideal.ofBits .f32 nb) (Ideal.ofBits .f32 εb) agg h (fun p => d (ix2 p (0 : Fin 1))) (fun q => b (ix1 q))
        (fun q => g (ix1 q)) (fun q => be (ix1 q)) := by
  intro Z μ D σ
  simp only [Z, μ, D, σ]
  rw [maximumf_bcast_zero, broadcastInDim_eq_rows b hvr hrb, broadcastInDim_eq_rows g hvr hrb, broadcastInDim_eq_rows be hvr hrb,
    rowsum_host_zero _ hu rt r hvc, rowsum_host_zero _ hu rt r hvc, broadcastInDim_scalar hsc, broadcastInDim_scalar hsc,
    broadcastInDim_col hcb d, broadcastInDim_col hcb, broadcastInDim_col hcb]
  rfl

/-- The host's spelling of the two dense layers. -/
theorem mlp_host {A B C : ℕ} (D₁ : DotDims ⟨2, ![M, A]⟩ ⟨2, ![A, B]⟩ ⟨2, ![M, B]⟩) (hD₁ : D₁ = DotDims.plain M A B)
    (D₂ : DotDims ⟨2, ![M, B]⟩ ⟨2, ![B, C]⟩ ⟨2, ![M, C]⟩) (hD₂ : D₂ = DotDims.plain M B C)
    (h1 : (⟨1, ![B]⟩ : Shape).BroadcastsInDim ⟨2, ![1, B]⟩ (![1] : Fin 1 → Fin 2))
    (h2 : (⟨2, ![1, B]⟩ : Shape).BroadcastsInDim ⟨2, ![M, B]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![M, C]⟩ (![0, 1] : Fin 2 → Fin 2))
    (h0 : (⟨0, ![]⟩ : Shape).BroadcastsInDim ⟨2, ![M, B]⟩ (![] : Fin 0 → Fin 2))
    (cat : FVec Ideal ⟨2, ![M, A]⟩ .f32) (W₁ : FVec Ideal ⟨2, ![A, B]⟩ .f32) (b₁ : FVec Ideal ⟨1, ![B]⟩ .f32)
    (W₂ : FVec Ideal ⟨2, ![B, C]⟩ .f32) (b₂ : FVec Ideal ⟨1, ![C]⟩ .f32) :
    addf (Host.dotGeneral D₂ none
        (maximumf (addf (Host.dotGeneral D₁ none cat W₁) (broadcastInDim ⟨2, ![M, B]⟩ ![0, 1] h2 (broadcastInDim ⟨2, ![1, B]⟩ ![1] h1 b₁)))
          (broadcastInDim ⟨2, ![M, B]⟩ ![] h0 (constant (F := Ideal) ⟨0, ![]⟩ .f32 0x00000000#32))) W₂)
      (broadcastInDim ⟨2, ![M, C]⟩ ![0, 1] h4 (broadcastInDim ⟨2, ![1, C]⟩ ![1] h3 b₂))
    = mlp cat W₁ (fun q => b₁ (ix1 q)) W₂ (fun q => b₂ (ix1 q)) := by
  rw [dotGeneral_eq_mm D₁ hD₁, dotGeneral_eq_mm D₂ hD₂, broadcastInDim_eq_rows b₁ h1 h2, broadcastInDim_eq_rows b₂ h3 h4,
    maximumf_bcast_zero]
  rfl

/-- The vector unit's spelling of the two dense layers, on a block of any height. -/
theorem mlp_vector {A B C : ℕ} (D₁ : DotDims ⟨2, ![M, A]⟩ ⟨2, ![A, B]⟩ ⟨2, ![M, B]⟩) (hD₁ : D₁ = DotDims.plain M A B)
    (D₂ : DotDims ⟨2, ![M, B]⟩ ⟨2, ![B, C]⟩ ⟨2, ![M, C]⟩) (hD₂ : D₂ = DotDims.plain M B C)
    (c1 : (⟨2, ![1, B]⟩ : Shape).ShapeCasts ⟨2, ![1, B]⟩) (c2 : (⟨2, ![1, C]⟩ : Shape).ShapeCasts ⟨2, ![1, C]⟩)
    (h1 : (⟨2, ![1, B]⟩ : Shape).Broadcasts ⟨2, ![M, B]⟩) (h2 : (⟨2, ![1, C]⟩ : Shape).Broadcasts ⟨2, ![M, C]⟩)
    (cat : FVec Ideal ⟨2, ![M, A]⟩ .f32) (W₁ : FVec Ideal ⟨2, ![A, B]⟩ .f32) (b₁ : FVec Ideal ⟨2, ![1, B]⟩ .f32)
    (W₂ : FVec Ideal ⟨2, ![B, C]⟩ .f32) (b₂ : FVec Ideal ⟨2, ![1, C]⟩ .f32) :
    addf (matmul D₂ none
        (maximumf (addf (matmul D₁ none cat W₁ (constant ⟨2, ![M, B]⟩ .f32 0x00000000#32)) (broadcastTo ⟨2, ![M, B]⟩ (shapeCast ⟨2, ![1, B]⟩ b₁ c1) h1))
          (broadcast ⟨2, ![M, B]⟩ (Scalar.ofBits (F := Ideal) .f32 0x00000000#32))) W₂ (constant ⟨2, ![M, C]⟩ .f32 0x00000000#32))
      (broadcastTo ⟨2, ![M, C]⟩ (shapeCast ⟨2, ![1, C]⟩ b₂ c2) h2)
    = mlp cat W₁ (fun q => b₁ (ix2 (0 : Fin 1) q)) W₂ (fun q => b₂ (ix2 (0 : Fin 1) q)) := by
  simp only [shapeCast_self, matmul_eq_mm D₁ hD₁, matmul_eq_mm D₂ hD₂, broadcastTo_eq_rows, maximumf_splat_zero]
  rfl

end Cert.RowNorm

end
-- ==== Proof.Spec.lean ====
/-
  The network both programs compute, as functions of whole arrays over the extended reals.

  A layer adds to every node's row the sum of the rows carried along the edges into that node, passes the result
  through two dense layers (a weight, a bias along the rows, the cut at zero, a second weight and bias), normalises
  every column over all the nodes with a gain and an offset, and cuts at zero.  Three such layers are followed by a
  sum of the node rows per graph and one more dense layer.

  The two arrangements differ only in how a layer's column statistics are gathered:
  * one takes the column mean and then the mean squared deviation from it over all 50000 rows (`refLayer`);
  * the other cuts the rows into 10 tiles of 5000, takes every tile's column mean and the tile's sum of squared
    deviations from its own mean, and pools them: the mean is the tile means' sum times 5000 over 50000, the
    variance is the tiles' sums of squares plus 5000 times the squared deviations of the tile means from the pooled
    mean, over 50000, cut below at zero (`kerLayer`).
-/
import proofs.«141774_j48919677501954_2_alg».proof.Proof.LibSageSpec
import proofs.«141774_j48919677501954_2_alg».proof.Proof.LibRowNorm

noncomputable section

namespace Cert.Gin

open Idealize.ShloMosaic Idealize.ShloMosaic.ValueIdx Cert.DenseLib Cert.RowsLib Cert.Sage Cert.RowNorm

/-- A rank-three array of extended reals. -/
abbrev Cube (a b c : ℕ) : Type := (⟨3, ![a, b, c]⟩ : Shape).Idx → EReal

theorem nodes_pos : 0 < 50000 := by norm_num

/-- The node count as both programs write it: the float word of 50000. -/
def cN : EReal := Ideal.ofBits .f32 0x47435000#32
/-- The tile height as the tiled arrangement writes it: the float word of 5000. -/
def cT : EReal := Ideal.ofBits .f32 0x459C4000#32
/-- The stabiliser under the root: the float word nearest 1e-5. -/
def eps : EReal := Ideal.ofBits .f32 0x3727C5AC#32

/-- Layer `l`'s matrix of a stack of three. -/
def matAt (l : Fin 3) (Ws : Cube 3 128 128) : Mat 128 128 :=
  fun i => Ws (ix3 l (n1 := 128) (i 0) (n2 := 128) (i 1))

/-- Layer `l`'s vector of a stack of three. -/
def vecAt (l : Fin 3) (bs : Mat 3 128) : Vc 128 := fun j => bs (ix2 l (n1 := 128) (j 0))

/-- A vector as a function of its coordinate. -/
def asFun {n : ℕ} (b : Vc n) : Fin n → EReal := fun c => b (ix1 c)

/-- The neighbour sum: rows taken along the edges, summed per destination node. -/
def agg (src dst : ICol 800000) (X : Mat 50000 128) : Mat 50000 128 := segSum dst (takeRows nodes_pos src X)

/-- A layer before normalisation: own row plus neighbour sum, through the two dense layers. -/
def pre (src dst : ICol 800000) (X : Mat 50000 128) (W1 : Mat 128 128) (b1 : Vc 128) (W2 : Mat 128 128) (b2 : Vc 128) :
    Mat 50000 128 :=
  mlp (plus X (agg src dst X)) W1 (asFun b1) W2 (asFun b2)

/-! ## The statistics over all rows at once -/

/-- The mean squared deviation of every column from its mean. -/
def varTwo (h : Mat 50000 128) : Vc 128 := colMean cN (sqDev h (colMean cN h))

/-- Normalisation with the column mean and the mean squared deviation from it. -/
def refLayer (h : Mat 50000 128) (g be : Vc 128) : Mat 50000 128 := bnRelu eps h (colMean cN h) (varTwo h) g be

/-! ## The statistics pooled from tiles -/

theorem tile_lt (t : Fin 10) (r : Fin 5000) : t.val * 5000 + r.val < 50000 := by
  have := t.isLt; have := r.isLt; omega

/-- Row `r` of tile `t`. -/
def tileRow (t : Fin 10) (r : Fin 5000) : Fin 50000 := ⟨t.val * 5000 + r.val, tile_lt t r⟩

/-- Column `q`'s mean over tile `t`. -/
def tmean (h : Mat 50000 128) (t : Fin 10) (q : Fin 128) : EReal :=
  Ideal.div (∑ r : Fin 5000, h (ix2 (tileRow t r) q)) cT

/-- Column `q`'s sum of squared deviations from the tile's own mean, over tile `t`. -/
def tm2 (h : Mat 50000 128) (t : Fin 10) (q : Fin 128) : EReal :=
  ∑ r : Fin 5000, (h (ix2 (tileRow t r) q) - tmean h t q) * (h (ix2 (tileRow t r) q) - tmean h t q)

/-- What the tiled arrangement keeps per tile: an `[10, 8, 128]` array whose row 0 of tile `t` is the tile's column
    means, row 1 the tile's sums of squared deviations, rows 2 to 7 zero. -/
def tileStats (h : Mat 50000 128) : Cube 10 8 128 := fun i =>
  if (i 1).val = 0 then tmean h (i 0) (i 2) else if (i 1).val = 1 then tm2 h (i 0) (i 2) else 0

/-- The pooled mean: the tile means' sum (from zero) times the tile height over the node count. -/
def kmean (h : Mat 50000 128) : Vc 128 :=
  fun j => Ideal.div ((0 + ∑ t : Fin 10, tmean h t (j 0)) * cT) cN

/-- The pooled variance: within-tile sums of squares plus the tile height times the squared deviations of the tile means
    from the pooled mean, over the node count, cut below at zero. -/
def kvar (h : Mat 50000 128) : Vc 128 :=
  fun j => max (Ideal.div ((0 + ∑ t : Fin 10, tm2 h t (j 0))
      + cT * (0 + ∑ t : Fin 10, (tmean h t (j 0) - kmean h j) * (tmean h t (j 0) - kmean h j))) cN) 0

/-- Normalisation with the pooled statistics. -/
def kerLayer (h : Mat 50000 128) (g be : Vc 128) : Mat 50000 128 := bnRelu eps h (kmean h) (kvar h) g be

/-! ## The network -/

/-- The arguments: node features, the stacked parameters of the three layers, the last layer's parameters, and the
    three index columns (edge sources, edge destinations, every node's graph). -/
structure Args where
  x : Mat 50000 128
  W1s : Cube 3 128 128
  b1s : Mat 3 128
  W2s : Cube 3 128 128
  b2s : Mat 3 128
  gs : Mat 3 128
  bes : Mat 3 128
  Wlin : Mat 128 10
  blin : Vc 10
  src : ICol 800000
  dst : ICol 800000
  gid : ICol 50000

/-- Every float argument is real-valued. -/
structure Args.Fin (a : Args) : Prop where
  x : IsFin a.x
  W1s : IsFin a.W1s
  b1s : IsFin a.b1s
  W2s : IsFin a.W2s
  b2s : IsFin a.b2s
  gs : IsFin a.gs
  bes : IsFin a.bes
  Wlin : IsFin a.Wlin
  blin : IsFin a.blin

variable (a : Args)

/-- Layer `l` before normalisation. -/
def preAt (l : Fin 3) (X : Mat 50000 128) : Mat 50000 128 :=
  pre a.src a.dst X (matAt l a.W1s) (vecAt l a.b1s) (matAt l a.W2s) (vecAt l a.b2s)

/-- Layer `l` with the statistics over all rows at once. -/
def refAt (l : Fin 3) (X : Mat 50000 128) : Mat 50000 128 := refLayer (preAt a l X) (vecAt l a.gs) (vecAt l a.bes)

/-- Layer `l` with the pooled statistics. -/
def kerAt (l : Fin 3) (X : Mat 50000 128) : Mat 50000 128 := kerLayer (preAt a l X) (vecAt l a.gs) (vecAt l a.bes)

/-- The node rows summed per graph, through the last dense layer. -/
def head (X : Mat 50000 128) : Mat 64 10 := plus (mm (segSum (N := 64) a.gid X) a.Wlin) (vrows a.blin)

/-- The network with the statistics over all rows at once. -/
def refNet : Mat 64 10 := head a (refAt a 2 (refAt a 1 (refAt a 0 a.x)))

/-- The network with the pooled statistics. -/
def kerNet : Mat 64 10 := head a (kerAt a 2 (kerAt a 1 (kerAt a 0 a.x)))

end Cert.Gin

end
-- ==== Proof.LibSageHost.lean ====
/-
  The host's spellings of the graph network's stages, each as ONE function of its operands over the extended reals:
  a gather of whole rows is the rows taken at the start indices; update rows added into a broadcast-zero table are
  the update rows summed per destination row; the product with a vector broadcast to a column and along the rows
  scales every row; a sum down the columns from a zero initial value divided by a broadcast constant is the column
  mean; the centred, scaled, shifted array cut at zero is the normalisation; two general dots and a bias row are the
  layers' arrangements. Every dimension record and every shape side condition is an argument, so that any program's
  own records can be plugged in. No program is mentioned.
-/
import proofs.«141774_j48919677501954_2_alg».proof.Proof.LibSageSpec
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.DenseLib Cert.RowsLib Cert.ScatterLib Cert.LayoutLib

section Host

variable {N C R K : ℕ}

/-- A gather of whole rows is the rows of the table taken at the start indices. -/
theorem gather_eq_takeRows (hN : 0 < N)
    (wf : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wf)
    (X : FVec Ideal ⟨2, ![N, C]⟩ .f32) (s : ICol R) :
    Host.gather g X s = takeRows hN s X := by
  subst hg
  funext i
  obtain ⟨r, c, rfl⟩ : ∃ (r : Fin R) (c : Fin C), i = ix2 r c := ⟨i 0, i 1, eq_ix2 i⟩
  exact gather_rows_apply hN wf X s r c

/-- Update rows added into a zero table are the update rows summed per destination row. -/
theorem scatter_eq_segSum
    (wf : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wf)
    (hb : (⟨0, ![]⟩ : Shape).BroadcastsInDim ⟨2, ![N, C]⟩ (![] : Fin 0 → Fin 2))
    (idx : ICol R) (U : FVec Ideal ⟨2, ![R, C]⟩ .f32) :
    Host.scatterAdd (F := Ideal) sc
        (broadcastInDim ⟨2, ![N, C]⟩ ![] hb (constant (F := Ideal) ⟨0, ![]⟩ .f32 0x00000000#32)) idx U
      = segSum idx U := by
  subst hsc
  funext i
  obtain ⟨b, k, rfl⟩ : ∃ (b : Fin N) (k : Fin C), i = ix2 b k := ⟨i 0, i 1, eq_ix2 i⟩
  refine (scatterAdd_rows_apply wf _ idx U b k).trans ?_
  rw [broadcastInDim_scalar_apply]
  show Ideal.ofBits .f32 0x00000000#32 + _ = _
  rw [Ideal.ofBits_zero_f32, zero_add]
  rfl

/-- The product with a vector broadcast to a column and then along the rows scales every row by its entry. -/
theorem scale_eq
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (d : FVec Ideal ⟨1, ![N]⟩ .f32) (X : FVec Ideal ⟨2, ![N, C]⟩ .f32) :
    mulf X (broadcastInDim ⟨2, ![N, C]⟩ ![0, 1] h2 (broadcastInDim ⟨2, ![N, 1]⟩ ![0] h1 d)) = scaleRows d X := by
  funext i
  obtain ⟨p, q, rfl⟩ : ∃ (p : Fin N) (q : Fin C), i = ix2 p q := ⟨i 0, i 1, eq_ix2 i⟩
  show X (ix2 p q) * broadcastInDim ⟨2, ![N, C]⟩ ![0, 1] h2 (broadcastInDim ⟨2, ![N, 1]⟩ ![0] h1 d) (ix2 p q)
    = X (ix2 p q) * d (ix1 p)
  rw [broadcastInDim_col_apply, broadcastInDim_vecCol_apply]

/-- The whole aggregation: rows taken, added into a zero table, scaled. -/
theorem meanAgg_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (X : FVec Ideal ⟨2, ![N, C]⟩ .f32) (s t : ICol R) (d : FVec Ideal ⟨1, ![N]⟩ .f32) :
    mulf (Host.scatterAdd (F := Ideal) sc
        (broadcastInDim ⟨2, ![N, C]⟩ ![] hb (constant (F := Ideal) ⟨0, ![]⟩ .f32 0x00000000#32)) t (Host.gather g X s))
      (broadcastInDim ⟨2, ![N, C]⟩ ![0, 1] h2 (broadcastInDim ⟨2, ![N, 1]⟩ ![0] h1 d))
      = meanAgg hN s t d X := by
  rw [gather_eq_takeRows hN wfg g hg, scatter_eq_segSum wfs sc hsc, scale_eq]
  rfl

/-- Two products, the bias row added to the first: the second layer's arrangement. -/
theorem post_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = plus (plus (mm A Wl) (vrows b)) (mm X Wr) := by
  rw [dotGeneral_eq_mm D hD, dotGeneral_eq_mm D hD, broadcastInDim_eq_rows]
  rfl

/-- The same with the bias added last: the first layer before normalisation. -/
theorem layer1_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = layer1 A X Wl Wr b := by
  rw [post_eq D hD]
  funext i
  show mm A Wl i + vrows b i + mm X Wr i = mm A Wl i + mm X Wr i + vrows b i
  exact add_right_comm _ _ _

/-- The source index over column `q` with coordinate `k` on the summed axis is `(k, q)`. -/
theorem lift_col (h : (⟨2, ![N, C]⟩ : Shape).Reduces [(0 : Fin 2)] ⟨1, ![C]⟩) (q : Fin C) (k : Fin N) :
    h.lift (ix1 q) k = ix2 k q :=
  funext fun c => Fin.ext (by match c with | ⟨0, _⟩ => rfl | ⟨1, _⟩ => rfl)

/-- A sum down the columns from a zero initial value, divided by a broadcast constant, is the column mean. -/
theorem colMean_eq
    (h' : (⟨2, ![N, C]⟩ : Shape).ReducesTo [(0 : Fin 2)] ⟨1, ![C]⟩)
    (h : (⟨2, ![N, C]⟩ : Shape).Reduces [(0 : Fin 2)] ⟨1, ![C]⟩)
    (hu : 0 < (⟨0, ![]⟩ : Shape).numel)
    (hb : (⟨0, ![]⟩ : Shape).BroadcastsInDim ⟨1, ![C]⟩ (![] : Fin 0 → Fin 1))
    (w : BitVec 32) (X : FVec Ideal ⟨2, ![N, C]⟩ .f32) :
    Host.divf (F := Ideal) (Host.reduceAdd (F := Ideal) X (constant (F := Ideal) ⟨0, ![]⟩ .f32 0x00000000#32) h' hu)
        (broadcastInDim ⟨1, ![C]⟩ ![] hb (constant (F := Ideal) ⟨0, ![]⟩ .f32 w))
      = colMean (Ideal.ofBits .f32 w) X := by
  funext j
  obtain ⟨q, rfl⟩ : ∃ q : Fin C, j = ix1 q := ⟨j 0, eq_ix1 j⟩
  show Ideal.div (Ideal.hostReduceAdd h' X (Ideal.ofBits .f32 0x00000000#32) (ix1 q))
      (broadcastInDim ⟨1, ![C]⟩ ![] hb (constant (F := Ideal) ⟨0, ![]⟩ .f32 w) (ix1 q))
    = Ideal.div (0 + ∑ n : Fin N, X (ix2 n q)) (Ideal.ofBits .f32 w)
  rw [Ideal.hostReduceAdd_single h' h, broadcastInDim_scalar_apply, Ideal.ofBits_zero_f32]
  exact congrArg (fun t => Ideal.div (0 + t) (Ideal.ofBits .f32 w))
    (Finset.sum_congr rfl fun k _ => congrArg X (lift_col h q k))

/-- The squared deviation from a vector laid along every row. -/
theorem sqDev_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (H : FVec Ideal ⟨2, ![N, C]⟩ .f32) (mu : FVec Ideal ⟨1, ![C]⟩ .f32) :
    mulf (subf H (broadcastInDim ⟨2, ![N, C]⟩ ![0, 1] h2 (broadcastInDim ⟨2, ![1, C]⟩ ![1] h1 mu)))
        (subf H (broadcastInDim ⟨2, ![N, C]⟩ ![0, 1] h2 (broadcastInDim ⟨2, ![1, C]⟩ ![1] h1 mu)))
      = sqDev H mu := by
  rw [broadcastInDim_eq_rows]
  funext i
  obtain ⟨p, q, rfl⟩ : ∃ (p : Fin N) (q : Fin C), i = ix2 p q := ⟨i 0, i 1, eq_ix2 i⟩
  rfl

/-- Centred, scaled by the reciprocal root of the variance plus a broadcast constant and by `gamma`, shifted by
    `beta`, cut at zero. -/
theorem bn_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hb : (⟨0, ![]⟩ : Shape).BroadcastsInDim ⟨1, ![C]⟩ (![] : Fin 0 → Fin 1))
    (hz : (⟨0, ![]⟩ : Shape).BroadcastsInDim ⟨2, ![N, C]⟩ (![] : Fin 0 → Fin 2))
    (w : BitVec 32) (H : FVec Ideal ⟨2, ![N, C]⟩ .f32) (mu var gamma beta : FVec Ideal ⟨1, ![C]⟩ .f32) :
    maximumf
        (addf
          (mulf
            (mulf (subf H (broadcastInDim ⟨2, ![N, C]⟩ ![0, 1] h2 (broadcastInDim ⟨2, ![1, C]⟩ ![1] h1 mu)))
              (broadcastInDim ⟨2, ![N, C]⟩ ![0, 1] h2 (broadcastInDim ⟨2, ![1, C]⟩ ![1] h1
                (Host.rsqrt (F := Ideal)
                  (addf var (broadcastInDim ⟨1, ![C]⟩ ![] hb (constant (F := Ideal) ⟨0, ![]⟩ .f32 w)))))))
            (broadcastInDim ⟨2, ![N, C]⟩ ![0, 1] h2 (broadcastInDim ⟨2, ![1, C]⟩ ![1] h1 gamma)))
          (broadcastInDim ⟨2, ![N, C]⟩ ![0, 1] h2 (broadcastInDim ⟨2, ![1, C]⟩ ![1] h1 beta)))
        (broadcastInDim ⟨2, ![N, C]⟩ ![] hz (constant (F := Ideal) ⟨0, ![]⟩ .f32 0x00000000#32))
      = bnRelu (Ideal.ofBits .f32 w) H mu var gamma beta := by
  rw [maximumf_bcast_zero, broadcastInDim_eq_rows, broadcastInDim_eq_rows, broadcastInDim_eq_rows,
    broadcastInDim_eq_rows]
  funext i
  obtain ⟨p, q, rfl⟩ : ∃ (p : Fin N) (q : Fin C), i = ix2 p q := ⟨i 0, i 1, eq_ix2 i⟩
  show max (((H (ix2 p q) - mu (ix1 q))
      * Ideal.rsqrt (var (ix1 q) + broadcastInDim ⟨1, ![C]⟩ ![] hb (constant (F := Ideal) ⟨0, ![]⟩ .f32 w) (ix1 q)))
      * gamma (ix1 q) + beta (ix1 q)) 0 = _
  rw [broadcastInDim_scalar_apply]
  rfl

end Host

/-! ## The reciprocal degree -/

section Degree

variable {N R : ℕ}

/-- From zero, the float word `w` once for every update row whose start index, read as a signed integer, is `i`:
    with `w` the word of one, the number of edges into node `i`. -/
def countAt (w : BitVec 32) (dst : ICol R) : Vc N :=
  fun i => 0 + ∑ _r ∈ Finset.univ.filter (fun r : Fin R => (dst (ix2 r (0 : Fin 1))).toInt = (((i 0 : Fin N)).val : ℤ)),
    Ideal.ofBits .f32 w

/-- Where the edge count exceeds zero, one over the larger of the count and one; elsewhere zero. -/
def recipDeg (dst : ICol R) : Vc N := fun i =>
  Scalar.select (Ideal.cmp .ogt (countAt (N := N) 0x3F800000#32 dst i) (Ideal.ofBits .f32 0x00000000#32))
    (Ideal.div (Ideal.ofBits .f32 0x3F800000#32)
      (max (countAt (N := N) 0x3F800000#32 dst i) (Ideal.ofBits .f32 0x3F800000#32)))
    (Ideal.ofBits .f32 0x00000000#32)

/-- A broadcast constant added into a broadcast-zero vector at a column of start indices counts, per entry, the
    update rows that land there. -/
theorem scatter_const_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (w : BitVec 32) (dst : ICol R) :
    Host.scatterAdd (F := Ideal) sc
        (broadcastInDim ⟨1, ![N]⟩ ![] hbN (constant (F := Ideal) ⟨0, ![]⟩ .f32 0x00000000#32)) dst
        (broadcastInDim ⟨1, ![R]⟩ ![] hbR (constant (F := Ideal) ⟨0, ![]⟩ .f32 w))
      = countAt w dst := by
  subst hsc
  funext j
  obtain ⟨p, rfl⟩ : ∃ p : Fin N, j = ix1 p := ⟨j 0, eq_ix1 j⟩
  refine (scatterAdd_vec_apply wf _ dst _ p).trans ?_
  rw [broadcastInDim_scalar_apply]
  show Ideal.ofBits .f32 0x00000000#32 + _ = _
  rw [Ideal.ofBits_zero_f32]
  refine congrArg (fun t => (0 : EReal) + t) (Finset.sum_congr rfl fun r _ => ?_)
  exact broadcastInDim_scalar_apply hbR _ (ix1 r)

/-- The host's reciprocal degree: the count compared with zero selects one over the larger of the count and one,
    or zero. -/
theorem recipDeg_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (dst : ICol R) :
    select
        (cmpf .ogt
          (Host.scatterAdd (F := Ideal) sc
            (broadcastInDim ⟨1, ![N]⟩ ![] hbN (constant (F := Ideal) ⟨0, ![]⟩ .f32 0x00000000#32)) dst
            (broadcastInDim ⟨1, ![R]⟩ ![] hbR (constant (F := Ideal) ⟨0, ![]⟩ .f32 0x3F800000#32)))
          (broadcastInDim ⟨1, ![N]⟩ ![] hbN (constant (F := Ideal) ⟨0, ![]⟩ .f32 0x00000000#32)))
        (Host.divf (F := Ideal)
          (broadcastInDim ⟨1, ![N]⟩ ![] hbN (constant (F := Ideal) ⟨0, ![]⟩ .f32 0x3F800000#32))
          (maximumf
            (Host.scatterAdd (F := Ideal) sc
              (broadcastInDim ⟨1, ![N]⟩ ![] hbN (constant (F := Ideal) ⟨0, ![]⟩ .f32 0x00000000#32)) dst
              (broadcastInDim ⟨1, ![R]⟩ ![] hbR (constant (F := Ideal) ⟨0, ![]⟩ .f32 0x3F800000#32)))
            (broadcastInDim ⟨1, ![N]⟩ ![] hbN (constant (F := Ideal) ⟨0, ![]⟩ .f32 0x3F800000#32))))
        (broadcastInDim ⟨1, ![N]⟩ ![] hbN (constant (F := Ideal) ⟨0, ![]⟩ .f32 0x00000000#32))
      = recipDeg dst := by
  rw [scatter_const_eq wf sc hsc hbN hbR]
  funext j
  obtain ⟨p, rfl⟩ : ∃ p : Fin N, j = ix1 p := ⟨j 0, eq_ix1 j⟩
  show Scalar.select
      (Ideal.cmp .ogt (countAt (N := N) 0x3F800000#32 dst (ix1 p))
        (broadcastInDim ⟨1, ![N]⟩ ![] hbN (constant (F := Ideal) ⟨0, ![]⟩ .f32 0x00000000#32) (ix1 p)))
      (Ideal.div (broadcastInDim ⟨1, ![N]⟩ ![] hbN (constant (F := Ideal) ⟨0, ![]⟩ .f32 0x3F800000#32) (ix1 p))
        (max (countAt (N := N) 0x3F800000#32 dst (ix1 p))
          (broadcastInDim ⟨1, ![N]⟩ ![] hbN (constant (F := Ideal) ⟨0, ![]⟩ .f32 0x3F800000#32) (ix1 p))))
      (broadcastInDim ⟨1, ![N]⟩ ![] hbN (constant (F := Ideal) ⟨0, ![]⟩ .f32 0x00000000#32) (ix1 p)) = _
  rw [broadcastInDim_scalar_apply, broadcastInDim_scalar_apply]
  rfl

/-- Every entry of the reciprocal degree is zero or one over the larger of that node's edge count and one. -/
theorem recipDeg_cases (dst : ICol R) (i : (⟨1, ![N]⟩ : Shape).Idx) :
    recipDeg (N := N) dst i = Ideal.ofBits .f32 0x00000000#32
      ∨ recipDeg (N := N) dst i = Ideal.div (Ideal.ofBits .f32 0x3F800000#32)
          (max (countAt (N := N) 0x3F800000#32 dst i) (Ideal.ofBits .f32 0x3F800000#32)) := by
  unfold recipDeg Scalar.select
  split
  · exact Or.inr rfl
  · exact Or.inl rfl

end Degree

end Cert.Sage

end
-- ==== Proof.LibSageAlgebra.lean ====
/-
  The algebra of the two-layer mean-aggregation network over the extended reals: where every entry of the operands
  is a real number, the weight may be applied before or after the aggregation; every operation of the network keeps
  all entries real; the column variance is a nonnegative real, so the reciprocal root of the variance plus a positive
  real is again real.
-/
import proofs.«141774_j48919677501954_2_alg».proof.Proof.LibSageSpec
import Idealize.ShloMosaic.PureOps.Ideal

noncomputable section

namespace Cert.Sage

open Idealize.ShloMosaic Idealize.ShloMosaic.ValueIdx Cert.DenseLib Cert.RowsLib

/-! ## Real entries -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array whose entries are all real is the coercion of an array of reals. -/
theorem IsFin.exists_real {s : Shape} {X : s.Idx → EReal} (h : IsFin X) :
    ∃ x : s.Idx → ℝ, X = fun i => (x i : EReal) := by
  choose x hx using h
  exact ⟨x, funext hx⟩

/-! ## The weight before or after the aggregation -/

/-- With real entries, aggregating the products is the product of the aggregate: at entry (n, j) both are the sum,
    over the update rows e sent to n and over k, of H (c e, k) · Wl (k, j) · d n, by distributivity in the reals. -/
theorem meanAgg_mm {N K C R : ℕ} (hN : 0 < N) (src dst : ICol R) (d : Vc N) (H : Mat N K) (Wl : Mat K C)
    (hH : IsFin H) (hW : IsFin Wl) (hd : IsFin d) :
    meanAgg hN src dst d (mm H Wl) = mm (meanAgg hN src dst d H) Wl := by
  obtain ⟨h, rfl⟩ := hH.exists_real
  obtain ⟨w, rfl⟩ := hW.exists_real
  obtain ⟨e, rfl⟩ := hd.exists_real
  funext i
  obtain ⟨n, j, rfl⟩ : ∃ (n : Fin N) (j : Fin C), i = ix2 n j := ⟨i 0, i 1, eq_ix2 i⟩
  show (∑ r ∈ Finset.univ.filter (fun r : Fin R => (dst (ix2 r (0 : Fin 1))).toInt = ((n : Fin N).val : ℤ)),
      ∑ k : Fin K, ((h (ix2 (rowOf N hN (src (ix2 r (0 : Fin 1)))) k) : ℝ) : EReal) * ((w (ix2 k j) : ℝ) : EReal))
        * ((e (ix1 n) : ℝ) : EReal)
    = ∑ k : Fin K, ((∑ r ∈ Finset.univ.filter (fun r : Fin R => (dst (ix2 r (0 : Fin 1))).toInt = ((n : Fin N).val : ℤ)),
      ((h (ix2 (rowOf N hN (src (ix2 r (0 : Fin 1)))) k) : ℝ) : EReal)) * ((e (ix1 n) : ℝ) : EReal))
        * ((w (ix2 k j) : ℝ) : EReal)
  simp only [← EReal.coe_mul, ← coe_sum]
  congr 1
  rw [Finset.sum_comm, Finset.sum_mul]
  refine Finset.sum_congr rfl fun k _ => ?_
  rw [← Finset.sum_mul]
  ring

/-- THE TWO ARRANGEMENTS OF THE SECOND LAYER AGREE where the features, the first weight and the scale are real:
    the aggregate term is the same by distributivity, and the other two terms are added in the other order. -/
theorem outPre_eq_outPost {N K C R : ℕ} (hN : 0 < N) (src dst : ICol R) (d : Vc N) (H : Mat N K) (Wl Wr : Mat K C)
    (b : Vc C) (hH : IsFin H) (hW : IsFin Wl) (hd : IsFin d) :
    outPre hN src dst d H Wl Wr b = outPost hN src dst d H Wl Wr b := by
  funext i
  show (meanAgg hN src dst d (mm H Wl) i + mm H Wr i) + vrows b i
    = (mm (meanAgg hN src dst d H) Wl i + vrows b i) + mm H Wr i
  rw [meanAgg_mm hN src dst d H Wl hH hW hd, add_right_comm]

/-! ## Every operation keeps the entries real -/

theorem real_zero : ∃ r : ℝ, (0 : EReal) = (r : EReal) := ⟨0, EReal.coe_zero.symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The greater of two reals, taken in the extended reals, is the greater of them in the reals. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, coe_max_real a b⟩

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem isFin_mm {M K N : ℕ} {X : Mat M K} {W : Mat K N} (hX : IsFin X) (hW : IsFin W) : IsFin (mm X W) :=
  fun _ => real_sum _ _ fun _ _ => real_mul (hX _) (hW _)

theorem isFin_plus {s : Shape} {X Y : s.Idx → EReal} (hX : IsFin X) (hY : IsFin Y) : IsFin (plus X Y) :=
  fun i => real_add (hX i) (hY i)

theorem isFin_vrows {M C : ℕ} {b : Vc C} (hb : IsFin b) : IsFin (vrows (M := M) b) := fun _ => hb _

theorem isFin_rowVec {C : ℕ} {B : Mat 1 C} (hB : IsFin B) : IsFin (rowVec B) := fun _ => hB _

theorem isFin_relu {s : Shape} {X : s.Idx → EReal} (hX : IsFin X) : IsFin (relu X) :=
  fun i => real_max (hX i) real_zero

theorem isFin_takeRows {N C R : ℕ} (hN : 0 < N) (src : ICol R) {X : Mat N C} (hX : IsFin X) :
    IsFin (takeRows hN src X) := fun _ => hX _

theorem isFin_segSum {N C R : ℕ} (dst : ICol R) {U : Mat R C} (hU : IsFin U) : IsFin (segSum (N := N) dst U) :=
  fun _ => real_sum _ _ fun _ _ => hU _

theorem isFin_scaleRows {N C : ℕ} {d : Vc N} {X : Mat N C} (hd : IsFin d) (hX : IsFin X) : IsFin (scaleRows d X) :=
  fun i => real_mul (hX i) (hd _)

theorem isFin_meanAgg {N C R : ℕ} (hN : 0 < N) (src dst : ICol R) {d : Vc N} {X : Mat N C} (hd : IsFin d)
    (hX : IsFin X) : IsFin (meanAgg hN src dst d X) :=
  isFin_scaleRows hd (isFin_segSum dst (isFin_takeRows hN src hX))

/-- A column mean over a positive real count: the sum of reals times the reciprocal of the count. -/
theorem isFin_colMean {N C : ℕ} (cN : EReal) (hc : ∃ r : ℝ, 0 < r ∧ cN = (r : EReal)) {X : Mat N C}
    (hX : IsFin X) : IsFin (colMean cN X) := by
  obtain ⟨r, hr, rfl⟩ := hc
  intro j
  show ∃ v : ℝ, Ideal.div (0 + ∑ n : Fin N, X (ix2 n (n1 := C) (j 0))) (r : EReal) = (v : EReal)
  rw [Ideal.div_coe (ne_of_gt hr)]
  exact real_mul (real_add real_zero (real_sum _ _ fun n _ => hX _)) ⟨1 / r, rfl⟩

theorem isFin_layer1 {N K C : ℕ} {A X : Mat N K} {Wl Wr : Mat K C} {b : Vc C} (hA : IsFin A) (hX : IsFin X)
    (hWl : IsFin Wl) (hWr : IsFin Wr) (hb : IsFin b) : IsFin (layer1 A X Wl Wr b) :=
  isFin_plus (isFin_plus (isFin_mm hA hWl) (isFin_mm hX hWr)) (isFin_vrows hb)

/-! ## The variance is a nonnegative real, so the normalisation stays real -/

theorem nn_zero : ∃ r : ℝ, 0 ≤ r ∧ (0 : EReal) = (r : EReal) := ⟨0, le_rfl, EReal.coe_zero.symm⟩

theorem nn_add {x y : EReal} (hx : ∃ r : ℝ, 0 ≤ r ∧ x = (r : EReal)) (hy : ∃ r : ℝ, 0 ≤ r ∧ y = (r : EReal)) :
    ∃ r : ℝ, 0 ≤ r ∧ x + y = (r : EReal) := by
  obtain ⟨a, ha, rfl⟩ := hx
  obtain ⟨b, hb, rfl⟩ := hy
  exact ⟨a + b, add_nonneg ha hb, (EReal.coe_add a b).symm⟩

theorem nn_mul {x y : EReal} (hx : ∃ r : ℝ, 0 ≤ r ∧ x = (r : EReal)) (hy : ∃ r : ℝ, 0 ≤ r ∧ y = (r : EReal)) :
    ∃ r : ℝ, 0 ≤ r ∧ x * y = (r : EReal) := by
  obtain ⟨a, ha, rfl⟩ := hx
  obtain ⟨b, hb, rfl⟩ := hy
  exact ⟨a * b, mul_nonneg ha hb, (EReal.coe_mul a b).symm⟩

/-- The square of a real is a nonnegative real. -/
theorem nn_sq {x : EReal} (hx : ∃ r : ℝ, x = (r : EReal)) : ∃ r : ℝ, 0 ≤ r ∧ x * x = (r : EReal) := by
  obtain ⟨a, rfl⟩ := hx
  exact ⟨a * a, mul_self_nonneg a, (EReal.coe_mul a a).symm⟩

theorem nn_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    rw [Finset.sum_insert ha]
    exact nn_add (h a (Finset.mem_insert_self a s)) (ih fun i hi => h i (Finset.mem_insert_of_mem hi))

theorem isFin_sqDev {N C : ℕ} {X : Mat N C} {mu : Vc C} (hX : IsFin X) (hmu : IsFin mu) : IsFin (sqDev X mu) :=
  fun i => real_mul (real_sub (hX i) (hmu _)) (real_sub (hX i) (hmu _))

theorem sqDev_nonneg {N C : ℕ} {X : Mat N C} {mu : Vc C} (hX : IsFin X) (hmu : IsFin mu) :
    ∀ i, ∃ v : ℝ, 0 ≤ v ∧ sqDev X mu i = (v : EReal) := fun i => nn_sq (real_sub (hX i) (hmu _))

/-- A column mean of nonnegative reals over a positive real count is a nonnegative real. -/
theorem colMean_nonneg {N C : ℕ} (cN : EReal) (hc : ∃ r : ℝ, 0 < r ∧ cN = (r : EReal)) {X : Mat N C}
    (hX : ∀ i, ∃ v : ℝ, 0 ≤ v ∧ X i = (v : EReal)) : ∀ j, ∃ v : ℝ, 0 ≤ v ∧ colMean cN X j = (v : EReal) := by
  obtain ⟨r, hr, rfl⟩ := hc
  intro j
  show ∃ v : ℝ, 0 ≤ v ∧ Ideal.div (0 + ∑ n : Fin N, X (ix2 n (n1 := C) (j 0))) (r : EReal) = (v : EReal)
  rw [Ideal.div_coe (ne_of_gt hr)]
  exact nn_mul (nn_add nn_zero (nn_sum _ _ fun n _ => hX _)) ⟨1 / r, (one_div_pos.mpr hr).le, rfl⟩

/-- The reciprocal root of a nonnegative real plus a positive real is a real: the argument is a positive real. -/
theorem real_rsqrt {x y : EReal} (hx : ∃ v : ℝ, 0 ≤ v ∧ x = (v : EReal)) (hy : ∃ e : ℝ, 0 < e ∧ y = (e : EReal)) :
    ∃ r : ℝ, Ideal.rsqrt (x + y) = (r : EReal) := by
  obtain ⟨v, hv, rfl⟩ := hx
  obtain ⟨e, he, rfl⟩ := hy
  have hpos : 0 < v + e := add_pos_of_nonneg_of_pos hv he
  rw [← EReal.coe_add, Ideal.rsqrt_coe, if_neg (not_lt.mpr hpos.le), if_neg hpos.ne']
  exact ⟨_, rfl⟩

theorem isFin_bnRelu {N C : ℕ} (eps : EReal) (he : ∃ e : ℝ, 0 < e ∧ eps = (e : EReal)) {X : Mat N C}
    {mu var gamma beta : Vc C} (hX : IsFin X) (hmu : IsFin mu)
    (hvar : ∀ j, ∃ v : ℝ, 0 ≤ v ∧ var j = (v : EReal)) (hg : IsFin gamma) (hb : IsFin beta) :
    IsFin (bnRelu eps X mu var gamma beta) :=
  fun i => real_max (real_add (real_mul (real_mul (real_sub (hX i) (hmu _)) (real_rsqrt (hvar _) he)) (hg _))
    (hb _)) real_zero

/-- THE HIDDEN FEATURES ARE REAL where every operand is real, the count is a positive real and eps is a positive
    real: the variance is a mean of squares of reals, a nonnegative real, so variance + eps is a positive real and
    its reciprocal root is real. -/
theorem isFin_hidden {N K C : ℕ} (cN eps : EReal) (hc : ∃ r : ℝ, 0 < r ∧ cN = (r : EReal))
    (he : ∃ e : ℝ, 0 < e ∧ eps = (e : EReal)) (A X : Mat N K) (Wl Wr : Mat K C) (b gamma beta : Vc C)
    (hA : IsFin A) (hX : IsFin X) (hWl : IsFin Wl) (hWr : IsFin Wr) (hb : IsFin b) (hg : IsFin gamma)
    (hbe : IsFin beta) : IsFin (hidden cN eps A X Wl Wr b gamma beta) :=
  have hL := isFin_layer1 hA hX hWl hWr hb
  have hmu := isFin_colMean cN hc hL
  isFin_bnRelu eps he hL hmu (colMean_nonneg cN hc (sqDev_nonneg hL hmu)) hg hbe

/-! ## Three float patterns as reals, and the reciprocal degree -/

/-- The pattern of `50000.0`: exponent field 142, fraction field 4411392, so (2^23 + 4411392) · 2^(142 - 127 - 23)
    = 12800000 / 256 = 50000. -/
theorem lit_50000 : ∃ r : ℝ, 0 < r ∧ Ideal.ofBits .f32 0x47435000#32 = (r : EReal) := by
  refine ⟨50000, by norm_num, ?_⟩
  simp [Ideal.ofBits, Ideal.ieee, -EReal.coe_mul]; norm_num

/-- The pattern nearest `1e-5`: exponent field 110, fraction field 2606508, so 10995116 · 2^(-40), a positive real. -/
theorem lit_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The pattern of `1.0`. -/
theorem lit_one : Ideal.ofBits .f32 0x3F800000#32 = ((1 : ℝ) : EReal) := by
  simp [Ideal.ofBits, Ideal.ieee, -EReal.coe_mul]; norm_num

/-- A reciprocal degree is real: each entry is zero or one over the greater of a real degree and one, and that
    greater value is a real at least one, so not zero. -/
theorem isFin_degInv {N : ℕ} (deg d : Vc N) (one zero : EReal) (h1 : one = ((1 : ℝ) : EReal)) (h0 : zero = 0)
    (hdeg : IsFin deg) (hd : ∀ i, d i = zero ∨ d i = Ideal.div one (max (deg i) one)) : IsFin d := by
  subst h1 h0
  intro i
  rcases hd i with h | h
  · exact ⟨0, by rw [h, EReal.coe_zero]⟩
  · obtain ⟨g, hg⟩ := hdeg i
    rw [h, hg, coe_max_real, Ideal.div_coe (ne_of_gt (lt_of_lt_of_le one_pos (le_max_right g 1)))]
    exact ⟨_, (EReal.coe_mul _ _).symm⟩

end Cert.Sage

end
-- ==== Proof.HostStages.lean ====
/-
  The host's spellings of this network's stages, each read as ONE function of its operands over the extended reals:
  a layer's matrix or vector cut out of a stack of three and recast; a parameter vector recast as a one-row array;
  the neighbour sum (rows gathered along the edges and added into a zero table), also with the rows narrowed and
  widened again on the way, which changes nothing over the extended reals; the mean squared deviation of every
  column as the host writes it (a divisor `50000 - 0` built from an integer zero, and a choice on `50000 - 0 > 0`
  that is always taken); the sum of the node rows per graph through the last dense layer; and one whole layer in
  the arrangement that takes its statistics over all rows at once. Every dimension record and every shape side
  condition is an argument. No program is mentioned.
-/
import proofs.«141774_j48919677501954_2_alg».proof.Proof.Spec
import proofs.«141774_j48919677501954_2_alg».proof.Proof.LibSageHost
import proofs.«141774_j48919677501954_2_alg».proof.Proof.LibRowNorm
import proofs.«141774_j48919677501954_2_alg».proof.Proof.LibSageAlgebra

noncomputable section

namespace Cert.Gin.Host

open Idealize.ShloMosaic Idealize.ShloMosaic.ValueIdx Cert.DenseLib Cert.RowsLib Cert.ScatterLib Cert.LayoutLib
  Cert.RowBlocks Cert.RowNorm Cert.Sage

/-! ## A layer's parameters cut out of the stacks -/

/-- Layer `l`'s `[1, 128, 128]` slab of a stack of three matrices, recast to `[128, 128]`, is that layer's matrix. -/
theorem sliceMat_eq (l : Fin 3) (Ws : FVec Ideal ⟨3, ![3, 128, 128]⟩ .f32)
    (hs : (⟨3, ![3, 128, 128]⟩ : Shape).Slices ![l.val, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![l.val, 0, 0] Ws hs) hc = matAt l Ws := by
  funext i
  obtain ⟨p, q, rfl⟩ : ∃ (p : Fin 128) (q : Fin 128), i = ix2 p q := ⟨i 0, i 1, eq_ix2 i⟩
  rw [shapeCast_apply _ hc (ix2 p q) (ix3 (0 : Fin 1) p q) (by
    rw [Shape.rowMajor_val_three, Shape.rowMajor_val_two]
    show ((0 : ℕ) * 128 + p.val) * 128 + q.val = p.val * 128 + q.val
    omega)]
  exact extractStridedSlice_apply _ Ws hs (ix3 (0 : Fin 1) p q) (ix3 l p q) (fun a => by
    match a with
    | ⟨0, _⟩ => rfl
    | ⟨1, _⟩ => exact (Nat.zero_add p.val).symm
    | ⟨2, _⟩ => exact (Nat.zero_add q.val).symm)

/-- The same with the offsets written as the literals a program prints. -/
theorem sliceMat0_eq (Ws : FVec Ideal ⟨3, ![3, 128, 128]⟩ .f32)
    (hs : (⟨3, ![3, 128, 128]⟩ : Shape).Slices ![0, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![0, 0, 0] Ws hs) hc = matAt 0 Ws :=
  sliceMat_eq 0 Ws hs hc

theorem sliceMat1_eq (Ws : FVec Ideal ⟨3, ![3, 128, 128]⟩ .f32)
    (hs : (⟨3, ![3, 128, 128]⟩ : Shape).Slices ![1, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![1, 0, 0] Ws hs) hc = matAt 1 Ws :=
  sliceMat_eq 1 Ws hs hc

theorem sliceMat2_eq (Ws : FVec Ideal ⟨3, ![3, 128, 128]⟩ .f32)
    (hs : (⟨3, ![3, 128, 128]⟩ : Shape).Slices ![2, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![2, 0, 0] Ws hs) hc = matAt 2 Ws :=
  sliceMat_eq 2 Ws hs hc

/-- Layer `l`'s `[1, 128]` row of a stack of three vectors, recast to `[128]`, is that layer's vector. -/
theorem sliceVec_eq (l : Fin 3) (bs : FVec Ideal ⟨2, ![3, 128]⟩ .f32)
    (hs : (⟨2, ![3, 128]⟩ : Shape).Slices ![l.val, 0] ⟨2, ![1, 128]⟩)
    (hc : (⟨2, ![1, 128]⟩ : Shape).ShapeCasts ⟨1, ![128]⟩) :
    shapeCast ⟨1, ![128]⟩ (extractStridedSlice ⟨2, ![1, 128]⟩ ![l.val, 0] bs hs) hc = vecAt l bs := by
  funext j
  obtain ⟨q, rfl⟩ : ∃ q : Fin 128, j = ix1 q := ⟨j 0, eq_ix1 j⟩
  rw [shapeCast_apply _ hc (ix1 q) (ix2 (0 : Fin 1) q) (by
    rw [Shape.rowMajor_val_two, Shape.rowMajor_val_one]
    show (0 : ℕ) * 128 + q.val = q.val
    omega)]
  exact extractStridedSlice_apply _ bs hs (ix2 (0 : Fin 1) q) (ix2 l q) (fun a => by
    match a with
    | ⟨0, _⟩ => rfl
    | ⟨1, _⟩ => exact (Nat.zero_add q.val).symm)

theorem sliceVec0_eq (bs : FVec Ideal ⟨2, ![3, 128]⟩ .f32)
    (hs : (⟨2, ![3, 128]⟩ : Shape).Slices ![0, 0] ⟨2, ![1, 128]⟩)
    (hc : (⟨2, ![1, 128]⟩ : Shape).ShapeCasts ⟨1, ![128]⟩) :
    shapeCast ⟨1, ![128]⟩ (extractStridedSlice ⟨2, ![1, 128]⟩ ![0, 0] bs hs) hc = vecAt 0 bs :=
  sliceVec_eq 0 bs hs hc

theorem sliceVec1_eq (bs : FVec Ideal ⟨2, ![3, 128]⟩ .f32)
    (hs : (⟨2, ![3, 128]⟩ : Shape).Slices ![1, 0] ⟨2, ![1, 128]⟩)
    (hc : (⟨2, ![1, 128]⟩ : Shape).ShapeCasts ⟨1, ![128]⟩) :
    shapeCast ⟨1, ![128]⟩ (extractStridedSlice ⟨2, ![1, 128]⟩ ![1, 0] bs hs) hc = vecAt 1 bs :=
  sliceVec_eq 1 bs hs hc

theorem sliceVec2_eq (bs : FVec Ideal ⟨2, ![3, 128]⟩ .f32)
    (hs : (⟨2, ![3, 128]⟩ : Shape).Slices ![2, 0] ⟨2, ![1, 128]⟩)
    (hc : (⟨2, ![1, 128]⟩ : Shape).ShapeCasts ⟨1, ![128]⟩) :
    shapeCast ⟨1, ![128]⟩ (extractStridedSlice ⟨2, ![1, 128]⟩ ![2, 0] bs hs) hc = vecAt 2 bs :=
  sliceVec_eq 2 bs hs hc

/-- A vector recast as a one-row array reads, at `(0, q)`, the vector at `q`. -/
theorem rowOfVec_apply (v : FVec Ideal ⟨1, ![128]⟩ .f32) (hc : (⟨1, ![128]⟩ : Shape).ShapeCasts ⟨2, ![1, 128]⟩)
    (q : Fin 128) : shapeCast ⟨2, ![1, 128]⟩ v hc (ix2 (0 : Fin 1) q) = v (ix1 q) :=
  shapeCast_vecRow_apply v hc 0 q

/-- The one row of a vector recast as a one-row array is the vector. -/
theorem rowOfVec_eq (v : FVec Ideal ⟨1, ![128]⟩ .f32) (hc : (⟨1, ![128]⟩ : Shape).ShapeCasts ⟨2, ![1, 128]⟩) :
    rowVec (shapeCast ⟨2, ![1, 128]⟩ v hc) = v := by
  funext j
  obtain ⟨q, rfl⟩ : ∃ q : Fin 128, j = ix1 q := ⟨j 0, eq_ix1 j⟩
  exact rowOfVec_apply v hc q

/-! ## The neighbour sum -/

/-- A change to a narrower float format is the identity over the extended reals. -/
theorem narrow_eq {s : Shape} {φ ψ : FTy} (X : FVec Ideal s φ) (h : ψ.bits < φ.bits) :
    (truncf ψ X h : FVec Ideal s ψ) = X := rfl

/-- A change to a wider float format is the identity over the extended reals. -/
theorem widen_eq {s : Shape} {φ ψ : FTy} (X : FVec Ideal s φ) (h : φ.bits < ψ.bits) :
    (extf ψ X h : FVec Ideal s ψ) = X := rfl

/-- Rows gathered along the edges and added into a zero table: the neighbour sum. -/
theorem hostAgg_eq
    (wfg : GatherDims.WF ⟨2, ![50000, 128]⟩ ⟨2, ![800000, 1]⟩ ⟨2, ![800000, 128]⟩ [1] [0] [] [0] [] 1 ![1, 128])
    (g : GatherDims ⟨2, ![50000, 128]⟩ ⟨2, ![800000, 1]⟩ ⟨2, ![800000, 128]⟩)
    (hg : g = rowGatherDims 50000 128 800000 wfg)
    (wfs : ScatterDims.WF ⟨2, ![50000, 128]⟩ ⟨2, ![800000, 1]⟩ ⟨2, ![800000, 128]⟩ [1] [0] [0] 1)
    (sc : ScatterDims ⟨2, ![50000, 128]⟩ ⟨2, ![800000, 1]⟩ ⟨2, ![800000, 128]⟩)
    (hsc : sc = rowScatterDims 50000 128 800000 wfs)
    (hb : (⟨0, ![]⟩ : Shape).BroadcastsInDim ⟨2, ![50000, 128]⟩ (![] : Fin 0 → Fin 2))
    (X : FVec Ideal ⟨2, ![50000, 128]⟩ .f32) (scol dcol : ICol 800000) :
    Host.scatterAdd (F := Ideal) sc
        (broadcastInDim ⟨2, ![50000, 128]⟩ ![] hb (constant (F := Ideal) ⟨0, ![]⟩ .f32 0x00000000#32)) dcol
        (Host.gather g X scol)
      = agg scol dcol X := by
  rw [gather_eq_takeRows nodes_pos wfg g hg, scatter_eq_segSum wfs sc hsc]
  rfl

/-- The same with the table narrowed before the rows are gathered and the rows widened again before they are added:
    neither change of format does anything over the extended reals. -/
theorem hostAggBf_eq
    (wfg : GatherDims.WF ⟨2, ![50000, 128]⟩ ⟨2, ![800000, 1]⟩ ⟨2, ![800000, 128]⟩ [1] [0] [] [0] [] 1 ![1, 128])
    (g : GatherDims ⟨2, ![50000, 128]⟩ ⟨2, ![800000, 1]⟩ ⟨2, ![800000, 128]⟩)
    (hg : g = rowGatherDims 50000 128 800000 wfg)
    (wfs : ScatterDims.WF ⟨2, ![50000, 128]⟩ ⟨2, ![800000, 1]⟩ ⟨2, ![800000, 128]⟩ [1] [0] [0] 1)
    (sc : ScatterDims ⟨2, ![50000, 128]⟩ ⟨2, ![800000, 1]⟩ ⟨2, ![800000, 128]⟩)
    (hsc : sc = rowScatterDims 50000 128 800000 wfs)
    (hb : (⟨0, ![]⟩ : Shape).BroadcastsInDim ⟨2, ![50000, 128]⟩ (![] : Fin 0 → Fin 2))
    (hn : FTy.bf16.bits < FTy.f32.bits)
    (X : FVec Ideal ⟨2, ![50000, 128]⟩ .f32) (scol dcol : ICol 800000) :
    Host.scatterAdd (F := Ideal) sc
        (broadcastInDim ⟨2, ![50000, 128]⟩ ![] hb (constant (F := Ideal) ⟨0, ![]⟩ .f32 0x00000000#32)) dcol
        (extf .f32 (Host.gather g (truncf .bf16 X hn : FVec Ideal ⟨2, ![50000, 128]⟩ .bf16) scol
          : FVec Ideal ⟨2, ![800000, 128]⟩ .bf16) hn)
      = agg scol dcol X :=
  hostAgg_eq wfg g hg wfs sc hsc hb X scol dcol

/-! ## The last dense layer on the per-graph sums -/

/-- The node rows added into a zero table per graph, times the last weight, plus the last bias along the rows. -/
theorem hostHead_eq
    (D : DotDims ⟨2, ![64, 128]⟩ ⟨2, ![128, 10]⟩ ⟨2, ![64, 10]⟩) (hD : D = DotDims.plain 64 128 10)
    (wfs : ScatterDims.WF ⟨2, ![64, 128]⟩ ⟨2, ![50000, 1]⟩ ⟨2, ![50000, 128]⟩ [1] [0] [0] 1)
    (sc : ScatterDims ⟨2, ![64, 128]⟩ ⟨2, ![50000, 1]⟩ ⟨2, ![50000, 128]⟩)
    (hsc : sc = rowScatterDims 64 128 50000 wfs)
    (hb : (⟨0, ![]⟩ : Shape).BroadcastsInDim ⟨2, ![64, 128]⟩ (![] : Fin 0 → Fin 2))
    (h1 : (⟨1, ![10]⟩ : Shape).BroadcastsInDim ⟨2, ![1, 10]⟩ (![1] : Fin 1 → Fin 2))
    (h2 : (⟨2, ![1, 10]⟩ : Shape).BroadcastsInDim ⟨2, ![64, 10]⟩ (![0, 1] : Fin 2 → Fin 2))
    (gcol : ICol 50000) (X : FVec Ideal ⟨2, ![50000, 128]⟩ .f32)
    (Wlin : FVec Ideal ⟨2, ![128, 10]⟩ .f32) (blin : FVec Ideal ⟨1, ![10]⟩ .f32) :
    addf
        (Host.dotGeneral D none
          (Host.scatterAdd (F := Ideal) sc
            (broadcastInDim ⟨2, ![64, 128]⟩ ![] hb (constant (F := Ideal) ⟨0, ![]⟩ .f32 0x00000000#32)) gcol X)
          Wlin)
        (broadcastInDim ⟨2, ![64, 10]⟩ ![0, 1] h2 (broadcastInDim ⟨2, ![1, 10]⟩ ![1] h1 blin))
      = plus (mm (segSum (N := 64) gcol X) Wlin) (vrows blin) := by
  rw [scatter_eq_segSum wfs sc hsc, dotGeneral_eq_mm D hD, broadcastInDim_eq_rows blin h1 h2]
  rfl

/-! ## The mean squared deviation as the host writes it -/

/-- The node count less the real number of the integer zero is the node count. -/
theorem count_sub_zero :
    subf (constant (F := Ideal) ⟨0, ![]⟩ .f32 0x47435000#32) (sitofp .f32 (constantI ⟨0, ![]⟩ 32 0#32))
      = constant (F := Ideal) ⟨0, ![]⟩ .f32 0x47435000#32 := by
  funext i
  show Ideal.ofBits .f32 0x47435000#32 - (((0#32 : BitVec 32).toInt : ℝ) : EReal) = Ideal.ofBits .f32 0x47435000#32
  rw [BitVec.toInt_zero, Int.cast_zero, EReal.coe_zero, sub_zero]

/-- The node count exceeds zero. -/
theorem count_gt_zero :
    cmpf .ogt (constant (F := Ideal) ⟨0, ![]⟩ .f32 0x47435000#32) (constant (F := Ideal) ⟨0, ![]⟩ .f32 0x00000000#32) ix0
      = 1#1 := by
  show Ideal.cmp .ogt (Ideal.ofBits .f32 0x47435000#32) (Ideal.ofBits .f32 0x00000000#32) = 1#1
  obtain ⟨r, hr, e⟩ := lit_50000
  rw [e, Ideal.ofBits_zero_f32]
  have h : (0 : EReal) < (r : EReal) := EReal.coe_pos.mpr hr
  simp [Ideal.cmp, h]

/-- The column sums laid out as one row and divided there by the broadcast constant are the column means laid out
    as one row. -/
theorem meanRow_eq
    (hr' : (⟨2, ![50000, 128]⟩ : Shape).ReducesTo [(0 : Fin 2)] ⟨1, ![128]⟩)
    (hu : 0 < (⟨0, ![]⟩ : Shape).numel)
    (h1 : (⟨1, ![128]⟩ : Shape).BroadcastsInDim ⟨2, ![1, 128]⟩ (![1] : Fin 1 → Fin 2))
    (hb1 : (⟨0, ![]⟩ : Shape).BroadcastsInDim ⟨2, ![1, 128]⟩ (![] : Fin 0 → Fin 2))
    (hb : (⟨0, ![]⟩ : Shape).BroadcastsInDim ⟨1, ![128]⟩ (![] : Fin 0 → Fin 1))
    (w : BitVec 32) (H : FVec Ideal ⟨2, ![50000, 128]⟩ .f32) :
    Host.divf (F := Ideal)
        (broadcastInDim ⟨2, ![1, 128]⟩ ![1] h1
          (Host.reduceAdd (F := Ideal) H (constant (F := Ideal) ⟨0, ![]⟩ .f32 0x00000000#32) hr' hu))
        (broadcastInDim ⟨2, ![1, 128]⟩ ![] hb1 (constant (F := Ideal) ⟨0, ![]⟩ .f32 w))
      = broadcastInDim ⟨2, ![1, 128]⟩ ![1] h1
          (Host.divf (F := Ideal)
            (Host.reduceAdd (F := Ideal) H (constant (F := Ideal) ⟨0, ![]⟩ .f32 0x00000000#32) hr' hu)
            (broadcastInDim ⟨1, ![128]⟩ ![] hb (constant (F := Ideal) ⟨0, ![]⟩ .f32 w))) := by
  funext i
  obtain ⟨u, q, rfl⟩ : ∃ (u : Fin 1) (q : Fin 128), i = ix2 u q := ⟨i 0, i 1, eq_ix2 i⟩
  rw [broadcastInDim_vecRow_apply]
  show Ideal.div
      (broadcastInDim ⟨2, ![1, 128]⟩ ![1] h1
        (Host.reduceAdd (F := Ideal) H (constant (F := Ideal) ⟨0, ![]⟩ .f32 0x00000000#32) hr' hu) (ix2 u q))
      (broadcastInDim ⟨2, ![1, 128]⟩ ![] hb1 (constant (F := Ideal) ⟨0, ![]⟩ .f32 w) (ix2 u q))
    = Ideal.div
      (Host.reduceAdd (F := Ideal) H (constant (F := Ideal) ⟨0, ![]⟩ .f32 0x00000000#32) hr' hu (ix1 q))
      (broadcastInDim ⟨1, ![128]⟩ ![] hb (constant (F := Ideal) ⟨0, ![]⟩ .f32 w) (ix1 q))
  rw [broadcastInDim_vecRow_apply, broadcastInDim_scalar_apply, broadcastInDim_scalar_apply]

/-- The host's variance with the integer zero for the degrees of freedom removed: the column means taken at the
    shape of one row, the squared deviations from them, their column sums divided by the node count less that zero;
    the choice between this quotient and a broadcast constant, on whether the divisor exceeds zero, takes the
    quotient. The result is the mean squared deviation of every column from its mean. -/
theorem hostVar_eq
    (hr' : (⟨2, ![50000, 128]⟩ : Shape).ReducesTo [(0 : Fin 2)] ⟨1, ![128]⟩)
    (hr : (⟨2, ![50000, 128]⟩ : Shape).Reduces [(0 : Fin 2)] ⟨1, ![128]⟩)
    (hu : 0 < (⟨0, ![]⟩ : Shape).numel)
    (h1 : (⟨1, ![128]⟩ : Shape).BroadcastsInDim ⟨2, ![1, 128]⟩ (![1] : Fin 1 → Fin 2))
    (hb1 : (⟨0, ![]⟩ : Shape).BroadcastsInDim ⟨2, ![1, 128]⟩ (![] : Fin 0 → Fin 2))
    (h2 : (⟨2, ![1, 128]⟩ : Shape).BroadcastsInDim ⟨2, ![50000, 128]⟩ (![0, 1] : Fin 2 → Fin 2))
    (hb : (⟨0, ![]⟩ : Shape).BroadcastsInDim ⟨1, ![128]⟩ (![] : Fin 0 → Fin 1))
    (H : FVec Ideal ⟨2, ![50000, 128]⟩ .f32) :
    select
        (broadcastInDim ⟨1, ![128]⟩ ![] hb
          (cmpf .ogt
            (subf (constant (F := Ideal) ⟨0, ![]⟩ .f32 0x47435000#32) (sitofp .f32 (constantI ⟨0, ![]⟩ 32 0#32)))
            (constant (F := Ideal) ⟨0, ![]⟩ .f32 0x00000000#32)))
        (Host.divf (F := Ideal)
          (Host.reduceAdd (F := Ideal)
            (mulf
              (subf H (broadcastInDim ⟨2, ![50000, 128]⟩ ![0, 1] h2
                (Host.divf (F := Ideal)
                  (broadcastInDim ⟨2, ![1, 128]⟩ ![1] h1
                    (Host.reduceAdd (F := Ideal) H (constant (F := Ideal) ⟨0, ![]⟩ .f32 0x00000000#32) hr' hu))
                  (broadcastInDim ⟨2, ![1, 128]⟩ ![] hb1 (constant (F := Ideal) ⟨0, ![]⟩ .f32 0x47435000#32)))))
              (subf H (broadcastInDim ⟨2, ![50000, 128]⟩ ![0, 1] h2
                (Host.divf (F := Ideal)
                  (broadcastInDim ⟨2, ![1, 128]⟩ ![1] h1
                    (Host.reduceAdd (F := Ideal) H (constant (F := Ideal) ⟨0, ![]⟩ .f32 0x00000000#32) hr' hu))
                  (broadcastInDim ⟨2, ![1, 128]⟩ ![] hb1 (constant (F := Ideal) ⟨0, ![]⟩ .f32 0x47435000#32))))))
            (constant (F := Ideal) ⟨0, ![]⟩ .f32 0x00000000#32) hr' hu)
          (broadcastInDim ⟨1, ![128]⟩ ![] hb
            (subf (constant (F := Ideal) ⟨0, ![]⟩ .f32 0x47435000#32) (sitofp .f32 (constantI ⟨0, ![]⟩ 32 0#32)))))
        (broadcastInDim ⟨1, ![128]⟩ ![] hb (constant (F := Ideal) ⟨0, ![]⟩ .f32 0x7FC00000#32))
      = varTwo H := by
  rw [count_sub_zero, meanRow_eq hr' hu h1 hb1 hb, colMean_eq hr' hr hu hb, sqDev_eq h1 h2, colMean_eq hr' hr hu hb]
  funext j
  rw [select_apply, broadcastInDim_scalar_apply, count_gt_zero, select_one]
  rfl

/-! ## One layer with the statistics over all rows at once -/

/-- The host's spelling of a layer before normalisation: the neighbour sum added to the layer's input, through the two
    dense layers. -/
def preHost
    (g : GatherDims ⟨2, ![50000, 128]⟩ ⟨2, ![800000, 1]⟩ ⟨2, ![800000, 128]⟩)
    (sc : ScatterDims ⟨2, ![50000, 128]⟩ ⟨2, ![800000, 1]⟩ ⟨2, ![800000, 128]⟩)
    (D : DotDims ⟨2, ![50000, 128]⟩ ⟨2, ![128, 128]⟩ ⟨2, ![50000, 128]⟩)
    (hz : (⟨0, ![]⟩ : Shape).BroadcastsInDim ⟨2, ![50000, 128]⟩ (![] : Fin 0 → Fin 2))
    (h1 : (⟨1, ![128]⟩ : Shape).BroadcastsInDim ⟨2, ![1, 128]⟩ (![1] : Fin 1 → Fin 2))
    (h2 : (⟨2, ![1, 128]⟩ : Shape).BroadcastsInDim ⟨2, ![50000, 128]⟩ (![0, 1] : Fin 2 → Fin 2))
    (X : FVec Ideal ⟨2, ![50000, 128]⟩ .f32) (scol dcol : ICol 800000)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) :
    FVec Ideal ⟨2, ![50000, 128]⟩ .f32 :=
  addf
    (Host.dotGeneral D none
      (maximumf
        (addf
          (Host.dotGeneral D none
            (addf X
              (Host.scatterAdd (F := Ideal) sc
                (broadcastInDim ⟨2, ![50000, 128]⟩ ![] hz (constant (F := Ideal) ⟨0, ![]⟩ .f32 0x00000000#32)) dcol
                (Host.gather g X scol)))
            W1)
          (broadcastInDim ⟨2, ![50000, 128]⟩ ![0, 1] h2 (broadcastInDim ⟨2, ![1, 128]⟩ ![1] h1 b1)))
        (broadcastInDim ⟨2, ![50000, 128]⟩ ![] hz (constant (F := Ideal) ⟨0, ![]⟩ .f32 0x00000000#32)))
      W2)
    (broadcastInDim ⟨2, ![50000, 128]⟩ ![0, 1] h2 (broadcastInDim ⟨2, ![1, 128]⟩ ![1] h1 b2))

theorem preHost_eq
    (wfg : GatherDims.WF ⟨2, ![50000, 128]⟩ ⟨2, ![800000, 1]⟩ ⟨2, ![800000, 128]⟩ [1] [0] [] [0] [] 1 ![1, 128])
    (g : GatherDims ⟨2, ![50000, 128]⟩ ⟨2, ![800000, 1]⟩ ⟨2, ![800000, 128]⟩)
    (hg : g = rowGatherDims 50000 128 800000 wfg)
    (wfs : ScatterDims.WF ⟨2, ![50000, 128]⟩ ⟨2, ![800000, 1]⟩ ⟨2, ![800000, 128]⟩ [1] [0] [0] 1)
    (sc : ScatterDims ⟨2, ![50000, 128]⟩ ⟨2, ![800000, 1]⟩ ⟨2, ![800000, 128]⟩)
    (hsc : sc = rowScatterDims 50000 128 800000 wfs)
    (D : DotDims ⟨2, ![50000, 128]⟩ ⟨2, ![128, 128]⟩ ⟨2, ![50000, 128]⟩) (hD : D = DotDims.plain 50000 128 128)
    (hz : (⟨0, ![]⟩ : Shape).BroadcastsInDim ⟨2, ![50000, 128]⟩ (![] : Fin 0 → Fin 2))
    (h1 : (⟨1, ![128]⟩ : Shape).BroadcastsInDim ⟨2, ![1, 128]⟩ (![1] : Fin 1 → Fin 2))
    (h2 : (⟨2, ![1, 128]⟩ : Shape).BroadcastsInDim ⟨2, ![50000, 128]⟩ (![0, 1] : Fin 2 → Fin 2))
    (X : FVec Ideal ⟨2, ![50000, 128]⟩ .f32) (scol dcol : ICol 800000)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) :
    preHost g sc D hz h1 h2 X scol dcol W1 b1 W2 b2 = pre scol dcol X W1 b1 W2 b2 := by
  unfold preHost
  rw [hostAgg_eq wfg g hg wfs sc hsc hz, addf_eq_plus X (agg scol dcol X), mlp_host D hD D hD h1 h2 h1 h2 hz]
  rfl

/-- The host's spelling of the mean squared deviation of every column (the degrees of freedom removed are the integer
    zero). -/
def varHost
    (hr' : (⟨2, ![50000, 128]⟩ : Shape).ReducesTo [(0 : Fin 2)] ⟨1, ![128]⟩)
    (hu : 0 < (⟨0, ![]⟩ : Shape).numel)
    (h1 : (⟨1, ![128]⟩ : Shape).BroadcastsInDim ⟨2, ![1, 128]⟩ (![1] : Fin 1 → Fin 2))
    (hb1 : (⟨0, ![]⟩ : Shape).BroadcastsInDim ⟨2, ![1, 128]⟩ (![] : Fin 0 → Fin 2))
    (h2 : (⟨2, ![1, 128]⟩ : Shape).BroadcastsInDim ⟨2, ![50000, 128]⟩ (![0, 1] : Fin 2 → Fin 2))
    (hb : (⟨0, ![]⟩ : Shape).BroadcastsInDim ⟨1, ![128]⟩ (![] : Fin 0 → Fin 1))
    (H : FVec Ideal ⟨2, ![50000, 128]⟩ .f32) : FVec Ideal ⟨1, ![128]⟩ .f32 :=
  select
    (broadcastInDim ⟨1, ![128]⟩ ![] hb
      (cmpf .ogt
        (subf (constant (F := Ideal) ⟨0, ![]⟩ .f32 0x47435000#32) (sitofp .f32 (constantI ⟨0, ![]⟩ 32 0#32)))
        (constant (F := Ideal) ⟨0, ![]⟩ .f32 0x00000000#32)))
    (Host.divf (F := Ideal)
      (Host.reduceAdd (F := Ideal)
        (mulf
          (subf H (broadcastInDim ⟨2, ![50000, 128]⟩ ![0, 1] h2
            (Host.divf (F := Ideal)
              (broadcastInDim ⟨2, ![1, 128]⟩ ![1] h1
                (Host.reduceAdd (F := Ideal) H (constant (F := Ideal) ⟨0, ![]⟩ .f32 0x00000000#32) hr' hu))
              (broadcastInDim ⟨2, ![1, 128]⟩ ![] hb1 (constant (F := Ideal) ⟨0, ![]⟩ .f32 0x47435000#32)))))
          (subf H (broadcastInDim ⟨2, ![50000, 128]⟩ ![0, 1] h2
            (Host.divf (F := Ideal)
              (broadcastInDim ⟨2, ![1, 128]⟩ ![1] h1
                (Host.reduceAdd (F := Ideal) H (constant (F := Ideal) ⟨0, ![]⟩ .f32 0x00000000#32) hr' hu))
              (broadcastInDim ⟨2, ![1, 128]⟩ ![] hb1 (constant (F := Ideal) ⟨0, ![]⟩ .f32 0x47435000#32))))))
        (constant (F := Ideal) ⟨0, ![]⟩ .f32 0x00000000#32) hr' hu)
      (broadcastInDim ⟨1, ![128]⟩ ![] hb
        (subf (constant (F := Ideal) ⟨0, ![]⟩ .f32 0x47435000#32) (sitofp .f32 (constantI ⟨0, ![]⟩ 32 0#32)))))
    (broadcastInDim ⟨1, ![128]⟩ ![] hb (constant (F := Ideal) ⟨0, ![]⟩ .f32 0x7FC00000#32))

theorem varHost_eq
    (hr' : (⟨2, ![50000, 128]⟩ : Shape).ReducesTo [(0 : Fin 2)] ⟨1, ![128]⟩)
    (hr : (⟨2, ![50000, 128]⟩ : Shape).Reduces [(0 : Fin 2)] ⟨1, ![128]⟩)
    (hu : 0 < (⟨0, ![]⟩ : Shape).numel)
    (h1 : (⟨1, ![128]⟩ : Shape).BroadcastsInDim ⟨2, ![1, 128]⟩ (![1] : Fin 1 → Fin 2))
    (hb1 : (⟨0, ![]⟩ : Shape).BroadcastsInDim ⟨2, ![1, 128]⟩ (![] : Fin 0 → Fin 2))
    (h2 : (⟨2, ![1, 128]⟩ : Shape).BroadcastsInDim ⟨2, ![50000, 128]⟩ (![0, 1] : Fin 2 → Fin 2))
    (hb : (⟨0, ![]⟩ : Shape).BroadcastsInDim ⟨1, ![128]⟩ (![] : Fin 0 → Fin 1))
    (H : FVec Ideal ⟨2, ![50000, 128]⟩ .f32) : varHost hr' hu h1 hb1 h2 hb H = varTwo H :=
  hostVar_eq hr' hr hu h1 hb1 h2 hb H

/-- The host's spelling of the normalisation of an array `H`: its column means, its column variances, every column
    centred, scaled by the reciprocal root of the variance plus the stabiliser and by the gain, shifted by the offset,
    cut at zero. -/
def normHost
    (hr' : (⟨2, ![50000, 128]⟩ : Shape).ReducesTo [(0 : Fin 2)] ⟨1, ![128]⟩)
    (hu : 0 < (⟨0, ![]⟩ : Shape).numel)
    (h1 : (⟨1, ![128]⟩ : Shape).BroadcastsInDim ⟨2, ![1, 128]⟩ (![1] : Fin 1 → Fin 2))
    (hb1 : (⟨0, ![]⟩ : Shape).BroadcastsInDim ⟨2, ![1, 128]⟩ (![] : Fin 0 → Fin 2))
    (h2 : (⟨2, ![1, 128]⟩ : Shape).BroadcastsInDim ⟨2, ![50000, 128]⟩ (![0, 1] : Fin 2 → Fin 2))
    (hb : (⟨0, ![]⟩ : Shape).BroadcastsInDim ⟨1, ![128]⟩ (![] : Fin 0 → Fin 1))
    (hz : (⟨0, ![]⟩ : Shape).BroadcastsInDim ⟨2, ![50000, 128]⟩ (![] : Fin 0 → Fin 2))
    (H : FVec Ideal ⟨2, ![50000, 128]⟩ .f32) (gamma beta : FVec Ideal ⟨1, ![128]⟩ .f32) :
    FVec Ideal ⟨2, ![50000, 128]⟩ .f32 :=
  maximumf
    (addf
      (mulf
        (mulf
          (subf H (broadcastInDim ⟨2, ![50000, 128]⟩ ![0, 1] h2 (broadcastInDim ⟨2, ![1, 128]⟩ ![1] h1
            (Host.divf (F := Ideal)
              (Host.reduceAdd (F := Ideal) H (constant (F := Ideal) ⟨0, ![]⟩ .f32 0x00000000#32) hr' hu)
              (broadcastInDim ⟨1, ![128]⟩ ![] hb (constant (F := Ideal) ⟨0, ![]⟩ .f32 0x47435000#32))))))
          (broadcastInDim ⟨2, ![50000, 128]⟩ ![0, 1] h2 (broadcastInDim ⟨2, ![1, 128]⟩ ![1] h1
            (Host.rsqrt (F := Ideal)
              (addf (varHost hr' hu h1 hb1 h2 hb H)
                (broadcastInDim ⟨1, ![128]⟩ ![] hb (constant (F := Ideal) ⟨0, ![]⟩ .f32 0x3727C5AC#32)))))))
        (broadcastInDim ⟨2, ![50000, 128]⟩ ![0, 1] h2 (broadcastInDim ⟨2, ![1, 128]⟩ ![1] h1 gamma)))
      (broadcastInDim ⟨2, ![50000, 128]⟩ ![0, 1] h2 (broadcastInDim ⟨2, ![1, 128]⟩ ![1] h1 beta)))
    (broadcastInDim ⟨2, ![50000, 128]⟩ ![] hz (constant (F := Ideal) ⟨0, ![]⟩ .f32 0x00000000#32))

theorem normHost_eq
    (hr' : (⟨2, ![50000, 128]⟩ : Shape).ReducesTo [(0 : Fin 2)] ⟨1, ![128]⟩)
    (hr : (⟨2, ![50000, 128]⟩ : Shape).Reduces [(0 : Fin 2)] ⟨1, ![128]⟩)
    (hu : 0 < (⟨0, ![]⟩ : Shape).numel)
    (h1 : (⟨1, ![128]⟩ : Shape).BroadcastsInDim ⟨2, ![1, 128]⟩ (![1] : Fin 1 → Fin 2))
    (hb1 : (⟨0, ![]⟩ : Shape).BroadcastsInDim ⟨2, ![1, 128]⟩ (![] : Fin 0 → Fin 2))
    (h2 : (⟨2, ![1, 128]⟩ : Shape).BroadcastsInDim ⟨2, ![50000, 128]⟩ (![0, 1] : Fin 2 → Fin 2))
    (hb : (⟨0, ![]⟩ : Shape).BroadcastsInDim ⟨1, ![128]⟩ (![] : Fin 0 → Fin 1))
    (hz : (⟨0, ![]⟩ : Shape).BroadcastsInDim ⟨2, ![50000, 128]⟩ (![] : Fin 0 → Fin 2))
    (H : FVec Ideal ⟨2, ![50000, 128]⟩ .f32) (gamma beta : FVec Ideal ⟨1, ![128]⟩ .f32) :
    normHost hr' hu h1 hb1 h2 hb hz H gamma beta = refLayer H gamma beta := by
  unfold normHost
  rw [varHost_eq hr' hr hu h1 hb1 h2 hb, colMean_eq hr' hr hu hb, bn_eq h1 h2 hb hz]
  rfl

/-- ONE layer in the arrangement that takes its statistics over all rows at once, as the host writes it: from the
    layer's input, the two index columns and the layer's parameters. -/
def refLayerHost
    (g : GatherDims ⟨2, ![50000, 128]⟩ ⟨2, ![800000, 1]⟩ ⟨2, ![800000, 128]⟩)
    (sc : ScatterDims ⟨2, ![50000, 128]⟩ ⟨2, ![800000, 1]⟩ ⟨2, ![800000, 128]⟩)
    (D : DotDims ⟨2, ![50000, 128]⟩ ⟨2, ![128, 128]⟩ ⟨2, ![50000, 128]⟩)
    (hr' : (⟨2, ![50000, 128]⟩ : Shape).ReducesTo [(0 : Fin 2)] ⟨1, ![128]⟩)
    (hu : 0 < (⟨0, ![]⟩ : Shape).numel)
    (h1 : (⟨1, ![128]⟩ : Shape).BroadcastsInDim ⟨2, ![1, 128]⟩ (![1] : Fin 1 → Fin 2))
    (hb1 : (⟨0, ![]⟩ : Shape).BroadcastsInDim ⟨2, ![1, 128]⟩ (![] : Fin 0 → Fin 2))
    (h2 : (⟨2, ![1, 128]⟩ : Shape).BroadcastsInDim ⟨2, ![50000, 128]⟩ (![0, 1] : Fin 2 → Fin 2))
    (hb : (⟨0, ![]⟩ : Shape).BroadcastsInDim ⟨1, ![128]⟩ (![] : Fin 0 → Fin 1))
    (hz : (⟨0, ![]⟩ : Shape).BroadcastsInDim ⟨2, ![50000, 128]⟩ (![] : Fin 0 → Fin 2))
    (X : FVec Ideal ⟨2, ![50000, 128]⟩ .f32) (scol dcol : ICol 800000)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (gamma beta : FVec Ideal ⟨1, ![128]⟩ .f32) : FVec Ideal ⟨2, ![50000, 128]⟩ .f32 :=
  normHost hr' hu h1 hb1 h2 hb hz (preHost g sc D hz h1 h2 X scol dcol W1 b1 W2 b2) gamma beta

theorem refLayerHost_eq
    (wfg : GatherDims.WF ⟨2, ![50000, 128]⟩ ⟨2, ![800000, 1]⟩ ⟨2, ![800000, 128]⟩ [1] [0] [] [0] [] 1 ![1, 128])
    (g : GatherDims ⟨2, ![50000, 128]⟩ ⟨2, ![800000, 1]⟩ ⟨2, ![800000, 128]⟩)
    (hg : g = rowGatherDims 50000 128 800000 wfg)
    (wfs : ScatterDims.WF ⟨2, ![50000, 128]⟩ ⟨2, ![800000, 1]⟩ ⟨2, ![800000, 128]⟩ [1] [0] [0] 1)
    (sc : ScatterDims ⟨2, ![50000, 128]⟩ ⟨2, ![800000, 1]⟩ ⟨2, ![800000, 128]⟩)
    (hsc : sc = rowScatterDims 50000 128 800000 wfs)
    (D : DotDims ⟨2, ![50000, 128]⟩ ⟨2, ![128, 128]⟩ ⟨2, ![50000, 128]⟩) (hD : D = DotDims.plain 50000 128 128)
    (hr' : (⟨2, ![50000, 128]⟩ : Shape).ReducesTo [(0 : Fin 2)] ⟨1, ![128]⟩)
    (hr : (⟨2, ![50000, 128]⟩ : Shape).Reduces [(0 : Fin 2)] ⟨1, ![128]⟩)
    (hu : 0 < (⟨0, ![]⟩ : Shape).numel)
    (h1 : (⟨1, ![128]⟩ : Shape).BroadcastsInDim ⟨2, ![1, 128]⟩ (![1] : Fin 1 → Fin 2))
    (hb1 : (⟨0, ![]⟩ : Shape).BroadcastsInDim ⟨2, ![1, 128]⟩ (![] : Fin 0 → Fin 2))
    (h2 : (⟨2, ![1, 128]⟩ : Shape).BroadcastsInDim ⟨2, ![50000, 128]⟩ (![0, 1] : Fin 2 → Fin 2))
    (hb : (⟨0, ![]⟩ : Shape).BroadcastsInDim ⟨1, ![128]⟩ (![] : Fin 0 → Fin 1))
    (hz : (⟨0, ![]⟩ : Shape).BroadcastsInDim ⟨2, ![50000, 128]⟩ (![] : Fin 0 → Fin 2))
    (X : FVec Ideal ⟨2, ![50000, 128]⟩ .f32) (scol dcol : ICol 800000)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (gamma beta : FVec Ideal ⟨1, ![128]⟩ .f32) :
    refLayerHost g sc D hr' hu h1 hb1 h2 hb hz X scol dcol W1 b1 W2 b2 gamma beta
      = refLayer (pre scol dcol X W1 b1 W2 b2) gamma beta := by
  unfold refLayerHost
  rw [preHost_eq wfg g hg wfs sc hsc D hD hz h1 h2, normHost_eq hr' hr hu h1 hb1 h2 hb hz]

end Cert.Gin.Host

end
-- ==== Proof.HostPool.lean ====
/-
  The pooling of per-tile column statistics, as the host spells it, read as whole-array functions over the extended
  reals. The statistics array has one `[8, 128]` block per tile of rows: row 0 of a block holds the tile's column
  means, row 1 the tile's sums of squared deviations from its own mean. The pooled mean of a column is the sum of
  the tile means (from zero) times the tile height over the number of rows; the pooled variance is the sum of the
  tiles' sums of squares plus the tile height times the sum of the squared deviations of the tile means from the
  pooled mean, over the number of rows, cut below at zero. Every shape side condition is an argument. No program is
  mentioned.
-/
import proofs.«141774_j48919677501954_2_alg».proof.Proof.Spec
import proofs.«141774_j48919677501954_2_alg».proof.Proof.LibSageHost

noncomputable section

namespace Cert.Gin.Host

open Idealize.ShloMosaic Idealize.ShloMosaic.ValueIdx Cert.DenseLib Cert.RowsLib Cert.LayoutLib Cert.Sage

/-! ## Small reads -/

section Reads

variable {α : Type}

/-- The cut `[·, o, ·]` of an `[a, b, c]` array, recast to `[a, c]`, reads at `(t, q)` the array at `(t, o, q)`. -/
theorem sliceRow_apply {a b c : ℕ} (o : ℕ) (x : (⟨3, ![a, b, c]⟩ : Shape).Idx → α)
    (hs : (⟨3, ![a, b, c]⟩ : Shape).Slices ![0, o, 0] ⟨3, ![a, 1, c]⟩)
    (hc : (⟨3, ![a, 1, c]⟩ : Shape).ShapeCasts ⟨2, ![a, c]⟩)
    (t : Fin a) (j : Fin b) (hj : j.val = o) (q : Fin c) :
    shapeCast ⟨2, ![a, c]⟩ (extractStridedSlice ⟨3, ![a, 1, c]⟩ ![0, o, 0] x hs) hc (ix2 t q) = x (ix3 t j q) := by
  refine (shapeCast_apply _ hc (ix2 t q) (ix3 t (0 : Fin 1) q) ?_).trans ?_
  · rw [Shape.rowMajor_val_three, Shape.rowMajor_val_two]
    show (t.val * 1 + 0) * c + q.val = t.val * c + q.val
    rw [Nat.mul_one, Nat.add_zero]
  · refine extractStridedSlice_apply _ x hs (ix3 t (0 : Fin 1) q) (ix3 t j q) fun ax => ?_
    match ax with
    | ⟨0, _⟩ => exact (Nat.zero_add _).symm
    | ⟨1, _⟩ => exact hj
    | ⟨2, _⟩ => exact (Nat.zero_add _).symm

/-- The host's sum down the columns of `[a, b]`, read at column `q`: the initial value plus the column's sum. -/
theorem hostReduceAdd_col_apply {a b : ℕ} (h' : (⟨2, ![a, b]⟩ : Shape).ReducesTo [(0 : Fin 2)] ⟨1, ![b]⟩)
    (h : (⟨2, ![a, b]⟩ : Shape).Reduces [(0 : Fin 2)] ⟨1, ![b]⟩)
    (x : (⟨2, ![a, b]⟩ : Shape).Idx → EReal) (init : EReal) (q : Fin b) :
    Ideal.hostReduceAdd h' x init (ix1 q) = init + ∑ k : Fin a, x (ix2 k q) := by
  rw [Ideal.hostReduceAdd_single h' h x init (ix1 q)]
  exact congrArg (init + ·) (Finset.sum_congr rfl fun k _ => congrArg x (lift_col h q k))

end Reads

/-! ## The two statistic rows of the tiles -/

/-- The tile means as a `[10, 128]` array. -/
def tmeanMat (h : Mat 50000 128) : Mat 10 128 := fun i => tmean h (i 0) (i 1)

/-- The tiles' sums of squared deviations as a `[10, 128]` array. -/
def tm2Mat (h : Mat 50000 128) : Mat 10 128 := fun i => tm2 h (i 0) (i 1)

/-- Row 0 of every tile's block holds the tile's column means. -/
theorem tileStats_row0 (h : Mat 50000 128) (t : Fin 10) (q : Fin 128) :
    tileStats h (ix3 t (0 : Fin 8) q) = tmean h t q := if_pos rfl

/-- Row 1 of every tile's block holds the tile's sums of squared deviations. -/
theorem tileStats_row1 (h : Mat 50000 128) (t : Fin 10) (q : Fin 128) :
    tileStats h (ix3 t (1 : Fin 8) q) = tm2 h t q :=
  (if_neg (by show ¬ (1 : ℕ) = 0; omega)).trans (if_pos rfl)

/-- The cut at row 0 of the statistics array, recast, is the array of tile means. -/
theorem tileMeans_eq (h : Mat 50000 128)
    (hs : (⟨3, ![10, 8, 128]⟩ : Shape).Slices ![0, 0, 0] ⟨3, ![10, 1, 128]⟩)
    (hc : (⟨3, ![10, 1, 128]⟩ : Shape).ShapeCasts ⟨2, ![10, 128]⟩) :
    shapeCast ⟨2, ![10, 128]⟩ (extractStridedSlice ⟨3, ![10, 1, 128]⟩ ![0, 0, 0] (tileStats h) hs) hc = tmeanMat h := by
  funext i
  obtain ⟨t, q, rfl⟩ : ∃ (t : Fin 10) (q : Fin 128), i = ix2 t q := ⟨i 0, i 1, eq_ix2 i⟩
  rw [sliceRow_apply 0 (tileStats h) hs hc t (0 : Fin 8) rfl q, tileStats_row0]
  rfl

/-- The cut at row 1 of the statistics array, recast, is the array of the tiles' sums of squared deviations. -/
theorem tileM2_eq (h : Mat 50000 128)
    (hs : (⟨3, ![10, 8, 128]⟩ : Shape).Slices ![0, 1, 0] ⟨3, ![10, 1, 128]⟩)
    (hc : (⟨3, ![10, 1, 128]⟩ : Shape).ShapeCasts ⟨2, ![10, 128]⟩) :
    shapeCast ⟨2, ![10, 128]⟩ (extractStridedSlice ⟨3, ![10, 1, 128]⟩ ![0, 1, 0] (tileStats h) hs) hc = tm2Mat h := by
  funext i
  obtain ⟨t, q, rfl⟩ : ∃ (t : Fin 10) (q : Fin 128), i = ix2 t q := ⟨i 0, i 1, eq_ix2 i⟩
  rw [sliceRow_apply 1 (tileStats h) hs hc t (1 : Fin 8) rfl q, tileStats_row1]
  rfl

/-! ## The pooled mean -/

/-- The host's pooled mean of a statistics array: row 0 of every block cut out and recast to `[10, 128]`, summed down
    the columns from zero, times the broadcast tile height, over the broadcast number of rows. -/
def poolMean (S : FVec Ideal ⟨3, ![10, 8, 128]⟩ .f32)
    (hs0 : (⟨3, ![10, 8, 128]⟩ : Shape).Slices ![0, 0, 0] ⟨3, ![10, 1, 128]⟩)
    (hc : (⟨3, ![10, 1, 128]⟩ : Shape).ShapeCasts ⟨2, ![10, 128]⟩)
    (hr : (⟨2, ![10, 128]⟩ : Shape).ReducesTo [(0 : Fin 2)] ⟨1, ![128]⟩)
    (hu : 0 < (⟨0, ![]⟩ : Shape).numel)
    (hb : (⟨0, ![]⟩ : Shape).BroadcastsInDim ⟨1, ![128]⟩ (![] : Fin 0 → Fin 1)) :
    FVec Ideal ⟨1, ![128]⟩ .f32 :=
  Host.divf (F := Ideal)
    (mulf
      (Host.reduceAdd (F := Ideal)
        (shapeCast ⟨2, ![10, 128]⟩ (extractStridedSlice ⟨3, ![10, 1, 128]⟩ ![0, 0, 0] S hs0) hc)
        (constant (F := Ideal) ⟨0, ![]⟩ .f32 0x00000000#32) hr hu)
      (broadcastInDim ⟨1, ![128]⟩ ![] hb (constant (F := Ideal) ⟨0, ![]⟩ .f32 0x459C4000#32)))
    (broadcastInDim ⟨1, ![128]⟩ ![] hb (constant (F := Ideal) ⟨0, ![]⟩ .f32 0x47435000#32))

/-- On the tiles' statistics the host's pooled mean is the pooled mean. -/
theorem poolMean_eq (h : Mat 50000 128)
    (hs0 : (⟨3, ![10, 8, 128]⟩ : Shape).Slices ![0, 0, 0] ⟨3, ![10, 1, 128]⟩)
    (hc : (⟨3, ![10, 1, 128]⟩ : Shape).ShapeCasts ⟨2, ![10, 128]⟩)
    (hr : (⟨2, ![10, 128]⟩ : Shape).ReducesTo [(0 : Fin 2)] ⟨1, ![128]⟩)
    (hr' : (⟨2, ![10, 128]⟩ : Shape).Reduces [(0 : Fin 2)] ⟨1, ![128]⟩)
    (hu : 0 < (⟨0, ![]⟩ : Shape).numel)
    (hb : (⟨0, ![]⟩ : Shape).BroadcastsInDim ⟨1, ![128]⟩ (![] : Fin 0 → Fin 1)) :
    poolMean (tileStats h) hs0 hc hr hu hb = kmean h := by
  unfold poolMean
  rw [tileMeans_eq h hs0 hc]
  funext j
  obtain ⟨q, rfl⟩ : ∃ q : Fin 128, j = ix1 q := ⟨j 0, eq_ix1 j⟩
  show Ideal.div
      (Ideal.hostReduceAdd hr (tmeanMat h) (Ideal.ofBits .f32 0x00000000#32) (ix1 q)
        * broadcastInDim ⟨1, ![128]⟩ ![] hb (constant (F := Ideal) ⟨0, ![]⟩ .f32 0x459C4000#32) (ix1 q))
      (broadcastInDim ⟨1, ![128]⟩ ![] hb (constant (F := Ideal) ⟨0, ![]⟩ .f32 0x47435000#32) (ix1 q))
    = Ideal.div ((0 + ∑ t : Fin 10, tmean h t q) * cT) cN
  rw [hostReduceAdd_col_apply hr hr', broadcastInDim_scalar_apply, broadcastInDim_scalar_apply,
    Ideal.ofBits_zero_f32]
  rfl

/-! ## The pooled variance -/

/-- The host's pooled variance of a statistics array: row 1 of every block summed down the columns from zero, plus the
    broadcast tile height times the column sums (from zero) of the squared deviations of row 0 from the pooled mean
    laid along every row, over the broadcast number of rows, and the maximum with a broadcast zero. -/
def poolVar (S : FVec Ideal ⟨3, ![10, 8, 128]⟩ .f32)
    (hs0 : (⟨3, ![10, 8, 128]⟩ : Shape).Slices ![0, 0, 0] ⟨3, ![10, 1, 128]⟩)
    (hc : (⟨3, ![10, 1, 128]⟩ : Shape).ShapeCasts ⟨2, ![10, 128]⟩)
    (hs1 : (⟨3, ![10, 8, 128]⟩ : Shape).Slices ![0, 1, 0] ⟨3, ![10, 1, 128]⟩)
    (hr : (⟨2, ![10, 128]⟩ : Shape).ReducesTo [(0 : Fin 2)] ⟨1, ![128]⟩)
    (hu : 0 < (⟨0, ![]⟩ : Shape).numel)
    (hb : (⟨0, ![]⟩ : Shape).BroadcastsInDim ⟨1, ![128]⟩ (![] : Fin 0 → Fin 1))
    (h1 : (⟨1, ![128]⟩ : Shape).BroadcastsInDim ⟨2, ![1, 128]⟩ (![1] : Fin 1 → Fin 2))
    (h2 : (⟨2, ![1, 128]⟩ : Shape).BroadcastsInDim ⟨2, ![10, 128]⟩ (![0, 1] : Fin 2 → Fin 2)) :
    FVec Ideal ⟨1, ![128]⟩ .f32 :=
  maximumf
    (Host.divf (F := Ideal)
      (addf
        (Host.reduceAdd (F := Ideal)
          (shapeCast ⟨2, ![10, 128]⟩ (extractStridedSlice ⟨3, ![10, 1, 128]⟩ ![0, 1, 0] S hs1) hc)
          (constant (F := Ideal) ⟨0, ![]⟩ .f32 0x00000000#32) hr hu)
        (mulf
          (broadcastInDim ⟨1, ![128]⟩ ![] hb (constant (F := Ideal) ⟨0, ![]⟩ .f32 0x459C4000#32))
          (Host.reduceAdd (F := Ideal)
            (mulf
              (subf (shapeCast ⟨2, ![10, 128]⟩ (extractStridedSlice ⟨3, ![10, 1, 128]⟩ ![0, 0, 0] S hs0) hc)
                (broadcastInDim ⟨2, ![10, 128]⟩ ![0, 1] h2
                  (broadcastInDim ⟨2, ![1, 128]⟩ ![1] h1 (poolMean S hs0 hc hr hu hb))))
              (subf (shapeCast ⟨2, ![10, 128]⟩ (extractStridedSlice ⟨3, ![10, 1, 128]⟩ ![0, 0, 0] S hs0) hc)
                (broadcastInDim ⟨2, ![10, 128]⟩ ![0, 1] h2
                  (broadcastInDim ⟨2, ![1, 128]⟩ ![1] h1 (poolMean S hs0 hc hr hu hb)))))
            (constant (F := Ideal) ⟨0, ![]⟩ .f32 0x00000000#32) hr hu)))
      (broadcastInDim ⟨1, ![128]⟩ ![] hb (constant (F := Ideal) ⟨0, ![]⟩ .f32 0x47435000#32)))
    (broadcastInDim ⟨1, ![128]⟩ ![] hb (constant (F := Ideal) ⟨0, ![]⟩ .f32 0x00000000#32))

/-- On the tiles' statistics the host's pooled variance is the pooled variance. -/
theorem poolVar_eq (h : Mat 50000 128)
    (hs0 : (⟨3, ![10, 8, 128]⟩ : Shape).Slices ![0, 0, 0] ⟨3, ![10, 1, 128]⟩)
    (hc : (⟨3, ![10, 1, 128]⟩ : Shape).ShapeCasts ⟨2, ![10, 128]⟩)
    (hs1 : (⟨3, ![10, 8, 128]⟩ : Shape).Slices ![0, 1, 0] ⟨3, ![10, 1, 128]⟩)
    (hr : (⟨2, ![10, 128]⟩ : Shape).ReducesTo [(0 : Fin 2)] ⟨1, ![128]⟩)
    (hr' : (⟨2, ![10, 128]⟩ : Shape).Reduces [(0 : Fin 2)] ⟨1, ![128]⟩)
    (hu : 0 < (⟨0, ![]⟩ : Shape).numel)
    (hb : (⟨0, ![]⟩ : Shape).BroadcastsInDim ⟨1, ![128]⟩ (![] : Fin 0 → Fin 1))
    (h1 : (⟨1, ![128]⟩ : Shape).BroadcastsInDim ⟨2, ![1, 128]⟩ (![1] : Fin 1 → Fin 2))
    (h2 : (⟨2, ![1, 128]⟩ : Shape).BroadcastsInDim ⟨2, ![10, 128]⟩ (![0, 1] : Fin 2 → Fin 2)) :
    poolVar (tileStats h) hs0 hc hs1 hr hu hb h1 h2 = kvar h := by
  unfold poolVar
  rw [poolMean_eq h hs0 hc hr hr' hu hb, tileMeans_eq h hs0 hc, tileM2_eq h hs1 hc, sqDev_eq h1 h2,
    maximumf_bcast_zero]
  funext j
  obtain ⟨q, rfl⟩ : ∃ q : Fin 128, j = ix1 q := ⟨j 0, eq_ix1 j⟩
  show max (Ideal.div
      (Ideal.hostReduceAdd hr (tm2Mat h) (Ideal.ofBits .f32 0x00000000#32) (ix1 q)
        + broadcastInDim ⟨1, ![128]⟩ ![] hb (constant (F := Ideal) ⟨0, ![]⟩ .f32 0x459C4000#32) (ix1 q)
          * Ideal.hostReduceAdd hr (sqDev (tmeanMat h) (kmean h)) (Ideal.ofBits .f32 0x00000000#32) (ix1 q))
      (broadcastInDim ⟨1, ![128]⟩ ![] hb (constant (F := Ideal) ⟨0, ![]⟩ .f32 0x47435000#32) (ix1 q))) 0
    = max (Ideal.div ((0 + ∑ t : Fin 10, tm2 h t q)
        + cT * (0 + ∑ t : Fin 10, (tmean h t q - kmean h (ix1 q)) * (tmean h t q - kmean h (ix1 q)))) cN) 0
  rw [hostReduceAdd_col_apply hr hr', hostReduceAdd_col_apply hr hr', broadcastInDim_scalar_apply,
    broadcastInDim_scalar_apply, Ideal.ofBits_zero_f32]
  rfl

end Cert.Gin.Host

end
-- ==== Proof.RegionDense.lean ====
/-
  The dense-and-statistics step on one block of 5000 rows, as functions of the block's operands over the extended
  reals. The first payload is the two dense layers of the sum of the two row blocks; the second keeps, per
  column, the block's mean (the column's sum over the tile height), the block's sum of squared deviations from
  that mean, and six rows of zeros. An entry of the dense layers depends only on its row of the operands, so a block
  of consecutive rows of the whole array's result is the result on that block of rows; and the block's statistics
  are the whole array's tile statistics of that tile.
-/
import proofs.«141774_j48919677501954_2_alg».proof.Proof.Gen.KernelIdeal.Skeleton
import proofs.«141774_j48919677501954_2_alg».proof.Proof.Spec

noncomputable section

namespace Cert.KernelIdeal.RegionValue

open Cert.KernelIdeal Cert.KernelIdeal.Gen Idealize.ShloMosaic Idealize.ShloMosaic.ValueIdx
open Cert.LayoutLib Cert.DenseLib Cert.RowBlocks Cert.RowNorm Cert.Sage Cert.Gin

theorem hz2 : (![0, 0] : Fin 2 → Nat) = fun _ => 0 := funext fun a => by fin_cases a <;> rfl

theorem hz3 : (![0, 0, 0] : Fin 3 → Nat) = fun _ => 0 := funext fun a => by fin_cases a <;> rfl

/-! ## The payloads over variables -/

theorem dot_plain : dot_S5000x128_S128x128_S5000x128_1_0_0_1_n_n = DotDims.plain 5000 128 128 := rfl

theorem pay1_eq (x0 x1 : Vec Ideal S5000x128 .f32) (w1 : Vec Ideal S128x128 .f32) (b1 : Vec Ideal S1x128 .f32)
    (w2 : Vec Ideal S128x128 .f32) (b2 : Vec Ideal S1x128 .f32) :
    k0_pay1 x0 x1 w1 b1 w2 b2
      = mlp (plus x0 x1) w1 (fun q => b1 (ix2 (0 : Fin 1) q)) w2 (fun q => b2 (ix2 (0 : Fin 1) q)) := by
  unfold k0_pay1
  simp only [shapeCast_self, truncf_eq, matmul_eq_mm _ dot_plain, broadcastTo_eq_rows, maximumf_splat_zero]
  rfl

/-- Column `q`'s mean over a block of 5000 rows. -/
def bmean (P : Mat 5000 128) (q : Fin 128) : EReal := Ideal.div (∑ r : Fin 5000, P (ix2 r q)) cT

/-- Column `q`'s sum of squared deviations from the block's mean. -/
def bm2 (P : Mat 5000 128) (q : Fin 128) : EReal :=
  ∑ r : Fin 5000, (P (ix2 r q) - bmean P q) * (P (ix2 r q) - bmean P q)

/-- What a block of 5000 rows keeps: row 0 its column means, row 1 its sums of squared deviations, rows 2 to 7 zero. -/
def blockStats (P : Mat 5000 128) : Cube 1 8 128 := fun i =>
  if (i 1).val = 0 then bmean P (i 2) else if (i 1).val = 1 then bm2 P (i 2) else 0

theorem lift_col {a b : ℕ} (h : (⟨2, ![a, b]⟩ : Shape).Reduces [(0 : Fin 2)] ⟨1, ![b]⟩) (q : Fin b) (r : Fin a) :
    h.lift (ix1 q) r = ix2 r q :=
  funext fun c => Fin.ext (by match c with | ⟨0, _⟩ => rfl | ⟨1, _⟩ => rfl)

/-- A sum down the columns, kept as one row: at column `q` the sum of the column's entries. -/
theorem colsum_row (Z : FVec Ideal S5000x128 .f32) (hr : S5000x128.Reduces [0] S128) (hφ : FKind.Formats FTy.f32)
    (hacc : (0x00000000#32 : BitVec FTy.f32.bits) = FKind.add.neutral FTy.f32 hφ) (hc : S128.ShapeCasts S1x128)
    (u : Fin 1) (q : Fin 128) :
    shapeCast S1x128 (multiReduction .add [0] S128 Z 0x00000000#32 hr hφ hacc) hc (ix2 u q) = ∑ r : Fin 5000, Z (ix2 r q) :=
  (shapeCast_vecRow_apply _ hc u q).trans
    ((Ideal.multiReduction_add_single Z _ hr hφ hacc (ix1 q)).trans
      (Finset.sum_congr rfl fun r _ => congrArg Z (lift_col hr q r)))

/-- That row over the tile height is the block's column mean. -/
theorem mean_row (P : FVec Ideal S5000x128 .f32) (hr : S5000x128.Reduces [0] S128) (hφ : FKind.Formats FTy.f32)
    (hacc : (0x00000000#32 : BitVec FTy.f32.bits) = FKind.add.neutral FTy.f32 hφ) (hc : S128.ShapeCasts S1x128)
    (u : Fin 1) (q : Fin 128) :
    divf (shapeCast S1x128 (multiReduction .add [0] S128 P 0x00000000#32 hr hφ hacc) hc)
        (broadcast S1x128 (FloatOps.ofBits (F := Ideal) FTy.f32 0x459C4000#32)) (ix2 u q) = bmean P q := by
  show Ideal.div (shapeCast S1x128 (multiReduction .add [0] S128 P 0x00000000#32 hr hφ hacc) hc (ix2 u q)) _ = Ideal.div _ _
  rw [colsum_row P hr hφ hacc hc u q]
  rfl

/-- The squared deviations from a one-row array, summed down the columns. -/
theorem dev_row (P : FVec Ideal S5000x128 .f32) (μ : S1x128.Idx → EReal) (hb : S1x128.Broadcasts S5000x128)
    (hr : S5000x128.Reduces [0] S128) (hφ : FKind.Formats FTy.f32)
    (hacc : (0x00000000#32 : BitVec FTy.f32.bits) = FKind.add.neutral FTy.f32 hφ) (hc : S128.ShapeCasts S1x128)
    (u : Fin 1) (q : Fin 128) (m : EReal) (hμ : μ (ix2 (0 : Fin 1) q) = m) :
    shapeCast S1x128 (multiReduction .add [0] S128
        (mulf (subf P (broadcastTo S5000x128 μ hb)) (subf P (broadcastTo S5000x128 μ hb))) 0x00000000#32 hr hφ hacc) hc (ix2 u q)
      = ∑ r : Fin 5000, (P (ix2 r q) - m) * (P (ix2 r q) - m) := by
  refine (colsum_row _ hr hφ hacc hc u q).trans (Finset.sum_congr rfl fun r _ => ?_)
  show (P (ix2 r q) - broadcastTo S5000x128 μ hb (ix2 r q)) * (P (ix2 r q) - broadcastTo S5000x128 μ hb (ix2 r q)) = _
  rw [broadcastTo_1b_ab_apply μ hb r q, hμ]

/-- Three pieces stacked down the rows (one row, one row, six rows of a constant) and recast with a leading unit axis. -/
theorem stack_apply (μ σ : S1x128.Idx → EReal) (z : EReal) (hcat : Shape.Concatenates [S1x128, S1x128, S6x128] S8x128 0)
    (hsc : S8x128.ShapeCasts S1x8x128) (j : Fin 8) (q : Fin 128) :
    shapeCast S1x8x128 (concatenate S8x128 0 [⟨S1x128, μ⟩, ⟨S1x128, σ⟩, ⟨S6x128, broadcast S6x128 z⟩] hcat) hsc (ix3 (0 : Fin 1) j q)
      = if j.val = 0 then μ (ix2 (0 : Fin 1) q) else if j.val = 1 then σ (ix2 (0 : Fin 1) q) else z := by
  refine (shapeCast_apply _ hsc (ix3 (0 : Fin 1) j q) (ix2 j q) ?_).trans ?_
  · rw [Shape.rowMajor_val_two, Shape.rowMajor_val_three]
    show j.val * 128 + q.val = ((0 : ℕ) * 8 + j.val) * 128 + q.val
    omega
  have hj := j.isLt
  by_cases h0 : j.val = 0
  · rw [if_pos h0]
    exact concatenate_apply_piece (t := S8x128) (0 : Fin 2) [⟨S1x128, μ⟩, ⟨S1x128, σ⟩, ⟨S6x128, broadcast S6x128 z⟩] hcat (ix2 j q) 0
      (by show (0 : ℕ) < 3; omega) S1x128 μ rfl rfl 0 rfl (ix2 (0 : Fin 1) q)
      (fun b hb => by match b with | ⟨0, _⟩ => exact absurd rfl hb | ⟨1, _⟩ => rfl)
      (by show 0 + 0 = j.val; omega)
  rw [if_neg h0]
  by_cases h1 : j.val = 1
  · rw [if_pos h1]
    exact concatenate_apply_piece (t := S8x128) (0 : Fin 2) [⟨S1x128, μ⟩, ⟨S1x128, σ⟩, ⟨S6x128, broadcast S6x128 z⟩] hcat (ix2 j q) 1
      (by show (1 : ℕ) < 3; omega) S1x128 σ rfl rfl 1 rfl (ix2 (0 : Fin 1) q)
      (fun b hb => by match b with | ⟨0, _⟩ => exact absurd rfl hb | ⟨1, _⟩ => rfl)
      (by show 1 + 0 = j.val; omega)
  rw [if_neg h1]
  exact concatenate_apply_piece (t := S8x128) (0 : Fin 2) [⟨S1x128, μ⟩, ⟨S1x128, σ⟩, ⟨S6x128, broadcast S6x128 z⟩] hcat (ix2 j q) 2
      (by show (2 : ℕ) < 3; omega) S6x128 (broadcast S6x128 z) rfl rfl 2 rfl
      (ix2 (⟨j.val - 2, by omega⟩ : Fin 6) q)
      (fun b hb => by match b with | ⟨0, _⟩ => exact absurd rfl hb | ⟨1, _⟩ => rfl)
      (by show 2 + (j.val - 2) = j.val; omega)

/-- The statistics payload is the block's statistics of the dense payload. -/
theorem pay2_eq (x0 x1 : Vec Ideal S5000x128 .f32) (w1 : Vec Ideal S128x128 .f32) (b1 : Vec Ideal S1x128 .f32)
    (w2 : Vec Ideal S128x128 .f32) (b2 : Vec Ideal S1x128 .f32) :
    k0_pay2 x0 x1 w1 b1 w2 b2 = blockStats (k0_pay1 x0 x1 w1 b1 w2 b2) := by
  funext i
  obtain ⟨u, j, q, rfl⟩ : ∃ (u : Fin 1) (j : Fin 8) (q : Fin 128), i = ix3 u j q := ⟨i 0, i 1, i 2, eq_ix3 i⟩
  obtain rfl : u = 0 := Subsingleton.elim _ _
  unfold k0_pay2
  generalize k0_pay1 x0 x1 w1 b1 w2 b2 = P
  refine (stack_apply _ _ _ _ _ j q).trans ?_
  show _ = (if j.val = 0 then bmean P q else if j.val = 1 then bm2 P q else 0)
  exact if_congr Iff.rfl (mean_row P _ _ _ _ 0 q)
    (if_congr Iff.rfl (dev_row P _ _ _ _ _ _ 0 q _ (mean_row P _ _ _ _ 0 q)) Ideal.ofBits_zero_f32)

/-! ## The later layers' payloads: the same operations, cut into three terms -/

theorem dense2_eq (x0 x1 : Vec Ideal S5000x128 .f32) (w1 : Vec Ideal S128x128 .f32) (b1 : Vec Ideal S1x128 .f32)
    (w2 : Vec Ideal S128x128 .f32) (b2 : Vec Ideal S1x128 .f32) :
    k2_pay2 x0 x1 w1 b1 w2 b2
      = mlp (plus x0 x1) w1 (fun q => b1 (ix2 (0 : Fin 1) q)) w2 (fun q => b2 (ix2 (0 : Fin 1) q)) := by
  unfold k2_pay2
  simp only [shapeCast_self, truncf_eq, matmul_eq_mm _ dot_plain, broadcastTo_eq_rows, maximumf_splat_zero]
  rfl

theorem stats2_eq (x0 x1 : Vec Ideal S5000x128 .f32) (w1 : Vec Ideal S128x128 .f32) (b1 : Vec Ideal S1x128 .f32)
    (w2 : Vec Ideal S128x128 .f32) (b2 : Vec Ideal S1x128 .f32) :
    k2_pay1 (k2_pay3 x0 x1 w1 b1 w2 b2) = blockStats (k2_pay2 x0 x1 w1 b1 w2 b2) := by
  funext i
  obtain ⟨u, j, q, rfl⟩ : ∃ (u : Fin 1) (j : Fin 8) (q : Fin 128), i = ix3 u j q := ⟨i 0, i 1, i 2, eq_ix3 i⟩
  obtain rfl : u = 0 := Subsingleton.elim _ _
  unfold k2_pay1 k2_pay3
  generalize k2_pay2 x0 x1 w1 b1 w2 b2 = P
  refine (stack_apply _ _ _ _ _ j q).trans ?_
  show _ = (if j.val = 0 then bmean P q else if j.val = 1 then bm2 P q else 0)
  exact if_congr Iff.rfl (mean_row P _ _ _ _ 0 q)
    (if_congr Iff.rfl (dev_row P _ _ _ _ _ _ 0 q _ (mean_row P _ _ _ _ 0 q)) Ideal.ofBits_zero_f32)

theorem dense4_eq (x0 x1 : Vec Ideal S5000x128 .f32) (w1 : Vec Ideal S128x128 .f32) (b1 : Vec Ideal S1x128 .f32)
    (w2 : Vec Ideal S128x128 .f32) (b2 : Vec Ideal S1x128 .f32) :
    k4_pay2 x0 x1 w1 b1 w2 b2
      = mlp (plus x0 x1) w1 (fun q => b1 (ix2 (0 : Fin 1) q)) w2 (fun q => b2 (ix2 (0 : Fin 1) q)) :=
  dense2_eq x0 x1 w1 b1 w2 b2

theorem stats4_eq (x0 x1 : Vec Ideal S5000x128 .f32) (w1 : Vec Ideal S128x128 .f32) (b1 : Vec Ideal S1x128 .f32)
    (w2 : Vec Ideal S128x128 .f32) (b2 : Vec Ideal S1x128 .f32) :
    k4_pay1 (k4_pay3 x0 x1 w1 b1 w2 b2) = blockStats (k4_pay2 x0 x1 w1 b1 w2 b2) :=
  stats2_eq x0 x1 w1 b1 w2 b2

/-! ## A block of rows against the whole array -/

/-- An entry of the two dense layers on a block of rows is the whole array's entry, when the block's rows are the
    array's rows from `o` on. -/
theorem mlp_block (A0 A1 : Mat 50000 128) (x0 x1 : Mat 5000 128) (W1 : Mat 128 128) (b1 : Fin 128 → EReal)
    (W2 : Mat 128 128) (b2 : Fin 128 → EReal) (o : ℕ) (y : S5000x128.Idx) (i : S50000x128.Idx)
    (hi0 : (i 0).val = o + (y 0).val) (hi1 : (i 1).val = (y 1).val)
    (h0 : ∀ (r : Fin 5000) (k : Fin 128) (p : Fin 50000), p.val = o + r.val → x0 (ix2 r k) = A0 (ix2 p k))
    (h1 : ∀ (r : Fin 5000) (k : Fin 128) (p : Fin 50000), p.val = o + r.val → x1 (ix2 r k) = A1 (ix2 p k)) :
    mlp (plus x0 x1) W1 b1 W2 b2 y = mlp (plus A0 A1) W1 b1 W2 b2 i :=
  mlp_eq_of_row _ _ W1 b1 W2 b2 y i hi1.symm fun k =>
    congrArg₂ (· + ·) (h0 (y 0) k (i 0) hi0) (h1 (y 0) k (i 0) hi0)

/-- A block's statistics are the whole array's tile statistics at that tile, when the block's rows are the tile's. -/
theorem stats_block (h : Mat 50000 128) (P : Mat 5000 128) (t : Fin 10) (y : S1x8x128.Idx) (i : S10x8x128.Idx)
    (hi0 : (i 0).val = t.val) (hi1 : (i 1).val = (y 1).val) (hi2 : (i 2).val = (y 2).val)
    (hP : ∀ (r : Fin 5000) (q : Fin 128), P (ix2 r q) = h (ix2 (tileRow t r) q)) :
    blockStats P y = tileStats h i := by
  have hm : ∀ q, bmean P q = tmean h t q := fun q => by
    unfold bmean tmean
    exact congrArg (Ideal.div · cT) (Finset.sum_congr rfl fun r _ => hP r q)
  have hs : ∀ q, bm2 P q = tm2 h t q := fun q => by
    unfold bm2 tm2
    rw [hm q]
    exact Finset.sum_congr rfl fun r _ => by rw [hP r q]
  obtain ⟨a, b, d, rfl⟩ : ∃ (a : Fin 10) (b : Fin 8) (d : Fin 128), i = ix3 a b d := ⟨i 0, i 1, i 2, eq_ix3 i⟩
  obtain ⟨u, j, q, rfl⟩ : ∃ (u : Fin 1) (j : Fin 8) (q : Fin 128), y = ix3 u j q := ⟨y 0, y 1, y 2, eq_ix3 y⟩
  obtain rfl : a = t := Fin.ext hi0
  obtain rfl : b = j := Fin.ext hi1
  obtain rfl : d = q := Fin.ext hi2
  show (if b.val = 0 then bmean P d else if b.val = 1 then bm2 P d else 0)
    = (if b.val = 0 then tmean h a d else if b.val = 1 then tm2 h a d else 0)
  rw [hm, hs]

end Cert.KernelIdeal.RegionValue

end
-- ==== Proof.Region0.lean ====
/-
  The first dense-and-statistics region, read as whole arrays. The region cuts the 50000 rows into 10 blocks of 5000;
  at point `t` it reads rows `5000 t` to `5000 t + 4999` of the two row operands and the whole of the two weight
  matrices and the two one-row biases, and writes the block's dense result and the block's column statistics. An
  entry of the dense result depends only on its row of the operands, so block `t` of the output is block `t` of ONE
  function of the whole arrays (`hOf0`); the blocks cover the array (row `r` lies in block `r / 5000`), so the
  array ends holding that function. The block's statistics are the tile statistics of that function at tile `t`,
  and tile `t` of the statistics array is the block of point `t`.
-/
import proofs.«141774_j48919677501954_2_alg».proof.Proof.Gen.KernelIdeal.Frame
import proofs.«141774_j48919677501954_2_alg».proof.Proof.Spec
import proofs.«141774_j48919677501954_2_alg».proof.Proof.RegionDense
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLib Cert.RowNorm Cert.Sage Cert.Gin

variable (V : (c : Dev nD) → (b : Ref sig .tc) → Buf (Elt Ideal) ((c : Thread nD τ).loc b))

/-- The region's dense result as one function of the arrays the region finds. -/
def hOf0 (c : Dev nD) : Mat 50000 128 :=
  mlp (plus (V c (Pipeline.arrRef spec0 0)) (V c (Pipeline.arrRef spec0 1))) (V c (Pipeline.arrRef spec0 2))
    (fun q => V c (Pipeline.arrRef spec0 3) (ix2 (0 : Fin 1) q)) (V c (Pipeline.arrRef spec0 4))
    (fun q => V c (Pipeline.arrRef spec0 5) (ix2 (0 : Fin 1) q))

/-- The printed index maps over the grid: the row-blocked windows move with the point, the others stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The first row operand's block at point `t` is rows `5000 t` on of its array. -/
theorem rows0_0 (c : Dev nD) (t : Fin cfg0.N) (r : Fin 5000) (k : Fin 128) (p : Fin 50000) (hp : p.val = t.val * 5000 + r.val) :
    (iblk0 V c 0 t : Vec Ideal S5000x128 .f32) (ix2 r k) = (V c (Pipeline.arrRef spec0 0) : S50000x128.Idx → EReal) (ix2 p k) := by
  obtain ⟨e0, e1, -⟩ := idx_facts0 t
  unfold iblk0
  rw [View.read_apply]
  show (V c (Pipeline.arrRef spec0 0) : S50000x128.Idx → EReal) _ = _
  refine congrArg _ (funext fun a => Fin.ext ?_)
  match a with
  | ⟨0, _⟩ => show win0_0.index t (0 : Fin 2) * 5000 + 1 * r.val = p.val; omega
  | ⟨1, _⟩ => show win0_0.index t (1 : Fin 2) * 128 + 1 * k.val = k.val; omega

/-- The second row operand's block likewise. -/
theorem rows0_1 (c : Dev nD) (t : Fin cfg0.N) (r : Fin 5000) (k : Fin 128) (p : Fin 50000) (hp : p.val = t.val * 5000 + r.val) :
    (iblk0 V c 1 t : Vec Ideal S5000x128 .f32) (ix2 r k) = (V c (Pipeline.arrRef spec0 1) : S50000x128.Idx → EReal) (ix2 p k) := by
  obtain ⟨-, -, e0, e1, -⟩ := idx_facts0 t
  unfold iblk0
  rw [View.read_apply]
  show (V c (Pipeline.arrRef spec0 1) : S50000x128.Idx → EReal) _ = _
  refine congrArg _ (funext fun a => Fin.ext ?_)
  match a with
  | ⟨0, _⟩ => show win0_1.index t (0 : Fin 2) * 5000 + 1 * r.val = p.val; omega
  | ⟨1, _⟩ => show win0_1.index t (1 : Fin 2) * 128 + 1 * k.val = k.val; omega

/-- The weights and biases are staged whole: their one block is the array. -/
theorem whole0_2 (c : Dev nD) (t : Fin cfg0.N) :
    (iblk0 V c 2 t : Vec Ideal S128x128 .f32) = (V c (Pipeline.arrRef spec0 2) : S128x128.Idx → EReal) := by
  obtain ⟨-, -, -, -, e0, e1, -⟩ := idx_facts0 t
  funext k
  unfold iblk0
  rw [View.read_apply]
  show (V c (Pipeline.arrRef spec0 2) : S128x128.Idx → EReal) _ = _
  refine congrArg _ (funext fun a => Fin.ext ?_)
  match a with
  | ⟨0, _⟩ => show win0_2.index t (0 : Fin 2) * 128 + 1 * (k 0).val = (k 0).val; omega
  | ⟨1, _⟩ => show win0_2.index t (1 : Fin 2) * 128 + 1 * (k 1).val = (k 1).val; omega

theorem whole0_3 (c : Dev nD) (t : Fin cfg0.N) :
    (iblk0 V c 3 t : Vec Ideal S1x128 .f32) = (V c (Pipeline.arrRef spec0 3) : S1x128.Idx → EReal) := by
  obtain ⟨-, -, -, -, -, -, e0, e1, -⟩ := idx_facts0 t
  funext k
  unfold iblk0
  rw [View.read_apply]
  show (V c (Pipeline.arrRef spec0 3) : S1x128.Idx → EReal) _ = _
  refine congrArg _ (funext fun a => Fin.ext ?_)
  match a with
  | ⟨0, _⟩ => show win0_3.index t (0 : Fin 2) * 1 + 1 * (k 0).val = (k 0).val; omega
  | ⟨1, _⟩ => show win0_3.index t (1 : Fin 2) * 128 + 1 * (k 1).val = (k 1).val; omega

theorem whole0_4 (c : Dev nD) (t : Fin cfg0.N) :
    (iblk0 V c 4 t : Vec Ideal S128x128 .f32) = (V c (Pipeline.arrRef spec0 4) : S128x128.Idx → EReal) := by
  obtain ⟨-, -, -, -, -, -, -, -, e0, e1, -⟩ := idx_facts0 t
  funext k
  unfold iblk0
  rw [View.read_apply]
  show (V c (Pipeline.arrRef spec0 4) : S128x128.Idx → EReal) _ = _
  refine congrArg _ (funext fun a => Fin.ext ?_)
  match a with
  | ⟨0, _⟩ => show win0_4.index t (0 : Fin 2) * 128 + 1 * (k 0).val = (k 0).val; omega
  | ⟨1, _⟩ => show win0_4.index t (1 : Fin 2) * 128 + 1 * (k 1).val = (k 1).val; omega

theorem whole0_5 (c : Dev nD) (t : Fin cfg0.N) :
    (iblk0 V c 5 t : Vec Ideal S1x128 .f32) = (V c (Pipeline.arrRef spec0 5) : S1x128.Idx → EReal) := by
  obtain ⟨-, -, -, -, -, -, -, -, -, -, e0, e1, -⟩ := idx_facts0 t
  funext k
  unfold iblk0
  rw [View.read_apply]
  show (V c (Pipeline.arrRef spec0 5) : S1x128.Idx → EReal) _ = _
  refine congrArg _ (funext fun a => Fin.ext ?_)
  match a with
  | ⟨0, _⟩ => show win0_5.index t (0 : Fin 2) * 1 + 1 * (k 0).val = (k 0).val; omega
  | ⟨1, _⟩ => show win0_5.index t (1 : Fin 2) * 128 + 1 * (k 1).val = (k 1).val; omega

/-- The dense payload of the blocks at point `t`, entry by entry, is the whole arrays' dense result on rows
    `5000 t` to `5000 t + 4999`. -/
theorem dense_at0 (c : Dev nD) (t : Fin cfg0.N) (y : S5000x128.Idx) (i : S50000x128.Idx)
    (hi0 : (i 0).val = t.val * 5000 + (y 0).val) (hi1 : (i 1).val = (y 1).val) :
    k0_pay1 (iblk0 V c 0 t) (iblk0 V c 1 t) (iblk0 V c 2 t) (iblk0 V c 3 t) (iblk0 V c 4 t) (iblk0 V c 5 t) y = hOf0 V c i := by
  rw [pay1_eq, whole0_2 V c t, whole0_3 V c t, whole0_4 V c t, whole0_5 V c t]
  unfold hOf0
  exact mlp_block _ _ _ _ _ _ _ _ (t.val * 5000) y i hi0 hi1 (rows0_0 V c t) (rows0_1 V c t)

/-- What point `t` writes back to the dense output is block `t` of the whole arrays' dense result. -/
theorem flushed0_6_eq (c : Dev nD) (t : Fin cfg0.N) :
    (dat0 V c).flushed 6 t = ((cfg0.win 6).blk t).view.read (Elt Ideal) (hOf0 V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S1x128) hz2]
  obtain ⟨-, -, -, -, -, -, -, -, -, -, -, -, e0, e1, -⟩ := idx_facts0 t
  funext y
  show k0_pay1 (iblk0 V c 0 t) (iblk0 V c 1 t) (iblk0 V c 2 t) (iblk0 V c 3 t) (iblk0 V c 4 t) (iblk0 V c 5 t) y
    = hOf0 V c (((cfg0.win 6).blk t).view.emb y)
  refine dense_at0 V c t y _ ?_ ?_
  · show win0_6.index t (0 : Fin 2) * 5000 + 1 * (y 0).val = t.val * 5000 + (y 0).val; omega
  · show win0_6.index t (1 : Fin 2) * 128 + 1 * (y 1).val = (y 1).val; omega

/-- An index is in point `t`'s block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26_0).slice (win0_6.rect t)).set ↔ _
  rw [View.set_slice_whole, Rect.mem_set_unit]
  exact Iff.rfl

/-- Row `r` lies in the block of point `r / 5000`. -/
theorem covered0_6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, -, -, e0, e1, -⟩ := idx_facts0 ⟨(i 0).val / 5000, hlt⟩
  refine ⟨⟨(i 0).val / 5000, hlt⟩, flush0_6 _, ?_⟩
  rw [mem_blk0_6]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val ∧ (i 1).val < win0_6.index ⟨(i 0).val / 5000, hlt⟩ (1 : Fin 2) * 128 + 128
    rw [e1]; omega

/-- After the region the dense output array is the whole arrays' dense result. -/
theorem h_region0 (c : Dev nD) : (dat0 V c).arrAt 6 cfg0.N = hOf0 V c :=
  (dat0 V c).arrAt_eq_of_cover 6 (hOf0 V c) (fun t _ => flushed0_6_eq V c t) covered0_6

/-- The statistics payload of the blocks at point `t` is tile `t` of the whole result's tile statistics. -/
theorem stats_at0 (c : Dev nD) (t : Fin cfg0.N) (y : S1x8x128.Idx) (i : S10x8x128.Idx)
    (hi0 : (i 0).val = t.val) (hi1 : (i 1).val = (y 1).val) (hi2 : (i 2).val = (y 2).val) :
    k0_pay2 (iblk0 V c 0 t) (iblk0 V c 1 t) (iblk0 V c 2 t) (iblk0 V c 3 t) (iblk0 V c 4 t) (iblk0 V c 5 t) y
      = tileStats (hOf0 V c) i := by
  have hN : cfg0.N = 10 := N_0
  have ht : t.val < 10 := by have := t.isLt; omega
  rw [pay2_eq]
  refine stats_block (hOf0 V c) _ ⟨t.val, ht⟩ y i hi0 hi1 hi2 fun r q => ?_
  exact dense_at0 V c t (ix2 r q) (ix2 (tileRow ⟨t.val, ht⟩ r) q) rfl rfl

/-- What point `t` writes back to the statistics output is tile `t` of the tile statistics. -/
theorem flushed0_7_eq (c : Dev nD) (t : Fin cfg0.N) :
    (dat0 V c).flushed 7 t = ((cfg0.win 7).blk t).view.read (Elt Ideal) (tileStats (hOf0 V c)) := by
  show (cfg0.win 7).cut (grid0.coords t) ((dat0 V c).after 7 t) = _
  rw [after0_7]
  unfold out0_7
  rw [View.canon_unit_zero hz3]
  simp only [View.ld_unit_zero (S := S5000x128) hz2, View.ld_unit_zero (S := S128x128) hz2, View.ld_unit_zero (S := S1x128) hz2]
  obtain ⟨-, -, -, -, -, -, -, -, -, -, -, -, -, -, e0, e1, e2⟩ := idx_facts0 t
  funext y
  show k0_pay2 (iblk0 V c 0 t) (iblk0 V c 1 t) (iblk0 V c 2 t) (iblk0 V c 3 t) (iblk0 V c 4 t) (iblk0 V c 5 t) y
    = tileStats (hOf0 V c) (((cfg0.win 7).blk t).view.emb y)
  have hy0 : (y 0).val < 1 := (y 0).isLt
  refine stats_at0 V c t y _ ?_ ?_ ?_
  · show win0_7.index t (0 : Fin 3) * 1 + 1 * (y 0).val = t.val; omega
  · show win0_7.index t (1 : Fin 3) * 8 + 1 * (y 1).val = (y 1).val; omega
  · show win0_7.index t (2 : Fin 3) * 128 + 1 * (y 2).val = (y 2).val; omega

/-- An index is in point `t`'s block iff each coordinate is in the block's range on its axis. -/
theorem mem_blk0_7 (t : Fin cfg0.N) (i : S10x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v26_1).slice (win0_7.rect t)).set ↔ _
  rw [View.set_slice_whole, Rect.mem_set_unit]
  exact Iff.rfl

/-- Tile `a` of the statistics array is the block of point `a`. -/
theorem covered0_7 (i : S10x8x128.Idx) : ∃ t : Fin cfg0.N, (cfg0.win 7).flush t = true ∧ i ∈ ((cfg0.win 7).blk t).view.set := by
  have hi0 : (i 0).val < 10 := (i 0).isLt
  have hi1 : (i 1).val < 8 := (i 1).isLt
  have hi2 : (i 2).val < 128 := (i 2).isLt
  have hN : cfg0.N = 10 := N_0
  have hlt : (i 0).val < cfg0.N := by rw [hN]; omega
  obtain ⟨-, -, -, -, -, -, -, -, -, -, -, -, -, -, e0, e1, e2⟩ := idx_facts0 ⟨(i 0).val, hlt⟩
  refine ⟨⟨(i 0).val, hlt⟩, flush0_7 _, ?_⟩
  rw [mem_blk0_7]
  intro a
  match a with
  | ⟨0, _⟩ =>
    show win0_7.index ⟨(i 0).val, hlt⟩ (0 : Fin 3) * 1 ≤ (i 0).val ∧ (i 0).val < win0_7.index ⟨(i 0).val, hlt⟩ (0 : Fin 3) * 1 + 1
    rw [e0]; show (i 0).val * 1 ≤ (i 0).val ∧ (i 0).val < (i 0).val * 1 + 1; omega
  | ⟨1, _⟩ =>
    show win0_7.index ⟨(i 0).val, hlt⟩ (1 : Fin 3) * 8 ≤ (i 1).val ∧ (i 1).val < win0_7.index ⟨(i 0).val, hlt⟩ (1 : Fin 3) * 8 + 8
    rw [e1]; omega
  | ⟨2, _⟩ =>
    show win0_7.index ⟨(i 0).val, hlt⟩ (2 : Fin 3) * 128 ≤ (i 2).val ∧ (i 2).val < win0_7.index ⟨(i 0).val, hlt⟩ (2 : Fin 3) * 128 + 128
    rw [e2]; omega

/-- After the region the statistics array is the tile statistics of the dense result. -/
theorem stats_region0 (c : Dev nD) : (dat0 V c).arrAt 7 cfg0.N = tileStats (hOf0 V c) :=
  (dat0 V c).arrAt_eq_of_cover 7 (tileStats (hOf0 V c)) (fun t _ => flushed0_7_eq V c t) covered0_7

end Cert.KernelIdeal.RegionValue

end
-- ==== Proof.RegionNorm.lean ====
/-
  The normalisation kernel's arithmetic on one block of rows.

  The kernel body reads a block of 5000 rows of 128 columns and four one-row arrays (a mean, a variance, a gain and
  an offset per column), and stores, entry by entry, the maximum of zero and
  ((x − mean) · rsqrt(variance + eps) · gain) + offset, every one-row array laid along the block's rows.  That is the
  column normalisation followed by the cut at zero, at 5000 rows, with the four rows read as vectors.
-/
import proofs.«141774_j48919677501954_2_alg».proof.Proof.Gen.KernelIdeal.Skeleton
import proofs.«141774_j48919677501954_2_alg».proof.Proof.Spec
import Idealize.ShloMosaic.Lib.Pipeline.Value
import Idealize.ShloMosaic.Lib.ValueLayout

noncomputable section

namespace Cert.KernelIdeal.RegionValue

open Idealize.ShloMosaic Idealize.ShloMosaic.ValueIdx Cert.KernelIdeal Cert.KernelIdeal.Gen

/-- The body's stored value at row `r`, column `q` of the block: the block's entry centred by the mean row's entry
    `q`, scaled by the reciprocal root of the variance row's entry `q` plus the stabiliser, by the gain, shifted by
    the offset, and cut at zero. -/
theorem pay_apply (x : Vec Ideal S5000x128 .f32) (mu va ga be : Vec Ideal S1x128 .f32) (r : Fin 5000) (q : Fin 128) :
    k1_pay1 (F := Ideal) x mu va ga be (ix2 r q)
      = max (((x (ix2 r q) - mu (ix2 (0 : Fin 1) q)) * Ideal.rsqrt (va (ix2 (0 : Fin 1) q) + Cert.Gin.eps))
          * ga (ix2 (0 : Fin 1) q) + be (ix2 (0 : Fin 1) q)) 0 := by
  unfold k1_pay1
  simp only [shapeCast_self]
  show max (((x (ix2 r q) - broadcastTo S5000x128 mu broadcasts_S1x128_S5000x128 (ix2 r q))
      * broadcastTo S5000x128 (rsqrt (addf va (broadcast S1x128 (Scalar.ofBits (F := Ideal) .f32 0x3727C5AC#32)))) broadcasts_S1x128_S5000x128 (ix2 r q))
      * broadcastTo S5000x128 ga broadcasts_S1x128_S5000x128 (ix2 r q)
      + broadcastTo S5000x128 be broadcasts_S1x128_S5000x128 (ix2 r q)) (Ideal.ofBits .f32 0x00000000#32) = _
  rw [broadcastTo_1b_ab_apply, broadcastTo_1b_ab_apply, broadcastTo_1b_ab_apply, broadcastTo_1b_ab_apply,
    Ideal.ofBits_zero_f32]
  rfl

/-- The body's stored block is the column normalisation and cut at zero of the block it read, with the four
    one-row arrays read as vectors. -/
theorem pay_eq (x : Vec Ideal S5000x128 .f32) (mu va ga be : Vec Ideal S1x128 .f32) :
    k1_pay1 (F := Ideal) x mu va ga be
      = Cert.Sage.bnRelu (N := 5000) (C := 128) Cert.Gin.eps x (Cert.Sage.rowVec mu) (Cert.Sage.rowVec va)
          (Cert.Sage.rowVec ga) (Cert.Sage.rowVec be) := by
  funext i
  obtain ⟨r, q, rfl⟩ : ∃ (r : Fin 5000) (q : Fin 128), i = ix2 r q := ⟨i 0, i 1, eq_ix2 i⟩
  exact pay_apply x mu va ga be r q

/-- The normalisation of a block of rows is the block of the normalisation of the whole array: an entry depends on
    the array's entry at the same place and on the four rows at the entry's column, so a block entry that is the
    array's entry `i` of the same column, under the same four rows, is normalised to the whole array's result at `i`. -/
theorem bnRelu_block {X : Cert.Sage.Mat 50000 128} {x : Cert.Sage.Mat 5000 128}
    {M m Va va Ga ga Be be : Cert.Sage.Mat 1 128} (j : S5000x128.Idx) (i : S50000x128.Idx)
    (hx : x j = X i) (hq : (j 1).val = (i 1).val) (hm : m = M) (hv : va = Va) (hg : ga = Ga) (hb : be = Be) :
    Cert.Sage.bnRelu (N := 5000) (C := 128) Cert.Gin.eps x (Cert.Sage.rowVec m) (Cert.Sage.rowVec va)
        (Cert.Sage.rowVec ga) (Cert.Sage.rowVec be) j
      = Cert.Sage.bnRelu (N := 50000) (C := 128) Cert.Gin.eps X (Cert.Sage.rowVec M) (Cert.Sage.rowVec Va)
        (Cert.Sage.rowVec Ga) (Cert.Sage.rowVec Be) i := by
  subst hm hv hg hb
  obtain ⟨r, q, rfl⟩ : ∃ (r : Fin 5000) (q : Fin 128), j = ix2 r q := ⟨j 0, j 1, eq_ix2 j⟩
  obtain ⟨R, q', rfl⟩ : ∃ (R : Fin 50000) (q' : Fin 128), i = ix2 R q' := ⟨i 0, i 1, eq_ix2 i⟩
  obtain rfl : q = q' := Fin.ext hq
  show max (((x (ix2 r q) - _) * _) * _ + _) 0 = max (((X (ix2 R q) - _) * _) * _ + _) 0
  rw [hx]

/-- The three launches of the normalisation kernel store the same term. -/
theorem k3_pay1_eq : @k3_pay1 = @k1_pay1 := rfl
theorem k5_pay1_eq : @k5_pay1 = @k1_pay1 := rfl

end Cert.KernelIdeal.RegionValue

end
-- ==== Proof.Region1.lean ====
/-
  The normalisation kernel's output array, read whole.

  The launch cuts the 50000 rows into 10 blocks of 5000.  At point t the body reads block t of the input array and
  the four one-row arrays whole, and writes block t of the output array; its stored block is the column
  normalisation and cut at zero of the block it read.  Since an entry of the normalised array depends only on the
  input's entry at the same place and on the four rows at the entry's column, every block written back is the
  block of ONE whole-array function, and the blocks cover the array: row r lies in the block of point r / 5000.
-/
import proofs.«141774_j48919677501954_2_alg».proof.Proof.Gen.KernelIdeal.Frame
import proofs.«141774_j48919677501954_2_alg».proof.Proof.Spec
import proofs.«141774_j48919677501954_2_alg».proof.Proof.RegionNorm
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off1 : (![0, 0] : Fin 2 → Nat) = fun _ => 0 := funext fun a => by fin_cases a <;> rfl

/-- The whole output array: the input array normalised per column with the four one-row arrays, cut at zero. -/
abbrev normed1 (c : Dev nD) : S50000x128.Idx → EReal :=
  Cert.Sage.bnRelu (N := 50000) (C := 128) Cert.Gin.eps (V c (Pipeline.arrRef spec1 0))
    (Cert.Sage.rowVec (V c (Pipeline.arrRef spec1 1))) (Cert.Sage.rowVec (V c (Pipeline.arrRef spec1 2)))
    (Cert.Sage.rowVec (V c (Pipeline.arrRef spec1 3))) (Cert.Sage.rowVec (V c (Pipeline.arrRef spec1 4)))

/-- The index maps over the grid: the input's and the output's block at point `t` is block (t, 0); the four row
    windows' block is always (0, 0). -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A row window's block at any point is its whole array. -/
theorem row_block1_1 (c : Dev nD) (t : Fin cfg1.N) :
    (iblk1 V c 1 t : S1x128.Idx → EReal) = (V c (Pipeline.arrRef spec1 1) : S1x128.Idx → EReal) := by
  obtain ⟨-, -, -, -, e0, e1, -⟩ := idx_facts1 t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

theorem row_block1_2 (c : Dev nD) (t : Fin cfg1.N) :
    (iblk1 V c 2 t : S1x128.Idx → EReal) = (V c (Pipeline.arrRef spec1 2) : S1x128.Idx → EReal) := by
  obtain ⟨-, -, -, -, -, -, e0, e1, -⟩ := idx_facts1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem row_block1_3 (c : Dev nD) (t : Fin cfg1.N) :
    (iblk1 V c 3 t : S1x128.Idx → EReal) = (V c (Pipeline.arrRef spec1 3) : S1x128.Idx → EReal) := by
  obtain ⟨-, -, -, -, -, -, -, -, e0, e1, -⟩ := idx_facts1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem row_block1_4 (c : Dev nD) (t : Fin cfg1.N) :
    (iblk1 V c 4 t : S1x128.Idx → EReal) = (V c (Pipeline.arrRef spec1 4) : S1x128.Idx → EReal) := by
  obtain ⟨-, -, -, -, -, -, -, -, -, -, e0, e1⟩ := idx_facts1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The input window's block at point `t` holds, at `j`, the input array's entry under the OUTPUT window's block at
    `j`: the two windows move together. -/
theorem in_block1 (c : Dev nD) (t : Fin cfg1.N) (j : S5000x128.Idx) :
    (iblk1 V c 0 t : S5000x128.Idx → EReal) j
      = (V c (Pipeline.arrRef spec1 0) : S50000x128.Idx → EReal) (((cfg1.win 5).blk t).view.emb j) := by
  obtain ⟨e0, e1, e2, e3, -⟩ := idx_facts1 t
  show V c (Pipeline.arrRef spec1 0) (((cfg1.win 0).blk t).view.emb j) = V c (Pipeline.arrRef spec1 0) (((cfg1.win 5).blk t).view.emb j)
  refine congrArg _ (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * (j 1).val = win1_5.index t (1 : Fin 2) * 128 + 1 * (j 1).val; omega

/-- What point `t` writes back is block `t` of the normalised array. -/
theorem flushed1_eq (c : Dev nD) (t : Fin cfg1.N) :
    (dat1 V c).flushed 5 t = ((cfg1.win 5).blk t).view.read (Elt Ideal) (normed1 V c) := by
  show (cfg1.win 5).cut (grid1.coords t) ((dat1 V c).after 5 t) = _
  rw [after1_5]
  unfold out1_5
  rw [View.canon_unit_zero zero_off1]
  simp only [View.ld_unit_zero (S := S5000x128) zero_off1, View.ld_unit_zero (S := S1x128) zero_off1]
  rw [pay_eq]
  obtain ⟨-, -, -, e3, -⟩ := idx_facts1 t
  funext j
  refine bnRelu_block j (((cfg1.win 5).blk t).view.emb j) (in_block1 V c t j) ?_
    (row_block1_1 V c t) (row_block1_2 V c t) (row_block1_3 V c t) (row_block1_4 V c t)
  show (j 1).val = win1_5.index t (1 : Fin 2) * 128 + 1 * (j 1).val
  omega

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Row `r` of the array is in the block of point `r / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk1]
  obtain ⟨-, -, e2, e3, -⟩ := idx_facts1 ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e2]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e3]; omega

/-- THE OUTPUT ARRAY after the launch: the input array normalised per column with the four one-row arrays as the
    launch finds them, cut at zero. -/
theorem out_region1 (c : Dev nD) : (Gen.dat1 V c).arrAt 5 cfg1.N
    = Cert.Sage.bnRelu (N := 50000) (C := 128) Cert.Gin.eps (V c (Pipeline.arrRef spec1 0))
        (Cert.Sage.rowVec (V c (Pipeline.arrRef spec1 1))) (Cert.Sage.rowVec (V c (Pipeline.arrRef spec1 2)))
        (Cert.Sage.rowVec (V c (Pipeline.arrRef spec1 3))) (Cert.Sage.rowVec (V c (Pipeline.arrRef spec1 4))) :=
  (dat1 V c).arrAt_eq_of_cover 5 (normed1 V c) (fun t _ => flushed1_eq V c t) (cover1)

end Cert.KernelIdeal.RegionValue

end
-- ==== Proof.Region2.lean ====
/-
  The second dense-and-statistics region, read as whole arrays. The region cuts the 50000 rows into 10 blocks of 5000;
  at point `t` it reads rows `5000 t` to `5000 t + 4999` of the two row operands and the whole of the two weight
  matrices and the two one-row biases, and writes the block's dense result and the block's column statistics. An
  entry of the dense result depends only on its row of the operands, so block `t` of the output is block `t` of ONE
  function of the whole arrays (`hOf2`); the blocks cover the array (row `r` lies in block `r / 5000`), so the
  array ends holding that function. The block's statistics are the tile statistics of that function at tile `t`,
  and tile `t` of the statistics array is the block of point `t`.
-/
import proofs.«141774_j48919677501954_2_alg».proof.Proof.Gen.KernelIdeal.Frame
import proofs.«141774_j48919677501954_2_alg».proof.Proof.Spec
import proofs.«141774_j48919677501954_2_alg».proof.Proof.RegionDense
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLib Cert.RowNorm Cert.Sage Cert.Gin

variable (V : (c : Dev nD) → (b : Ref sig .tc) → Buf (Elt Ideal) ((c : Thread nD τ).loc b))

/-- The region's dense result as one function of the arrays the region finds. -/
def hOf2 (c : Dev nD) : Mat 50000 128 :=
  mlp (plus (V c (Pipeline.arrRef spec2 0)) (V c (Pipeline.arrRef spec2 1))) (V c (Pipeline.arrRef spec2 2))
    (fun q => V c (Pipeline.arrRef spec2 3) (ix2 (0 : Fin 1) q)) (V c (Pipeline.arrRef spec2 4))
    (fun q => V c (Pipeline.arrRef spec2 5) (ix2 (0 : Fin 1) q))

/-- The printed index maps over the grid: the row-blocked windows move with the point, the others stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0 :=
  (by decide +kernel : ∀ t : Fin grid2.N, _)

/-- The first row operand's block at point `t` is rows `5000 t` on of its array. -/
theorem rows2_0 (c : Dev nD) (t : Fin cfg2.N) (r : Fin 5000) (k : Fin 128) (p : Fin 50000) (hp : p.val = t.val * 5000 + r.val) :
    (iblk2 V c 0 t : Vec Ideal S5000x128 .f32) (ix2 r k) = (V c (Pipeline.arrRef spec2 0) : S50000x128.Idx → EReal) (ix2 p k) := by
  obtain ⟨e0, e1, -⟩ := idx_facts2 t
  unfold iblk2
  rw [View.read_apply]
  show (V c (Pipeline.arrRef spec2 0) : S50000x128.Idx → EReal) _ = _
  refine congrArg _ (funext fun a => Fin.ext ?_)
  match a with
  | ⟨0, _⟩ => show win2_0.index t (0 : Fin 2) * 5000 + 1 * r.val = p.val; omega
  | ⟨1, _⟩ => show win2_0.index t (1 : Fin 2) * 128 + 1 * k.val = k.val; omega

/-- The second row operand's block likewise. -/
theorem rows2_1 (c : Dev nD) (t : Fin cfg2.N) (r : Fin 5000) (k : Fin 128) (p : Fin 50000) (hp : p.val = t.val * 5000 + r.val) :
    (iblk2 V c 1 t : Vec Ideal S5000x128 .f32) (ix2 r k) = (V c (Pipeline.arrRef spec2 1) : S50000x128.Idx → EReal) (ix2 p k) := by
  obtain ⟨-, -, e0, e1, -⟩ := idx_facts2 t
  unfold iblk2
  rw [View.read_apply]
  show (V c (Pipeline.arrRef spec2 1) : S50000x128.Idx → EReal) _ = _
  refine congrArg _ (funext fun a => Fin.ext ?_)
  match a with
  | ⟨0, _⟩ => show win2_1.index t (0 : Fin 2) * 5000 + 1 * r.val = p.val; omega
  | ⟨1, _⟩ => show win2_1.index t (1 : Fin 2) * 128 + 1 * k.val = k.val; omega

/-- The weights and biases are staged whole: their one block is the array. -/
theorem whole2_2 (c : Dev nD) (t : Fin cfg2.N) :
    (iblk2 V c 2 t : Vec Ideal S128x128 .f32) = (V c (Pipeline.arrRef spec2 2) : S128x128.Idx → EReal) := by
  obtain ⟨-, -, -, -, e0, e1, -⟩ := idx_facts2 t
  funext k
  unfold iblk2
  rw [View.read_apply]
  show (V c (Pipeline.arrRef spec2 2) : S128x128.Idx → EReal) _ = _
  refine congrArg _ (funext fun a => Fin.ext ?_)
  match a with
  | ⟨0, _⟩ => show win2_2.index t (0 : Fin 2) * 128 + 1 * (k 0).val = (k 0).val; omega
  | ⟨1, _⟩ => show win2_2.index t (1 : Fin 2) * 128 + 1 * (k 1).val = (k 1).val; omega

theorem whole2_3 (c : Dev nD) (t : Fin cfg2.N) :
    (iblk2 V c 3 t : Vec Ideal S1x128 .f32) = (V c (Pipeline.arrRef spec2 3) : S1x128.Idx → EReal) := by
  obtain ⟨-, -, -, -, -, -, e0, e1, -⟩ := idx_facts2 t
  funext k
  unfold iblk2
  rw [View.read_apply]
  show (V c (Pipeline.arrRef spec2 3) : S1x128.Idx → EReal) _ = _
  refine congrArg _ (funext fun a => Fin.ext ?_)
  match a with
  | ⟨0, _⟩ => show win2_3.index t (0 : Fin 2) * 1 + 1 * (k 0).val = (k 0).val; omega
  | ⟨1, _⟩ => show win2_3.index t (1 : Fin 2) * 128 + 1 * (k 1).val = (k 1).val; omega

theorem whole2_4 (c : Dev nD) (t : Fin cfg2.N) :
    (iblk2 V c 4 t : Vec Ideal S128x128 .f32) = (V c (Pipeline.arrRef spec2 4) : S128x128.Idx → EReal) := by
  obtain ⟨-, -, -, -, -, -, -, -, e0, e1, -⟩ := idx_facts2 t
  funext k
  unfold iblk2
  rw [View.read_apply]
  show (V c (Pipeline.arrRef spec2 4) : S128x128.Idx → EReal) _ = _
  refine congrArg _ (funext fun a => Fin.ext ?_)
  match a with
  | ⟨0, _⟩ => show win2_4.index t (0 : Fin 2) * 128 + 1 * (k 0).val = (k 0).val; omega
  | ⟨1, _⟩ => show win2_4.index t (1 : Fin 2) * 128 + 1 * (k 1).val = (k 1).val; omega

theorem whole2_5 (c : Dev nD) (t : Fin cfg2.N) :
    (iblk2 V c 5 t : Vec Ideal S1x128 .f32) = (V c (Pipeline.arrRef spec2 5) : S1x128.Idx → EReal) := by
  obtain ⟨-, -, -, -, -, -, -, -, -, -, e0, e1, -⟩ := idx_facts2 t
  funext k
  unfold iblk2
  rw [View.read_apply]
  show (V c (Pipeline.arrRef spec2 5) : S1x128.Idx → EReal) _ = _
  refine congrArg _ (funext fun a => Fin.ext ?_)
  match a with
  | ⟨0, _⟩ => show win2_5.index t (0 : Fin 2) * 1 + 1 * (k 0).val = (k 0).val; omega
  | ⟨1, _⟩ => show win2_5.index t (1 : Fin 2) * 128 + 1 * (k 1).val = (k 1).val; omega

/-- The dense payload of the blocks at point `t`, entry by entry, is the whole arrays' dense result on rows
    `5000 t` to `5000 t + 4999`. -/
theorem dense_at2 (c : Dev nD) (t : Fin cfg2.N) (y : S5000x128.Idx) (i : S50000x128.Idx)
    (hi0 : (i 0).val = t.val * 5000 + (y 0).val) (hi1 : (i 1).val = (y 1).val) :
    k2_pay2 (iblk2 V c 0 t) (iblk2 V c 1 t) (iblk2 V c 2 t) (iblk2 V c 3 t) (iblk2 V c 4 t) (iblk2 V c 5 t) y = hOf2 V c i := by
  rw [dense2_eq, whole2_2 V c t, whole2_3 V c t, whole2_4 V c t, whole2_5 V c t]
  unfold hOf2
  exact mlp_block _ _ _ _ _ _ _ _ (t.val * 5000) y i hi0 hi1 (rows2_0 V c t) (rows2_1 V c t)

/-- What point `t` writes back to the dense output is block `t` of the whole arrays' dense result. -/
theorem flushed2_6_eq (c : Dev nD) (t : Fin cfg2.N) :
    (dat2 V c).flushed 6 t = ((cfg2.win 6).blk t).view.read (Elt Ideal) (hOf2 V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S1x128) hz2]
  obtain ⟨-, -, -, -, -, -, -, -, -, -, -, -, e0, e1, -⟩ := idx_facts2 t
  funext y
  show k2_pay2 (iblk2 V c 0 t) (iblk2 V c 1 t) (iblk2 V c 2 t) (iblk2 V c 3 t) (iblk2 V c 4 t) (iblk2 V c 5 t) y
    = hOf2 V c (((cfg2.win 6).blk t).view.emb y)
  refine dense_at2 V c t y _ ?_ ?_
  · show win2_6.index t (0 : Fin 2) * 5000 + 1 * (y 0).val = t.val * 5000 + (y 0).val; omega
  · show win2_6.index t (1 : Fin 2) * 128 + 1 * (y 1).val = (y 1).val; omega

/-- An index is in point `t`'s block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v80_0).slice (win2_6.rect t)).set ↔ _
  rw [View.set_slice_whole, Rect.mem_set_unit]
  exact Iff.rfl

/-- Row `r` lies in the block of point `r / 5000`. -/
theorem covered2_6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, -, -, -, -, -, -, -, -, -, -, e0, e1, -⟩ := idx_facts2 ⟨(i 0).val / 5000, hlt⟩
  refine ⟨⟨(i 0).val / 5000, hlt⟩, flush2_6 _, ?_⟩
  rw [mem_blk2_6]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 128 ≤ (i 1).val ∧ (i 1).val < win2_6.index ⟨(i 0).val / 5000, hlt⟩ (1 : Fin 2) * 128 + 128
    rw [e1]; omega

/-- After the region the dense output array is the whole arrays' dense result. -/
theorem h_region2 (c : Dev nD) : (dat2 V c).arrAt 6 cfg2.N = hOf2 V c :=
  (dat2 V c).arrAt_eq_of_cover 6 (hOf2 V c) (fun t _ => flushed2_6_eq V c t) covered2_6

/-- The statistics payload of the blocks at point `t` is tile `t` of the whole result's tile statistics. -/
theorem stats_at2 (c : Dev nD) (t : Fin cfg2.N) (y : S1x8x128.Idx) (i : S10x8x128.Idx)
    (hi0 : (i 0).val = t.val) (hi1 : (i 1).val = (y 1).val) (hi2 : (i 2).val = (y 2).val) :
    k2_pay1 (k2_pay3 (iblk2 V c 0 t) (iblk2 V c 1 t) (iblk2 V c 2 t) (iblk2 V c 3 t) (iblk2 V c 4 t) (iblk2 V c 5 t)) y
      = tileStats (hOf2 V c) i := by
  have hN : cfg2.N = 10 := N_2
  have ht : t.val < 10 := by have := t.isLt; omega
  rw [stats2_eq]
  refine stats_block (hOf2 V c) _ ⟨t.val, ht⟩ y i hi0 hi1 hi2 fun r q => ?_
  exact dense_at2 V c t (ix2 r q) (ix2 (tileRow ⟨t.val, ht⟩ r) q) rfl rfl

/-- What point `t` writes back to the statistics output is tile `t` of the tile statistics. -/
theorem flushed2_7_eq (c : Dev nD) (t : Fin cfg2.N) :
    (dat2 V c).flushed 7 t = ((cfg2.win 7).blk t).view.read (Elt Ideal) (tileStats (hOf2 V c)) := by
  show (cfg2.win 7).cut (grid2.coords t) ((dat2 V c).after 7 t) = _
  rw [after2_7]
  unfold out2_7
  rw [View.canon_unit_zero hz3]
  simp only [View.ld_unit_zero (S := S5000x128) hz2, View.ld_unit_zero (S := S128x128) hz2, View.ld_unit_zero (S := S1x128) hz2]
  obtain ⟨-, -, -, -, -, -, -, -, -, -, -, -, -, -, e0, e1, e2⟩ := idx_facts2 t
  funext y
  show k2_pay1 (k2_pay3 (iblk2 V c 0 t) (iblk2 V c 1 t) (iblk2 V c 2 t) (iblk2 V c 3 t) (iblk2 V c 4 t) (iblk2 V c 5 t)) y
    = tileStats (hOf2 V c) (((cfg2.win 7).blk t).view.emb y)
  have hy0 : (y 0).val < 1 := (y 0).isLt
  refine stats_at2 V c t y _ ?_ ?_ ?_
  · show win2_7.index t (0 : Fin 3) * 1 + 1 * (y 0).val = t.val; omega
  · show win2_7.index t (1 : Fin 3) * 8 + 1 * (y 1).val = (y 1).val; omega
  · show win2_7.index t (2 : Fin 3) * 128 + 1 * (y 2).val = (y 2).val; omega

/-- An index is in point `t`'s block iff each coordinate is in the block's range on its axis. -/
theorem mem_blk2_7 (t : Fin cfg2.N) (i : S10x8x128.Idx) :
    i ∈ ((cfg2.win 7).blk t).view.set ↔ ∀ a : Fin 3, win2_7.index t a * S1x8x128.size a ≤ (i a).val ∧ (i a).val < win2_7.index t a * S1x8x128.size a + S1x8x128.size a := by
  show i ∈ ((View.whole main_v80_1).slice (win2_7.rect t)).set ↔ _
  rw [View.set_slice_whole, Rect.mem_set_unit]
  exact Iff.rfl

/-- Tile `a` of the statistics array is the block of point `a`. -/
theorem covered2_7 (i : S10x8x128.Idx) : ∃ t : Fin cfg2.N, (cfg2.win 7).flush t = true ∧ i ∈ ((cfg2.win 7).blk t).view.set := by
  have hi0 : (i 0).val < 10 := (i 0).isLt
  have hi1 : (i 1).val < 8 := (i 1).isLt
  have hi2 : (i 2).val < 128 := (i 2).isLt
  have hN : cfg2.N = 10 := N_2
  have hlt : (i 0).val < cfg2.N := by rw [hN]; omega
  obtain ⟨-, -, -, -, -, -, -, -, -, -, -, -, -, -, e0, e1, e2⟩ := idx_facts2 ⟨(i 0).val, hlt⟩
  refine ⟨⟨(i 0).val, hlt⟩, flush2_7 _, ?_⟩
  rw [mem_blk2_7]
  intro a
  match a with
  | ⟨0, _⟩ =>
    show win2_7.index ⟨(i 0).val, hlt⟩ (0 : Fin 3) * 1 ≤ (i 0).val ∧ (i 0).val < win2_7.index ⟨(i 0).val, hlt⟩ (0 : Fin 3) * 1 + 1
    rw [e0]; show (i 0).val * 1 ≤ (i 0).val ∧ (i 0).val < (i 0).val * 1 + 1; omega
  | ⟨1, _⟩ =>
    show win2_7.index ⟨(i 0).val, hlt⟩ (1 : Fin 3) * 8 ≤ (i 1).val ∧ (i 1).val < win2_7.index ⟨(i 0).val, hlt⟩ (1 : Fin 3) * 8 + 8
    rw [e1]; omega
  | ⟨2, _⟩ =>
    show win2_7.index ⟨(i 0).val, hlt⟩ (2 : Fin 3) * 128 ≤ (i 2).val ∧ (i 2).val < win2_7.index ⟨(i 0).val, hlt⟩ (2 : Fin 3) * 128 + 128
    rw [e2]; omega

/-- After the region the statistics array is the tile statistics of the dense result. -/
theorem stats_region2 (c : Dev nD) : (dat2 V c).arrAt 7 cfg2.N = tileStats (hOf2 V c) :=
  (dat2 V c).arrAt_eq_of_cover 7 (tileStats (hOf2 V c)) (fun t _ => flushed2_7_eq V c t) covered2_7

end Cert.KernelIdeal.RegionValue

end
-- ==== Proof.Region3.lean ====
/-
  The normalisation kernel's output array, read whole.

  The launch cuts the 50000 rows into 10 blocks of 5000.  At point t the body reads block t of the input array and
  the four one-row arrays whole, and writes block t of the output array; its stored block is the column
  normalisation and cut at zero of the block it read.  Since an entry of the normalised array depends only on the
  input's entry at the same place and on the four rows at the entry's column, every block written back is the
  block of ONE whole-array function, and the blocks cover the array: row r lies in the block of point r / 5000.
-/
import proofs.«141774_j48919677501954_2_alg».proof.Proof.Gen.KernelIdeal.Frame
import proofs.«141774_j48919677501954_2_alg».proof.Proof.Spec
import proofs.«141774_j48919677501954_2_alg».proof.Proof.RegionNorm
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off3 : (![0, 0] : Fin 2 → Nat) = fun _ => 0 := funext fun a => by fin_cases a <;> rfl

/-- The whole output array: the input array normalised per column with the four one-row arrays, cut at zero. -/
abbrev normed3 (c : Dev nD) : S50000x128.Idx → EReal :=
  Cert.Sage.bnRelu (N := 50000) (C := 128) Cert.Gin.eps (V c (Pipeline.arrRef spec3 0))
    (Cert.Sage.rowVec (V c (Pipeline.arrRef spec3 1))) (Cert.Sage.rowVec (V c (Pipeline.arrRef spec3 2)))
    (Cert.Sage.rowVec (V c (Pipeline.arrRef spec3 3))) (Cert.Sage.rowVec (V c (Pipeline.arrRef spec3 4)))

/-- The index maps over the grid: the input's and the output's block at point `t` is block (t, 0); the four row
    windows' block is always (0, 0). -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- A row window's block at any point is its whole array. -/
theorem row_block3_1 (c : Dev nD) (t : Fin cfg3.N) :
    (iblk3 V c 1 t : S1x128.Idx → EReal) = (V c (Pipeline.arrRef spec3 1) : S1x128.Idx → EReal) := by
  obtain ⟨-, -, -, -, e0, e1, -⟩ := idx_facts3 t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

theorem row_block3_2 (c : Dev nD) (t : Fin cfg3.N) :
    (iblk3 V c 2 t : S1x128.Idx → EReal) = (V c (Pipeline.arrRef spec3 2) : S1x128.Idx → EReal) := by
  obtain ⟨-, -, -, -, -, -, e0, e1, -⟩ := idx_facts3 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

theorem row_block3_3 (c : Dev nD) (t : Fin cfg3.N) :
    (iblk3 V c 3 t : S1x128.Idx → EReal) = (V c (Pipeline.arrRef spec3 3) : S1x128.Idx → EReal) := by
  obtain ⟨-, -, -, -, -, -, -, -, e0, e1, -⟩ := idx_facts3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

theorem row_block3_4 (c : Dev nD) (t : Fin cfg3.N) :
    (iblk3 V c 4 t : S1x128.Idx → EReal) = (V c (Pipeline.arrRef spec3 4) : S1x128.Idx → EReal) := by
  obtain ⟨-, -, -, -, -, -, -, -, -, -, e0, e1⟩ := idx_facts3 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The input window's block at point `t` holds, at `j`, the input array's entry under the OUTPUT window's block at
    `j`: the two windows move together. -/
theorem in_block3 (c : Dev nD) (t : Fin cfg3.N) (j : S5000x128.Idx) :
    (iblk3 V c 0 t : S5000x128.Idx → EReal) j
      = (V c (Pipeline.arrRef spec3 0) : S50000x128.Idx → EReal) (((cfg3.win 5).blk t).view.emb j) := by
  obtain ⟨e0, e1, e2, e3, -⟩ := idx_facts3 t
  show V c (Pipeline.arrRef spec3 0) (((cfg3.win 0).blk t).view.emb j) = V c (Pipeline.arrRef spec3 0) (((cfg3.win 5).blk t).view.emb j)
  refine congrArg _ (funext fun a => Fin.ext ?_)
  match a with
  | ⟨0, _⟩ => show win3_0.index t (0 : Fin 2) * 5000 + 1 * (j 0).val = win3_5.index t (0 : Fin 2) * 5000 + 1 * (j 0).val; omega
  | ⟨1, _⟩ => show win3_0.index t (1 : Fin 2) * 128 + 1 * (j 1).val = win3_5.index t (1 : Fin 2) * 128 + 1 * (j 1).val; omega

/-- What point `t` writes back is block `t` of the normalised array. -/
theorem flushed3_eq (c : Dev nD) (t : Fin cfg3.N) :
    (dat3 V c).flushed 5 t = ((cfg3.win 5).blk t).view.read (Elt Ideal) (normed3 V c) := by
  show (cfg3.win 5).cut (grid3.coords t) ((dat3 V c).after 5 t) = _
  rw [after3_5]
  unfold out3_5
  rw [View.canon_unit_zero zero_off3]
  simp only [View.ld_unit_zero (S := S5000x128) zero_off3, View.ld_unit_zero (S := S1x128) zero_off3]
  rw [k3_pay1_eq, pay_eq]
  obtain ⟨-, -, -, e3, -⟩ := idx_facts3 t
  funext j
  refine bnRelu_block j (((cfg3.win 5).blk t).view.emb j) (in_block3 V c t j) ?_
    (row_block3_1 V c t) (row_block3_2 V c t) (row_block3_3 V c t) (row_block3_4 V c t)
  show (j 1).val = win3_5.index t (1 : Fin 2) * 128 + 1 * (j 1).val
  omega

/-- An index of the array is in point `t`'s block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- Row `r` of the array is in the block of point `r / 5000`. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_5 _, ?_⟩
  rw [mem_blk3]
  obtain ⟨-, -, e2, e3, -⟩ := idx_facts3 ⟨(i 0).val / 5000, by rw [hN]; omega⟩
  intro a
  match a with
  | ⟨0, _⟩ =>
    show win3_5.index ⟨(i 0).val / 5000, _⟩ (0 : Fin 2) * 5000 ≤ (i 0).val ∧ (i 0).val < win3_5.index ⟨(i 0).val / 5000, _⟩ (0 : Fin 2) * 5000 + 5000
    rw [e2]; show (i 0).val / 5000 * 5000 ≤ (i 0).val ∧ (i 0).val < (i 0).val / 5000 * 5000 + 5000; omega
  | ⟨1, _⟩ =>
    show win3_5.index ⟨(i 0).val / 5000, _⟩ (1 : Fin 2) * 128 ≤ (i 1).val ∧ (i 1).val < win3_5.index ⟨(i 0).val / 5000, _⟩ (1 : Fin 2) * 128 + 128
    rw [e3]; omega

/-- THE OUTPUT ARRAY after the launch: the input array normalised per column with the four one-row arrays as the
    launch finds them, cut at zero. -/
theorem out_region3 (c : Dev nD) : (Gen.dat3 V c).arrAt 5 cfg3.N
    = Cert.Sage.bnRelu (N := 50000) (C := 128) Cert.Gin.eps (V c (Pipeline.arrRef spec3 0))
        (Cert.Sage.rowVec (V c (Pipeline.arrRef spec3 1))) (Cert.Sage.rowVec (V c (Pipeline.arrRef spec3 2)))
        (Cert.Sage.rowVec (V c (Pipeline.arrRef spec3 3))) (Cert.Sage.rowVec (V c (Pipeline.arrRef spec3 4))) :=
  (dat3 V c).arrAt_eq_of_cover 5 (normed3 V c) (fun t _ => flushed3_eq V c t) (cover3)

end Cert.KernelIdeal.RegionValue

end
-- ==== Proof.Region4.lean ====
/-
  The third dense-and-statistics region, read as whole arrays. The region cuts the 50000 rows into 10 blocks of 5000;
  at point `t` it reads rows `5000 t` to `5000 t + 4999` of the two row operands and the whole of the two weight
  matrices and the two one-row biases, and writes the block's dense result and the block's column statistics. An
  entry of the dense result depends only on its row of the operands, so block `t` of the output is block `t` of ONE
  function of the whole arrays (`hOf4`); the blocks cover the array (row `r` lies in block `r / 5000`), so the
  array ends holding that function. The block's statistics are the tile statistics of that function at tile `t`,
  and tile `t` of the statistics array is the block of point `t`.
-/
import proofs.«141774_j48919677501954_2_alg».proof.Proof.Gen.KernelIdeal.Frame
import proofs.«141774_j48919677501954_2_alg».proof.Proof.Spec
import proofs.«141774_j48919677501954_2_alg».proof.Proof.RegionDense
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLib Cert.RowNorm Cert.Sage Cert.Gin

variable (V : (c : Dev nD) → (b : Ref sig .tc) → Buf (Elt Ideal) ((c : Thread nD τ).loc b))

/-- The region's dense result as one function of the arrays the region finds. -/
def hOf4 (c : Dev nD) : Mat 50000 128 :=
  mlp (plus (V c (Pipeline.arrRef spec4 0)) (V c (Pipeline.arrRef spec4 1))) (V c (Pipeline.arrRef spec4 2))
    (fun q => V c (Pipeline.arrRef spec4 3) (ix2 (0 : Fin 1) q)) (V c (Pipeline.arrRef spec4 4))
    (fun q => V c (Pipeline.arrRef spec4 5) (ix2 (0 : Fin 1) q))

/-- The printed index maps over the grid: the row-blocked windows move with the point, the others stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 3) = t.val ∧ win4_7.index t (1 : Fin 3) = 0 ∧ win4_7.index t (2 : Fin 3) = 0 :=
  (by decide +kernel : ∀ t : Fin grid4.N, _)

/-- The first row operand's block at point `t` is rows `5000 t` on of its array. -/
theorem rows4_0 (c : Dev nD) (t : Fin cfg4.N) (r : Fin 5000) (k : Fin 128) (p : Fin 50000) (hp : p.val = t.val * 5000 + r.val) :
    (iblk4 V c 0 t : Vec Ideal S5000x128 .f32) (ix2 r k) = (V c (Pipeline.arrRef spec4 0) : S50000x128.Idx → EReal) (ix2 p k) := by
  obtain ⟨e0, e1, -⟩ := idx_facts4 t
  unfold iblk4
  rw [View.read_apply]
  show (V c (Pipeline.arrRef spec4 0) : S50000x128.Idx → EReal) _ = _
  refine congrArg _ (funext fun a => Fin.ext ?_)
  match a with
  | ⟨0, _⟩ => show win4_0.index t (0 : Fin 2) * 5000 + 1 * r.val = p.val; omega
  | ⟨1, _⟩ => show win4_0.index t (1 : Fin 2) * 128 + 1 * k.val = k.val; omega

/-- The second row operand's block likewise. -/
theorem rows4_1 (c : Dev nD) (t : Fin cfg4.N) (r : Fin 5000) (k : Fin 128) (p : Fin 50000) (hp : p.val = t.val * 5000 + r.val) :
    (iblk4 V c 1 t : Vec Ideal S5000x128 .f32) (ix2 r k) = (V c (Pipeline.arrRef spec4 1) : S50000x128.Idx → EReal) (ix2 p k) := by
  obtain ⟨-, -, e0, e1, -⟩ := idx_facts4 t
  unfold iblk4
  rw [View.read_apply]
  show (V c (Pipeline.arrRef spec4 1) : S50000x128.Idx → EReal) _ = _
  refine congrArg _ (funext fun a => Fin.ext ?_)
  match a with
  | ⟨0, _⟩ => show win4_1.index t (0 : Fin 2) * 5000 + 1 * r.val = p.val; omega
  | ⟨1, _⟩ => show win4_1.index t (1 : Fin 2) * 128 + 1 * k.val = k.val; omega

/-- The weights and biases are staged whole: their one block is the array. -/
theorem whole4_2 (c : Dev nD) (t : Fin cfg4.N) :
    (iblk4 V c 2 t : Vec Ideal S128x128 .f32) = (V c (Pipeline.arrRef spec4 2) : S128x128.Idx → EReal) := by
  obtain ⟨-, -, -, -, e0, e1, -⟩ := idx_facts4 t
  funext k
  unfold iblk4
  rw [View.read_apply]
  show (V c (Pipeline.arrRef spec4 2) : S128x128.Idx → EReal) _ = _
  refine congrArg _ (funext fun a => Fin.ext ?_)
  match a with
  | ⟨0, _⟩ => show win4_2.index t (0 : Fin 2) * 128 + 1 * (k 0).val = (k 0).val; omega
  | ⟨1, _⟩ => show win4_2.index t (1 : Fin 2) * 128 + 1 * (k 1).val = (k 1).val; omega

theorem whole4_3 (c : Dev nD) (t : Fin cfg4.N) :
    (iblk4 V c 3 t : Vec Ideal S1x128 .f32) = (V c (Pipeline.arrRef spec4 3) : S1x128.Idx → EReal) := by
  obtain ⟨-, -, -, -, -, -, e0, e1, -⟩ := idx_facts4 t
  funext k
  unfold iblk4
  rw [View.read_apply]
  show (V c (Pipeline.arrRef spec4 3) : S1x128.Idx → EReal) _ = _
  refine congrArg _ (funext fun a => Fin.ext ?_)
  match a with
  | ⟨0, _⟩ => show win4_3.index t (0 : Fin 2) * 1 + 1 * (k 0).val = (k 0).val; omega
  | ⟨1, _⟩ => show win4_3.index t (1 : Fin 2) * 128 + 1 * (k 1).val = (k 1).val; omega

theorem whole4_4 (c : Dev nD) (t : Fin cfg4.N) :
    (iblk4 V c 4 t : Vec Ideal S128x128 .f32) = (V c (Pipeline.arrRef spec4 4) : S128x128.Idx → EReal) := by
  obtain ⟨-, -, -, -, -, -, -, -, e0, e1, -⟩ := idx_facts4 t
  funext k
  unfold iblk4
  rw [View.read_apply]
  show (V c (Pipeline.arrRef spec4 4) : S128x128.Idx → EReal) _ = _
  refine congrArg _ (funext fun a => Fin.ext ?_)
  match a with
  | ⟨0, _⟩ => show win4_4.index t (0 : Fin 2) * 128 + 1 * (k 0).val = (k 0).val; omega
  | ⟨1, _⟩ => show win4_4.index t (1 : Fin 2) * 128 + 1 * (k 1).val = (k 1).val; omega

theorem whole4_5 (c : Dev nD) (t : Fin cfg4.N) :
    (iblk4 V c 5 t : Vec Ideal S1x128 .f32) = (V c (Pipeline.arrRef spec4 5) : S1x128.Idx → EReal) := by
  obtain ⟨-, -, -, -, -, -, -, -, -, -, e0, e1, -⟩ := idx_facts4 t
  funext k
  unfold iblk4
  rw [View.read_apply]
  show (V c (Pipeline.arrRef spec4 5) : S1x128.Idx → EReal) _ = _
  refine congrArg _ (funext fun a => Fin.ext ?_)
  match a with
  | ⟨0, _⟩ => show win4_5.index t (0 : Fin 2) * 1 + 1 * (k 0).val = (k 0).val; omega
  | ⟨1, _⟩ => show win4_5.index t (1 : Fin 2) * 128 + 1 * (k 1).val = (k 1).val; omega

/-- The dense payload of the blocks at point `t`, entry by entry, is the whole arrays' dense result on rows
    `5000 t` to `5000 t + 4999`. -/
theorem dense_at4 (c : Dev nD) (t : Fin cfg4.N) (y : S5000x128.Idx) (i : S50000x128.Idx)
    (hi0 : (i 0).val = t.val * 5000 + (y 0).val) (hi1 : (i 1).val = (y 1).val) :
    k4_pay2 (iblk4 V c 0 t) (iblk4 V c 1 t) (iblk4 V c 2 t) (iblk4 V c 3 t) (iblk4 V c 4 t) (iblk4 V c 5 t) y = hOf4 V c i := by
  rw [dense4_eq, whole4_2 V c t, whole4_3 V c t, whole4_4 V c t, whole4_5 V c t]
  unfold hOf4
  exact mlp_block _ _ _ _ _ _ _ _ (t.val * 5000) y i hi0 hi1 (rows4_0 V c t) (rows4_1 V c t)

/-- What point `t` writes back to the dense output is block `t` of the whole arrays' dense result. -/
theorem flushed4_6_eq (c : Dev nD) (t : Fin cfg4.N) :
    (dat4 V c).flushed 6 t = ((cfg4.win 6).blk t).view.read (Elt Ideal) (hOf4 V c) := by
  show (cfg4.win 6).cut (grid4.coords t) ((dat4 V c).after 6 t) = _
  rw [after4_6]
  unfold out4_6
  rw [View.canon_unit_zero hz2]
  simp only [View.ld_unit_zero (S := S5000x128) hz2, View.ld_unit_zero (S := S128x128) hz2, View.ld_unit_zero (S := S1x128) hz2]
  obtain ⟨-, -, -, -, -, -, -, -, -, -, -, -, e0, e1, -⟩ := idx_facts4 t
  funext y
  show k4_pay2 (iblk4 V c 0 t) (iblk4 V c 1 t) (iblk4 V c 2 t) (iblk4 V c 3 t) (iblk4 V c 4 t) (iblk4 V c 5 t) y
    = hOf4 V c (((cfg4.win 6).blk t).view.emb y)
  refine dense_at4 V c t y _ ?_ ?_
  · show win4_6.index t (0 : Fin 2) * 5000 + 1 * (y 0).val = t.val * 5000 + (y 0).val; omega
  · show win4_6.index t (1 : Fin 2) * 128 + 1 * (y 1).val = (y 1).val; omega

/-- An index is in point `t`'s block iff each coordinate is in the block's range on its axis. -/
theorem mem_blk4_6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v134_0).slice (win4_6.rect t)).set ↔ _
  rw [View.set_slice_whole, Rect.mem_set_unit]
  exact Iff.rfl

/-- Row `r` lies in the block of point `r / 5000`. -/
theorem covered4_6 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := N_4
  have hlt : (i 0).val / 5000 < cfg4.N := by rw [hN]; omega
  obtain ⟨-, -, -, -, -, -, -, -, -, -, -, -, e0, e1, -⟩ := idx_facts4 ⟨(i 0).val / 5000, hlt⟩
  refine ⟨⟨(i 0).val / 5000, hlt⟩, flush4_6 _, ?_⟩
  rw [mem_blk4_6]
  intro a
  match a with
  | ⟨0, _⟩ =>
    show win4_6.index ⟨(i 0).val / 5000, hlt⟩ (0 : Fin 2) * 5000 ≤ (i 0).val ∧ (i 0).val < win4_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_6.index ⟨(i 0).val / 5000, hlt⟩ (1 : Fin 2) * 128 ≤ (i 1).val ∧ (i 1).val < win4_6.index ⟨(i 0).val / 5000, hlt⟩ (1 : Fin 2) * 128 + 128
    rw [e1]; omega

/-- After the region the dense output array is the whole arrays' dense result. -/
theorem h_region4 (c : Dev nD) : (dat4 V c).arrAt 6 cfg4.N = hOf4 V c :=
  (dat4 V c).arrAt_eq_of_cover 6 (hOf4 V c) (fun t _ => flushed4_6_eq V c t) covered4_6

/-- The statistics payload of the blocks at point `t` is tile `t` of the whole result's tile statistics. -/
theorem stats_at4 (c : Dev nD) (t : Fin cfg4.N) (y : S1x8x128.Idx) (i : S10x8x128.Idx)
    (hi0 : (i 0).val = t.val) (hi1 : (i 1).val = (y 1).val) (hi2 : (i 2).val = (y 2).val) :
    k4_pay1 (k4_pay3 (iblk4 V c 0 t) (iblk4 V c 1 t) (iblk4 V c 2 t) (iblk4 V c 3 t) (iblk4 V c 4 t) (iblk4 V c 5 t)) y
      = tileStats (hOf4 V c) i := by
  have hN : cfg4.N = 10 := N_4
  have ht : t.val < 10 := by have := t.isLt; omega
  rw [stats4_eq]
  refine stats_block (hOf4 V c) _ ⟨t.val, ht⟩ y i hi0 hi1 hi2 fun r q => ?_
  exact dense_at4 V c t (ix2 r q) (ix2 (tileRow ⟨t.val, ht⟩ r) q) rfl rfl

/-- What point `t` writes back to the statistics output is tile `t` of the tile statistics. -/
theorem flushed4_7_eq (c : Dev nD) (t : Fin cfg4.N) :
    (dat4 V c).flushed 7 t = ((cfg4.win 7).blk t).view.read (Elt Ideal) (tileStats (hOf4 V c)) := by
  show (cfg4.win 7).cut (grid4.coords t) ((dat4 V c).after 7 t) = _
  rw [after4_7]
  unfold out4_7
  rw [View.canon_unit_zero hz3]
  simp only [View.ld_unit_zero (S := S5000x128) hz2, View.ld_unit_zero (S := S128x128) hz2, View.ld_unit_zero (S := S1x128) hz2]
  obtain ⟨-, -, -, -, -, -, -, -, -, -, -, -, -, -, e0, e1, e2⟩ := idx_facts4 t
  funext y
  show k4_pay1 (k4_pay3 (iblk4 V c 0 t) (iblk4 V c 1 t) (iblk4 V c 2 t) (iblk4 V c 3 t) (iblk4 V c 4 t) (iblk4 V c 5 t)) y
    = tileStats (hOf4 V c) (((cfg4.win 7).blk t).view.emb y)
  have hy0 : (y 0).val < 1 := (y 0).isLt
  refine stats_at4 V c t y _ ?_ ?_ ?_
  · show win4_7.index t (0 : Fin 3) * 1 + 1 * (y 0).val = t.val; omega
  · show win4_7.index t (1 : Fin 3) * 8 + 1 * (y 1).val = (y 1).val; omega
  · show win4_7.index t (2 : Fin 3) * 128 + 1 * (y 2).val = (y 2).val; omega

/-- An index is in point `t`'s block iff each coordinate is in the block's range on its axis. -/
theorem mem_blk4_7 (t : Fin cfg4.N) (i : S10x8x128.Idx) :
    i ∈ ((cfg4.win 7).blk t).view.set ↔ ∀ a : Fin 3, win4_7.index t a * S1x8x128.size a ≤ (i a).val ∧ (i a).val < win4_7.index t a * S1x8x128.size a + S1x8x128.size a := by
  show i ∈ ((View.whole main_v134_1).slice (win4_7.rect t)).set ↔ _
  rw [View.set_slice_whole, Rect.mem_set_unit]
  exact Iff.rfl

/-- Tile `a` of the statistics array is the block of point `a`. -/
theorem covered4_7 (i : S10x8x128.Idx) : ∃ t : Fin cfg4.N, (cfg4.win 7).flush t = true ∧ i ∈ ((cfg4.win 7).blk t).view.set := by
  have hi0 : (i 0).val < 10 := (i 0).isLt
  have hi1 : (i 1).val < 8 := (i 1).isLt
  have hi2 : (i 2).val < 128 := (i 2).isLt
  have hN : cfg4.N = 10 := N_4
  have hlt : (i 0).val < cfg4.N := by rw [hN]; omega
  obtain ⟨-, -, -, -, -, -, -, -, -, -, -, -, -, -, e0, e1, e2⟩ := idx_facts4 ⟨(i 0).val, hlt⟩
  refine ⟨⟨(i 0).val, hlt⟩, flush4_7 _, ?_⟩
  rw [mem_blk4_7]
  intro a
  match a with
  | ⟨0, _⟩ =>
    show win4_7.index ⟨(i 0).val, hlt⟩ (0 : Fin 3) * 1 ≤ (i 0).val ∧ (i 0).val < win4_7.index ⟨(i 0).val, hlt⟩ (0 : Fin 3) * 1 + 1
    rw [e0]; show (i 0).val * 1 ≤ (i 0).val ∧ (i 0).val < (i 0).val * 1 + 1; omega
  | ⟨1, _⟩ =>
    show win4_7.index ⟨(i 0).val, hlt⟩ (1 : Fin 3) * 8 ≤ (i 1).val ∧ (i 1).val < win4_7.index ⟨(i 0).val, hlt⟩ (1 : Fin 3) * 8 + 8
    rw [e1]; omega
  | ⟨2, _⟩ =>
    show win4_7.index ⟨(i 0).val, hlt⟩ (2 : Fin 3) * 128 ≤ (i 2).val ∧ (i 2).val < win4_7.index ⟨(i 0).val, hlt⟩ (2 : Fin 3) * 128 + 128
    rw [e2]; omega

/-- After the region the statistics array is the tile statistics of the dense result. -/
theorem stats_region4 (c : Dev nD) : (dat4 V c).arrAt 7 cfg4.N = tileStats (hOf4 V c) :=
  (dat4 V c).arrAt_eq_of_cover 7 (tileStats (hOf4 V c)) (fun t _ => flushed4_7_eq V c t) covered4_7

end Cert.KernelIdeal.RegionValue

end
-- ==== Proof.Region5.lean ====
/-
  The normalisation kernel's output array, read whole.

  The launch cuts the 50000 rows into 10 blocks of 5000.  At point t the body reads block t of the input array and
  the four one-row arrays whole, and writes block t of the output array; its stored block is the column
  normalisation and cut at zero of the block it read.  Since an entry of the normalised array depends only on the
  input's entry at the same place and on the four rows at the entry's column, every block written back is the
  block of ONE whole-array function, and the blocks cover the array: row r lies in the block of point r / 5000.
-/
import proofs.«141774_j48919677501954_2_alg».proof.Proof.Gen.KernelIdeal.Frame
import proofs.«141774_j48919677501954_2_alg».proof.Proof.Spec
import proofs.«141774_j48919677501954_2_alg».proof.Proof.RegionNorm
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off5 : (![0, 0] : Fin 2 → Nat) = fun _ => 0 := funext fun a => by fin_cases a <;> rfl

/-- The whole output array: the input array normalised per column with the four one-row arrays, cut at zero. -/
abbrev normed5 (c : Dev nD) : S50000x128.Idx → EReal :=
  Cert.Sage.bnRelu (N := 50000) (C := 128) Cert.Gin.eps (V c (Pipeline.arrRef spec5 0))
    (Cert.Sage.rowVec (V c (Pipeline.arrRef spec5 1))) (Cert.Sage.rowVec (V c (Pipeline.arrRef spec5 2)))
    (Cert.Sage.rowVec (V c (Pipeline.arrRef spec5 3))) (Cert.Sage.rowVec (V c (Pipeline.arrRef spec5 4)))

/-- The index maps over the grid: the input's and the output's block at point `t` is block (t, 0); the four row
    windows' block is always (0, 0). -/
theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- A row window's block at any point is its whole array. -/
theorem row_block5_1 (c : Dev nD) (t : Fin cfg5.N) :
    (iblk5 V c 1 t : S1x128.Idx → EReal) = (V c (Pipeline.arrRef spec5 1) : S1x128.Idx → EReal) := by
  obtain ⟨-, -, -, -, e0, e1, -⟩ := idx_facts5 t
  funext y
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

theorem row_block5_2 (c : Dev nD) (t : Fin cfg5.N) :
    (iblk5 V c 2 t : S1x128.Idx → EReal) = (V c (Pipeline.arrRef spec5 2) : S1x128.Idx → EReal) := by
  obtain ⟨-, -, -, -, -, -, e0, e1, -⟩ := idx_facts5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

theorem row_block5_3 (c : Dev nD) (t : Fin cfg5.N) :
    (iblk5 V c 3 t : S1x128.Idx → EReal) = (V c (Pipeline.arrRef spec5 3) : S1x128.Idx → EReal) := by
  obtain ⟨-, -, -, -, -, -, -, -, e0, e1, -⟩ := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

theorem row_block5_4 (c : Dev nD) (t : Fin cfg5.N) :
    (iblk5 V c 4 t : S1x128.Idx → EReal) = (V c (Pipeline.arrRef spec5 4) : S1x128.Idx → EReal) := by
  obtain ⟨-, -, -, -, -, -, -, -, -, -, e0, e1⟩ := idx_facts5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- The input window's block at point `t` holds, at `j`, the input array's entry under the OUTPUT window's block at
    `j`: the two windows move together. -/
theorem in_block5 (c : Dev nD) (t : Fin cfg5.N) (j : S5000x128.Idx) :
    (iblk5 V c 0 t : S5000x128.Idx → EReal) j
      = (V c (Pipeline.arrRef spec5 0) : S50000x128.Idx → EReal) (((cfg5.win 5).blk t).view.emb j) := by
  obtain ⟨e0, e1, e2, e3, -⟩ := idx_facts5 t
  show V c (Pipeline.arrRef spec5 0) (((cfg5.win 0).blk t).view.emb j) = V c (Pipeline.arrRef spec5 0) (((cfg5.win 5).blk t).view.emb j)
  refine congrArg _ (funext fun a => Fin.ext ?_)
  match a with
  | ⟨0, _⟩ => show win5_0.index t (0 : Fin 2) * 5000 + 1 * (j 0).val = win5_5.index t (0 : Fin 2) * 5000 + 1 * (j 0).val; omega
  | ⟨1, _⟩ => show win5_0.index t (1 : Fin 2) * 128 + 1 * (j 1).val = win5_5.index t (1 : Fin 2) * 128 + 1 * (j 1).val; omega

/-- What point `t` writes back is block `t` of the normalised array. -/
theorem flushed5_eq (c : Dev nD) (t : Fin cfg5.N) :
    (dat5 V c).flushed 5 t = ((cfg5.win 5).blk t).view.read (Elt Ideal) (normed5 V c) := by
  show (cfg5.win 5).cut (grid5.coords t) ((dat5 V c).after 5 t) = _
  rw [after5_5]
  unfold out5_5
  rw [View.canon_unit_zero zero_off5]
  simp only [View.ld_unit_zero (S := S5000x128) zero_off5, View.ld_unit_zero (S := S1x128) zero_off5]
  rw [k5_pay1_eq, pay_eq]
  obtain ⟨-, -, -, e3, -⟩ := idx_facts5 t
  funext j
  refine bnRelu_block j (((cfg5.win 5).blk t).view.emb j) (in_block5 V c t j) ?_
    (row_block5_1 V c t) (row_block5_2 V c t) (row_block5_3 V c t) (row_block5_4 V c t)
  show (j 1).val = win5_5.index t (1 : Fin 2) * 128 + 1 * (j 1).val
  omega

/-- An index of the array is in point `t`'s block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- Row `r` of the array is in the block of point `r / 5000`. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_5 _, ?_⟩
  rw [mem_blk5]
  obtain ⟨-, -, e2, e3, -⟩ := idx_facts5 ⟨(i 0).val / 5000, by rw [hN]; omega⟩
  intro a
  match a with
  | ⟨0, _⟩ =>
    show win5_5.index ⟨(i 0).val / 5000, _⟩ (0 : Fin 2) * 5000 ≤ (i 0).val ∧ (i 0).val < win5_5.index ⟨(i 0).val / 5000, _⟩ (0 : Fin 2) * 5000 + 5000
    rw [e2]; show (i 0).val / 5000 * 5000 ≤ (i 0).val ∧ (i 0).val < (i 0).val / 5000 * 5000 + 5000; omega
  | ⟨1, _⟩ =>
    show win5_5.index ⟨(i 0).val / 5000, _⟩ (1 : Fin 2) * 128 ≤ (i 1).val ∧ (i 1).val < win5_5.index ⟨(i 0).val / 5000, _⟩ (1 : Fin 2) * 128 + 128
    rw [e3]; omega

/-- THE OUTPUT ARRAY after the launch: the input array normalised per column with the four one-row arrays as the
    launch finds them, cut at zero. -/
theorem out_region5 (c : Dev nD) : (Gen.dat5 V c).arrAt 5 cfg5.N
    = Cert.Sage.bnRelu (N := 50000) (C := 128) Cert.Gin.eps (V c (Pipeline.arrRef spec5 0))
        (Cert.Sage.rowVec (V c (Pipeline.arrRef spec5 1))) (Cert.Sage.rowVec (V c (Pipeline.arrRef spec5 2)))
        (Cert.Sage.rowVec (V c (Pipeline.arrRef spec5 3))) (Cert.Sage.rowVec (V c (Pipeline.arrRef spec5 4))) :=
  (dat5 V c).arrAt_eq_of_cover 5 (normed5 V c) (fun t _ => flushed5_eq V c t) (cover5)

end Cert.KernelIdeal.RegionValue

end
-- ==== Proof.KerValue.lean ====
/-
  The kernel program's result as the network with the pooled statistics.

  @main is seven host stretches around six kernel launches.  The buffer contents at every boundary are a fold from the
  launch memory: a host stretch applies its operations, a launch replaces its output arrays by what its write-backs
  leave and keeps every other buffer.  Read layer by layer:
  * the stretch before a dense-and-statistics launch gathers the rows along the edges and sums them per destination
    (the neighbour sum of the layer's input), and cuts the layer's weights and biases out of the stacked parameters;
  * the launch leaves the layer before normalisation in one array and the per-tile statistics in another;
  * the next stretch pools the statistics into the mean and variance rows and cuts out the gain and offset;
  * the normalisation launch leaves the layer's output, which is the next layer's input;
  * the last stretch sums the rows per graph and applies the last dense layer.
  A buffer that no stretch or launch in between writes keeps its contents, which is how the two index vectors and the
  parameter arrays reach the later layers.
-/
import proofs.«141774_j48919677501954_2_alg».proof.Proof.Gen.KernelIdeal.Frame
import proofs.«141774_j48919677501954_2_alg».proof.Proof.Spec
import Idealize.ShloMosaic.Lib.StableHlo.Run
import proofs.«141774_j48919677501954_2_alg».proof.Proof.HostStages
import proofs.«141774_j48919677501954_2_alg».proof.Proof.HostPool
import proofs.«141774_j48919677501954_2_alg».proof.Proof.Region0
import proofs.«141774_j48919677501954_2_alg».proof.Proof.Region1
import proofs.«141774_j48919677501954_2_alg».proof.Proof.Region2
import proofs.«141774_j48919677501954_2_alg».proof.Proof.Region3
import proofs.«141774_j48919677501954_2_alg».proof.Proof.Region4
import proofs.«141774_j48919677501954_2_alg».proof.Proof.Region5

set_option maxRecDepth 16384

noncomputable section

namespace Cert.KernelIdeal.KVal

open Cert.KernelIdeal Cert.KernelIdeal.Gen
open Idealize.ShloMosaic Idealize.ShloMosaic.TcCoe Idealize.ShloMosaic.Tactic Idealize.SL.Sem
open Idealize.ShloMosaic.StableHlo
open Idealize.ShloMosaic.ValueIdx Cert.Gin Cert.Gin.Host Cert.Sage Cert.DenseLib Cert.RowNorm Cert.RowsLib Cert.ScatterLib

variable (m : (ℓ : Loc nD τ sig) → Buf (Elt Ideal) ℓ) (ρ : Dev nD → PrngReg)

/-- The two index vectors and the three index columns as @main computes them from its integer arguments. -/
def srcVec (e : IVec S2x800000 32) : IVec S800000 32 :=
  shapeCast S800000 (extractStridedSlice S1x800000 ![0, 0] e slices_S2x800000_S1x800000_0_0) shapeCasts_S1x800000_S800000
def dstVec (e : IVec S2x800000 32) : IVec S800000 32 :=
  shapeCast S800000 (extractStridedSlice S1x800000 ![1, 0] e slices_S2x800000_S1x800000_1_0) shapeCasts_S1x800000_S800000
def colOfSrc (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
def colOfDst (v : IVec S800000 32) : IVec S800000x1 32 := broadcastInDim S800000x1 ![0] bcast_S800000_S800000x1_0 v
def gidCol (b : IVec S50000 32) : IVec S50000x1 32 := broadcastInDim S50000x1 ![0] bcast_S50000_S50000x1_0 b

/-- The launch memory's argument arrays as the network's arguments. -/
def argsOf (c : Dev nD) : Cert.Gin.Args where
  x := m ((c : Thread nD τ).loc main_arg0)
  W1s := m ((c : Thread nD τ).loc main_arg1)
  b1s := m ((c : Thread nD τ).loc main_arg2)
  W2s := m ((c : Thread nD τ).loc main_arg3)
  b2s := m ((c : Thread nD τ).loc main_arg4)
  gs := m ((c : Thread nD τ).loc main_arg5)
  bes := m ((c : Thread nD τ).loc main_arg6)
  Wlin := m ((c : Thread nD τ).loc main_arg7)
  blin := m ((c : Thread nD τ).loc main_arg8)
  src := colOfSrc (srcVec (m ((c : Thread nD τ).loc main_arg9)))
  dst := colOfDst (dstVec (m ((c : Thread nD τ).loc main_arg9)))
  gid := gidCol (m ((c : Thread nD τ).loc main_arg10))

theorem W1_v1 (c : Dev nD) : W1 m ρ c (Proc.devRef .tc main_v1) = srcVec (m ((c : Thread nD τ).loc main_arg9)) := by
  show StableHlo.after hostOps0 _ (Proc.devRef .tc main_v1) = _
  after_results
  rfl
theorem W1_v3 (c : Dev nD) : W1 m ρ c (Proc.devRef .tc main_v3) = dstVec (m ((c : Thread nD τ).loc main_arg9)) := by
  show StableHlo.after hostOps0 _ (Proc.devRef .tc main_v3) = _
  after_results
  rfl

/-! ## Buffers no stretch or launch in between writes keep their contents -/

set_option maxHeartbeats 2000000 in
theorem q8_main_arg1 (c : Dev nD) : W8 m ρ c (Proc.devRef .tc main_arg1) = W4 m ρ c (Proc.devRef .tc main_arg1) :=
  ((W8_of_ne m ρ c main_arg1 (by decide))).trans (((by show StableHlo.after hostOps3 _ (Proc.devRef .tc main_arg1) = _; after_results : W7 m ρ c (Proc.devRef .tc main_arg1) = W6 m ρ c (Proc.devRef .tc main_arg1))).trans (((W6_of_ne m ρ c main_arg1 (by decide))).trans ((by show StableHlo.after hostOps2 _ (Proc.devRef .tc main_arg1) = _; after_results : W5 m ρ c (Proc.devRef .tc main_arg1) = W4 m ρ c (Proc.devRef .tc main_arg1)))))
set_option maxHeartbeats 2000000 in
theorem q8_main_arg2 (c : Dev nD) : W8 m ρ c (Proc.devRef .tc main_arg2) = W4 m ρ c (Proc.devRef .tc main_arg2) :=
  ((W8_of_ne m ρ c main_arg2 (by decide))).trans (((by show StableHlo.after hostOps3 _ (Proc.devRef .tc main_arg2) = _; after_results : W7 m ρ c (Proc.devRef .tc main_arg2) = W6 m ρ c (Proc.devRef .tc main_arg2))).trans (((W6_of_ne m ρ c main_arg2 (by decide))).trans ((by show StableHlo.after hostOps2 _ (Proc.devRef .tc main_arg2) = _; after_results : W5 m ρ c (Proc.devRef .tc main_arg2) = W4 m ρ c (Proc.devRef .tc main_arg2)))))
set_option maxHeartbeats 2000000 in
theorem q8_main_arg3 (c : Dev nD) : W8 m ρ c (Proc.devRef .tc main_arg3) = W4 m ρ c (Proc.devRef .tc main_arg3) :=
  ((W8_of_ne m ρ c main_arg3 (by decide))).trans (((by show StableHlo.after hostOps3 _ (Proc.devRef .tc main_arg3) = _; after_results : W7 m ρ c (Proc.devRef .tc main_arg3) = W6 m ρ c (Proc.devRef .tc main_arg3))).trans (((W6_of_ne m ρ c main_arg3 (by decide))).trans ((by show StableHlo.after hostOps2 _ (Proc.devRef .tc main_arg3) = _; after_results : W5 m ρ c (Proc.devRef .tc main_arg3) = W4 m ρ c (Proc.devRef .tc main_arg3)))))
set_option maxHeartbeats 2000000 in
theorem q8_main_arg4 (c : Dev nD) : W8 m ρ c (Proc.devRef .tc main_arg4) = W4 m ρ c (Proc.devRef .tc main_arg4) :=
  ((W8_of_ne m ρ c main_arg4 (by decide))).trans (((by show StableHlo.after hostOps3 _ (Proc.devRef .tc main_arg4) = _; after_results : W7 m ρ c (Proc.devRef .tc main_arg4) = W6 m ρ c (Proc.devRef .tc main_arg4))).trans (((W6_of_ne m ρ c main_arg4 (by decide))).trans ((by show StableHlo.after hostOps2 _ (Proc.devRef .tc main_arg4) = _; after_results : W5 m ρ c (Proc.devRef .tc main_arg4) = W4 m ρ c (Proc.devRef .tc main_arg4)))))
set_option maxHeartbeats 2000000 in
theorem q8_main_v1 (c : Dev nD) : W8 m ρ c (Proc.devRef .tc main_v1) = W4 m ρ c (Proc.devRef .tc main_v1) :=
  ((W8_of_ne m ρ c main_v1 (by decide))).trans (((by show StableHlo.after hostOps3 _ (Proc.devRef .tc main_v1) = _; after_results : W7 m ρ c (Proc.devRef .tc main_v1) = W6 m ρ c (Proc.devRef .tc main_v1))).trans (((W6_of_ne m ρ c main_v1 (by decide))).trans ((by show StableHlo.after hostOps2 _ (Proc.devRef .tc main_v1) = _; after_results : W5 m ρ c (Proc.devRef .tc main_v1) = W4 m ρ c (Proc.devRef .tc main_v1)))))
set_option maxHeartbeats 2000000 in
theorem q8_main_v3 (c : Dev nD) : W8 m ρ c (Proc.devRef .tc main_v3) = W4 m ρ c (Proc.devRef .tc main_v3) :=
  ((W8_of_ne m ρ c main_v3 (by decide))).trans (((by show StableHlo.after hostOps3 _ (Proc.devRef .tc main_v3) = _; after_results : W7 m ρ c (Proc.devRef .tc main_v3) = W6 m ρ c (Proc.devRef .tc main_v3))).trans (((W6_of_ne m ρ c main_v3 (by decide))).trans ((by show StableHlo.after hostOps2 _ (Proc.devRef .tc main_v3) = _; after_results : W5 m ρ c (Proc.devRef .tc main_v3) = W4 m ρ c (Proc.devRef .tc main_v3)))))
set_option maxHeartbeats 2000000 in
theorem p4_0_main_arg1 (c : Dev nD) : W4 m ρ c (Proc.devRef .tc main_arg1) = W0 m ρ c (Proc.devRef .tc main_arg1) :=
  ((W4_of_ne m ρ c main_arg1 (by decide))).trans (((by show StableHlo.after hostOps1 _ (Proc.devRef .tc main_arg1) = _; after_results : W3 m ρ c (Proc.devRef .tc main_arg1) = W2 m ρ c (Proc.devRef .tc main_arg1))).trans (((W2_of_ne m ρ c main_arg1 (by decide))).trans ((by show StableHlo.after hostOps0 _ (Proc.devRef .tc main_arg1) = _; after_results : W1 m ρ c (Proc.devRef .tc main_arg1) = W0 m ρ c (Proc.devRef .tc main_arg1)))))
theorem W4_main_arg1 (c : Dev nD) : W4 m ρ c (Proc.devRef .tc main_arg1) = W0 m ρ c (Proc.devRef .tc main_arg1) :=
  (p4_0_main_arg1 m ρ c)
theorem W8_main_arg1 (c : Dev nD) : W8 m ρ c (Proc.devRef .tc main_arg1) = W0 m ρ c (Proc.devRef .tc main_arg1) :=
  (q8_main_arg1 m ρ c).trans (W4_main_arg1 m ρ c)
set_option maxHeartbeats 2000000 in
theorem p4_0_main_arg2 (c : Dev nD) : W4 m ρ c (Proc.devRef .tc main_arg2) = W0 m ρ c (Proc.devRef .tc main_arg2) :=
  ((W4_of_ne m ρ c main_arg2 (by decide))).trans (((by show StableHlo.after hostOps1 _ (Proc.devRef .tc main_arg2) = _; after_results : W3 m ρ c (Proc.devRef .tc main_arg2) = W2 m ρ c (Proc.devRef .tc main_arg2))).trans (((W2_of_ne m ρ c main_arg2 (by decide))).trans ((by show StableHlo.after hostOps0 _ (Proc.devRef .tc main_arg2) = _; after_results : W1 m ρ c (Proc.devRef .tc main_arg2) = W0 m ρ c (Proc.devRef .tc main_arg2)))))
theorem W4_main_arg2 (c : Dev nD) : W4 m ρ c (Proc.devRef .tc main_arg2) = W0 m ρ c (Proc.devRef .tc main_arg2) :=
  (p4_0_main_arg2 m ρ c)
theorem W8_main_arg2 (c : Dev nD) : W8 m ρ c (Proc.devRef .tc main_arg2) = W0 m ρ c (Proc.devRef .tc main_arg2) :=
  (q8_main_arg2 m ρ c).trans (W4_main_arg2 m ρ c)
set_option maxHeartbeats 2000000 in
theorem p4_0_main_arg3 (c : Dev nD) : W4 m ρ c (Proc.devRef .tc main_arg3) = W0 m ρ c (Proc.devRef .tc main_arg3) :=
  ((W4_of_ne m ρ c main_arg3 (by decide))).trans (((by show StableHlo.after hostOps1 _ (Proc.devRef .tc main_arg3) = _; after_results : W3 m ρ c (Proc.devRef .tc main_arg3) = W2 m ρ c (Proc.devRef .tc main_arg3))).trans (((W2_of_ne m ρ c main_arg3 (by decide))).trans ((by show StableHlo.after hostOps0 _ (Proc.devRef .tc main_arg3) = _; after_results : W1 m ρ c (Proc.devRef .tc main_arg3) = W0 m ρ c (Proc.devRef .tc main_arg3)))))
theorem W4_main_arg3 (c : Dev nD) : W4 m ρ c (Proc.devRef .tc main_arg3) = W0 m ρ c (Proc.devRef .tc main_arg3) :=
  (p4_0_main_arg3 m ρ c)
theorem W8_main_arg3 (c : Dev nD) : W8 m ρ c (Proc.devRef .tc main_arg3) = W0 m ρ c (Proc.devRef .tc main_arg3) :=
  (q8_main_arg3 m ρ c).trans (W4_main_arg3 m ρ c)
set_option maxHeartbeats 2000000 in
theorem p4_0_main_arg4 (c : Dev nD) : W4 m ρ c (Proc.devRef .tc main_arg4) = W0 m ρ c (Proc.devRef .tc main_arg4) :=
  ((W4_of_ne m ρ c main_arg4 (by decide))).trans (((by show StableHlo.after hostOps1 _ (Proc.devRef .tc main_arg4) = _; after_results : W3 m ρ c (Proc.devRef .tc main_arg4) = W2 m ρ c (Proc.devRef .tc main_arg4))).trans (((W2_of_ne m ρ c main_arg4 (by decide))).trans ((by show StableHlo.after hostOps0 _ (Proc.devRef .tc main_arg4) = _; after_results : W1 m ρ c (Proc.devRef .tc main_arg4) = W0 m ρ c (Proc.devRef .tc main_arg4)))))
theorem W4_main_arg4 (c : Dev nD) : W4 m ρ c (Proc.devRef .tc main_arg4) = W0 m ρ c (Proc.devRef .tc main_arg4) :=
  (p4_0_main_arg4 m ρ c)
theorem W8_main_arg4 (c : Dev nD) : W8 m ρ c (Proc.devRef .tc main_arg4) = W0 m ρ c (Proc.devRef .tc main_arg4) :=
  (q8_main_arg4 m ρ c).trans (W4_main_arg4 m ρ c)
set_option maxHeartbeats 2000000 in
theorem p4_1_main_v1 (c : Dev nD) : W4 m ρ c (Proc.devRef .tc main_v1) = W1 m ρ c (Proc.devRef .tc main_v1) :=
  ((W4_of_ne m ρ c main_v1 (by decide))).trans (((by show StableHlo.after hostOps1 _ (Proc.devRef .tc main_v1) = _; after_results : W3 m ρ c (Proc.devRef .tc main_v1) = W2 m ρ c (Proc.devRef .tc main_v1))).trans ((W2_of_ne m ρ c main_v1 (by decide))))
theorem W4_main_v1 (c : Dev nD) : W4 m ρ c (Proc.devRef .tc main_v1) = W1 m ρ c (Proc.devRef .tc main_v1) :=
  (p4_1_main_v1 m ρ c)
theorem W8_main_v1 (c : Dev nD) : W8 m ρ c (Proc.devRef .tc main_v1) = W1 m ρ c (Proc.devRef .tc main_v1) :=
  (q8_main_v1 m ρ c).trans (W4_main_v1 m ρ c)
set_option maxHeartbeats 2000000 in
theorem p4_1_main_v3 (c : Dev nD) : W4 m ρ c (Proc.devRef .tc main_v3) = W1 m ρ c (Proc.devRef .tc main_v3) :=
  ((W4_of_ne m ρ c main_v3 (by decide))).trans (((by show StableHlo.after hostOps1 _ (Proc.devRef .tc main_v3) = _; after_results : W3 m ρ c (Proc.devRef .tc main_v3) = W2 m ρ c (Proc.devRef .tc main_v3))).trans ((W2_of_ne m ρ c main_v3 (by decide))))
theorem W4_main_v3 (c : Dev nD) : W4 m ρ c (Proc.devRef .tc main_v3) = W1 m ρ c (Proc.devRef .tc main_v3) :=
  (p4_1_main_v3 m ρ c)
theorem W8_main_v3 (c : Dev nD) : W8 m ρ c (Proc.devRef .tc main_v3) = W1 m ρ c (Proc.devRef .tc main_v3) :=
  (q8_main_v3 m ρ c).trans (W4_main_v3 m ρ c)
set_option maxHeartbeats 2000000 in
theorem p2_0_main_arg5 (c : Dev nD) : W2 m ρ c (Proc.devRef .tc main_arg5) = W0 m ρ c (Proc.devRef .tc main_arg5) :=
  ((W2_of_ne m ρ c main_arg5 (by decide))).trans ((by show StableHlo.after hostOps0 _ (Proc.devRef .tc main_arg5) = _; after_results : W1 m ρ c (Proc.devRef .tc main_arg5) = W0 m ρ c (Proc.devRef .tc main_arg5)))
theorem W2_main_arg5 (c : Dev nD) : W2 m ρ c (Proc.devRef .tc main_arg5) = W0 m ρ c (Proc.devRef .tc main_arg5) :=
  (p2_0_main_arg5 m ρ c)
set_option maxHeartbeats 2000000 in
theorem p6_2_main_arg5 (c : Dev nD) : W6 m ρ c (Proc.devRef .tc main_arg5) = W2 m ρ c (Proc.devRef .tc main_arg5) :=
  ((W6_of_ne m ρ c main_arg5 (by decide))).trans (((by show StableHlo.after hostOps2 _ (Proc.devRef .tc main_arg5) = _; after_results : W5 m ρ c (Proc.devRef .tc main_arg5) = W4 m ρ c (Proc.devRef .tc main_arg5))).trans (((W4_of_ne m ρ c main_arg5 (by decide))).trans ((by show StableHlo.after hostOps1 _ (Proc.devRef .tc main_arg5) = _; after_results : W3 m ρ c (Proc.devRef .tc main_arg5) = W2 m ρ c (Proc.devRef .tc main_arg5)))))
theorem W6_main_arg5 (c : Dev nD) : W6 m ρ c (Proc.devRef .tc main_arg5) = W0 m ρ c (Proc.devRef .tc main_arg5) :=
  (p6_2_main_arg5 m ρ c).trans ((p2_0_main_arg5 m ρ c))
set_option maxHeartbeats 2000000 in
theorem p10_6_main_arg5 (c : Dev nD) : W10 m ρ c (Proc.devRef .tc main_arg5) = W6 m ρ c (Proc.devRef .tc main_arg5) :=
  ((W10_of_ne m ρ c main_arg5 (by decide))).trans (((by show StableHlo.after hostOps4 _ (Proc.devRef .tc main_arg5) = _; after_results : W9 m ρ c (Proc.devRef .tc main_arg5) = W8 m ρ c (Proc.devRef .tc main_arg5))).trans (((W8_of_ne m ρ c main_arg5 (by decide))).trans ((by show StableHlo.after hostOps3 _ (Proc.devRef .tc main_arg5) = _; after_results : W7 m ρ c (Proc.devRef .tc main_arg5) = W6 m ρ c (Proc.devRef .tc main_arg5)))))
theorem W10_main_arg5 (c : Dev nD) : W10 m ρ c (Proc.devRef .tc main_arg5) = W0 m ρ c (Proc.devRef .tc main_arg5) :=
  (p10_6_main_arg5 m ρ c).trans ((p6_2_main_arg5 m ρ c).trans ((p2_0_main_arg5 m ρ c)))
set_option maxHeartbeats 2000000 in
theorem p2_0_main_arg6 (c : Dev nD) : W2 m ρ c (Proc.devRef .tc main_arg6) = W0 m ρ c (Proc.devRef .tc main_arg6) :=
  ((W2_of_ne m ρ c main_arg6 (by decide))).trans ((by show StableHlo.after hostOps0 _ (Proc.devRef .tc main_arg6) = _; after_results : W1 m ρ c (Proc.devRef .tc main_arg6) = W0 m ρ c (Proc.devRef .tc main_arg6)))
theorem W2_main_arg6 (c : Dev nD) : W2 m ρ c (Proc.devRef .tc main_arg6) = W0 m ρ c (Proc.devRef .tc main_arg6) :=
  (p2_0_main_arg6 m ρ c)
set_option maxHeartbeats 2000000 in
theorem p6_2_main_arg6 (c : Dev nD) : W6 m ρ c (Proc.devRef .tc main_arg6) = W2 m ρ c (Proc.devRef .tc main_arg6) :=
  ((W6_of_ne m ρ c main_arg6 (by decide))).trans (((by show StableHlo.after hostOps2 _ (Proc.devRef .tc main_arg6) = _; after_results : W5 m ρ c (Proc.devRef .tc main_arg6) = W4 m ρ c (Proc.devRef .tc main_arg6))).trans (((W4_of_ne m ρ c main_arg6 (by decide))).trans ((by show StableHlo.after hostOps1 _ (Proc.devRef .tc main_arg6) = _; after_results : W3 m ρ c (Proc.devRef .tc main_arg6) = W2 m ρ c (Proc.devRef .tc main_arg6)))))
theorem W6_main_arg6 (c : Dev nD) : W6 m ρ c (Proc.devRef .tc main_arg6) = W0 m ρ c (Proc.devRef .tc main_arg6) :=
  (p6_2_main_arg6 m ρ c).trans ((p2_0_main_arg6 m ρ c))
set_option maxHeartbeats 2000000 in
theorem p10_6_main_arg6 (c : Dev nD) : W10 m ρ c (Proc.devRef .tc main_arg6) = W6 m ρ c (Proc.devRef .tc main_arg6) :=
  ((W10_of_ne m ρ c main_arg6 (by decide))).trans (((by show StableHlo.after hostOps4 _ (Proc.devRef .tc main_arg6) = _; after_results : W9 m ρ c (Proc.devRef .tc main_arg6) = W8 m ρ c (Proc.devRef .tc main_arg6))).trans (((W8_of_ne m ρ c main_arg6 (by decide))).trans ((by show StableHlo.after hostOps3 _ (Proc.devRef .tc main_arg6) = _; after_results : W7 m ρ c (Proc.devRef .tc main_arg6) = W6 m ρ c (Proc.devRef .tc main_arg6)))))
theorem W10_main_arg6 (c : Dev nD) : W10 m ρ c (Proc.devRef .tc main_arg6) = W0 m ρ c (Proc.devRef .tc main_arg6) :=
  (p10_6_main_arg6 m ρ c).trans ((p6_2_main_arg6 m ρ c).trans ((p2_0_main_arg6 m ρ c)))
set_option maxHeartbeats 2000000 in
theorem p12_8_main_arg7 (c : Dev nD) : W12 m ρ c (Proc.devRef .tc main_arg7) = W8 m ρ c (Proc.devRef .tc main_arg7) :=
  ((W12_of_ne m ρ c main_arg7 (by decide))).trans (((by show StableHlo.after hostOps5 _ (Proc.devRef .tc main_arg7) = _; after_results : W11 m ρ c (Proc.devRef .tc main_arg7) = W10 m ρ c (Proc.devRef .tc main_arg7))).trans (((W10_of_ne m ρ c main_arg7 (by decide))).trans ((by show StableHlo.after hostOps4 _ (Proc.devRef .tc main_arg7) = _; after_results : W9 m ρ c (Proc.devRef .tc main_arg7) = W8 m ρ c (Proc.devRef .tc main_arg7)))))
set_option maxHeartbeats 2000000 in
theorem p8_4_main_arg7 (c : Dev nD) : W8 m ρ c (Proc.devRef .tc main_arg7) = W4 m ρ c (Proc.devRef .tc main_arg7) :=
  ((W8_of_ne m ρ c main_arg7 (by decide))).trans (((by show StableHlo.after hostOps3 _ (Proc.devRef .tc main_arg7) = _; after_results : W7 m ρ c (Proc.devRef .tc main_arg7) = W6 m ρ c (Proc.devRef .tc main_arg7))).trans (((W6_of_ne m ρ c main_arg7 (by decide))).trans ((by show StableHlo.after hostOps2 _ (Proc.devRef .tc main_arg7) = _; after_results : W5 m ρ c (Proc.devRef .tc main_arg7) = W4 m ρ c (Proc.devRef .tc main_arg7)))))
set_option maxHeartbeats 2000000 in
theorem p4_0_main_arg7 (c : Dev nD) : W4 m ρ c (Proc.devRef .tc main_arg7) = W0 m ρ c (Proc.devRef .tc main_arg7) :=
  ((W4_of_ne m ρ c main_arg7 (by decide))).trans (((by show StableHlo.after hostOps1 _ (Proc.devRef .tc main_arg7) = _; after_results : W3 m ρ c (Proc.devRef .tc main_arg7) = W2 m ρ c (Proc.devRef .tc main_arg7))).trans (((W2_of_ne m ρ c main_arg7 (by decide))).trans ((by show StableHlo.after hostOps0 _ (Proc.devRef .tc main_arg7) = _; after_results : W1 m ρ c (Proc.devRef .tc main_arg7) = W0 m ρ c (Proc.devRef .tc main_arg7)))))
theorem W12_main_arg7 (c : Dev nD) : W12 m ρ c (Proc.devRef .tc main_arg7) = W0 m ρ c (Proc.devRef .tc main_arg7) :=
  (p12_8_main_arg7 m ρ c).trans ((p8_4_main_arg7 m ρ c).trans ((p4_0_main_arg7 m ρ c)))
set_option maxHeartbeats 2000000 in
theorem p12_8_main_arg8 (c : Dev nD) : W12 m ρ c (Proc.devRef .tc main_arg8) = W8 m ρ c (Proc.devRef .tc main_arg8) :=
  ((W12_of_ne m ρ c main_arg8 (by decide))).trans (((by show StableHlo.after hostOps5 _ (Proc.devRef .tc main_arg8) = _; after_results : W11 m ρ c (Proc.devRef .tc main_arg8) = W10 m ρ c (Proc.devRef .tc main_arg8))).trans (((W10_of_ne m ρ c main_arg8 (by decide))).trans ((by show StableHlo.after hostOps4 _ (Proc.devRef .tc main_arg8) = _; after_results : W9 m ρ c (Proc.devRef .tc main_arg8) = W8 m ρ c (Proc.devRef .tc main_arg8)))))
set_option maxHeartbeats 2000000 in
theorem p8_4_main_arg8 (c : Dev nD) : W8 m ρ c (Proc.devRef .tc main_arg8) = W4 m ρ c (Proc.devRef .tc main_arg8) :=
  ((W8_of_ne m ρ c main_arg8 (by decide))).trans (((by show StableHlo.after hostOps3 _ (Proc.devRef .tc main_arg8) = _; after_results : W7 m ρ c (Proc.devRef .tc main_arg8) = W6 m ρ c (Proc.devRef .tc main_arg8))).trans (((W6_of_ne m ρ c main_arg8 (by decide))).trans ((by show StableHlo.after hostOps2 _ (Proc.devRef .tc main_arg8) = _; after_results : W5 m ρ c (Proc.devRef .tc main_arg8) = W4 m ρ c (Proc.devRef .tc main_arg8)))))
set_option maxHeartbeats 2000000 in
theorem p4_0_main_arg8 (c : Dev nD) : W4 m ρ c (Proc.devRef .tc main_arg8) = W0 m ρ c (Proc.devRef .tc main_arg8) :=
  ((W4_of_ne m ρ c main_arg8 (by decide))).trans (((by show StableHlo.after hostOps1 _ (Proc.devRef .tc main_arg8) = _; after_results : W3 m ρ c (Proc.devRef .tc main_arg8) = W2 m ρ c (Proc.devRef .tc main_arg8))).trans (((W2_of_ne m ρ c main_arg8 (by decide))).trans ((by show StableHlo.after hostOps0 _ (Proc.devRef .tc main_arg8) = _; after_results : W1 m ρ c (Proc.devRef .tc main_arg8) = W0 m ρ c (Proc.devRef .tc main_arg8)))))
theorem W12_main_arg8 (c : Dev nD) : W12 m ρ c (Proc.devRef .tc main_arg8) = W0 m ρ c (Proc.devRef .tc main_arg8) :=
  (p12_8_main_arg8 m ρ c).trans ((p8_4_main_arg8 m ρ c).trans ((p4_0_main_arg8 m ρ c)))
set_option maxHeartbeats 2000000 in
theorem p12_8_main_arg10 (c : Dev nD) : W12 m ρ c (Proc.devRef .tc main_arg10) = W8 m ρ c (Proc.devRef .tc main_arg10) :=
  ((W12_of_ne m ρ c main_arg10 (by decide))).trans (((by show StableHlo.after hostOps5 _ (Proc.devRef .tc main_arg10) = _; after_results : W11 m ρ c (Proc.devRef .tc main_arg10) = W10 m ρ c (Proc.devRef .tc main_arg10))).trans (((W10_of_ne m ρ c main_arg10 (by decide))).trans ((by show StableHlo.after hostOps4 _ (Proc.devRef .tc main_arg10) = _; after_results : W9 m ρ c (Proc.devRef .tc main_arg10) = W8 m ρ c (Proc.devRef .tc main_arg10)))))
set_option maxHeartbeats 2000000 in
theorem p8_4_main_arg10 (c : Dev nD) : W8 m ρ c (Proc.devRef .tc main_arg10) = W4 m ρ c (Proc.devRef .tc main_arg10) :=
  ((W8_of_ne m ρ c main_arg10 (by decide))).trans (((by show StableHlo.after hostOps3 _ (Proc.devRef .tc main_arg10) = _; after_results : W7 m ρ c (Proc.devRef .tc main_arg10) = W6 m ρ c (Proc.devRef .tc main_arg10))).trans (((W6_of_ne m ρ c main_arg10 (by decide))).trans ((by show StableHlo.after hostOps2 _ (Proc.devRef .tc main_arg10) = _; after_results : W5 m ρ c (Proc.devRef .tc main_arg10) = W4 m ρ c (Proc.devRef .tc main_arg10)))))
set_option maxHeartbeats 2000000 in
theorem p4_0_main_arg10 (c : Dev nD) : W4 m ρ c (Proc.devRef .tc main_arg10) = W0 m ρ c (Proc.devRef .tc main_arg10) :=
  ((W4_of_ne m ρ c main_arg10 (by decide))).trans (((by show StableHlo.after hostOps1 _ (Proc.devRef .tc main_arg10) = _; after_results : W3 m ρ c (Proc.devRef .tc main_arg10) = W2 m ρ c (Proc.devRef .tc main_arg10))).trans (((W2_of_ne m ρ c main_arg10 (by decide))).trans ((by show StableHlo.after hostOps0 _ (Proc.devRef .tc main_arg10) = _; after_results : W1 m ρ c (Proc.devRef .tc main_arg10) = W0 m ρ c (Proc.devRef .tc main_arg10)))))
theorem W12_main_arg10 (c : Dev nD) : W12 m ρ c (Proc.devRef .tc main_arg10) = W0 m ρ c (Proc.devRef .tc main_arg10) :=
  (p12_8_main_arg10 m ρ c).trans ((p8_4_main_arg10 m ρ c).trans ((p4_0_main_arg10 m ρ c)))

/-! ## Layer 1: host stretch 0, the dense-and-statistics launch 0, host stretch 1, the normalisation launch 1 -/

theorem V1_x (c : Dev nD) : V1 m ρ c main_arg0 = (argsOf m c).x := by
  show StableHlo.after hostOps0 _ (Proc.devRef .tc main_arg0) = _
  after_results
  rfl

set_option maxHeartbeats 4000000 in
theorem V1_agg (c : Dev nD) : V1 m ρ c main_v15 = agg (argsOf m c).src (argsOf m c).dst (argsOf m c).x := by
  show StableHlo.after hostOps0 _ (Proc.devRef .tc main_v15) = _
  after_results_simp
  exact hostAggBf_eq gather_S50000x128_S800000x1_S800000x128_1_0_n_n_0_1_1128_wf _ rfl
    scatter_S50000x128_S800000x1_S800000x128_1_0_0_1_wf _ rfl bcast_S_S50000x128 bitsLt_bf16_f32 _ _ _

theorem V1_W1 (c : Dev nD) : V1 m ρ c main_v17 = matAt 0 (argsOf m c).W1s := by
  show StableHlo.after hostOps0 _ (Proc.devRef .tc main_v17) = _
  after_results
  exact sliceMat0_eq _ _ _
theorem V1_W2 (c : Dev nD) : V1 m ρ c main_v21 = matAt 0 (argsOf m c).W2s := by
  show StableHlo.after hostOps0 _ (Proc.devRef .tc main_v21) = _
  after_results
  exact sliceMat0_eq _ _ _
theorem V1_b1 (c : Dev nD) : (fun q : Fin 128 => V1 m ρ c main_v24 (ix2 (0 : Fin 1) q)) = asFun (vecAt 0 (argsOf m c).b1s) := by
  funext q
  show StableHlo.after hostOps0 _ (Proc.devRef .tc main_v24) (ix2 (0 : Fin 1) q) = _
  after_results
  refine (rowOfVec_apply _ _ q).trans ?_
  exact congrFun (sliceVec0_eq _ _ _) (ix1 q)
theorem V1_b2 (c : Dev nD) : (fun q : Fin 128 => V1 m ρ c main_v25 (ix2 (0 : Fin 1) q)) = asFun (vecAt 0 (argsOf m c).b2s) := by
  funext q
  show StableHlo.after hostOps0 _ (Proc.devRef .tc main_v25) (ix2 (0 : Fin 1) q) = _
  after_results
  refine (rowOfVec_apply _ _ q).trans ?_
  exact congrFun (sliceVec0_eq _ _ _) (ix1 q)

/-- The launch's dense stage of the entry contents is the layer before normalisation. -/
theorem h0_eq (c : Dev nD) : RegionValue.hOf0 (V1 m ρ) c = preAt (argsOf m c) 0 (argsOf m c).x := by
  show mlp (plus (V1 m ρ c main_arg0) (V1 m ρ c main_v15)) (V1 m ρ c main_v17) (fun q => V1 m ρ c main_v24 (ix2 (0 : Fin 1) q))
      (V1 m ρ c main_v21) (fun q => V1 m ρ c main_v25 (ix2 (0 : Fin 1) q)) = _
  rw [V1_x m ρ c, V1_agg m ρ c, V1_W1, V1_W2, V1_b1, V1_b2]
  rfl

theorem W2_h (c : Dev nD) : W2 m ρ c (Proc.devRef .tc main_v26_0) = preAt (argsOf m c) 0 (argsOf m c).x :=
  ((W2_arr m ρ c 6).trans (RegionValue.h_region0 (V1 m ρ) c)).trans (h0_eq m ρ c)
theorem W2_st (c : Dev nD) : W2 m ρ c (Proc.devRef .tc main_v26_1) = tileStats (preAt (argsOf m c) 0 (argsOf m c).x) :=
  ((W2_arr m ρ c 7).trans (RegionValue.stats_region0 (V1 m ρ) c)).trans (congrArg tileStats (h0_eq m ρ c))

theorem V3_h (c : Dev nD) : V3 m ρ c main_v26_0 = preAt (argsOf m c) 0 (argsOf m c).x := by
  show StableHlo.after hostOps1 _ (Proc.devRef .tc main_v26_0) = _
  after_results
  exact W2_h m ρ c

set_option maxHeartbeats 4000000 in
theorem V3_mean (c : Dev nD) : rowVec (V3 m ρ c main_v53) = kmean (preAt (argsOf m c) 0 (argsOf m c).x) := by
  have e : V3 m ρ c main_v53 = shapeCast S1x128 (kmean (preAt (argsOf m c) 0 (argsOf m c).x)) shapeCasts_S128_S1x128 := by
    show StableHlo.after hostOps1 _ (Proc.devRef .tc main_v53) = _
    after_results_simp
    rw [W2_st m ρ c]
    exact congrArg (fun v => shapeCast S1x128 v shapeCasts_S128_S1x128)
      (poolMean_eq _ slices_S10x8x128_S10x1x128_0_0_0 shapeCasts_S10x1x128_S10x128 reducesTo_S10x128_S128_d0 (by decide) h_S_ bcast_S_S128)
  rw [e]
  exact rowOfVec_eq _ _

set_option maxHeartbeats 4000000 in
theorem V3_var (c : Dev nD) : rowVec (V3 m ρ c main_v54) = kvar (preAt (argsOf m c) 0 (argsOf m c).x) := by
  have e : V3 m ρ c main_v54 = shapeCast S1x128 (kvar (preAt (argsOf m c) 0 (argsOf m c).x)) shapeCasts_S128_S1x128 := by
    show StableHlo.after hostOps1 _ (Proc.devRef .tc main_v54) = _
    after_results_simp
    rw [W2_st m ρ c]
    exact congrArg (fun v => shapeCast S1x128 v shapeCasts_S128_S1x128)
      (poolVar_eq _ slices_S10x8x128_S10x1x128_0_0_0 shapeCasts_S10x1x128_S10x128 slices_S10x8x128_S10x1x128_0_1_0 reducesTo_S10x128_S128_d0 (by decide) h_S_ bcast_S_S128 bcast_S128_S1x128_1 bcast_S1x128_S10x128_0_1)
  rw [e]
  exact rowOfVec_eq _ _

theorem V3_g (c : Dev nD) : rowVec (V3 m ρ c main_v55) = vecAt 0 (argsOf m c).gs := by
  have e : V3 m ρ c main_v55 = shapeCast S1x128 (vecAt 0 (argsOf m c).gs) shapeCasts_S128_S1x128 := by
    show StableHlo.after hostOps1 _ (Proc.devRef .tc main_v55) = _
    after_results
    rw [W2_main_arg5 m ρ c]
    exact congrArg (fun v => shapeCast S1x128 v shapeCasts_S128_S1x128) (sliceVec0_eq _ _ _)
  rw [e]
  exact rowOfVec_eq _ _
theorem V3_b (c : Dev nD) : rowVec (V3 m ρ c main_v56) = vecAt 0 (argsOf m c).bes := by
  have e : V3 m ρ c main_v56 = shapeCast S1x128 (vecAt 0 (argsOf m c).bes) shapeCasts_S128_S1x128 := by
    show StableHlo.after hostOps1 _ (Proc.devRef .tc main_v56) = _
    after_results
    rw [W2_main_arg6 m ρ c]
    exact congrArg (fun v => shapeCast S1x128 v shapeCasts_S128_S1x128) (sliceVec0_eq _ _ _)
  rw [e]
  exact rowOfVec_eq _ _

/-- The layer's output array at the normalisation launch's exit is the layer with the pooled statistics. -/
theorem W4_out (c : Dev nD) : W4 m ρ c (Proc.devRef .tc main_v57) = kerAt (argsOf m c) 0 (argsOf m c).x := by
  refine ((W4_arr m ρ c 5).trans (RegionValue.out_region1 (V3 m ρ) c)).trans ?_
  show bnRelu eps (V3 m ρ c main_v26_0) (rowVec (V3 m ρ c main_v53)) (rowVec (V3 m ρ c main_v54)) (rowVec (V3 m ρ c main_v55)) (rowVec (V3 m ρ c main_v56)) = _
  rw [V3_h m ρ c, V3_mean m ρ c, V3_var m ρ c, V3_g, V3_b]
  rfl

/-! ## Layer 2: host stretch 2, the dense-and-statistics launch 2, host stretch 3, the normalisation launch 3 -/

theorem V5_x (c : Dev nD) (X : Mat 50000 128) (hX : W4 m ρ c (Proc.devRef .tc main_v57) = X) : V5 m ρ c main_v57 = X := by
  show StableHlo.after hostOps2 _ (Proc.devRef .tc main_v57) = _
  after_results
  exact hX

set_option maxHeartbeats 4000000 in
theorem V5_agg (c : Dev nD) (X : Mat 50000 128) (hX : W4 m ρ c (Proc.devRef .tc main_v57) = X) : V5 m ρ c main_v69 = agg (argsOf m c).src (argsOf m c).dst X := by
  show StableHlo.after hostOps2 _ (Proc.devRef .tc main_v69) = _
  after_results_simp
  rw [hX, (W4_main_v1 m ρ c).trans (W1_v1 m ρ c), (W4_main_v3 m ρ c).trans (W1_v3 m ρ c)]
  exact hostAggBf_eq gather_S50000x128_S800000x1_S800000x128_1_0_n_n_0_1_1128_wf _ rfl
    scatter_S50000x128_S800000x1_S800000x128_1_0_0_1_wf _ rfl bcast_S_S50000x128 bitsLt_bf16_f32 _ _ _

theorem V5_W1 (c : Dev nD) : V5 m ρ c main_v71 = matAt 1 (argsOf m c).W1s := by
  show StableHlo.after hostOps2 _ (Proc.devRef .tc main_v71) = _
  after_results
  rw [W4_main_arg1 m ρ c]
  exact sliceMat1_eq _ _ _
theorem V5_W2 (c : Dev nD) : V5 m ρ c main_v75 = matAt 1 (argsOf m c).W2s := by
  show StableHlo.after hostOps2 _ (Proc.devRef .tc main_v75) = _
  after_results
  rw [W4_main_arg3 m ρ c]
  exact sliceMat1_eq _ _ _
theorem V5_b1 (c : Dev nD) : (fun q : Fin 128 => V5 m ρ c main_v78 (ix2 (0 : Fin 1) q)) = asFun (vecAt 1 (argsOf m c).b1s) := by
  funext q
  show StableHlo.after hostOps2 _ (Proc.devRef .tc main_v78) (ix2 (0 : Fin 1) q) = _
  after_results
  rw [W4_main_arg2 m ρ c]
  refine (rowOfVec_apply _ _ q).trans ?_
  exact congrFun (sliceVec1_eq _ _ _) (ix1 q)
theorem V5_b2 (c : Dev nD) : (fun q : Fin 128 => V5 m ρ c main_v79 (ix2 (0 : Fin 1) q)) = asFun (vecAt 1 (argsOf m c).b2s) := by
  funext q
  show StableHlo.after hostOps2 _ (Proc.devRef .tc main_v79) (ix2 (0 : Fin 1) q) = _
  after_results
  rw [W4_main_arg4 m ρ c]
  refine (rowOfVec_apply _ _ q).trans ?_
  exact congrFun (sliceVec1_eq _ _ _) (ix1 q)

/-- The launch's dense stage of the entry contents is the layer before normalisation. -/
theorem h2_eq (c : Dev nD) (X : Mat 50000 128) (hX : W4 m ρ c (Proc.devRef .tc main_v57) = X) : RegionValue.hOf2 (V5 m ρ) c = preAt (argsOf m c) 1 X := by
  show mlp (plus (V5 m ρ c main_v57) (V5 m ρ c main_v69)) (V5 m ρ c main_v71) (fun q => V5 m ρ c main_v78 (ix2 (0 : Fin 1) q))
      (V5 m ρ c main_v75) (fun q => V5 m ρ c main_v79 (ix2 (0 : Fin 1) q)) = _
  rw [V5_x m ρ c X hX, V5_agg m ρ c X hX, V5_W1, V5_W2, V5_b1, V5_b2]
  rfl

theorem W6_h (c : Dev nD) (X : Mat 50000 128) (hX : W4 m ρ c (Proc.devRef .tc main_v57) = X) : W6 m ρ c (Proc.devRef .tc main_v80_0) = preAt (argsOf m c) 1 X :=
  ((W6_arr m ρ c 6).trans (RegionValue.h_region2 (V5 m ρ) c)).trans (h2_eq m ρ c X hX)
theorem W6_st (c : Dev nD) (X : Mat 50000 128) (hX : W4 m ρ c (Proc.devRef .tc main_v57) = X) : W6 m ρ c (Proc.devRef .tc main_v80_1) = tileStats (preAt (argsOf m c) 1 X) :=
  ((W6_arr m ρ c 7).trans (RegionValue.stats_region2 (V5 m ρ) c)).trans (congrArg tileStats (h2_eq m ρ c X hX))

theorem V7_h (c : Dev nD) (X : Mat 50000 128) (hX : W4 m ρ c (Proc.devRef .tc main_v57) = X) : V7 m ρ c main_v80_0 = preAt (argsOf m c) 1 X := by
  show StableHlo.after hostOps3 _ (Proc.devRef .tc main_v80_0) = _
  after_results
  exact W6_h m ρ c X hX

set_option maxHeartbeats 4000000 in
theorem V7_mean (c : Dev nD) (X : Mat 50000 128) (hX : W4 m ρ c (Proc.devRef .tc main_v57) = X) : rowVec (V7 m ρ c main_v107) = kmean (preAt (argsOf m c) 1 X) := by
  have e : V7 m ρ c main_v107 = shapeCast S1x128 (kmean (preAt (argsOf m c) 1 X)) shapeCasts_S128_S1x128 := by
    show StableHlo.after hostOps3 _ (Proc.devRef .tc main_v107) = _
    after_results_simp
    rw [W6_st m ρ c X hX]
    exact congrArg (fun v => shapeCast S1x128 v shapeCasts_S128_S1x128)
      (poolMean_eq _ slices_S10x8x128_S10x1x128_0_0_0 shapeCasts_S10x1x128_S10x128 reducesTo_S10x128_S128_d0 (by decide) h_S_ bcast_S_S128)
  rw [e]
  exact rowOfVec_eq _ _

set_option maxHeartbeats 4000000 in
theorem V7_var (c : Dev nD) (X : Mat 50000 128) (hX : W4 m ρ c (Proc.devRef .tc main_v57) = X) : rowVec (V7 m ρ c main_v108) = kvar (preAt (argsOf m c) 1 X) := by
  have e : V7 m ρ c main_v108 = shapeCast S1x128 (kvar (preAt (argsOf m c) 1 X)) shapeCasts_S128_S1x128 := by
    show StableHlo.after hostOps3 _ (Proc.devRef .tc main_v108) = _
    after_results_simp
    rw [W6_st m ρ c X hX]
    exact congrArg (fun v => shapeCast S1x128 v shapeCasts_S128_S1x128)
      (poolVar_eq _ slices_S10x8x128_S10x1x128_0_0_0 shapeCasts_S10x1x128_S10x128 slices_S10x8x128_S10x1x128_0_1_0 reducesTo_S10x128_S128_d0 (by decide) h_S_ bcast_S_S128 bcast_S128_S1x128_1 bcast_S1x128_S10x128_0_1)
  rw [e]
  exact rowOfVec_eq _ _

theorem V7_g (c : Dev nD) : rowVec (V7 m ρ c main_v109) = vecAt 1 (argsOf m c).gs := by
  have e : V7 m ρ c main_v109 = shapeCast S1x128 (vecAt 1 (argsOf m c).gs) shapeCasts_S128_S1x128 := by
    show StableHlo.after hostOps3 _ (Proc.devRef .tc main_v109) = _
    after_results
    rw [W6_main_arg5 m ρ c]
    exact congrArg (fun v => shapeCast S1x128 v shapeCasts_S128_S1x128) (sliceVec1_eq _ _ _)
  rw [e]
  exact rowOfVec_eq _ _
theorem V7_b (c : Dev nD) : rowVec (V7 m ρ c main_v110) = vecAt 1 (argsOf m c).bes := by
  have e : V7 m ρ c main_v110 = shapeCast S1x128 (vecAt 1 (argsOf m c).bes) shapeCasts_S128_S1x128 := by
    show StableHlo.after hostOps3 _ (Proc.devRef .tc main_v110) = _
    after_results
    rw [W6_main_arg6 m ρ c]
    exact congrArg (fun v => shapeCast S1x128 v shapeCasts_S128_S1x128) (sliceVec1_eq _ _ _)
  rw [e]
  exact rowOfVec_eq _ _

/-- The layer's output array at the normalisation launch's exit is the layer with the pooled statistics. -/
theorem W8_out (c : Dev nD) (X : Mat 50000 128) (hX : W4 m ρ c (Proc.devRef .tc main_v57) = X) : W8 m ρ c (Proc.devRef .tc main_v111) = kerAt (argsOf m c) 1 X := by
  refine ((W8_arr m ρ c 5).trans (RegionValue.out_region3 (V7 m ρ) c)).trans ?_
  show bnRelu eps (V7 m ρ c main_v80_0) (rowVec (V7 m ρ c main_v107)) (rowVec (V7 m ρ c main_v108)) (rowVec (V7 m ρ c main_v109)) (rowVec (V7 m ρ c main_v110)) = _
  rw [V7_h m ρ c X hX, V7_mean m ρ c X hX, V7_var m ρ c X hX, V7_g, V7_b]
  rfl

/-! ## Layer 3: host stretch 4, the dense-and-statistics launch 4, host stretch 5, the normalisation launch 5 -/

theorem V9_x (c : Dev nD) (X : Mat 50000 128) (hX : W8 m ρ c (Proc.devRef .tc main_v111) = X) : V9 m ρ c main_v111 = X := by
  show StableHlo.after hostOps4 _ (Proc.devRef .tc main_v111) = _
  after_results
  exact hX

set_option maxHeartbeats 4000000 in
theorem V9_agg (c : Dev nD) (X : Mat 50000 128) (hX : W8 m ρ c (Proc.devRef .tc main_v111) = X) : V9 m ρ c main_v123 = agg (argsOf m c).src (argsOf m c).dst X := by
  show StableHlo.after hostOps4 _ (Proc.devRef .tc main_v123) = _
  after_results_simp
  rw [hX, (W8_main_v1 m ρ c).trans (W1_v1 m ρ c), (W8_main_v3 m ρ c).trans (W1_v3 m ρ c)]
  exact hostAggBf_eq gather_S50000x128_S800000x1_S800000x128_1_0_n_n_0_1_1128_wf _ rfl
    scatter_S50000x128_S800000x1_S800000x128_1_0_0_1_wf _ rfl bcast_S_S50000x128 bitsLt_bf16_f32 _ _ _

theorem V9_W1 (c : Dev nD) : V9 m ρ c main_v125 = matAt 2 (argsOf m c).W1s := by
  show StableHlo.after hostOps4 _ (Proc.devRef .tc main_v125) = _
  after_results
  rw [W8_main_arg1 m ρ c]
  exact sliceMat2_eq _ _ _
theorem V9_W2 (c : Dev nD) : V9 m ρ c main_v129 = matAt 2 (argsOf m c).W2s := by
  show StableHlo.after hostOps4 _ (Proc.devRef .tc main_v129) = _
  after_results
  rw [W8_main_arg3 m ρ c]
  exact sliceMat2_eq _ _ _
theorem V9_b1 (c : Dev nD) : (fun q : Fin 128 => V9 m ρ c main_v132 (ix2 (0 : Fin 1) q)) = asFun (vecAt 2 (argsOf m c).b1s) := by
  funext q
  show StableHlo.after hostOps4 _ (Proc.devRef .tc main_v132) (ix2 (0 : Fin 1) q) = _
  after_results
  rw [W8_main_arg2 m ρ c]
  refine (rowOfVec_apply _ _ q).trans ?_
  exact congrFun (sliceVec2_eq _ _ _) (ix1 q)
theorem V9_b2 (c : Dev nD) : (fun q : Fin 128 => V9 m ρ c main_v133 (ix2 (0 : Fin 1) q)) = asFun (vecAt 2 (argsOf m c).b2s) := by
  funext q
  show StableHlo.after hostOps4 _ (Proc.devRef .tc main_v133) (ix2 (0 : Fin 1) q) = _
  after_results
  rw [W8_main_arg4 m ρ c]
  refine (rowOfVec_apply _ _ q).trans ?_
  exact congrFun (sliceVec2_eq _ _ _) (ix1 q)

/-- The launch's dense stage of the entry contents is the layer before normalisation. -/
theorem h4_eq (c : Dev nD) (X : Mat 50000 128) (hX : W8 m ρ c (Proc.devRef .tc main_v111) = X) : RegionValue.hOf4 (V9 m ρ) c = preAt (argsOf m c) 2 X := by
  show mlp (plus (V9 m ρ c main_v111) (V9 m ρ c main_v123)) (V9 m ρ c main_v125) (fun q => V9 m ρ c main_v132 (ix2 (0 : Fin 1) q))
      (V9 m ρ c main_v129) (fun q => V9 m ρ c main_v133 (ix2 (0 : Fin 1) q)) = _
  rw [V9_x m ρ c X hX, V9_agg m ρ c X hX, V9_W1, V9_W2, V9_b1, V9_b2]
  rfl

theorem W10_h (c : Dev nD) (X : Mat 50000 128) (hX : W8 m ρ c (Proc.devRef .tc main_v111) = X) : W10 m ρ c (Proc.devRef .tc main_v134_0) = preAt (argsOf m c) 2 X :=
  ((W10_arr m ρ c 6).trans (RegionValue.h_region4 (V9 m ρ) c)).trans (h4_eq m ρ c X hX)
theorem W10_st (c : Dev nD) (X : Mat 50000 128) (hX : W8 m ρ c (Proc.devRef .tc main_v111) = X) : W10 m ρ c (Proc.devRef .tc main_v134_1) = tileStats (preAt (argsOf m c) 2 X) :=
  ((W10_arr m ρ c 7).trans (RegionValue.stats_region4 (V9 m ρ) c)).trans (congrArg tileStats (h4_eq m ρ c X hX))

theorem V11_h (c : Dev nD) (X : Mat 50000 128) (hX : W8 m ρ c (Proc.devRef .tc main_v111) = X) : V11 m ρ c main_v134_0 = preAt (argsOf m c) 2 X := by
  show StableHlo.after hostOps5 _ (Proc.devRef .tc main_v134_0) = _
  after_results
  exact W10_h m ρ c X hX

set_option maxHeartbeats 4000000 in
theorem V11_mean (c : Dev nD) (X : Mat 50000 128) (hX : W8 m ρ c (Proc.devRef .tc main_v111) = X) : rowVec (V11 m ρ c main_v161) = kmean (preAt (argsOf m c) 2 X) := by
  have e : V11 m ρ c main_v161 = shapeCast S1x128 (kmean (preAt (argsOf m c) 2 X)) shapeCasts_S128_S1x128 := by
    show StableHlo.after hostOps5 _ (Proc.devRef .tc main_v161) = _
    after_results_simp
    rw [W10_st m ρ c X hX]
    exact congrArg (fun v => shapeCast S1x128 v shapeCasts_S128_S1x128)
      (poolMean_eq _ slices_S10x8x128_S10x1x128_0_0_0 shapeCasts_S10x1x128_S10x128 reducesTo_S10x128_S128_d0 (by decide) h_S_ bcast_S_S128)
  rw [e]
  exact rowOfVec_eq _ _

set_option maxHeartbeats 4000000 in
theorem V11_var (c : Dev nD) (X : Mat 50000 128) (hX : W8 m ρ c (Proc.devRef .tc main_v111) = X) : rowVec (V11 m ρ c main_v162) = kvar (preAt (argsOf m c) 2 X) := by
  have e : V11 m ρ c main_v162 = shapeCast S1x128 (kvar (preAt (argsOf m c) 2 X)) shapeCasts_S128_S1x128 := by
    show StableHlo.after hostOps5 _ (Proc.devRef .tc main_v162) = _
    after_results_simp
    rw [W10_st m ρ c X hX]
    exact congrArg (fun v => shapeCast S1x128 v shapeCasts_S128_S1x128)
      (poolVar_eq _ slices_S10x8x128_S10x1x128_0_0_0 shapeCasts_S10x1x128_S10x128 slices_S10x8x128_S10x1x128_0_1_0 reducesTo_S10x128_S128_d0 (by decide) h_S_ bcast_S_S128 bcast_S128_S1x128_1 bcast_S1x128_S10x128_0_1)
  rw [e]
  exact rowOfVec_eq _ _

theorem V11_g (c : Dev nD) : rowVec (V11 m ρ c main_v163) = vecAt 2 (argsOf m c).gs := by
  have e : V11 m ρ c main_v163 = shapeCast S1x128 (vecAt 2 (argsOf m c).gs) shapeCasts_S128_S1x128 := by
    show StableHlo.after hostOps5 _ (Proc.devRef .tc main_v163) = _
    after_results
    rw [W10_main_arg5 m ρ c]
    exact congrArg (fun v => shapeCast S1x128 v shapeCasts_S128_S1x128) (sliceVec2_eq _ _ _)
  rw [e]
  exact rowOfVec_eq _ _
theorem V11_b (c : Dev nD) : rowVec (V11 m ρ c main_v164) = vecAt 2 (argsOf m c).bes := by
  have e : V11 m ρ c main_v164 = shapeCast S1x128 (vecAt 2 (argsOf m c).bes) shapeCasts_S128_S1x128 := by
    show StableHlo.after hostOps5 _ (Proc.devRef .tc main_v164) = _
    after_results
    rw [W10_main_arg6 m ρ c]
    exact congrArg (fun v => shapeCast S1x128 v shapeCasts_S128_S1x128) (sliceVec2_eq _ _ _)
  rw [e]
  exact rowOfVec_eq _ _

/-- The layer's output array at the normalisation launch's exit is the layer with the pooled statistics. -/
theorem W12_out (c : Dev nD) (X : Mat 50000 128) (hX : W8 m ρ c (Proc.devRef .tc main_v111) = X) : W12 m ρ c (Proc.devRef .tc main_v165) = kerAt (argsOf m c) 2 X := by
  refine ((W12_arr m ρ c 5).trans (RegionValue.out_region5 (V11 m ρ) c)).trans ?_
  show bnRelu eps (V11 m ρ c main_v134_0) (rowVec (V11 m ρ c main_v161)) (rowVec (V11 m ρ c main_v162)) (rowVec (V11 m ρ c main_v163)) (rowVec (V11 m ρ c main_v164)) = _
  rw [V11_h m ρ c X hX, V11_mean m ρ c X hX, V11_var m ρ c X hX, V11_g, V11_b]
  rfl

/-! ## The last host stretch: the per-graph sums and the last dense layer -/

set_option maxHeartbeats 4000000 in
theorem W13_out (c : Dev nD) (X : Mat 50000 128) (hX : W12 m ρ c (Proc.devRef .tc main_v165) = X) :
    W13 m ρ c (Proc.devRef .tc main_v172) = head (argsOf m c) X := by
  show StableHlo.after hostOps6 _ (Proc.devRef .tc main_v172) = _
  after_results_simp
  rw [hX, W12_main_arg7 m ρ c, W12_main_arg8 m ρ c, W12_main_arg10 m ρ c]
  exact hostHead_eq _ rfl scatter_S64x128_S50000x1_S50000x128_1_0_0_1_wf _ rfl bcast_S_S64x128 bcast_S10_S1x10_1 bcast_S1x10_S64x10_0_1 _ _ _ _

/-- THE KERNEL PROGRAM'S VALUE: the result buffer's last contents are the network with the pooled statistics of the
    launch memory's arguments. -/
theorem value (c : Dev nD) : W13 m ρ c (Proc.devRef .tc main_v172) = kerNet (argsOf m c) :=
  W13_out m ρ c _ (W12_out m ρ c _ (W8_out m ρ c _ (W4_out m ρ c)))

end Cert.KernelIdeal.KVal

end
-- ==== Proof.RefRun.lean ====
/- The reference program's @main as a list of its host operations, the outlined functions' operations listed
   at their call sites over each call's own buffers, and its run read back: every weakly fair execution
   terminates with each buffer at the fold of the operations' results over the launch contents. -/
import proofs.«141774_j48919677501954_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 60: the two index vectors, the first layer's aggregation (gather, scatter-add), its two dense maps, the mean and — the variance function's nineteen operations and its selection's three listed at the call — the normalisation, scale, shift and maximum with zero. -/
abbrev ops0 : List (HloOp τ sig (Elt F)) :=
  [ unary main_arg9 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg9 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    unary main_arg1 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v17 main_v21 main_v22 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x00000000#32),
    unary main_cst_1 main_v23 (broadcastInDim S50000x128 ![] bcast_S_S50000x128 : (⟨S_, .f32⟩ : BufTy).Contents (Elt F) → (⟨S50000x128, .f32⟩ : BufTy).Contents (Elt F)),
    binary main_v22 main_v23 main_v24 (maximumf : (⟨S50000x128, .f32⟩ : BufTy).Contents (Elt F) → (⟨S50000x128, .f32⟩ : BufTy).Contents (Elt F) → (⟨S50000x128, .f32⟩ : BufTy).Contents (Elt F)),
    unary main_arg3 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v25 main_v26 rfl shapeCasts_S1x128x128_S128x128,
    binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v28 ((extractStridedSlice S1x128 ![0, 0] · slices_S3x128_S1x128_0_0) : (⟨S3x128, .f32⟩ : BufTy).Contents (Elt F) → (⟨S1x128, .f32⟩ : BufTy).Contents (Elt F)),
    reshape main_v28 main_v29 rfl shapeCasts_S1x128_S128,
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v27 main_v31 main_v32 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x00000000#32),
    binary main_v32 main_cst_2 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v34 (broadcastInDim S128 ![] bcast_S_S128 : (⟨S_, .f32⟩ : BufTy).Contents (Elt F) → (⟨S128, .f32⟩ : BufTy).Contents (Elt F)),
    binary main_v33 main_v34 main_v35 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call0.cst (constant S_ .f32 0x00000000#32),
    TRef.binary (.of main_v32 : StableHlo.TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v32 : StableHlo.TRef sig ⟨S50000x128, .f32⟩) main_call0.v4 main_call0.v5 subf,
    TRef.binary main_call0.v5 main_call0.v5 main_call0.v6 mulf,
    TRef.unary (.of main_c_4 : StableHlo.TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v35 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v32 main_v38 main_v39 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v40 (broadcastInDim S128 ![] bcast_S_S128 : (⟨S_, .f32⟩ : BufTy).Contents (Elt F) → (⟨S128, .f32⟩ : BufTy).Contents (Elt F)),
    binary main_v36 main_v40 main_v41 (addf : (⟨S128, .f32⟩ : BufTy).Contents (Elt F) → (⟨S128, .f32⟩ : BufTy).Contents (Elt F) → (⟨S128, .f32⟩ : BufTy).Contents (Elt F)),
    unary main_v41 main_v42 (Host.rsqrt : (⟨S128, .f32⟩ : BufTy).Contents (Elt F) → (⟨S128, .f32⟩ : BufTy).Contents (Elt F)),
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v39 main_v44 main_v45 (mulf : (⟨S50000x128, .f32⟩ : BufTy).Contents (Elt F) → (⟨S50000x128, .f32⟩ : BufTy).Contents (Elt F) → (⟨S50000x128, .f32⟩ : BufTy).Contents (Elt F)),
    unary main_arg5 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v45 main_v49 main_v50 (mulf : (⟨S50000x128, .f32⟩ : BufTy).Contents (Elt F) → (⟨S50000x128, .f32⟩ : BufTy).Contents (Elt F) → (⟨S50000x128, .f32⟩ : BufTy).Contents (Elt F)),
    unary main_arg6 main_v51 ((extractStridedSlice S1x128 ![0, 0] · slices_S3x128_S1x128_0_0) : (⟨S3x128, .f32⟩ : BufTy).Contents (Elt F) → (⟨S1x128, .f32⟩ : BufTy).Contents (Elt F)) ]

/-- @main's statements 61 … 120: the second layer, in the same order, the variance function's operations over the second call's buffers. -/
abbrev ops1 : List (HloOp τ sig (Elt F)) :=
  [ reshape main_v51 main_v52 rfl shapeCasts_S1x128_S128,
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v50 main_v54 main_v55 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    unary main_cst_6 main_v56 (broadcastInDim S50000x128 ![] bcast_S_S50000x128 : (⟨S_, .f32⟩ : BufTy).Contents (Elt F) → (⟨S50000x128, .f32⟩ : BufTy).Contents (Elt F)),
    binary main_v55 main_v56 main_v57 (maximumf : (⟨S50000x128, .f32⟩ : BufTy).Contents (Elt F) → (⟨S50000x128, .f32⟩ : BufTy).Contents (Elt F) → (⟨S50000x128, .f32⟩ : BufTy).Contents (Elt F)),
    nullary main_c_7 (constantI S_ 32 0#32),
    unary main_c_7 main_v58 (broadcastInDim S800000 ![] bcast_S_S800000 : (⟨S_, .i32⟩ : BufTy).Contents (Elt F) → (⟨S800000, .i32⟩ : BufTy).Contents (Elt F)),
    binary main_v1 main_v58 main_v59 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v60 (broadcastInDim S800000 ![] bcast_S_S800000 : (⟨S_, .i32⟩ : BufTy).Contents (Elt F) → (⟨S800000, .i32⟩ : BufTy).Contents (Elt F)),
    binary main_v1 main_v60 main_v61 (addi : (⟨S800000, .i32⟩ : BufTy).Contents (Elt F) → (⟨S800000, .i32⟩ : BufTy).Contents (Elt F) → (⟨S800000, .i32⟩ : BufTy).Contents (Elt F)),
    ternary main_v59 main_v61 main_v1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v62 main_v63 (broadcastInDim S800000x1 ![0] bcast_S800000_S800000x1_0 : (⟨S800000, .i32⟩ : BufTy).Contents (Elt F) → (⟨S800000x1, .i32⟩ : BufTy).Contents (Elt F)),
    binary main_v57 main_v63 main_v64 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v65 (broadcastInDim S50000x128 ![] bcast_S_S50000x128 : (⟨S_, .f32⟩ : BufTy).Contents (Elt F) → (⟨S50000x128, .f32⟩ : BufTy).Contents (Elt F)),
    unary main_v3 main_v66 (broadcastInDim S800000x1 ![0] bcast_S800000_S800000x1_0 : (⟨S800000, .i32⟩ : BufTy).Contents (Elt F) → (⟨S800000x1, .i32⟩ : BufTy).Contents (Elt F)),
    ternary main_v65 main_v66 main_v64 main_v67 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v57 main_v67 main_v68 (addf : (⟨S50000x128, .f32⟩ : BufTy).Contents (Elt F) → (⟨S50000x128, .f32⟩ : BufTy).Contents (Elt F) → (⟨S50000x128, .f32⟩ : BufTy).Contents (Elt F)),
    unary main_arg1 main_v69 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v69 main_v70 rfl shapeCasts_S1x128x128_S128x128,
    binary main_v68 main_v70 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v72 ((extractStridedSlice S1x128 ![1, 0] · slices_S3x128_S1x128_1_0) : (⟨S3x128, .f32⟩ : BufTy).Contents (Elt F) → (⟨S1x128, .f32⟩ : BufTy).Contents (Elt F)),
    reshape main_v72 main_v73 rfl shapeCasts_S1x128_S128,
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v71 main_v75 main_v76 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    unary main_cst_10 main_v77 (broadcastInDim S50000x128 ![] bcast_S_S50000x128 : (⟨S_, .f32⟩ : BufTy).Contents (Elt F) → (⟨S50000x128, .f32⟩ : BufTy).Contents (Elt F)),
    binary main_v76 main_v77 main_v78 (maximumf : (⟨S50000x128, .f32⟩ : BufTy).Contents (Elt F) → (⟨S50000x128, .f32⟩ : BufTy).Contents (Elt F) → (⟨S50000x128, .f32⟩ : BufTy).Contents (Elt F)),
    unary main_arg3 main_v79 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v79 main_v80 rfl shapeCasts_S1x128x128_S128x128,
    binary main_v78 main_v80 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v82 ((extractStridedSlice S1x128 ![1, 0] · slices_S3x128_S1x128_1_0) : (⟨S3x128, .f32⟩ : BufTy).Contents (Elt F) → (⟨S1x128, .f32⟩ : BufTy).Contents (Elt F)),
    reshape main_v82 main_v83 rfl shapeCasts_S1x128_S128,
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v81 main_v85 main_v86 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v86 main_cst_11 main_v87 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v88 (broadcastInDim S128 ![] bcast_S_S128 : (⟨S_, .f32⟩ : BufTy).Contents (Elt F) → (⟨S128, .f32⟩ : BufTy).Contents (Elt F)),
    binary main_v87 main_v88 main_v89 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call1.cst (constant S_ .f32 0x00000000#32),
    TRef.binary (.of main_v86 : StableHlo.TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v86 : StableHlo.TRef sig ⟨S50000x128, .f32⟩) main_call1.v4 main_call1.v5 subf,
    TRef.binary main_call1.v5 main_call1.v5 main_call1.v6 mulf,
    TRef.unary (.of main_c_13 : StableHlo.TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v89 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v86 main_v92 main_v93 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v94 (broadcastInDim S128 ![] bcast_S_S128 : (⟨S_, .f32⟩ : BufTy).Contents (Elt F) → (⟨S128, .f32⟩ : BufTy).Contents (Elt F)),
    binary main_v90 main_v94 main_v95 (addf : (⟨S128, .f32⟩ : BufTy).Contents (Elt F) → (⟨S128, .f32⟩ : BufTy).Contents (Elt F) → (⟨S128, .f32⟩ : BufTy).Contents (Elt F)),
    unary main_v95 main_v96 (Host.rsqrt : (⟨S128, .f32⟩ : BufTy).Contents (Elt F) → (⟨S128, .f32⟩ : BufTy).Contents (Elt F)),
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v93 main_v98 main_v99 (mulf : (⟨S50000x128, .f32⟩ : BufTy).Contents (Elt F) → (⟨S50000x128, .f32⟩ : BufTy).Contents (Elt F) → (⟨S50000x128, .f32⟩ : BufTy).Contents (Elt F)),
    unary main_arg5 main_v100 ((extractStridedSlice S1x128 ![1, 0] · slices_S3x128_S1x128_1_0) : (⟨S3x128, .f32⟩ : BufTy).Contents (Elt F) → (⟨S1x128, .f32⟩ : BufTy).Contents (Elt F)),
    reshape main_v100 main_v101 rfl shapeCasts_S1x128_S128,
    unary main_v101 main_v102 (broadcastInDim S1x128 ![1] bcast_S128_S1x128_1 : (⟨S128, .f32⟩ : BufTy).Contents (Elt F) → (⟨S1x128, .f32⟩ : BufTy).Contents (Elt F)) ]

/-- @main's statements 121 … 180: the third layer, the variance function's operations over the third call's buffers. -/
abbrev ops2 : List (HloOp τ sig (Elt F)) :=
  [ unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v99 main_v103 main_v104 (mulf : (⟨S50000x128, .f32⟩ : BufTy).Contents (Elt F) → (⟨S50000x128, .f32⟩ : BufTy).Contents (Elt F) → (⟨S50000x128, .f32⟩ : BufTy).Contents (Elt F)),
    unary main_arg6 main_v105 ((extractStridedSlice S1x128 ![1, 0] · slices_S3x128_S1x128_1_0) : (⟨S3x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v104 main_v108 main_v109 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    unary main_cst_15 main_v110 (broadcastInDim S50000x128 ![] bcast_S_S50000x128 : (⟨S_, .f32⟩ : BufTy).Contents (Elt F) → (⟨S50000x128, .f32⟩ : BufTy).Contents (Elt F)),
    binary main_v109 main_v110 main_v111 (maximumf : (⟨S50000x128, .f32⟩ : BufTy).Contents (Elt F) → (⟨S50000x128, .f32⟩ : BufTy).Contents (Elt F) → (⟨S50000x128, .f32⟩ : BufTy).Contents (Elt F)),
    nullary main_c_16 (constantI S_ 32 0#32),
    unary main_c_16 main_v112 (broadcastInDim S800000 ![] bcast_S_S800000 : (⟨S_, .i32⟩ : BufTy).Contents (Elt F) → (⟨S800000, .i32⟩ : BufTy).Contents (Elt F)),
    binary main_v1 main_v112 main_v113 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v114 (broadcastInDim S800000 ![] bcast_S_S800000 : (⟨S_, .i32⟩ : BufTy).Contents (Elt F) → (⟨S800000, .i32⟩ : BufTy).Contents (Elt F)),
    binary main_v1 main_v114 main_v115 (addi : (⟨S800000, .i32⟩ : BufTy).Contents (Elt F) → (⟨S800000, .i32⟩ : BufTy).Contents (Elt F) → (⟨S800000, .i32⟩ : BufTy).Contents (Elt F)),
    ternary main_v113 main_v115 main_v1 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v116 main_v117 (broadcastInDim S800000x1 ![0] bcast_S800000_S800000x1_0 : (⟨S800000, .i32⟩ : BufTy).Contents (Elt F) → (⟨S800000x1, .i32⟩ : BufTy).Contents (Elt F)),
    binary main_v111 main_v117 main_v118 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_18 (constant S_ .f32 0x00000000#32),
    unary main_cst_18 main_v119 (broadcastInDim S50000x128 ![] bcast_S_S50000x128 : (⟨S_, .f32⟩ : BufTy).Contents (Elt F) → (⟨S50000x128, .f32⟩ : BufTy).Contents (Elt F)),
    unary main_v3 main_v120 (broadcastInDim S800000x1 ![0] bcast_S800000_S800000x1_0 : (⟨S800000, .i32⟩ : BufTy).Contents (Elt F) → (⟨S800000x1, .i32⟩ : BufTy).Contents (Elt F)),
    ternary main_v119 main_v120 main_v118 main_v121 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v111 main_v121 main_v122 (addf : (⟨S50000x128, .f32⟩ : BufTy).Contents (Elt F) → (⟨S50000x128, .f32⟩ : BufTy).Contents (Elt F) → (⟨S50000x128, .f32⟩ : BufTy).Contents (Elt F)),
    unary main_arg1 main_v123 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v123 main_v124 rfl shapeCasts_S1x128x128_S128x128,
    binary main_v122 main_v124 main_v125 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v126 ((extractStridedSlice S1x128 ![2, 0] · slices_S3x128_S1x128_2_0) : (⟨S3x128, .f32⟩ : BufTy).Contents (Elt F) → (⟨S1x128, .f32⟩ : BufTy).Contents (Elt F)),
    reshape main_v126 main_v127 rfl shapeCasts_S1x128_S128,
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v125 main_v129 main_v130 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    unary main_cst_19 main_v131 (broadcastInDim S50000x128 ![] bcast_S_S50000x128 : (⟨S_, .f32⟩ : BufTy).Contents (Elt F) → (⟨S50000x128, .f32⟩ : BufTy).Contents (Elt F)),
    binary main_v130 main_v131 main_v132 (maximumf : (⟨S50000x128, .f32⟩ : BufTy).Contents (Elt F) → (⟨S50000x128, .f32⟩ : BufTy).Contents (Elt F) → (⟨S50000x128, .f32⟩ : BufTy).Contents (Elt F)),
    unary main_arg3 main_v133 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v133 main_v134 rfl shapeCasts_S1x128x128_S128x128,
    binary main_v132 main_v134 main_v135 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v136 ((extractStridedSlice S1x128 ![2, 0] · slices_S3x128_S1x128_2_0) : (⟨S3x128, .f32⟩ : BufTy).Contents (Elt F) → (⟨S1x128, .f32⟩ : BufTy).Contents (Elt F)),
    reshape main_v136 main_v137 rfl shapeCasts_S1x128_S128,
    unary main_v137 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v135 main_v139 main_v140 (addf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v140 main_cst_20 main_v141 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_21 (constant S_ .f32 0x47435000#32),
    unary main_cst_21 main_v142 (broadcastInDim S128 ![] bcast_S_S128 : (⟨S_, .f32⟩ : BufTy).Contents (Elt F) → (⟨S128, .f32⟩ : BufTy).Contents (Elt F)),
    binary main_v141 main_v142 main_v143 (Host.divf : (⟨S128, .f32⟩ : BufTy).Contents (Elt F) → (⟨S128, .f32⟩ : BufTy).Contents (Elt F) → (⟨S128, .f32⟩ : BufTy).Contents (Elt F)),
    nullary main_c_22 (constantI S_ 32 0#32),
    TRef.nullary main_call2.cst (constant S_ .f32 0x00000000#32),
    TRef.binary (.of main_v140 : StableHlo.TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v140 : StableHlo.TRef sig ⟨S50000x128, .f32⟩) main_call2.v4 main_call2.v5 subf,
    TRef.binary main_call2.v5 main_call2.v5 main_call2.v6 mulf,
    TRef.unary (.of main_c_22 : StableHlo.TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v143 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v140 main_v146 main_v147 (subf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3727C5AC#32),
    unary main_cst_23 main_v148 (broadcastInDim S128 ![] bcast_S_S128 : (⟨S_, .f32⟩ : BufTy).Contents (Elt F) → (⟨S128, .f32⟩ : BufTy).Contents (Elt F)),
    binary main_v144 main_v148 main_v149 (addf : (⟨S128, .f32⟩ : BufTy).Contents (Elt F) → (⟨S128, .f32⟩ : BufTy).Contents (Elt F) → (⟨S128, .f32⟩ : BufTy).Contents (Elt F)),
    unary main_v149 main_v150 (Host.rsqrt : (⟨S128, .f32⟩ : BufTy).Contents (Elt F) → (⟨S128, .f32⟩ : BufTy).Contents (Elt F)),
    unary main_v150 main_v151 (broadcastInDim S1x128 ![1] bcast_S128_S1x128_1 : (⟨S128, .f32⟩ : BufTy).Contents (Elt F) → (⟨S1x128, .f32⟩ : BufTy).Contents (Elt F)),
    unary main_v151 main_v152 (broadcastInDim S50000x128 ![0, 1] bcast_S1x128_S50000x128_0_1 : (⟨S1x128, .f32⟩ : BufTy).Contents (Elt F) → (⟨S50000x128, .f32⟩ : BufTy).Contents (Elt F)),
    binary main_v147 main_v152 main_v153 (mulf : (⟨S50000x128, .f32⟩ : BufTy).Contents (Elt F) → (⟨S50000x128, .f32⟩ : BufTy).Contents (Elt F) → (⟨S50000x128, .f32⟩ : BufTy).Contents (Elt F)) ]

/-- @main's statements 181 … 202: the rest of the third layer's normalisation, the scatter-add into the 64 groups, the last dense map and its bias. -/
abbrev ops3 : List (HloOp τ sig (Elt F)) :=
  [ unary main_arg5 main_v154 ((extractStridedSlice S1x128 ![2, 0] · slices_S3x128_S1x128_2_0) : (⟨S3x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v153 main_v157 main_v158 (mulf : (⟨S50000x128, .f32⟩ : BufTy).Contents (Elt F) → (⟨S50000x128, .f32⟩ : BufTy).Contents (Elt F) → (⟨S50000x128, .f32⟩ : BufTy).Contents (Elt F)),
    unary main_arg6 main_v159 ((extractStridedSlice S1x128 ![2, 0] · slices_S3x128_S1x128_2_0) : (⟨S3x128, .f32⟩ : BufTy).Contents (Elt F) → (⟨S1x128, .f32⟩ : BufTy).Contents (Elt F)),
    reshape main_v159 main_v160 rfl shapeCasts_S1x128_S128,
    unary main_v160 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v158 main_v162 main_v163 (addf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x00000000#32),
    unary main_cst_24 main_v164 (broadcastInDim S50000x128 ![] bcast_S_S50000x128 : (⟨S_, .f32⟩ : BufTy).Contents (Elt F) → (⟨S50000x128, .f32⟩ : BufTy).Contents (Elt F)),
    binary main_v163 main_v164 main_v165 (maximumf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    unary main_cst_25 main_v166 (broadcastInDim S64x128 ![] bcast_S_S64x128 : (⟨S_, .f32⟩ : BufTy).Contents (Elt F) → (⟨S64x128, .f32⟩ : BufTy).Contents (Elt F)),
    unary main_arg10 main_v167 (broadcastInDim S50000x1 ![0] bcast_S50000_S50000x1_0 : (⟨S50000, .i32⟩ : BufTy).Contents (Elt F) → (⟨S50000x1, .i32⟩ : BufTy).Contents (Elt F)),
    ternary main_v166 main_v167 main_v165 main_v168 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    binary main_v168 main_arg7 main_v169 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    unary main_arg8 main_v170 (broadcastInDim S1x10 ![1] bcast_S10_S1x10_1 : (⟨S10, .f32⟩ : BufTy).Contents (Elt F) → (⟨S1x10, .f32⟩ : BufTy).Contents (Elt F)),
    unary main_v170 main_v171 (broadcastInDim S64x10 ![0, 1] bcast_S1x10_S64x10_0_1 : (⟨S1x10, .f32⟩ : BufTy).Contents (Elt F) → (⟨S64x10, .f32⟩ : BufTy).Contents (Elt F)),
    binary main_v169 main_v171 main_v172 (addf : (⟨S64x10, .f32⟩ : BufTy).Contents (Elt F) → (⟨S64x10, .f32⟩ : BufTy).Contents (Elt F) → (⟨S64x10, .f32⟩ : BufTy).Contents (Elt F)) ]

/-- @main's 264 operations, in order. -/
abbrev ops : List (HloOp τ sig (Elt F)) := ops0 ++ ops1 ++ ops2 ++ ops3

set_option maxRecDepth 8192 in
set_option maxHeartbeats 4000000 in
/-- Window 0 of @main is that straight line: the functions' definitions unfolded at the call and the record at its fields. -/
theorem main_part0_eq (c : Dev nD) : main_part0 (F := F) c = seq ops0 := by
  simp only [main_part0, fn_var.body, fn_where.body, seq, bind_assoc, pure_bind]
  rfl

set_option maxRecDepth 8192 in
set_option maxHeartbeats 4000000 in
/-- Window 1 of @main is that straight line: the functions' definitions unfolded at the call and the record at its fields. -/
theorem main_part1_eq (c : Dev nD) : main_part1 (F := F) c = seq ops1 := by
  simp only [main_part1, fn_var.body, fn_where.body, seq, bind_assoc, pure_bind]
  rfl

set_option maxRecDepth 8192 in
set_option maxHeartbeats 4000000 in
/-- Window 2 of @main is that straight line: the functions' definitions unfolded at the call and the record at its fields. -/
theorem main_part2_eq (c : Dev nD) : main_part2 (F := F) c = seq ops2 := by
  simp only [main_part2, fn_var.body, fn_where.body, seq, bind_assoc, pure_bind]
  rfl

set_option maxRecDepth 8192 in
set_option maxHeartbeats 4000000 in
/-- Window 3 of @main is that straight line: the functions' definitions unfolded at the call and the record at its fields. -/
theorem main_part3_eq (c : Dev nD) : main_part3 (F := F) c = seq ops3 := by
  simp only [main_part3, fn_var.body, fn_where.body, seq, bind_assoc, pure_bind]

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp ops0_sub op h, List.forall_iff_forall_mem.mp ops1_sub op h,
      List.forall_iff_forall_mem.mp ops2_sub op h, List.forall_iff_forall_mem.mp ops3_sub op h]

theorem ops_fresh : ∀ op ∈ (ops : List (HloOp τ sig (Elt F))), op.fresh = ∅ := fun op h => by
    simp only [ops, List.mem_append] at h
    rcases h with ((h | h) | h) | h
    exacts [List.forall_iff_forall_mem.mp ops0_fresh op h, List.forall_iff_forall_mem.mp ops1_fresh op h,
      List.forall_iff_forall_mem.mp ops2_fresh op h, List.forall_iff_forall_mem.mp ops3_fresh op h]

/-- On every device, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## Reading one operation's result off the fold

Every buffer of the program is written by exactly one operation, and an operation reads only buffers written before
it (or arguments, written by none). So a buffer's contents after the whole line are its operation's function of its
operands' contents after the whole line. The bookkeeping: the list of references the operations write, in order. -/

/-- `W` lists, in order, the one reference each operation of `l` writes. -/
def Writes : List (HloOp τ sig (Elt F)) → List (Ref sig .tc) → Prop
  | [], [] => True
  | op :: l, r :: W => op.writes = {Proc.devRef (τ := τ) .tc r} ∧ Writes l W
  | _, _ => False

theorem Writes.append : ∀ {l₁ l₂ : List (HloOp τ sig (Elt F))} {W₁ W₂ : List (Ref sig .tc)},
    Writes l₁ W₁ → Writes l₂ W₂ → Writes (l₁ ++ l₂) (W₁ ++ W₂)
  | [], _, [], _, _, h₂ => h₂
  | _ :: _, _, _ :: _, _, h₁, h₂ => ⟨h₁.1, Writes.append h₁.2 h₂⟩
  | [], _, _ :: _, _, h₁, _ => h₁.elim
  | _ :: _, _, [], _, h₁, _ => h₁.elim

theorem Writes.drop : ∀ (k : ℕ) {l : List (HloOp τ sig (Elt F))} {W : List (Ref sig .tc)},
    Writes l W → Writes (l.drop k) (W.drop k)
  | 0, _, _, h => h
  | _ + 1, [], [], _ => trivial
  | k + 1, _ :: _, _ :: _, h => Writes.drop k h.2
  | _ + 1, [], _ :: _, h => h.elim
  | _ + 1, _ :: _, [], h => h.elim

/-- Two lines one after the other leave what the second leaves from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A reference none of the operations writes keeps its contents. -/
theorem after_keep : ∀ {l : List (HloOp τ sig (Elt F))} {W : List (Ref sig .tc)}, Writes l W →
    ∀ {r : Ref sig .tc}, r ∉ W → ∀ V : Valuation τ sig (Elt F), after l V (Proc.devRef .tc r) = V (Proc.devRef .tc r)
  | [], [], _, _, _, _ => rfl
  | op :: l, y :: W, h, r, hr, V => by
    rw [after_cons, after_keep h.2 (fun hm => hr (List.mem_cons_of_mem _ hm)), HloOp.result_of_not_mem]
    rw [h.1, Finset.mem_singleton]
    exact devRef_ne_of_ne fun e => hr (e ▸ List.mem_cons_self)
  | [], _ :: _, h, _, _, _ => h.elim
  | _ :: _, [], h, _, _, _ => h.elim

/-- The contents of `y` after the line are what operation `k` leaves there, when no later operation writes `y`. -/
theorem after_at {l : List (HloOp τ sig (Elt F))} {W : List (Ref sig .tc)} (h : Writes l W) (k : ℕ)
    {op : HloOp τ sig (Elt F)} (hop : l[k]? = some op) {y : Ref sig .tc} (hy : y ∉ W.drop (k + 1))
    (V : Valuation τ sig (Elt F)) :
    after l V (Proc.devRef .tc y) = op.result (after (l.take k) V) (Proc.devRef .tc y) := by
  obtain ⟨hk, rfl⟩ := List.getElem?_eq_some_iff.mp hop
  have hl : l = l.take k ++ l[k] :: l.drop (k + 1) := by
    rw [← List.drop_eq_getElem_cons hk, List.take_append_drop]
  conv_lhs => rw [hl]
  rw [after_append, after_cons, after_keep (Writes.drop (k + 1) h) hy]

/-- A reference that no operation from `k` on writes has, after the first `k` operations, its final contents. -/
theorem after_take {l : List (HloOp τ sig (Elt F))} {W : List (Ref sig .tc)} (h : Writes l W) (k : ℕ)
    {a : Ref sig .tc} (ha : a ∉ W.drop k) (V : Valuation τ sig (Elt F)) :
    after (l.take k) V (Proc.devRef .tc a) = after l V (Proc.devRef .tc a) := by
  conv_rhs => rw [← List.take_append_drop k l]
  rw [after_append, after_keep (Writes.drop k h) ha]

section Stage

variable {l : List (HloOp τ sig (Elt F))} {W : List (Ref sig .tc)} (h : Writes l W) (k : ℕ)
include h

/-- An argument (a reference no operation writes) keeps its launch contents. -/
theorem stage_arg {a : Ref sig .tc} (ha : a ∉ W) (V : Valuation τ sig (Elt F)) :
    after l V (Proc.devRef .tc a) = V (Proc.devRef .tc a) := after_keep h ha V

theorem stage_nullary (y : Ref sig .tc) (v : y.ty.Contents (Elt F)) (hy0)
    (hop : l[k]? = some (nullary y v hy0)) (hy : y ∉ W.drop (k + 1)) (V : Valuation τ sig (Elt F)) :
    after l V (Proc.devRef .tc y) = v := by
  rw [after_at h k hop hy V, nullary_result]

theorem stage_unary (x y : Ref sig .tc) (f : x.ty.Contents (Elt F) → y.ty.Contents (Elt F)) (hx0 hy0)
    (hop : l[k]? = some (unary x y f hx0 hy0)) (hy : y ∉ W.drop (k + 1)) (hx : x ∉ W.drop k)
    (V : Valuation τ sig (Elt F)) :
    after l V (Proc.devRef .tc y) = f (after l V (Proc.devRef .tc x)) := by
  rw [after_at h k hop hy V, unary_result, after_take h k hx V]

theorem stage_binary (a b y : Ref sig .tc) (f : a.ty.Contents (Elt F) → b.ty.Contents (Elt F) → y.ty.Contents (Elt F))
    (ha0 hb0 hy0) (hop : l[k]? = some (binary a b y f ha0 hb0 hy0)) (hy : y ∉ W.drop (k + 1))
    (ha : a ∉ W.drop k) (hb : b ∉ W.drop k) (V : Valuation τ sig (Elt F)) :
    after l V (Proc.devRef .tc y) = f (after l V (Proc.devRef .tc a)) (after l V (Proc.devRef .tc b)) := by
  rw [after_at h k hop hy V, binary_result, after_take h k ha V, after_take h k hb V]

theorem stage_ternary (c a b y : Ref sig .tc)
    (f : c.ty.Contents (Elt F) → a.ty.Contents (Elt F) → b.ty.Contents (Elt F) → y.ty.Contents (Elt F))
    (hc0 ha0 hb0 hy0) (hop : l[k]? = some (ternary c a b y f hc0 ha0 hb0 hy0)) (hy : y ∉ W.drop (k + 1))
    (hc : c ∉ W.drop k) (ha : a ∉ W.drop k) (hb : b ∉ W.drop k) (V : Valuation τ sig (Elt F)) :
    after l V (Proc.devRef .tc y)
      = f (after l V (Proc.devRef .tc c)) (after l V (Proc.devRef .tc a)) (after l V (Proc.devRef .tc b)) := by
  rw [after_at h k hop hy V, ternary_result, after_take h k hc V, after_take h k ha V, after_take h k hb V]

theorem stage_reshape (x y : Ref sig .tc) (he : x.ty.elt = y.ty.elt) (hn : x.ty.shape.ShapeCasts y.ty.shape) (hx0 hy0)
    (hop : l[k]? = some (reshape x y he hn hx0 hy0)) (hy : y ∉ W.drop (k + 1)) (hx : x ∉ W.drop k)
    (V : Valuation τ sig (Elt F)) :
    after l V (Proc.devRef .tc y) = fun i => he ▸ shapeCast y.ty.shape (after l V (Proc.devRef .tc x)) hn i := by
  rw [after_at h k hop hy V, reshape_result, after_take h k hx V]

end Stage

/-- The references window 0's operations write, in order. -/
abbrev opsW0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_cst_1, main_v23, main_v24, main_v25, main_v26, main_v27, main_v28, main_v29, main_v30, main_v31, main_v32, main_cst_2, main_v33, main_cst_3, main_v34, main_v35, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v36, main_v37, main_v38, main_v39, main_cst_5, main_v40, main_v41, main_v42, main_v43, main_v44, main_v45, main_v46, main_v47, main_v48, main_v49, main_v50, main_v51]

set_option maxRecDepth 8192 in
theorem ops0_writes : Writes (ops0 (F := F)) opsW0 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- The references window 1's operations write, in order. -/
abbrev opsW1 : List (Ref sig .tc) :=
  [main_v52, main_v53, main_v54, main_v55, main_cst_6, main_v56, main_v57, main_c_7, main_v58, main_v59, main_c_8, main_v60, main_v61, main_v62, main_v63, main_v64, main_cst_9, main_v65, main_v66, main_v67, main_v68, main_v69, main_v70, main_v71, main_v72, main_v73, main_v74, main_v75, main_v76, main_cst_10, main_v77, main_v78, main_v79, main_v80, main_v81, main_v82, main_v83, main_v84, main_v85, main_v86, main_cst_11, main_v87, main_cst_12, main_v88, main_v89, main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v90, main_v91, main_v92, main_v93, main_cst_14, main_v94, main_v95, main_v96, main_v97, main_v98, main_v99, main_v100, main_v101, main_v102]

set_option maxRecDepth 8192 in
theorem ops1_writes : Writes (ops1 (F := F)) opsW1 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- The references window 2's operations write, in order. -/
abbrev opsW2 : List (Ref sig .tc) :=
  [main_v103, main_v104, main_v105, main_v106, main_v107, main_v108, main_v109, main_cst_15, main_v110, main_v111, main_c_16, main_v112, main_v113, main_c_17, main_v114, main_v115, main_v116, main_v117, main_v118, main_cst_18, main_v119, main_v120, main_v121, main_v122, main_v123, main_v124, main_v125, main_v126, main_v127, main_v128, main_v129, main_v130, main_cst_19, main_v131, main_v132, main_v133, main_v134, main_v135, main_v136, main_v137, main_v138, main_v139, main_v140, main_cst_20, main_v141, main_cst_21, main_v142, main_v143, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v144, main_v145, main_v146, main_v147, main_cst_23, main_v148, main_v149, main_v150, main_v151, main_v152, main_v153]

set_option maxRecDepth 8192 in
theorem ops2_writes : Writes (ops2 (F := F)) opsW2 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- The references window 3's operations write, in order. -/
abbrev opsW3 : List (Ref sig .tc) :=
  [main_v154, main_v155, main_v156, main_v157, main_v158, main_v159, main_v160, main_v161, main_v162, main_v163, main_cst_24, main_v164, main_v165, main_cst_25, main_v166, main_v167, main_v168, main_v169, main_v170, main_v171, main_v172]

set_option maxRecDepth 8192 in
theorem ops3_writes : Writes (ops3 (F := F)) opsW3 :=
  ⟨rfl, rfl, rfl, rfl, rfl, rfl, rfl, rfl, rfl, rfl, rfl, rfl, rfl, rfl, rfl, rfl, rfl, rfl, rfl, rfl, rfl, trivial⟩

/-- The references @main's operations write, in order: each once. -/
abbrev opsW : List (Ref sig .tc) := opsW0 ++ opsW1 ++ opsW2 ++ opsW3

theorem ops_writes : Writes (ops (F := F)) opsW :=
  ((ops0_writes.append ops1_writes).append ops2_writes).append ops3_writes

end Cert.ReferenceIdeal.RefRun

end
-- ==== Proof.RefRunStage.lean ====
/- The reference program's run read one operation at a time: each buffer's contents after the whole run are its
   operation's function of its operands' contents after the whole run (every buffer is written once, by an
   operation that reads only buffers written before it), and each argument keeps its launch contents. -/
import proofs.«141774_j48919677501954_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the gather, the scatter-add, the reduction and the matrix product stay folded while an operation is read off the
-- list: the equations never look inside them
attribute [local irreducible] Host.reduceAdd Host.gather Host.scatterAdd

/-! ## The arguments: written by no operation -/

theorem st_main_arg0 (V : Valuation τ sig (Elt F)) :
    after ops V (main_arg0 : DevRef τ sig) = V (main_arg0 : DevRef τ sig) :=
  stage_arg (ops_writes (F := F)) (by decide) V

theorem st_main_arg1 (V : Valuation τ sig (Elt F)) :
    after ops V (main_arg1 : DevRef τ sig) = V (main_arg1 : DevRef τ sig) :=
  stage_arg (ops_writes (F := F)) (by decide) V

theorem st_main_arg2 (V : Valuation τ sig (Elt F)) :
    after ops V (main_arg2 : DevRef τ sig) = V (main_arg2 : DevRef τ sig) :=
  stage_arg (ops_writes (F := F)) (by decide) V

theorem st_main_arg3 (V : Valuation τ sig (Elt F)) :
    after ops V (main_arg3 : DevRef τ sig) = V (main_arg3 : DevRef τ sig) :=
  stage_arg (ops_writes (F := F)) (by decide) V

theorem st_main_arg4 (V : Valuation τ sig (Elt F)) :
    after ops V (main_arg4 : DevRef τ sig) = V (main_arg4 : DevRef τ sig) :=
  stage_arg (ops_writes (F := F)) (by decide) V

theorem st_main_arg5 (V : Valuation τ sig (Elt F)) :
    after ops V (main_arg5 : DevRef τ sig) = V (main_arg5 : DevRef τ sig) :=
  stage_arg (ops_writes (F := F)) (by decide) V

theorem st_main_arg6 (V : Valuation τ sig (Elt F)) :
    after ops V (main_arg6 : DevRef τ sig) = V (main_arg6 : DevRef τ sig) :=
  stage_arg (ops_writes (F := F)) (by decide) V

theorem st_main_arg7 (V : Valuation τ sig (Elt F)) :
    after ops V (main_arg7 : DevRef τ sig) = V (main_arg7 : DevRef τ sig) :=
  stage_arg (ops_writes (F := F)) (by decide) V

theorem st_main_arg8 (V : Valuation τ sig (Elt F)) :
    after ops V (main_arg8 : DevRef τ sig) = V (main_arg8 : DevRef τ sig) :=
  stage_arg (ops_writes (F := F)) (by decide) V

theorem st_main_arg9 (V : Valuation τ sig (Elt F)) :
    after ops V (main_arg9 : DevRef τ sig) = V (main_arg9 : DevRef τ sig) :=
  stage_arg (ops_writes (F := F)) (by decide) V

theorem st_main_arg10 (V : Valuation τ sig (Elt F)) :
    after ops V (main_arg10 : DevRef τ sig) = V (main_arg10 : DevRef τ sig) :=
  stage_arg (ops_writes (F := F)) (by decide) V

/-! ## One equation per operation, in program order -/

theorem st_main_v0 (V : Valuation τ sig (Elt F)) :
    after ops V (main_v0 : DevRef τ sig) = ((extractStridedSlice S1x800000 ![0, 0] · slices_S2x800000_S1x800000_0_0) : (⟨S2x800000, .i32⟩ : BufTy).Contents (Elt F) → (⟨S1x800000, .i32⟩ : BufTy).Contents (Elt F)) (after ops V (main_arg9 : DevRef τ sig)) :=
  stage_unary (ops_writes (F := F)) 0 main_arg9 main_v0 _ _ _ rfl (by decide) (by decide) V

theorem st_main_v1 (V : Valuation τ sig (Elt F)) :
    after ops V (main_v1 : DevRef τ sig) = shapeCast _ (after ops V (main_v0 : DevRef τ sig)) shapeCasts_S1x800000_S800000 :=
  stage_reshape (ops_writes (F := F)) 1 main_v0 main_v1 rfl _ _ _ rfl (by decide) (by decide) V

theorem st_main_v2 (V : Valuation τ sig (Elt F)) :
    after ops V (main_v2 : DevRef τ sig) = ((extractStridedSlice S1x800000 ![1, 0] · slices_S2x800000_S1x800000_1_0) : (⟨S2x800000, .i32⟩ : BufTy).Contents (Elt F) → (⟨S1x800000, .i32⟩ : BufTy).Contents (Elt F)) (after ops V (main_arg9 : DevRef τ sig)) :=
  stage_unary (ops_writes (F := F)) 2 main_arg9 main_v2 _ _ _ rfl (by decide) (by decide) V

theorem st_main_v3 (V : Valuation τ sig (Elt F)) :
    after ops V (main_v3 : DevRef τ sig) = shapeCast _ (after ops V (main_v2 : DevRef τ sig)) shapeCasts_S1x800000_S800000 :=
  stage_reshape (ops_writes (F := F)) 3 main_v2 main_v3 rfl _ _ _ rfl (by decide) (by decide) V

theorem st_main_c (V : Valuation τ sig (Elt F)) :
    after ops V (main_c : DevRef τ sig) = (constantI S_ 32 0#32) :=
  stage_nullary (ops_writes (F := F)) 4 main_c _ _ rfl (by decide) V

theorem st_main_v4 (V : Valuation τ sig (Elt F)) :
    after ops V (main_v4 : DevRef τ sig) = (broadcastInDim S800000 ![] bcast_S_S800000 : (⟨S_, .i32⟩ : BufTy).Contents (Elt F) → (⟨S800000, .i32⟩ : BufTy).Contents (Elt F)) (after ops V (main_c : DevRef τ sig)) :=
  stage_unary (ops_writes (F := F)) 5 main_c main_v4 _ _ _ rfl (by decide) (by decide) V

theorem st_main_v5 (V : Valuation τ sig (Elt F)) :
    after ops V (main_v5 : DevRef τ sig) = (cmpi .slt : (⟨S800000, .i32⟩ : BufTy).Contents (Elt F) → (⟨S800000, .i32⟩ : BufTy).Contents (Elt F) → (⟨S800000, .i1⟩ : BufTy).Contents (Elt F)) (after ops V (main_v1 : DevRef τ sig)) (after ops V (main_v4 : DevRef τ sig)) :=
  stage_binary (ops_writes (F := F)) 6 main_v1 main_v4 main_v5 _ _ _ _ rfl (by decide) (by decide) (by decide) V

theorem st_main_c_0 (V : Valuation τ sig (Elt F)) :
    after ops V (main_c_0 : DevRef τ sig) = (constantI S_ 32 50000#32) :=
  stage_nullary (ops_writes (F := F)) 7 main_c_0 _ _ rfl (by decide) V

theorem st_main_v6 (V : Valuation τ sig (Elt F)) :
    after ops V (main_v6 : DevRef τ sig) = (broadcastInDim S800000 ![] bcast_S_S800000 : (⟨S_, .i32⟩ : BufTy).Contents (Elt F) → (⟨S800000, .i32⟩ : BufTy).Contents (Elt F)) (after ops V (main_c_0 : DevRef τ sig)) :=
  stage_unary (ops_writes (F := F)) 8 main_c_0 main_v6 _ _ _ rfl (by decide) (by decide) V

theorem st_main_v7 (V : Valuation τ sig (Elt F)) :
    after ops V (main_v7 : DevRef τ sig) = (addi : (⟨S800000, .i32⟩ : BufTy).Contents (Elt F) → (⟨S800000, .i32⟩ : BufTy).Contents (Elt F) → (⟨S800000, .i32⟩ : BufTy).Contents (Elt F)) (after ops V (main_v1 : DevRef τ sig)) (after ops V (main_v6 : DevRef τ sig)) :=
  stage_binary (ops_writes (F := F)) 9 main_v1 main_v6 main_v7 _ _ _ _ rfl (by decide) (by decide) (by decide) V

theorem st_main_v8 (V : Valuation τ sig (Elt F)) :
    after ops V (main_v8 : DevRef τ sig) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (main_v5 : DevRef τ sig)) (after ops V (main_v7 : DevRef τ sig)) (after ops V (main_v1 : DevRef τ sig)) :=
  stage_ternary (ops_writes (F := F)) 10 main_v5 main_v7 main_v1 main_v8 _ _ _ _ _ rfl (by decide) (by decide) (by decide) (by decide) V

theorem st_main_v9 (V : Valuation τ sig (Elt F)) :
    after ops V (main_v9 : DevRef τ sig) = (broadcastInDim S800000x1 ![0] bcast_S800000_S800000x1_0 : (⟨S800000, .i32⟩ : BufTy).Contents (Elt F) → (⟨S800000x1, .i32⟩ : BufTy).Contents (Elt F)) (after ops V (main_v8 : DevRef τ sig)) :=
  stage_unary (ops_writes (F := F)) 11 main_v8 main_v9 _ _ _ rfl (by decide) (by decide) V

theorem st_main_v10 (V : Valuation τ sig (Elt F)) :
    after ops V (main_v10 : DevRef τ sig) = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (after ops V (main_arg0 : DevRef τ sig)) (after ops V (main_v9 : DevRef τ sig)) :=
  stage_binary (ops_writes (F := F)) 12 main_arg0 main_v9 main_v10 _ _ _ _ rfl (by decide) (by decide) (by decide) V

theorem st_main_cst (V : Valuation τ sig (Elt F)) :
    after ops V (main_cst : DevRef τ sig) = (constant S_ .f32 0x00000000#32) :=
  stage_nullary (ops_writes (F := F)) 13 main_cst _ _ rfl (by decide) V

theorem st_main_v11 (V : Valuation τ sig (Elt F)) :
    after ops V (main_v11 : DevRef τ sig) = (broadcastInDim S50000x128 ![] bcast_S_S50000x128 : (⟨S_, .f32⟩ : BufTy).Contents (Elt F) → (⟨S50000x128, .f32⟩ : BufTy).Contents (Elt F)) (after ops V (main_cst : DevRef τ sig)) :=
  stage_unary (ops_writes (F := F)) 14 main_cst main_v11 _ _ _ rfl (by decide) (by decide) V

theorem st_main_v12 (V : Valuation τ sig (Elt F)) :
    after ops V (main_v12 : DevRef τ sig) = (broadcastInDim S800000x1 ![0] bcast_S800000_S800000x1_0 : (⟨S800000, .i32⟩ : BufTy).Contents (Elt F) → (⟨S800000x1, .i32⟩ : BufTy).Contents (Elt F)) (after ops V (main_v3 : DevRef τ sig)) :=
  stage_unary (ops_writes (F := F)) 15 main_v3 main_v12 _ _ _ rfl (by decide) (by decide) V

theorem st_main_v13 (V : Valuation τ sig (Elt F)) :
    after ops V (main_v13 : DevRef τ sig) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (after ops V (main_v11 : DevRef τ sig)) (after ops V (main_v12 : DevRef τ sig)) (after ops V (main_v10 : DevRef τ sig)) :=
  stage_ternary (ops_writes (F := F)) 16 main_v11 main_v12 main_v10 main_v13 _ _ _ _ _ rfl (by decide) (by decide) (by decide) (by decide) V

theorem st_main_v14 (V : Valuation τ sig (Elt F)) :
    after ops V (main_v14 : DevRef τ sig) = (addf : (⟨S50000x128, .f32⟩ : BufTy).Contents (Elt F) → (⟨S50000x128, .f32⟩ : BufTy).Contents (Elt F) → (⟨S50000x128, .f32⟩ : BufTy).Contents (Elt F)) (after ops V (main_arg0 : DevRef τ sig)) (after ops V (main_v13 : DevRef τ sig)) :=
  stage_binary (ops_writes (F := F)) 17 main_arg0 main_v13 main_v14 _ _ _ _ rfl (by decide) (by decide) (by decide) V

theorem st_main_v15 (V : Valuation τ sig (Elt F)) :
    after ops V (main_v15 : DevRef τ sig) = ((extractStridedSlice S1x128x128 ![0, 0, 0] · slices_S3x128x128_S1x128x128_0_0_0) : (⟨S3x128x128, .f32⟩ : BufTy).Contents (Elt F) → (⟨S1x128x128, .f32⟩ : BufTy).Contents (Elt F)) (after ops V (main_arg1 : DevRef τ sig)) :=
  stage_unary (ops_writes (F := F)) 18 main_arg1 main_v15 _ _ _ rfl (by decide) (by decide) V

theorem st_main_v16 (V : Valuation τ sig (Elt F)) :
    after ops V (main_v16 : DevRef τ sig) = shapeCast _ (after ops V (main_v15 : DevRef τ sig)) shapeCasts_S1x128x128_S128x128 :=
  stage_reshape (ops_writes (F := F)) 19 main_v15 main_v16 rfl _ _ _ rfl (by decide) (by decide) V

theorem st_main_v17 (V : Valuation τ sig (Elt F)) :
    after ops V (main_v17 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (main_v14 : DevRef τ sig)) (after ops V (main_v16 : DevRef τ sig)) :=
  stage_binary (ops_writes (F := F)) 20 main_v14 main_v16 main_v17 _ _ _ _ rfl (by decide) (by decide) (by decide) V

theorem st_main_v18 (V : Valuation τ sig (Elt F)) :
    after ops V (main_v18 : DevRef τ sig) = ((extractStridedSlice S1x128 ![0, 0] · slices_S3x128_S1x128_0_0) : (⟨S3x128, .f32⟩ : BufTy).Contents (Elt F) → (⟨S1x128, .f32⟩ : BufTy).Contents (Elt F)) (after ops V (main_arg2 : DevRef τ sig)) :=
  stage_unary (ops_writes (F := F)) 21 main_arg2 main_v18 _ _ _ rfl (by decide) (by decide) V

theorem st_main_v19 (V : Valuation τ sig (Elt F)) :
    after ops V (main_v19 : DevRef τ sig) = shapeCast _ (after ops V (main_v18 : DevRef τ sig)) shapeCasts_S1x128_S128 :=
  stage_reshape (ops_writes (F := F)) 22 main_v18 main_v19 rfl _ _ _ rfl (by decide) (by decide) V

theorem st_main_v20 (V : Valuation τ sig (Elt F)) :
    after ops V (main_v20 : DevRef τ sig) = (broadcastInDim S1x128 ![1] bcast_S128_S1x128_1 : (⟨S128, .f32⟩ : BufTy).Contents (Elt F) → (⟨S1x128, .f32⟩ : BufTy).Contents (Elt F)) (after ops V (main_v19 : DevRef τ sig)) :=
  stage_unary (ops_writes (F := F)) 23 main_v19 main_v20 _ _ _ rfl (by decide) (by decide) V

theorem st_main_v21 (V : Valuation τ sig (Elt F)) :
    after ops V (main_v21 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v20 : DevRef τ sig)) :=
  stage_unary (ops_writes (F := F)) 24 main_v20 main_v21 _ _ _ rfl (by decide) (by decide) V

theorem st_main_v22 (V : Valuation τ sig (Elt F)) :
    after ops V (main_v22 : DevRef τ sig) = (addf : (⟨S50000x128, .f32⟩ : BufTy).Contents (Elt F) → (⟨S50000x128, .f32⟩ : BufTy).Contents (Elt F) → (⟨S50000x128, .f32⟩ : BufTy).Contents (Elt F)) (after ops V (main_v17 : DevRef τ sig)) (after ops V (main_v21 : DevRef τ sig)) :=
  stage_binary (ops_writes (F := F)) 25 main_v17 main_v21 main_v22 _ _ _ _ rfl (by decide) (by decide) (by decide) V

theorem st_main_cst_1 (V : Valuation τ sig (Elt F)) :
    after ops V (main_cst_1 : DevRef τ sig) = (constant S_ .f32 0x00000000#32) :=
  stage_nullary (ops_writes (F := F)) 26 main_cst_1 _ _ rfl (by decide) V

theorem st_main_v23 (V : Valuation τ sig (Elt F)) :
    after ops V (main_v23 : DevRef τ sig) = (broadcastInDim S50000x128 ![] bcast_S_S50000x128 : (⟨S_, .f32⟩ : BufTy).Contents (Elt F) → (⟨S50000x128, .f32⟩ : BufTy).Contents (Elt F)) (after ops V (main_cst_1 : DevRef τ sig)) :=
  stage_unary (ops_writes (F := F)) 27 main_cst_1 main_v23 _ _ _ rfl (by decide) (by decide) V

theorem st_main_v24 (V : Valuation τ sig (Elt F)) :
    after ops V (main_v24 : DevRef τ sig) = (maximumf : (⟨S50000x128, .f32⟩ : BufTy).Contents (Elt F) → (⟨S50000x128, .f32⟩ : BufTy).Contents (Elt F) → (⟨S50000x128, .f32⟩ : BufTy).Contents (Elt F)) (after ops V (main_v22 : DevRef τ sig)) (after ops V (main_v23 : DevRef τ sig)) :=
  stage_binary (ops_writes (F := F)) 28 main_v22 main_v23 main_v24 _ _ _ _ rfl (by decide) (by decide) (by decide) V

theorem st_main_v25 (V : Valuation τ sig (Elt F)) :
    after ops V (main_v25 : DevRef τ sig) = ((extractStridedSlice S1x128x128 ![0, 0, 0] · slices_S3x128x128_S1x128x128_0_0_0) : (⟨S3x128x128, .f32⟩ : BufTy).Contents (Elt F) → (⟨S1x128x128, .f32⟩ : BufTy).Contents (Elt F)) (after ops V (main_arg3 : DevRef τ sig)) :=
  stage_unary (ops_writes (F := F)) 29 main_arg3 main_v25 _ _ _ rfl (by decide) (by decide) V

theorem st_main_v26 (V : Valuation τ sig (Elt F)) :
    after ops V (main_v26 : DevRef τ sig) = shapeCast _ (after ops V (main_v25 : DevRef τ sig)) shapeCasts_S1x128x128_S128x128 :=
  stage_reshape (ops_writes (F := F)) 30 main_v25 main_v26 rfl _ _ _ rfl (by decide) (by decide) V

theorem st_main_v27 (V : Valuation τ sig (Elt F)) :
    after ops V (main_v27 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (main_v24 : DevRef τ sig)) (after ops V (main_v26 : DevRef τ sig)) :=
  stage_binary (ops_writes (F := F)) 31 main_v24 main_v26 main_v27 _ _ _ _ rfl (by decide) (by decide) (by decide) V

theorem st_main_v28 (V : Valuation τ sig (Elt F)) :
    after ops V (main_v28 : DevRef τ sig) = ((extractStridedSlice S1x128 ![0, 0] · slices_S3x128_S1x128_0_0) : (⟨S3x128, .f32⟩ : BufTy).Contents (Elt F) → (⟨S1x128, .f32⟩ : BufTy).Contents (Elt F)) (after ops V (main_arg4 : DevRef τ sig)) :=
  stage_unary (ops_writes (F := F)) 32 main_arg4 main_v28 _ _ _ rfl (by decide) (by decide) V

theorem st_main_v29 (V : Valuation τ sig (Elt F)) :
    after ops V (main_v29 : DevRef τ sig) = shapeCast _ (after ops V (main_v28 : DevRef τ sig)) shapeCasts_S1x128_S128 :=
  stage_reshape (ops_writes (F := F)) 33 main_v28 main_v29 rfl _ _ _ rfl (by decide) (by decide) V

theorem st_main_v30 (V : Valuation τ sig (Elt F)) :
    after ops V (main_v30 : DevRef τ sig) = (broadcastInDim S1x128 ![1] bcast_S128_S1x128_1 : (⟨S128, .f32⟩ : BufTy).Contents (Elt F) → (⟨S1x128, .f32⟩ : BufTy).Contents (Elt F)) (after ops V (main_v29 : DevRef τ sig)) :=
  stage_unary (ops_writes (F := F)) 34 main_v29 main_v30 _ _ _ rfl (by decide) (by decide) V

theorem st_main_v31 (V : Valuation τ sig (Elt F)) :
    after ops V (main_v31 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v30 : DevRef τ sig)) :=
  stage_unary (ops_writes (F := F)) 35 main_v30 main_v31 _ _ _ rfl (by decide) (by decide) V

theorem st_main_v32 (V : Valuation τ sig (Elt F)) :
    after ops V (main_v32 : DevRef τ sig) = (addf : (⟨S50000x128, .f32⟩ : BufTy).Contents (Elt F) → (⟨S50000x128, .f32⟩ : BufTy).Contents (Elt F) → (⟨S50000x128, .f32⟩ : BufTy).Contents (Elt F)) (after ops V (main_v27 : DevRef τ sig)) (after ops V (main_v31 : DevRef τ sig)) :=
  stage_binary (ops_writes (F := F)) 36 main_v27 main_v31 main_v32 _ _ _ _ rfl (by decide) (by decide) (by decide) V

theorem st_main_cst_2 (V : Valuation τ sig (Elt F)) :
    after ops V (main_cst_2 : DevRef τ sig) = (constant S_ .f32 0x00000000#32) :=
  stage_nullary (ops_writes (F := F)) 37 main_cst_2 _ _ rfl (by decide) V

theorem st_main_v33 (V : Valuation τ sig (Elt F)) :
    after ops V (main_v33 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_v32 : DevRef τ sig)) (after ops V (main_cst_2 : DevRef τ sig)) :=
  stage_binary (ops_writes (F := F)) 38 main_v32 main_cst_2 main_v33 _ _ _ _ rfl (by decide) (by decide) (by decide) V

theorem st_main_cst_3 (V : Valuation τ sig (Elt F)) :
    after ops V (main_cst_3 : DevRef τ sig) = (constant S_ .f32 0x47435000#32) :=
  stage_nullary (ops_writes (F := F)) 39 main_cst_3 _ _ rfl (by decide) V

theorem st_main_v34 (V : Valuation τ sig (Elt F)) :
    after ops V (main_v34 : DevRef τ sig) = (broadcastInDim S128 ![] bcast_S_S128 : (⟨S_, .f32⟩ : BufTy).Contents (Elt F) → (⟨S128, .f32⟩ : BufTy).Contents (Elt F)) (after ops V (main_cst_3 : DevRef τ sig)) :=
  stage_unary (ops_writes (F := F)) 40 main_cst_3 main_v34 _ _ _ rfl (by decide) (by decide) V

theorem st_main_v35 (V : Valuation τ sig (Elt F)) :
    after ops V (main_v35 : DevRef τ sig) = (Host.divf : (⟨S128, .f32⟩ : BufTy).Contents (Elt F) → (⟨S128, .f32⟩ : BufTy).Contents (Elt F) → (⟨S128, .f32⟩ : BufTy).Contents (Elt F)) (after ops V (main_v33 : DevRef τ sig)) (after ops V (main_v34 : DevRef τ sig)) :=
  stage_binary (ops_writes (F := F)) 41 main_v33 main_v34 main_v35 _ _ _ _ rfl (by decide) (by decide) (by decide) V

theorem st_main_c_4 (V : Valuation τ sig (Elt F)) :
    after ops V (main_c_4 : DevRef τ sig) = (constantI S_ 32 0#32) :=
  stage_nullary (ops_writes (F := F)) 42 main_c_4 _ _ rfl (by decide) V

theorem st_main_call0_cst (V : Valuation τ sig (Elt F)) :
    after ops V (main_call0_cst : DevRef τ sig) = (constant S_ .f32 0x00000000#32) :=
  stage_nullary (ops_writes (F := F)) 43 main_call0_cst _ _ rfl (by decide) V

theorem st_main_call0_v0 (V : Valuation τ sig (Elt F)) :
    after ops V (main_call0_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_v32 : DevRef τ sig)) (after ops V (main_call0_cst : DevRef τ sig)) :=
  stage_binary (ops_writes (F := F)) 44 main_v32 main_call0_cst main_call0_v0 _ _ _ _ rfl (by decide) (by decide) (by decide) V

theorem st_main_call0_v1 (V : Valuation τ sig (Elt F)) :
    after ops V (main_call0_v1 : DevRef τ sig) = ((broadcastInDim S1x128 ![1] bcast_S128_S1x128_1) : (⟨S128, .f32⟩ : BufTy).Contents (Elt F) → (⟨S1x128, .f32⟩ : BufTy).Contents (Elt F)) (after ops V (main_call0_v0 : DevRef τ sig)) :=
  stage_unary (ops_writes (F := F)) 45 main_call0_v0 main_call0_v1 _ _ _ rfl (by decide) (by decide) V

theorem st_main_call0_cst_0 (V : Valuation τ sig (Elt F)) :
    after ops V (main_call0_cst_0 : DevRef τ sig) = (constant S_ .f32 0x47435000#32) :=
  stage_nullary (ops_writes (F := F)) 46 main_call0_cst_0 _ _ rfl (by decide) V

theorem st_main_call0_v2 (V : Valuation τ sig (Elt F)) :
    after ops V (main_call0_v2 : DevRef τ sig) = ((broadcastInDim S1x128 ![] bcast_S_S1x128) : (⟨S_, .f32⟩ : BufTy).Contents (Elt F) → (⟨S1x128, .f32⟩ : BufTy).Contents (Elt F)) (after ops V (main_call0_cst_0 : DevRef τ sig)) :=
  stage_unary (ops_writes (F := F)) 47 main_call0_cst_0 main_call0_v2 _ _ _ rfl (by decide) (by decide) V

theorem st_main_call0_v3 (V : Valuation τ sig (Elt F)) :
    after ops V (main_call0_v3 : DevRef τ sig) = (Host.divf : (⟨S1x128, .f32⟩ : BufTy).Contents (Elt F) → (⟨S1x128, .f32⟩ : BufTy).Contents (Elt F) → (⟨S1x128, .f32⟩ : BufTy).Contents (Elt F)) (after ops V (main_call0_v1 : DevRef τ sig)) (after ops V (main_call0_v2 : DevRef τ sig)) :=
  stage_binary (ops_writes (F := F)) 48 main_call0_v1 main_call0_v2 main_call0_v3 _ _ _ _ rfl (by decide) (by decide) (by decide) V

theorem st_main_call0_v4 (V : Valuation τ sig (Elt F)) :
    after ops V (main_call0_v4 : DevRef τ sig) = ((broadcastInDim S50000x128 ![0, 1] bcast_S1x128_S50000x128_0_1) : (⟨S1x128, .f32⟩ : BufTy).Contents (Elt F) → (⟨S50000x128, .f32⟩ : BufTy).Contents (Elt F)) (after ops V (main_call0_v3 : DevRef τ sig)) :=
  stage_unary (ops_writes (F := F)) 49 main_call0_v3 main_call0_v4 _ _ _ rfl (by decide) (by decide) V

theorem st_main_call0_v5 (V : Valuation τ sig (Elt F)) :
    after ops V (main_call0_v5 : DevRef τ sig) = (subf : (⟨S50000x128, .f32⟩ : BufTy).Contents (Elt F) → (⟨S50000x128, .f32⟩ : BufTy).Contents (Elt F) → (⟨S50000x128, .f32⟩ : BufTy).Contents (Elt F)) (after ops V (main_v32 : DevRef τ sig)) (after ops V (main_call0_v4 : DevRef τ sig)) :=
  stage_binary (ops_writes (F := F)) 50 main_v32 main_call0_v4 main_call0_v5 _ _ _ _ rfl (by decide) (by decide) (by decide) V

theorem st_main_call0_v6 (V : Valuation τ sig (Elt F)) :
    after ops V (main_call0_v6 : DevRef τ sig) = (mulf : (⟨S50000x128, .f32⟩ : BufTy).Contents (Elt F) → (⟨S50000x128, .f32⟩ : BufTy).Contents (Elt F) → (⟨S50000x128, .f32⟩ : BufTy).Contents (Elt F)) (after ops V (main_call0_v5 : DevRef τ sig)) (after ops V (main_call0_v5 : DevRef τ sig)) :=
  stage_binary (ops_writes (F := F)) 51 main_call0_v5 main_call0_v5 main_call0_v6 _ _ _ _ rfl (by decide) (by decide) (by decide) V

theorem st_main_call0_v7 (V : Valuation τ sig (Elt F)) :
    after ops V (main_call0_v7 : DevRef τ sig) = ((sitofp .f32) : (⟨S_, .i32⟩ : BufTy).Contents (Elt F) → (⟨S_, .f32⟩ : BufTy).Contents (Elt F)) (after ops V (main_c_4 : DevRef τ sig)) :=
  stage_unary (ops_writes (F := F)) 52 main_c_4 main_call0_v7 _ _ _ rfl (by decide) (by decide) V

theorem st_main_call0_cst_1 (V : Valuation τ sig (Elt F)) :
    after ops V (main_call0_cst_1 : DevRef τ sig) = (constant S_ .f32 0x47435000#32) :=
  stage_nullary (ops_writes (F := F)) 53 main_call0_cst_1 _ _ rfl (by decide) V

theorem st_main_call0_v8 (V : Valuation τ sig (Elt F)) :
    after ops V (main_call0_v8 : DevRef τ sig) = (subf : (⟨S_, .f32⟩ : BufTy).Contents (Elt F) → (⟨S_, .f32⟩ : BufTy).Contents (Elt F) → (⟨S_, .f32⟩ : BufTy).Contents (Elt F)) (after ops V (main_call0_cst_1 : DevRef τ sig)) (after ops V (main_call0_v7 : DevRef τ sig)) :=
  stage_binary (ops_writes (F := F)) 54 main_call0_cst_1 main_call0_v7 main_call0_v8 _ _ _ _ rfl (by decide) (by decide) (by decide) V

theorem st_main_call0_cst_2 (V : Valuation τ sig (Elt F)) :
    after ops V (main_call0_cst_2 : DevRef τ sig) = (constant S_ .f32 0x00000000#32) :=
  stage_nullary (ops_writes (F := F)) 55 main_call0_cst_2 _ _ rfl (by decide) V

theorem st_main_call0_v9 (V : Valuation τ sig (Elt F)) :
    after ops V (main_call0_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_call0_v6 : DevRef τ sig)) (after ops V (main_call0_cst_2 : DevRef τ sig)) :=
  stage_binary (ops_writes (F := F)) 56 main_call0_v6 main_call0_cst_2 main_call0_v9 _ _ _ _ rfl (by decide) (by decide) (by decide) V

theorem st_main_call0_v10 (V : Valuation τ sig (Elt F)) :
    after ops V (main_call0_v10 : DevRef τ sig) = ((broadcastInDim S128 ![] bcast_S_S128) : (⟨S_, .f32⟩ : BufTy).Contents (Elt F) → (⟨S128, .f32⟩ : BufTy).Contents (Elt F)) (after ops V (main_call0_v8 : DevRef τ sig)) :=
  stage_unary (ops_writes (F := F)) 57 main_call0_v8 main_call0_v10 _ _ _ rfl (by decide) (by decide) V

theorem st_main_call0_v11 (V : Valuation τ sig (Elt F)) :
    after ops V (main_call0_v11 : DevRef τ sig) = (Host.divf : (⟨S128, .f32⟩ : BufTy).Contents (Elt F) → (⟨S128, .f32⟩ : BufTy).Contents (Elt F) → (⟨S128, .f32⟩ : BufTy).Contents (Elt F)) (after ops V (main_call0_v9 : DevRef τ sig)) (after ops V (main_call0_v10 : DevRef τ sig)) :=
  stage_binary (ops_writes (F := F)) 58 main_call0_v9 main_call0_v10 main_call0_v11 _ _ _ _ rfl (by decide) (by decide) (by decide) V

theorem st_main_call0_cst_3 (V : Valuation τ sig (Elt F)) :
    after ops V (main_call0_cst_3 : DevRef τ sig) = (constant S_ .f32 0x00000000#32) :=
  stage_nullary (ops_writes (F := F)) 59 main_call0_cst_3 _ _ rfl (by decide) V

theorem st_main_call0_v12 (V : Valuation τ sig (Elt F)) :
    after ops V (main_call0_v12 : DevRef τ sig) = ((cmpf .ogt) : (⟨S_, .f32⟩ : BufTy).Contents (Elt F) → (⟨S_, .f32⟩ : BufTy).Contents (Elt F) → (⟨S_, .i1⟩ : BufTy).Contents (Elt F)) (after ops V (main_call0_v8 : DevRef τ sig)) (after ops V (main_call0_cst_3 : DevRef τ sig)) :=
  stage_binary (ops_writes (F := F)) 60 main_call0_v8 main_call0_cst_3 main_call0_v12 _ _ _ _ rfl (by decide) (by decide) (by decide) V

theorem st_main_call0_cst_4 (V : Valuation τ sig (Elt F)) :
    after ops V (main_call0_cst_4 : DevRef τ sig) = (constant S_ .f32 0x7FC00000#32) :=
  stage_nullary (ops_writes (F := F)) 61 main_call0_cst_4 _ _ rfl (by decide) V

theorem st_main_call0_call0_v0 (V : Valuation τ sig (Elt F)) :
    after ops V (main_call0_call0_v0 : DevRef τ sig) = (id : (⟨S_, .f32⟩ : BufTy).Contents (Elt F) → (⟨S_, .f32⟩ : BufTy).Contents (Elt F)) (after ops V (main_call0_cst_4 : DevRef τ sig)) :=
  stage_unary (ops_writes (F := F)) 62 main_call0_cst_4 main_call0_call0_v0 _ _ _ rfl (by decide) (by decide) V

theorem st_main_call0_call0_v1 (V : Valuation τ sig (Elt F)) :
    after ops V (main_call0_call0_v1 : DevRef τ sig) = ((broadcastInDim S128 ![] bcast_S_S128) : (⟨S_, .f32⟩ : BufTy).Contents (Elt F) → (⟨S128, .f32⟩ : BufTy).Contents (Elt F)) (after ops V (main_call0_call0_v0 : DevRef τ sig)) :=
  stage_unary (ops_writes (F := F)) 63 main_call0_call0_v0 main_call0_call0_v1 _ _ _ rfl (by decide) (by decide) V

set_option maxHeartbeats 4000000 in
theorem st_main_v36 (V : Valuation τ sig (Elt F)) :
    after ops V (main_v36 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops V (main_call0_v12 : DevRef τ sig)) (after ops V (main_call0_v11 : DevRef τ sig)) (after ops V (main_call0_call0_v1 : DevRef τ sig)) :=
  stage_ternary (ops_writes (F := F)) 64 main_call0_v12 main_call0_v11 main_call0_call0_v1 main_v36 _ _ _ _ _ rfl (by decide) (by decide) (by decide) (by decide) V

theorem st_main_v37 (V : Valuation τ sig (Elt F)) :
    after ops V (main_v37 : DevRef τ sig) = (broadcastInDim S1x128 ![1] bcast_S128_S1x128_1 : (⟨S128, .f32⟩ : BufTy).Contents (Elt F) → (⟨S1x128, .f32⟩ : BufTy).Contents (Elt F)) (after ops V (main_v35 : DevRef τ sig)) :=
  stage_unary (ops_writes (F := F)) 65 main_v35 main_v37 _ _ _ rfl (by decide) (by decide) V

theorem st_main_v38 (V : Valuation τ sig (Elt F)) :
    after ops V (main_v38 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v37 : DevRef τ sig)) :=
  stage_unary (ops_writes (F := F)) 66 main_v37 main_v38 _ _ _ rfl (by decide) (by decide) V

theorem st_main_v39 (V : Valuation τ sig (Elt F)) :
    after ops V (main_v39 : DevRef τ sig) = (subf : (⟨S50000x128, .f32⟩ : BufTy).Contents (Elt F) → (⟨S50000x128, .f32⟩ : BufTy).Contents (Elt F) → (⟨S50000x128, .f32⟩ : BufTy).Contents (Elt F)) (after ops V (main_v32 : DevRef τ sig)) (after ops V (main_v38 : DevRef τ sig)) :=
  stage_binary (ops_writes (F := F)) 67 main_v32 main_v38 main_v39 _ _ _ _ rfl (by decide) (by decide) (by decide) V

theorem st_main_cst_5 (V : Valuation τ sig (Elt F)) :
    after ops V (main_cst_5 : DevRef τ sig) = (constant S_ .f32 0x3727C5AC#32) :=
  stage_nullary (ops_writes (F := F)) 68 main_cst_5 _ _ rfl (by decide) V

theorem st_main_v40 (V : Valuation τ sig (Elt F)) :
    after ops V (main_v40 : DevRef τ sig) = (broadcastInDim S128 ![] bcast_S_S128 : (⟨S_, .f32⟩ : BufTy).Contents (Elt F) → (⟨S128, .f32⟩ : BufTy).Contents (Elt F)) (after ops V (main_cst_5 : DevRef τ sig)) :=
  stage_unary (ops_writes (F := F)) 69 main_cst_5 main_v40 _ _ _ rfl (by decide) (by decide) V

theorem st_main_v41 (V : Valuation τ sig (Elt F)) :
    after ops V (main_v41 : DevRef τ sig) = (addf : (⟨S128, .f32⟩ : BufTy).Contents (Elt F) → (⟨S128, .f32⟩ : BufTy).Contents (Elt F) → (⟨S128, .f32⟩ : BufTy).Contents (Elt F)) (after ops V (main_v36 : DevRef τ sig)) (after ops V (main_v40 : DevRef τ sig)) :=
  stage_binary (ops_writes (F := F)) 70 main_v36 main_v40 main_v41 _ _ _ _ rfl (by decide) (by decide) (by decide) V

theorem st_main_v42 (V : Valuation τ sig (Elt F)) :
    after ops V (main_v42 : DevRef τ sig) = (Host.rsqrt : (⟨S128, .f32⟩ : BufTy).Contents (Elt F) → (⟨S128, .f32⟩ : BufTy).Contents (Elt F)) (after ops V (main_v41 : DevRef τ sig)) :=
  stage_unary (ops_writes (F := F)) 71 main_v41 main_v42 _ _ _ rfl (by decide) (by decide) V

theorem st_main_v43 (V : Valuation τ sig (Elt F)) :
    after ops V (main_v43 : DevRef τ sig) = (broadcastInDim S1x128 ![1] bcast_S128_S1x128_1 : (⟨S128, .f32⟩ : BufTy).Contents (Elt F) → (⟨S1x128, .f32⟩ : BufTy).Contents (Elt F)) (after ops V (main_v42 : DevRef τ sig)) :=
  stage_unary (ops_writes (F := F)) 72 main_v42 main_v43 _ _ _ rfl (by decide) (by decide) V

theorem st_main_v44 (V : Valuation τ sig (Elt F)) :
    after ops V (main_v44 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v43 : DevRef τ sig)) :=
  stage_unary (ops_writes (F := F)) 73 main_v43 main_v44 _ _ _ rfl (by decide) (by decide) V

theorem st_main_v45 (V : Valuation τ sig (Elt F)) :
    after ops V (main_v45 : DevRef τ sig) = (mulf : (⟨S50000x128, .f32⟩ : BufTy).Contents (Elt F) → (⟨S50000x128, .f32⟩ : BufTy).Contents (Elt F) → (⟨S50000x128, .f32⟩ : BufTy).Contents (Elt F)) (after ops V (main_v39 : DevRef τ sig)) (after ops V (main_v44 : DevRef τ sig)) :=
  stage_binary (ops_writes (F := F)) 74 main_v39 main_v44 main_v45 _ _ _ _ rfl (by decide) (by decide) (by decide) V

theorem st_main_v46 (V : Valuation τ sig (Elt F)) :
    after ops V (main_v46 : DevRef τ sig) = ((extractStridedSlice S1x128 ![0, 0] · slices_S3x128_S1x128_0_0) : (⟨S3x128, .f32⟩ : BufTy).Contents (Elt F) → (⟨S1x128, .f32⟩ : BufTy).Contents (Elt F)) (after ops V (main_arg5 : DevRef τ sig)) :=
  stage_unary (ops_writes (F := F)) 75 main_arg5 main_v46 _ _ _ rfl (by decide) (by decide) V

theorem st_main_v47 (V : Valuation τ sig (Elt F)) :
    after ops V (main_v47 : DevRef τ sig) = shapeCast _ (after ops V (main_v46 : DevRef τ sig)) shapeCasts_S1x128_S128 :=
  stage_reshape (ops_writes (F := F)) 76 main_v46 main_v47 rfl _ _ _ rfl (by decide) (by decide) V

theorem st_main_v48 (V : Valuation τ sig (Elt F)) :
    after ops V (main_v48 : DevRef τ sig) = (broadcastInDim S1x128 ![1] bcast_S128_S1x128_1 : (⟨S128, .f32⟩ : BufTy).Contents (Elt F) → (⟨S1x128, .f32⟩ : BufTy).Contents (Elt F)) (after ops V (main_v47 : DevRef τ sig)) :=
  stage_unary (ops_writes (F := F)) 77 main_v47 main_v48 _ _ _ rfl (by decide) (by decide) V

theorem st_main_v49 (V : Valuation τ sig (Elt F)) :
    after ops V (main_v49 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v48 : DevRef τ sig)) :=
  stage_unary (ops_writes (F := F)) 78 main_v48 main_v49 _ _ _ rfl (by decide) (by decide) V

theorem st_main_v50 (V : Valuation τ sig (Elt F)) :
    after ops V (main_v50 : DevRef τ sig) = (mulf : (⟨S50000x128, .f32⟩ : BufTy).Contents (Elt F) → (⟨S50000x128, .f32⟩ : BufTy).Contents (Elt F) → (⟨S50000x128, .f32⟩ : BufTy).Contents (Elt F)) (after ops V (main_v45 : DevRef τ sig)) (after ops V (main_v49 : DevRef τ sig)) :=
  stage_binary (ops_writes (F := F)) 79 main_v45 main_v49 main_v50 _ _ _ _ rfl (by decide) (by decide) (by decide) V

theorem st_main_v51 (V : Valuation τ sig (Elt F)) :
    after ops V (main_v51 : DevRef τ sig) = ((extractStridedSlice S1x128 ![0, 0] · slices_S3x128_S1x128_0_0) : (⟨S3x128, .f32⟩ : BufTy).Contents (Elt F) → (⟨S1x128, .f32⟩ : BufTy).Contents (Elt F)) (after ops V (main_arg6 : DevRef τ sig)) :=
  stage_unary (ops_writes (F := F)) 80 main_arg6 main_v51 _ _ _ rfl (by decide) (by decide) V

theorem st_main_v52 (V : Valuation τ sig (Elt F)) :
    after ops V (main_v52 : DevRef τ sig) = shapeCast _ (after ops V (main_v51 : DevRef τ sig)) shapeCasts_S1x128_S128 :=
  stage_reshape (ops_writes (F := F)) 81 main_v51 main_v52 rfl _ _ _ rfl (by decide) (by decide) V

theorem st_main_v53 (V : Valuation τ sig (Elt F)) :
    after ops V (main_v53 : DevRef τ sig) = (broadcastInDim S1x128 ![1] bcast_S128_S1x128_1 : (⟨S128, .f32⟩ : BufTy).Contents (Elt F) → (⟨S1x128, .f32⟩ : BufTy).Contents (Elt F)) (after ops V (main_v52 : DevRef τ sig)) :=
  stage_unary (ops_writes (F := F)) 82 main_v52 main_v53 _ _ _ rfl (by decide) (by decide) V

theorem st_main_v54 (V : Valuation τ sig (Elt F)) :
    after ops V (main_v54 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v53 : DevRef τ sig)) :=
  stage_unary (ops_writes (F := F)) 83 main_v53 main_v54 _ _ _ rfl (by decide) (by decide) V

theorem st_main_v55 (V : Valuation τ sig (Elt F)) :
    after ops V (main_v55 : DevRef τ sig) = (addf : (⟨S50000x128, .f32⟩ : BufTy).Contents (Elt F) → (⟨S50000x128, .f32⟩ : BufTy).Contents (Elt F) → (⟨S50000x128, .f32⟩ : BufTy).Contents (Elt F)) (after ops V (main_v50 : DevRef τ sig)) (after ops V (main_v54 : DevRef τ sig)) :=
  stage_binary (ops_writes (F := F)) 84 main_v50 main_v54 main_v55 _ _ _ _ rfl (by decide) (by decide) (by decide) V

theorem st_main_cst_6 (V : Valuation τ sig (Elt F)) :
    after ops V (main_cst_6 : DevRef τ sig) = (constant S_ .f32 0x00000000#32) :=
  stage_nullary (ops_writes (F := F)) 85 main_cst_6 _ _ rfl (by decide) V

theorem st_main_v56 (V : Valuation τ sig (Elt F)) :
    after ops V (main_v56 : DevRef τ sig) = (broadcastInDim S50000x128 ![] bcast_S_S50000x128 : (⟨S_, .f32⟩ : BufTy).Contents (Elt F) → (⟨S50000x128, .f32⟩ : BufTy).Contents (Elt F)) (after ops V (main_cst_6 : DevRef τ sig)) :=
  stage_unary (ops_writes (F := F)) 86 main_cst_6 main_v56 _ _ _ rfl (by decide) (by decide) V

theorem st_main_v57 (V : Valuation τ sig (Elt F)) :
    after ops V (main_v57 : DevRef τ sig) = (maximumf : (⟨S50000x128, .f32⟩ : BufTy).Contents (Elt F) → (⟨S50000x128, .f32⟩ : BufTy).Contents (Elt F) → (⟨S50000x128, .f32⟩ : BufTy).Contents (Elt F)) (after ops V (main_v55 : DevRef τ sig)) (after ops V (main_v56 : DevRef τ sig)) :=
  stage_binary (ops_writes (F := F)) 87 main_v55 main_v56 main_v57 _ _ _ _ rfl (by decide) (by decide) (by decide) V

theorem st_main_c_7 (V : Valuation τ sig (Elt F)) :
    after ops V (main_c_7 : DevRef τ sig) = (constantI S_ 32 0#32) :=
  stage_nullary (ops_writes (F := F)) 88 main_c_7 _ _ rfl (by decide) V

theorem st_main_v58 (V : Valuation τ sig (Elt F)) :
    after ops V (main_v58 : DevRef τ sig) = (broadcastInDim S800000 ![] bcast_S_S800000 : (⟨S_, .i32⟩ : BufTy).Contents (Elt F) → (⟨S800000, .i32⟩ : BufTy).Contents (Elt F)) (after ops V (main_c_7 : DevRef τ sig)) :=
  stage_unary (ops_writes (F := F)) 89 main_c_7 main_v58 _ _ _ rfl (by decide) (by decide) V

theorem st_main_v59 (V : Valuation τ sig (Elt F)) :
    after ops V (main_v59 : DevRef τ sig) = (cmpi .slt : (⟨S800000, .i32⟩ : BufTy).Contents (Elt F) → (⟨S800000, .i32⟩ : BufTy).Contents (Elt F) → (⟨S800000, .i1⟩ : BufTy).Contents (Elt F)) (after ops V (main_v1 : DevRef τ sig)) (after ops V (main_v58 : DevRef τ sig)) :=
  stage_binary (ops_writes (F := F)) 90 main_v1 main_v58 main_v59 _ _ _ _ rfl (by decide) (by decide) (by decide) V

theorem st_main_c_8 (V : Valuation τ sig (Elt F)) :
    after ops V (main_c_8 : DevRef τ sig) = (constantI S_ 32 50000#32) :=
  stage_nullary (ops_writes (F := F)) 91 main_c_8 _ _ rfl (by decide) V

theorem st_main_v60 (V : Valuation τ sig (Elt F)) :
    after ops V (main_v60 : DevRef τ sig) = (broadcastInDim S800000 ![] bcast_S_S800000 : (⟨S_, .i32⟩ : BufTy).Contents (Elt F) → (⟨S800000, .i32⟩ : BufTy).Contents (Elt F)) (after ops V (main_c_8 : DevRef τ sig)) :=
  stage_unary (ops_writes (F := F)) 92 main_c_8 main_v60 _ _ _ rfl (by decide) (by decide) V

theorem st_main_v61 (V : Valuation τ sig (Elt F)) :
    after ops V (main_v61 : DevRef τ sig) = (addi : (⟨S800000, .i32⟩ : BufTy).Contents (Elt F) → (⟨S800000, .i32⟩ : BufTy).Contents (Elt F) → (⟨S800000, .i32⟩ : BufTy).Contents (Elt F)) (after ops V (main_v1 : DevRef τ sig)) (after ops V (main_v60 : DevRef τ sig)) :=
  stage_binary (ops_writes (F := F)) 93 main_v1 main_v60 main_v61 _ _ _ _ rfl (by decide) (by decide) (by decide) V

theorem st_main_v62 (V : Valuation τ sig (Elt F)) :
    after ops V (main_v62 : DevRef τ sig) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (main_v59 : DevRef τ sig)) (after ops V (main_v61 : DevRef τ sig)) (after ops V (main_v1 : DevRef τ sig)) :=
  stage_ternary (ops_writes (F := F)) 94 main_v59 main_v61 main_v1 main_v62 _ _ _ _ _ rfl (by decide) (by decide) (by decide) (by decide) V

theorem st_main_v63 (V : Valuation τ sig (Elt F)) :
    after ops V (main_v63 : DevRef τ sig) = (broadcastInDim S800000x1 ![0] bcast_S800000_S800000x1_0 : (⟨S800000, .i32⟩ : BufTy).Contents (Elt F) → (⟨S800000x1, .i32⟩ : BufTy).Contents (Elt F)) (after ops V (main_v62 : DevRef τ sig)) :=
  stage_unary (ops_writes (F := F)) 95 main_v62 main_v63 _ _ _ rfl (by decide) (by decide) V

theorem st_main_v64 (V : Valuation τ sig (Elt F)) :
    after ops V (main_v64 : DevRef τ sig) = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (after ops V (main_v57 : DevRef τ sig)) (after ops V (main_v63 : DevRef τ sig)) :=
  stage_binary (ops_writes (F := F)) 96 main_v57 main_v63 main_v64 _ _ _ _ rfl (by decide) (by decide) (by decide) V

theorem st_main_cst_9 (V : Valuation τ sig (Elt F)) :
    after ops V (main_cst_9 : DevRef τ sig) = (constant S_ .f32 0x00000000#32) :=
  stage_nullary (ops_writes (F := F)) 97 main_cst_9 _ _ rfl (by decide) V

theorem st_main_v65 (V : Valuation τ sig (Elt F)) :
    after ops V (main_v65 : DevRef τ sig) = (broadcastInDim S50000x128 ![] bcast_S_S50000x128 : (⟨S_, .f32⟩ : BufTy).Contents (Elt F) → (⟨S50000x128, .f32⟩ : BufTy).Contents (Elt F)) (after ops V (main_cst_9 : DevRef τ sig)) :=
  stage_unary (ops_writes (F := F)) 98 main_cst_9 main_v65 _ _ _ rfl (by decide) (by decide) V

theorem st_main_v66 (V : Valuation τ sig (Elt F)) :
    after ops V (main_v66 : DevRef τ sig) = (broadcastInDim S800000x1 ![0] bcast_S800000_S800000x1_0 : (⟨S800000, .i32⟩ : BufTy).Contents (Elt F) → (⟨S800000x1, .i32⟩ : BufTy).Contents (Elt F)) (after ops V (main_v3 : DevRef τ sig)) :=
  stage_unary (ops_writes (F := F)) 99 main_v3 main_v66 _ _ _ rfl (by decide) (by decide) V

theorem st_main_v67 (V : Valuation τ sig (Elt F)) :
    after ops V (main_v67 : DevRef τ sig) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (after ops V (main_v65 : DevRef τ sig)) (after ops V (main_v66 : DevRef τ sig)) (after ops V (main_v64 : DevRef τ sig)) :=
  stage_ternary (ops_writes (F := F)) 100 main_v65 main_v66 main_v64 main_v67 _ _ _ _ _ rfl (by decide) (by decide) (by decide) (by decide) V

theorem st_main_v68 (V : Valuation τ sig (Elt F)) :
    after ops V (main_v68 : DevRef τ sig) = (addf : (⟨S50000x128, .f32⟩ : BufTy).Contents (Elt F) → (⟨S50000x128, .f32⟩ : BufTy).Contents (Elt F) → (⟨S50000x128, .f32⟩ : BufTy).Contents (Elt F)) (after ops V (main_v57 : DevRef τ sig)) (after ops V (main_v67 : DevRef τ sig)) :=
  stage_binary (ops_writes (F := F)) 101 main_v57 main_v67 main_v68 _ _ _ _ rfl (by decide) (by decide) (by decide) V

theorem st_main_v69 (V : Valuation τ sig (Elt F)) :
    after ops V (main_v69 : DevRef τ sig) = ((extractStridedSlice S1x128x128 ![1, 0, 0] · slices_S3x128x128_S1x128x128_1_0_0) : (⟨S3x128x128, .f32⟩ : BufTy).Contents (Elt F) → (⟨S1x128x128, .f32⟩ : BufTy).Contents (Elt F)) (after ops V (main_arg1 : DevRef τ sig)) :=
  stage_unary (ops_writes (F := F)) 102 main_arg1 main_v69 _ _ _ rfl (by decide) (by decide) V

theorem st_main_v70 (V : Valuation τ sig (Elt F)) :
    after ops V (main_v70 : DevRef τ sig) = shapeCast _ (after ops V (main_v69 : DevRef τ sig)) shapeCasts_S1x128x128_S128x128 :=
  stage_reshape (ops_writes (F := F)) 103 main_v69 main_v70 rfl _ _ _ rfl (by decide) (by decide) V

theorem st_main_v71 (V : Valuation τ sig (Elt F)) :
    after ops V (main_v71 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (main_v68 : DevRef τ sig)) (after ops V (main_v70 : DevRef τ sig)) :=
  stage_binary (ops_writes (F := F)) 104 main_v68 main_v70 main_v71 _ _ _ _ rfl (by decide) (by decide) (by decide) V

theorem st_main_v72 (V : Valuation τ sig (Elt F)) :
    after ops V (main_v72 : DevRef τ sig) = ((extractStridedSlice S1x128 ![1, 0] · slices_S3x128_S1x128_1_0) : (⟨S3x128, .f32⟩ : BufTy).Contents (Elt F) → (⟨S1x128, .f32⟩ : BufTy).Contents (Elt F)) (after ops V (main_arg2 : DevRef τ sig)) :=
  stage_unary (ops_writes (F := F)) 105 main_arg2 main_v72 _ _ _ rfl (by decide) (by decide) V

theorem st_main_v73 (V : Valuation τ sig (Elt F)) :
    after ops V (main_v73 : DevRef τ sig) = shapeCast _ (after ops V (main_v72 : DevRef τ sig)) shapeCasts_S1x128_S128 :=
  stage_reshape (ops_writes (F := F)) 106 main_v72 main_v73 rfl _ _ _ rfl (by decide) (by decide) V

theorem st_main_v74 (V : Valuation τ sig (Elt F)) :
    after ops V (main_v74 : DevRef τ sig) = (broadcastInDim S1x128 ![1] bcast_S128_S1x128_1 : (⟨S128, .f32⟩ : BufTy).Contents (Elt F) → (⟨S1x128, .f32⟩ : BufTy).Contents (Elt F)) (after ops V (main_v73 : DevRef τ sig)) :=
  stage_unary (ops_writes (F := F)) 107 main_v73 main_v74 _ _ _ rfl (by decide) (by decide) V

theorem st_main_v75 (V : Valuation τ sig (Elt F)) :
    after ops V (main_v75 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v74 : DevRef τ sig)) :=
  stage_unary (ops_writes (F := F)) 108 main_v74 main_v75 _ _ _ rfl (by decide) (by decide) V

theorem st_main_v76 (V : Valuation τ sig (Elt F)) :
    after ops V (main_v76 : DevRef τ sig) = (addf : (⟨S50000x128, .f32⟩ : BufTy).Contents (Elt F) → (⟨S50000x128, .f32⟩ : BufTy).Contents (Elt F) → (⟨S50000x128, .f32⟩ : BufTy).Contents (Elt F)) (after ops V (main_v71 : DevRef τ sig)) (after ops V (main_v75 : DevRef τ sig)) :=
  stage_binary (ops_writes (F := F)) 109 main_v71 main_v75 main_v76 _ _ _ _ rfl (by decide) (by decide) (by decide) V

theorem st_main_cst_10 (V : Valuation τ sig (Elt F)) :
    after ops V (main_cst_10 : DevRef τ sig) = (constant S_ .f32 0x00000000#32) :=
  stage_nullary (ops_writes (F := F)) 110 main_cst_10 _ _ rfl (by decide) V

theorem st_main_v77 (V : Valuation τ sig (Elt F)) :
    after ops V (main_v77 : DevRef τ sig) = (broadcastInDim S50000x128 ![] bcast_S_S50000x128 : (⟨S_, .f32⟩ : BufTy).Contents (Elt F) → (⟨S50000x128, .f32⟩ : BufTy).Contents (Elt F)) (after ops V (main_cst_10 : DevRef τ sig)) :=
  stage_unary (ops_writes (F := F)) 111 main_cst_10 main_v77 _ _ _ rfl (by decide) (by decide) V

theorem st_main_v78 (V : Valuation τ sig (Elt F)) :
    after ops V (main_v78 : DevRef τ sig) = (maximumf : (⟨S50000x128, .f32⟩ : BufTy).Contents (Elt F) → (⟨S50000x128, .f32⟩ : BufTy).Contents (Elt F) → (⟨S50000x128, .f32⟩ : BufTy).Contents (Elt F)) (after ops V (main_v76 : DevRef τ sig)) (after ops V (main_v77 : DevRef τ sig)) :=
  stage_binary (ops_writes (F := F)) 112 main_v76 main_v77 main_v78 _ _ _ _ rfl (by decide) (by decide) (by decide) V

theorem st_main_v79 (V : Valuation τ sig (Elt F)) :
    after ops V (main_v79 : DevRef τ sig) = ((extractStridedSlice S1x128x128 ![1, 0, 0] · slices_S3x128x128_S1x128x128_1_0_0) : (⟨S3x128x128, .f32⟩ : BufTy).Contents (Elt F) → (⟨S1x128x128, .f32⟩ : BufTy).Contents (Elt F)) (after ops V (main_arg3 : DevRef τ sig)) :=
  stage_unary (ops_writes (F := F)) 113 main_arg3 main_v79 _ _ _ rfl (by decide) (by decide) V

theorem st_main_v80 (V : Valuation τ sig (Elt F)) :
    after ops V (main_v80 : DevRef τ sig) = shapeCast _ (after ops V (main_v79 : DevRef τ sig)) shapeCasts_S1x128x128_S128x128 :=
  stage_reshape (ops_writes (F := F)) 114 main_v79 main_v80 rfl _ _ _ rfl (by decide) (by decide) V

theorem st_main_v81 (V : Valuation τ sig (Elt F)) :
    after ops V (main_v81 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (main_v78 : DevRef τ sig)) (after ops V (main_v80 : DevRef τ sig)) :=
  stage_binary (ops_writes (F := F)) 115 main_v78 main_v80 main_v81 _ _ _ _ rfl (by decide) (by decide) (by decide) V

theorem st_main_v82 (V : Valuation τ sig (Elt F)) :
    after ops V (main_v82 : DevRef τ sig) = ((extractStridedSlice S1x128 ![1, 0] · slices_S3x128_S1x128_1_0) : (⟨S3x128, .f32⟩ : BufTy).Contents (Elt F) → (⟨S1x128, .f32⟩ : BufTy).Contents (Elt F)) (after ops V (main_arg4 : DevRef τ sig)) :=
  stage_unary (ops_writes (F := F)) 116 main_arg4 main_v82 _ _ _ rfl (by decide) (by decide) V

theorem st_main_v83 (V : Valuation τ sig (Elt F)) :
    after ops V (main_v83 : DevRef τ sig) = shapeCast _ (after ops V (main_v82 : DevRef τ sig)) shapeCasts_S1x128_S128 :=
  stage_reshape (ops_writes (F := F)) 117 main_v82 main_v83 rfl _ _ _ rfl (by decide) (by decide) V

theorem st_main_v84 (V : Valuation τ sig (Elt F)) :
    after ops V (main_v84 : DevRef τ sig) = (broadcastInDim S1x128 ![1] bcast_S128_S1x128_1 : (⟨S128, .f32⟩ : BufTy).Contents (Elt F) → (⟨S1x128, .f32⟩ : BufTy).Contents (Elt F)) (after ops V (main_v83 : DevRef τ sig)) :=
  stage_unary (ops_writes (F := F)) 118 main_v83 main_v84 _ _ _ rfl (by decide) (by decide) V

theorem st_main_v85 (V : Valuation τ sig (Elt F)) :
    after ops V (main_v85 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v84 : DevRef τ sig)) :=
  stage_unary (ops_writes (F := F)) 119 main_v84 main_v85 _ _ _ rfl (by decide) (by decide) V

theorem st_main_v86 (V : Valuation τ sig (Elt F)) :
    after ops V (main_v86 : DevRef τ sig) = (addf : (⟨S50000x128, .f32⟩ : BufTy).Contents (Elt F) → (⟨S50000x128, .f32⟩ : BufTy).Contents (Elt F) → (⟨S50000x128, .f32⟩ : BufTy).Contents (Elt F)) (after ops V (main_v81 : DevRef τ sig)) (after ops V (main_v85 : DevRef τ sig)) :=
  stage_binary (ops_writes (F := F)) 120 main_v81 main_v85 main_v86 _ _ _ _ rfl (by decide) (by decide) (by decide) V

theorem st_main_cst_11 (V : Valuation τ sig (Elt F)) :
    after ops V (main_cst_11 : DevRef τ sig) = (constant S_ .f32 0x00000000#32) :=
  stage_nullary (ops_writes (F := F)) 121 main_cst_11 _ _ rfl (by decide) V

theorem st_main_v87 (V : Valuation τ sig (Elt F)) :
    after ops V (main_v87 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_v86 : DevRef τ sig)) (after ops V (main_cst_11 : DevRef τ sig)) :=
  stage_binary (ops_writes (F := F)) 122 main_v86 main_cst_11 main_v87 _ _ _ _ rfl (by decide) (by decide) (by decide) V

theorem st_main_cst_12 (V : Valuation τ sig (Elt F)) :
    after ops V (main_cst_12 : DevRef τ sig) = (constant S_ .f32 0x47435000#32) :=
  stage_nullary (ops_writes (F := F)) 123 main_cst_12 _ _ rfl (by decide) V

theorem st_main_v88 (V : Valuation τ sig (Elt F)) :
    after ops V (main_v88 : DevRef τ sig) = (broadcastInDim S128 ![] bcast_S_S128 : (⟨S_, .f32⟩ : BufTy).Contents (Elt F) → (⟨S128, .f32⟩ : BufTy).Contents (Elt F)) (after ops V (main_cst_12 : DevRef τ sig)) :=
  stage_unary (ops_writes (F := F)) 124 main_cst_12 main_v88 _ _ _ rfl (by decide) (by decide) V

theorem st_main_v89 (V : Valuation τ sig (Elt F)) :
    after ops V (main_v89 : DevRef τ sig) = (Host.divf : (⟨S128, .f32⟩ : BufTy).Contents (Elt F) → (⟨S128, .f32⟩ : BufTy).Contents (Elt F) → (⟨S128, .f32⟩ : BufTy).Contents (Elt F)) (after ops V (main_v87 : DevRef τ sig)) (after ops V (main_v88 : DevRef τ sig)) :=
  stage_binary (ops_writes (F := F)) 125 main_v87 main_v88 main_v89 _ _ _ _ rfl (by decide) (by decide) (by decide) V

theorem st_main_c_13 (V : Valuation τ sig (Elt F)) :
    after ops V (main_c_13 : DevRef τ sig) = (constantI S_ 32 0#32) :=
  stage_nullary (ops_writes (F := F)) 126 main_c_13 _ _ rfl (by decide) V

theorem st_main_call1_cst (V : Valuation τ sig (Elt F)) :
    after ops V (main_call1_cst : DevRef τ sig) = (constant S_ .f32 0x00000000#32) :=
  stage_nullary (ops_writes (F := F)) 127 main_call1_cst _ _ rfl (by decide) V

theorem st_main_call1_v0 (V : Valuation τ sig (Elt F)) :
    after ops V (main_call1_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_v86 : DevRef τ sig)) (after ops V (main_call1_cst : DevRef τ sig)) :=
  stage_binary (ops_writes (F := F)) 128 main_v86 main_call1_cst main_call1_v0 _ _ _ _ rfl (by decide) (by decide) (by decide) V

theorem st_main_call1_v1 (V : Valuation τ sig (Elt F)) :
    after ops V (main_call1_v1 : DevRef τ sig) = ((broadcastInDim S1x128 ![1] bcast_S128_S1x128_1) : (⟨S128, .f32⟩ : BufTy).Contents (Elt F) → (⟨S1x128, .f32⟩ : BufTy).Contents (Elt F)) (after ops V (main_call1_v0 : DevRef τ sig)) :=
  stage_unary (ops_writes (F := F)) 129 main_call1_v0 main_call1_v1 _ _ _ rfl (by decide) (by decide) V

theorem st_main_call1_cst_0 (V : Valuation τ sig (Elt F)) :
    after ops V (main_call1_cst_0 : DevRef τ sig) = (constant S_ .f32 0x47435000#32) :=
  stage_nullary (ops_writes (F := F)) 130 main_call1_cst_0 _ _ rfl (by decide) V

theorem st_main_call1_v2 (V : Valuation τ sig (Elt F)) :
    after ops V (main_call1_v2 : DevRef τ sig) = ((broadcastInDim S1x128 ![] bcast_S_S1x128) : (⟨S_, .f32⟩ : BufTy).Contents (Elt F) → (⟨S1x128, .f32⟩ : BufTy).Contents (Elt F)) (after ops V (main_call1_cst_0 : DevRef τ sig)) :=
  stage_unary (ops_writes (F := F)) 131 main_call1_cst_0 main_call1_v2 _ _ _ rfl (by decide) (by decide) V

theorem st_main_call1_v3 (V : Valuation τ sig (Elt F)) :
    after ops V (main_call1_v3 : DevRef τ sig) = (Host.divf : (⟨S1x128, .f32⟩ : BufTy).Contents (Elt F) → (⟨S1x128, .f32⟩ : BufTy).Contents (Elt F) → (⟨S1x128, .f32⟩ : BufTy).Contents (Elt F)) (after ops V (main_call1_v1 : DevRef τ sig)) (after ops V (main_call1_v2 : DevRef τ sig)) :=
  stage_binary (ops_writes (F := F)) 132 main_call1_v1 main_call1_v2 main_call1_v3 _ _ _ _ rfl (by decide) (by decide) (by decide) V

theorem st_main_call1_v4 (V : Valuation τ sig (Elt F)) :
    after ops V (main_call1_v4 : DevRef τ sig) = ((broadcastInDim S50000x128 ![0, 1] bcast_S1x128_S50000x128_0_1) : (⟨S1x128, .f32⟩ : BufTy).Contents (Elt F) → (⟨S50000x128, .f32⟩ : BufTy).Contents (Elt F)) (after ops V (main_call1_v3 : DevRef τ sig)) :=
  stage_unary (ops_writes (F := F)) 133 main_call1_v3 main_call1_v4 _ _ _ rfl (by decide) (by decide) V

theorem st_main_call1_v5 (V : Valuation τ sig (Elt F)) :
    after ops V (main_call1_v5 : DevRef τ sig) = (subf : (⟨S50000x128, .f32⟩ : BufTy).Contents (Elt F) → (⟨S50000x128, .f32⟩ : BufTy).Contents (Elt F) → (⟨S50000x128, .f32⟩ : BufTy).Contents (Elt F)) (after ops V (main_v86 : DevRef τ sig)) (after ops V (main_call1_v4 : DevRef τ sig)) :=
  stage_binary (ops_writes (F := F)) 134 main_v86 main_call1_v4 main_call1_v5 _ _ _ _ rfl (by decide) (by decide) (by decide) V

theorem st_main_call1_v6 (V : Valuation τ sig (Elt F)) :
    after ops V (main_call1_v6 : DevRef τ sig) = (mulf : (⟨S50000x128, .f32⟩ : BufTy).Contents (Elt F) → (⟨S50000x128, .f32⟩ : BufTy).Contents (Elt F) → (⟨S50000x128, .f32⟩ : BufTy).Contents (Elt F)) (after ops V (main_call1_v5 : DevRef τ sig)) (after ops V (main_call1_v5 : DevRef τ sig)) :=
  stage_binary (ops_writes (F := F)) 135 main_call1_v5 main_call1_v5 main_call1_v6 _ _ _ _ rfl (by decide) (by decide) (by decide) V

theorem st_main_call1_v7 (V : Valuation τ sig (Elt F)) :
    after ops V (main_call1_v7 : DevRef τ sig) = ((sitofp .f32) : (⟨S_, .i32⟩ : BufTy).Contents (Elt F) → (⟨S_, .f32⟩ : BufTy).Contents (Elt F)) (after ops V (main_c_13 : DevRef τ sig)) :=
  stage_unary (ops_writes (F := F)) 136 main_c_13 main_call1_v7 _ _ _ rfl (by decide) (by decide) V

theorem st_main_call1_cst_1 (V : Valuation τ sig (Elt F)) :
    after ops V (main_call1_cst_1 : DevRef τ sig) = (constant S_ .f32 0x47435000#32) :=
  stage_nullary (ops_writes (F := F)) 137 main_call1_cst_1 _ _ rfl (by decide) V

theorem st_main_call1_v8 (V : Valuation τ sig (Elt F)) :
    after ops V (main_call1_v8 : DevRef τ sig) = (subf : (⟨S_, .f32⟩ : BufTy).Contents (Elt F) → (⟨S_, .f32⟩ : BufTy).Contents (Elt F) → (⟨S_, .f32⟩ : BufTy).Contents (Elt F)) (after ops V (main_call1_cst_1 : DevRef τ sig)) (after ops V (main_call1_v7 : DevRef τ sig)) :=
  stage_binary (ops_writes (F := F)) 138 main_call1_cst_1 main_call1_v7 main_call1_v8 _ _ _ _ rfl (by decide) (by decide) (by decide) V

theorem st_main_call1_cst_2 (V : Valuation τ sig (Elt F)) :
    after ops V (main_call1_cst_2 : DevRef τ sig) = (constant S_ .f32 0x00000000#32) :=
  stage_nullary (ops_writes (F := F)) 139 main_call1_cst_2 _ _ rfl (by decide) V

theorem st_main_call1_v9 (V : Valuation τ sig (Elt F)) :
    after ops V (main_call1_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_call1_v6 : DevRef τ sig)) (after ops V (main_call1_cst_2 : DevRef τ sig)) :=
  stage_binary (ops_writes (F := F)) 140 main_call1_v6 main_call1_cst_2 main_call1_v9 _ _ _ _ rfl (by decide) (by decide) (by decide) V

theorem st_main_call1_v10 (V : Valuation τ sig (Elt F)) :
    after ops V (main_call1_v10 : DevRef τ sig) = ((broadcastInDim S128 ![] bcast_S_S128) : (⟨S_, .f32⟩ : BufTy).Contents (Elt F) → (⟨S128, .f32⟩ : BufTy).Contents (Elt F)) (after ops V (main_call1_v8 : DevRef τ sig)) :=
  stage_unary (ops_writes (F := F)) 141 main_call1_v8 main_call1_v10 _ _ _ rfl (by decide) (by decide) V

theorem st_main_call1_v11 (V : Valuation τ sig (Elt F)) :
    after ops V (main_call1_v11 : DevRef τ sig) = (Host.divf : (⟨S128, .f32⟩ : BufTy).Contents (Elt F) → (⟨S128, .f32⟩ : BufTy).Contents (Elt F) → (⟨S128, .f32⟩ : BufTy).Contents (Elt F)) (after ops V (main_call1_v9 : DevRef τ sig)) (after ops V (main_call1_v10 : DevRef τ sig)) :=
  stage_binary (ops_writes (F := F)) 142 main_call1_v9 main_call1_v10 main_call1_v11 _ _ _ _ rfl (by decide) (by decide) (by decide) V

theorem st_main_call1_cst_3 (V : Valuation τ sig (Elt F)) :
    after ops V (main_call1_cst_3 : DevRef τ sig) = (constant S_ .f32 0x00000000#32) :=
  stage_nullary (ops_writes (F := F)) 143 main_call1_cst_3 _ _ rfl (by decide) V

theorem st_main_call1_v12 (V : Valuation τ sig (Elt F)) :
    after ops V (main_call1_v12 : DevRef τ sig) = ((cmpf .ogt) : (⟨S_, .f32⟩ : BufTy).Contents (Elt F) → (⟨S_, .f32⟩ : BufTy).Contents (Elt F) → (⟨S_, .i1⟩ : BufTy).Contents (Elt F)) (after ops V (main_call1_v8 : DevRef τ sig)) (after ops V (main_call1_cst_3 : DevRef τ sig)) :=
  stage_binary (ops_writes (F := F)) 144 main_call1_v8 main_call1_cst_3 main_call1_v12 _ _ _ _ rfl (by decide) (by decide) (by decide) V

theorem st_main_call1_cst_4 (V : Valuation τ sig (Elt F)) :
    after ops V (main_call1_cst_4 : DevRef τ sig) = (constant S_ .f32 0x7FC00000#32) :=
  stage_nullary (ops_writes (F := F)) 145 main_call1_cst_4 _ _ rfl (by decide) V

theorem st_main_call1_call0_v0 (V : Valuation τ sig (Elt F)) :
    after ops V (main_call1_call0_v0 : DevRef τ sig) = (id : (⟨S_, .f32⟩ : BufTy).Contents (Elt F) → (⟨S_, .f32⟩ : BufTy).Contents (Elt F)) (after ops V (main_call1_cst_4 : DevRef τ sig)) :=
  stage_unary (ops_writes (F := F)) 146 main_call1_cst_4 main_call1_call0_v0 _ _ _ rfl (by decide) (by decide) V

theorem st_main_call1_call0_v1 (V : Valuation τ sig (Elt F)) :
    after ops V (main_call1_call0_v1 : DevRef τ sig) = ((broadcastInDim S128 ![] bcast_S_S128) : (⟨S_, .f32⟩ : BufTy).Contents (Elt F) → (⟨S128, .f32⟩ : BufTy).Contents (Elt F)) (after ops V (main_call1_call0_v0 : DevRef τ sig)) :=
  stage_unary (ops_writes (F := F)) 147 main_call1_call0_v0 main_call1_call0_v1 _ _ _ rfl (by decide) (by decide) V

set_option maxHeartbeats 4000000 in
theorem st_main_v90 (V : Valuation τ sig (Elt F)) :
    after ops V (main_v90 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops V (main_call1_v12 : DevRef τ sig)) (after ops V (main_call1_v11 : DevRef τ sig)) (after ops V (main_call1_call0_v1 : DevRef τ sig)) :=
  stage_ternary (ops_writes (F := F)) 148 main_call1_v12 main_call1_v11 main_call1_call0_v1 main_v90 _ _ _ _ _ rfl (by decide) (by decide) (by decide) (by decide) V

theorem st_main_v91 (V : Valuation τ sig (Elt F)) :
    after ops V (main_v91 : DevRef τ sig) = (broadcastInDim S1x128 ![1] bcast_S128_S1x128_1 : (⟨S128, .f32⟩ : BufTy).Contents (Elt F) → (⟨S1x128, .f32⟩ : BufTy).Contents (Elt F)) (after ops V (main_v89 : DevRef τ sig)) :=
  stage_unary (ops_writes (F := F)) 149 main_v89 main_v91 _ _ _ rfl (by decide) (by decide) V

theorem st_main_v92 (V : Valuation τ sig (Elt F)) :
    after ops V (main_v92 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v91 : DevRef τ sig)) :=
  stage_unary (ops_writes (F := F)) 150 main_v91 main_v92 _ _ _ rfl (by decide) (by decide) V

theorem st_main_v93 (V : Valuation τ sig (Elt F)) :
    after ops V (main_v93 : DevRef τ sig) = (subf : (⟨S50000x128, .f32⟩ : BufTy).Contents (Elt F) → (⟨S50000x128, .f32⟩ : BufTy).Contents (Elt F) → (⟨S50000x128, .f32⟩ : BufTy).Contents (Elt F)) (after ops V (main_v86 : DevRef τ sig)) (after ops V (main_v92 : DevRef τ sig)) :=
  stage_binary (ops_writes (F := F)) 151 main_v86 main_v92 main_v93 _ _ _ _ rfl (by decide) (by decide) (by decide) V

theorem st_main_cst_14 (V : Valuation τ sig (Elt F)) :
    after ops V (main_cst_14 : DevRef τ sig) = (constant S_ .f32 0x3727C5AC#32) :=
  stage_nullary (ops_writes (F := F)) 152 main_cst_14 _ _ rfl (by decide) V

theorem st_main_v94 (V : Valuation τ sig (Elt F)) :
    after ops V (main_v94 : DevRef τ sig) = (broadcastInDim S128 ![] bcast_S_S128 : (⟨S_, .f32⟩ : BufTy).Contents (Elt F) → (⟨S128, .f32⟩ : BufTy).Contents (Elt F)) (after ops V (main_cst_14 : DevRef τ sig)) :=
  stage_unary (ops_writes (F := F)) 153 main_cst_14 main_v94 _ _ _ rfl (by decide) (by decide) V

theorem st_main_v95 (V : Valuation τ sig (Elt F)) :
    after ops V (main_v95 : DevRef τ sig) = (addf : (⟨S128, .f32⟩ : BufTy).Contents (Elt F) → (⟨S128, .f32⟩ : BufTy).Contents (Elt F) → (⟨S128, .f32⟩ : BufTy).Contents (Elt F)) (after ops V (main_v90 : DevRef τ sig)) (after ops V (main_v94 : DevRef τ sig)) :=
  stage_binary (ops_writes (F := F)) 154 main_v90 main_v94 main_v95 _ _ _ _ rfl (by decide) (by decide) (by decide) V

theorem st_main_v96 (V : Valuation τ sig (Elt F)) :
    after ops V (main_v96 : DevRef τ sig) = (Host.rsqrt : (⟨S128, .f32⟩ : BufTy).Contents (Elt F) → (⟨S128, .f32⟩ : BufTy).Contents (Elt F)) (after ops V (main_v95 : DevRef τ sig)) :=
  stage_unary (ops_writes (F := F)) 155 main_v95 main_v96 _ _ _ rfl (by decide) (by decide) V

theorem st_main_v97 (V : Valuation τ sig (Elt F)) :
    after ops V (main_v97 : DevRef τ sig) = (broadcastInDim S1x128 ![1] bcast_S128_S1x128_1 : (⟨S128, .f32⟩ : BufTy).Contents (Elt F) → (⟨S1x128, .f32⟩ : BufTy).Contents (Elt F)) (after ops V (main_v96 : DevRef τ sig)) :=
  stage_unary (ops_writes (F := F)) 156 main_v96 main_v97 _ _ _ rfl (by decide) (by decide) V

theorem st_main_v98 (V : Valuation τ sig (Elt F)) :
    after ops V (main_v98 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v97 : DevRef τ sig)) :=
  stage_unary (ops_writes (F := F)) 157 main_v97 main_v98 _ _ _ rfl (by decide) (by decide) V

theorem st_main_v99 (V : Valuation τ sig (Elt F)) :
    after ops V (main_v99 : DevRef τ sig) = (mulf : (⟨S50000x128, .f32⟩ : BufTy).Contents (Elt F) → (⟨S50000x128, .f32⟩ : BufTy).Contents (Elt F) → (⟨S50000x128, .f32⟩ : BufTy).Contents (Elt F)) (after ops V (main_v93 : DevRef τ sig)) (after ops V (main_v98 : DevRef τ sig)) :=
  stage_binary (ops_writes (F := F)) 158 main_v93 main_v98 main_v99 _ _ _ _ rfl (by decide) (by decide) (by decide) V

theorem st_main_v100 (V : Valuation τ sig (Elt F)) :
    after ops V (main_v100 : DevRef τ sig) = ((extractStridedSlice S1x128 ![1, 0] · slices_S3x128_S1x128_1_0) : (⟨S3x128, .f32⟩ : BufTy).Contents (Elt F) → (⟨S1x128, .f32⟩ : BufTy).Contents (Elt F)) (after ops V (main_arg5 : DevRef τ sig)) :=
  stage_unary (ops_writes (F := F)) 159 main_arg5 main_v100 _ _ _ rfl (by decide) (by decide) V

theorem st_main_v101 (V : Valuation τ sig (Elt F)) :
    after ops V (main_v101 : DevRef τ sig) = shapeCast _ (after ops V (main_v100 : DevRef τ sig)) shapeCasts_S1x128_S128 :=
  stage_reshape (ops_writes (F := F)) 160 main_v100 main_v101 rfl _ _ _ rfl (by decide) (by decide) V

theorem st_main_v102 (V : Valuation τ sig (Elt F)) :
    after ops V (main_v102 : DevRef τ sig) = (broadcastInDim S1x128 ![1] bcast_S128_S1x128_1 : (⟨S128, .f32⟩ : BufTy).Contents (Elt F) → (⟨S1x128, .f32⟩ : BufTy).Contents (Elt F)) (after ops V (main_v101 : DevRef τ sig)) :=
  stage_unary (ops_writes (F := F)) 161 main_v101 main_v102 _ _ _ rfl (by decide) (by decide) V

theorem st_main_v103 (V : Valuation τ sig (Elt F)) :
    after ops V (main_v103 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v102 : DevRef τ sig)) :=
  stage_unary (ops_writes (F := F)) 162 main_v102 main_v103 _ _ _ rfl (by decide) (by decide) V

theorem st_main_v104 (V : Valuation τ sig (Elt F)) :
    after ops V (main_v104 : DevRef τ sig) = (mulf : (⟨S50000x128, .f32⟩ : BufTy).Contents (Elt F) → (⟨S50000x128, .f32⟩ : BufTy).Contents (Elt F) → (⟨S50000x128, .f32⟩ : BufTy).Contents (Elt F)) (after ops V (main_v99 : DevRef τ sig)) (after ops V (main_v103 : DevRef τ sig)) :=
  stage_binary (ops_writes (F := F)) 163 main_v99 main_v103 main_v104 _ _ _ _ rfl (by decide) (by decide) (by decide) V

theorem st_main_v105 (V : Valuation τ sig (Elt F)) :
    after ops V (main_v105 : DevRef τ sig) = ((extractStridedSlice S1x128 ![1, 0] · slices_S3x128_S1x128_1_0) : (⟨S3x128, .f32⟩ : BufTy).Contents (Elt F) → (⟨S1x128, .f32⟩ : BufTy).Contents (Elt F)) (after ops V (main_arg6 : DevRef τ sig)) :=
  stage_unary (ops_writes (F := F)) 164 main_arg6 main_v105 _ _ _ rfl (by decide) (by decide) V

theorem st_main_v106 (V : Valuation τ sig (Elt F)) :
    after ops V (main_v106 : DevRef τ sig) = shapeCast _ (after ops V (main_v105 : DevRef τ sig)) shapeCasts_S1x128_S128 :=
  stage_reshape (ops_writes (F := F)) 165 main_v105 main_v106 rfl _ _ _ rfl (by decide) (by decide) V

theorem st_main_v107 (V : Valuation τ sig (Elt F)) :
    after ops V (main_v107 : DevRef τ sig) = (broadcastInDim S1x128 ![1] bcast_S128_S1x128_1 : (⟨S128, .f32⟩ : BufTy).Contents (Elt F) → (⟨S1x128, .f32⟩ : BufTy).Contents (Elt F)) (after ops V (main_v106 : DevRef τ sig)) :=
  stage_unary (ops_writes (F := F)) 166 main_v106 main_v107 _ _ _ rfl (by decide) (by decide) V

theorem st_main_v108 (V : Valuation τ sig (Elt F)) :
    after ops V (main_v108 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v107 : DevRef τ sig)) :=
  stage_unary (ops_writes (F := F)) 167 main_v107 main_v108 _ _ _ rfl (by decide) (by decide) V

theorem st_main_v109 (V : Valuation τ sig (Elt F)) :
    after ops V (main_v109 : DevRef τ sig) = (addf : (⟨S50000x128, .f32⟩ : BufTy).Contents (Elt F) → (⟨S50000x128, .f32⟩ : BufTy).Contents (Elt F) → (⟨S50000x128, .f32⟩ : BufTy).Contents (Elt F)) (after ops V (main_v104 : DevRef τ sig)) (after ops V (main_v108 : DevRef τ sig)) :=
  stage_binary (ops_writes (F := F)) 168 main_v104 main_v108 main_v109 _ _ _ _ rfl (by decide) (by decide) (by decide) V

theorem st_main_cst_15 (V : Valuation τ sig (Elt F)) :
    after ops V (main_cst_15 : DevRef τ sig) = (constant S_ .f32 0x00000000#32) :=
  stage_nullary (ops_writes (F := F)) 169 main_cst_15 _ _ rfl (by decide) V

theorem st_main_v110 (V : Valuation τ sig (Elt F)) :
    after ops V (main_v110 : DevRef τ sig) = (broadcastInDim S50000x128 ![] bcast_S_S50000x128 : (⟨S_, .f32⟩ : BufTy).Contents (Elt F) → (⟨S50000x128, .f32⟩ : BufTy).Contents (Elt F)) (after ops V (main_cst_15 : DevRef τ sig)) :=
  stage_unary (ops_writes (F := F)) 170 main_cst_15 main_v110 _ _ _ rfl (by decide) (by decide) V

theorem st_main_v111 (V : Valuation τ sig (Elt F)) :
    after ops V (main_v111 : DevRef τ sig) = (maximumf : (⟨S50000x128, .f32⟩ : BufTy).Contents (Elt F) → (⟨S50000x128, .f32⟩ : BufTy).Contents (Elt F) → (⟨S50000x128, .f32⟩ : BufTy).Contents (Elt F)) (after ops V (main_v109 : DevRef τ sig)) (after ops V (main_v110 : DevRef τ sig)) :=
  stage_binary (ops_writes (F := F)) 171 main_v109 main_v110 main_v111 _ _ _ _ rfl (by decide) (by decide) (by decide) V

theorem st_main_c_16 (V : Valuation τ sig (Elt F)) :
    after ops V (main_c_16 : DevRef τ sig) = (constantI S_ 32 0#32) :=
  stage_nullary (ops_writes (F := F)) 172 main_c_16 _ _ rfl (by decide) V

theorem st_main_v112 (V : Valuation τ sig (Elt F)) :
    after ops V (main_v112 : DevRef τ sig) = (broadcastInDim S800000 ![] bcast_S_S800000 : (⟨S_, .i32⟩ : BufTy).Contents (Elt F) → (⟨S800000, .i32⟩ : BufTy).Contents (Elt F)) (after ops V (main_c_16 : DevRef τ sig)) :=
  stage_unary (ops_writes (F := F)) 173 main_c_16 main_v112 _ _ _ rfl (by decide) (by decide) V

theorem st_main_v113 (V : Valuation τ sig (Elt F)) :
    after ops V (main_v113 : DevRef τ sig) = (cmpi .slt : (⟨S800000, .i32⟩ : BufTy).Contents (Elt F) → (⟨S800000, .i32⟩ : BufTy).Contents (Elt F) → (⟨S800000, .i1⟩ : BufTy).Contents (Elt F)) (after ops V (main_v1 : DevRef τ sig)) (after ops V (main_v112 : DevRef τ sig)) :=
  stage_binary (ops_writes (F := F)) 174 main_v1 main_v112 main_v113 _ _ _ _ rfl (by decide) (by decide) (by decide) V

theorem st_main_c_17 (V : Valuation τ sig (Elt F)) :
    after ops V (main_c_17 : DevRef τ sig) = (constantI S_ 32 50000#32) :=
  stage_nullary (ops_writes (F := F)) 175 main_c_17 _ _ rfl (by decide) V

theorem st_main_v114 (V : Valuation τ sig (Elt F)) :
    after ops V (main_v114 : DevRef τ sig) = (broadcastInDim S800000 ![] bcast_S_S800000 : (⟨S_, .i32⟩ : BufTy).Contents (Elt F) → (⟨S800000, .i32⟩ : BufTy).Contents (Elt F)) (after ops V (main_c_17 : DevRef τ sig)) :=
  stage_unary (ops_writes (F := F)) 176 main_c_17 main_v114 _ _ _ rfl (by decide) (by decide) V

theorem st_main_v115 (V : Valuation τ sig (Elt F)) :
    after ops V (main_v115 : DevRef τ sig) = (addi : (⟨S800000, .i32⟩ : BufTy).Contents (Elt F) → (⟨S800000, .i32⟩ : BufTy).Contents (Elt F) → (⟨S800000, .i32⟩ : BufTy).Contents (Elt F)) (after ops V (main_v1 : DevRef τ sig)) (after ops V (main_v114 : DevRef τ sig)) :=
  stage_binary (ops_writes (F := F)) 177 main_v1 main_v114 main_v115 _ _ _ _ rfl (by decide) (by decide) (by decide) V

theorem st_main_v116 (V : Valuation τ sig (Elt F)) :
    after ops V (main_v116 : DevRef τ sig) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (main_v113 : DevRef τ sig)) (after ops V (main_v115 : DevRef τ sig)) (after ops V (main_v1 : DevRef τ sig)) :=
  stage_ternary (ops_writes (F := F)) 178 main_v113 main_v115 main_v1 main_v116 _ _ _ _ _ rfl (by decide) (by decide) (by decide) (by decide) V

theorem st_main_v117 (V : Valuation τ sig (Elt F)) :
    after ops V (main_v117 : DevRef τ sig) = (broadcastInDim S800000x1 ![0] bcast_S800000_S800000x1_0 : (⟨S800000, .i32⟩ : BufTy).Contents (Elt F) → (⟨S800000x1, .i32⟩ : BufTy).Contents (Elt F)) (after ops V (main_v116 : DevRef τ sig)) :=
  stage_unary (ops_writes (F := F)) 179 main_v116 main_v117 _ _ _ rfl (by decide) (by decide) V

theorem st_main_v118 (V : Valuation τ sig (Elt F)) :
    after ops V (main_v118 : DevRef τ sig) = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (after ops V (main_v111 : DevRef τ sig)) (after ops V (main_v117 : DevRef τ sig)) :=
  stage_binary (ops_writes (F := F)) 180 main_v111 main_v117 main_v118 _ _ _ _ rfl (by decide) (by decide) (by decide) V

theorem st_main_cst_18 (V : Valuation τ sig (Elt F)) :
    after ops V (main_cst_18 : DevRef τ sig) = (constant S_ .f32 0x00000000#32) :=
  stage_nullary (ops_writes (F := F)) 181 main_cst_18 _ _ rfl (by decide) V

theorem st_main_v119 (V : Valuation τ sig (Elt F)) :
    after ops V (main_v119 : DevRef τ sig) = (broadcastInDim S50000x128 ![] bcast_S_S50000x128 : (⟨S_, .f32⟩ : BufTy).Contents (Elt F) → (⟨S50000x128, .f32⟩ : BufTy).Contents (Elt F)) (after ops V (main_cst_18 : DevRef τ sig)) :=
  stage_unary (ops_writes (F := F)) 182 main_cst_18 main_v119 _ _ _ rfl (by decide) (by decide) V

theorem st_main_v120 (V : Valuation τ sig (Elt F)) :
    after ops V (main_v120 : DevRef τ sig) = (broadcastInDim S800000x1 ![0] bcast_S800000_S800000x1_0 : (⟨S800000, .i32⟩ : BufTy).Contents (Elt F) → (⟨S800000x1, .i32⟩ : BufTy).Contents (Elt F)) (after ops V (main_v3 : DevRef τ sig)) :=
  stage_unary (ops_writes (F := F)) 183 main_v3 main_v120 _ _ _ rfl (by decide) (by decide) V

theorem st_main_v121 (V : Valuation τ sig (Elt F)) :
    after ops V (main_v121 : DevRef τ sig) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (after ops V (main_v119 : DevRef τ sig)) (after ops V (main_v120 : DevRef τ sig)) (after ops V (main_v118 : DevRef τ sig)) :=
  stage_ternary (ops_writes (F := F)) 184 main_v119 main_v120 main_v118 main_v121 _ _ _ _ _ rfl (by decide) (by decide) (by decide) (by decide) V

theorem st_main_v122 (V : Valuation τ sig (Elt F)) :
    after ops V (main_v122 : DevRef τ sig) = (addf : (⟨S50000x128, .f32⟩ : BufTy).Contents (Elt F) → (⟨S50000x128, .f32⟩ : BufTy).Contents (Elt F) → (⟨S50000x128, .f32⟩ : BufTy).Contents (Elt F)) (after ops V (main_v111 : DevRef τ sig)) (after ops V (main_v121 : DevRef τ sig)) :=
  stage_binary (ops_writes (F := F)) 185 main_v111 main_v121 main_v122 _ _ _ _ rfl (by decide) (by decide) (by decide) V

theorem st_main_v123 (V : Valuation τ sig (Elt F)) :
    after ops V (main_v123 : DevRef τ sig) = ((extractStridedSlice S1x128x128 ![2, 0, 0] · slices_S3x128x128_S1x128x128_2_0_0) : (⟨S3x128x128, .f32⟩ : BufTy).Contents (Elt F) → (⟨S1x128x128, .f32⟩ : BufTy).Contents (Elt F)) (after ops V (main_arg1 : DevRef τ sig)) :=
  stage_unary (ops_writes (F := F)) 186 main_arg1 main_v123 _ _ _ rfl (by decide) (by decide) V

theorem st_main_v124 (V : Valuation τ sig (Elt F)) :
    after ops V (main_v124 : DevRef τ sig) = shapeCast _ (after ops V (main_v123 : DevRef τ sig)) shapeCasts_S1x128x128_S128x128 :=
  stage_reshape (ops_writes (F := F)) 187 main_v123 main_v124 rfl _ _ _ rfl (by decide) (by decide) V

theorem st_main_v125 (V : Valuation τ sig (Elt F)) :
    after ops V (main_v125 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (main_v122 : DevRef τ sig)) (after ops V (main_v124 : DevRef τ sig)) :=
  stage_binary (ops_writes (F := F)) 188 main_v122 main_v124 main_v125 _ _ _ _ rfl (by decide) (by decide) (by decide) V

theorem st_main_v126 (V : Valuation τ sig (Elt F)) :
    after ops V (main_v126 : DevRef τ sig) = ((extractStridedSlice S1x128 ![2, 0] · slices_S3x128_S1x128_2_0) : (⟨S3x128, .f32⟩ : BufTy).Contents (Elt F) → (⟨S1x128, .f32⟩ : BufTy).Contents (Elt F)) (after ops V (main_arg2 : DevRef τ sig)) :=
  stage_unary (ops_writes (F := F)) 189 main_arg2 main_v126 _ _ _ rfl (by decide) (by decide) V

theorem st_main_v127 (V : Valuation τ sig (Elt F)) :
    after ops V (main_v127 : DevRef τ sig) = shapeCast _ (after ops V (main_v126 : DevRef τ sig)) shapeCasts_S1x128_S128 :=
  stage_reshape (ops_writes (F := F)) 190 main_v126 main_v127 rfl _ _ _ rfl (by decide) (by decide) V

theorem st_main_v128 (V : Valuation τ sig (Elt F)) :
    after ops V (main_v128 : DevRef τ sig) = (broadcastInDim S1x128 ![1] bcast_S128_S1x128_1 : (⟨S128, .f32⟩ : BufTy).Contents (Elt F) → (⟨S1x128, .f32⟩ : BufTy).Contents (Elt F)) (after ops V (main_v127 : DevRef τ sig)) :=
  stage_unary (ops_writes (F := F)) 191 main_v127 main_v128 _ _ _ rfl (by decide) (by decide) V

theorem st_main_v129 (V : Valuation τ sig (Elt F)) :
    after ops V (main_v129 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v128 : DevRef τ sig)) :=
  stage_unary (ops_writes (F := F)) 192 main_v128 main_v129 _ _ _ rfl (by decide) (by decide) V

theorem st_main_v130 (V : Valuation τ sig (Elt F)) :
    after ops V (main_v130 : DevRef τ sig) = (addf : (⟨S50000x128, .f32⟩ : BufTy).Contents (Elt F) → (⟨S50000x128, .f32⟩ : BufTy).Contents (Elt F) → (⟨S50000x128, .f32⟩ : BufTy).Contents (Elt F)) (after ops V (main_v125 : DevRef τ sig)) (after ops V (main_v129 : DevRef τ sig)) :=
  stage_binary (ops_writes (F := F)) 193 main_v125 main_v129 main_v130 _ _ _ _ rfl (by decide) (by decide) (by decide) V

theorem st_main_cst_19 (V : Valuation τ sig (Elt F)) :
    after ops V (main_cst_19 : DevRef τ sig) = (constant S_ .f32 0x00000000#32) :=
  stage_nullary (ops_writes (F := F)) 194 main_cst_19 _ _ rfl (by decide) V

theorem st_main_v131 (V : Valuation τ sig (Elt F)) :
    after ops V (main_v131 : DevRef τ sig) = (broadcastInDim S50000x128 ![] bcast_S_S50000x128 : (⟨S_, .f32⟩ : BufTy).Contents (Elt F) → (⟨S50000x128, .f32⟩ : BufTy).Contents (Elt F)) (after ops V (main_cst_19 : DevRef τ sig)) :=
  stage_unary (ops_writes (F := F)) 195 main_cst_19 main_v131 _ _ _ rfl (by decide) (by decide) V

theorem st_main_v132 (V : Valuation τ sig (Elt F)) :
    after ops V (main_v132 : DevRef τ sig) = (maximumf : (⟨S50000x128, .f32⟩ : BufTy).Contents (Elt F) → (⟨S50000x128, .f32⟩ : BufTy).Contents (Elt F) → (⟨S50000x128, .f32⟩ : BufTy).Contents (Elt F)) (after ops V (main_v130 : DevRef τ sig)) (after ops V (main_v131 : DevRef τ sig)) :=
  stage_binary (ops_writes (F := F)) 196 main_v130 main_v131 main_v132 _ _ _ _ rfl (by decide) (by decide) (by decide) V

theorem st_main_v133 (V : Valuation τ sig (Elt F)) :
    after ops V (main_v133 : DevRef τ sig) = ((extractStridedSlice S1x128x128 ![2, 0, 0] · slices_S3x128x128_S1x128x128_2_0_0) : (⟨S3x128x128, .f32⟩ : BufTy).Contents (Elt F) → (⟨S1x128x128, .f32⟩ : BufTy).Contents (Elt F)) (after ops V (main_arg3 : DevRef τ sig)) :=
  stage_unary (ops_writes (F := F)) 197 main_arg3 main_v133 _ _ _ rfl (by decide) (by decide) V

theorem st_main_v134 (V : Valuation τ sig (Elt F)) :
    after ops V (main_v134 : DevRef τ sig) = shapeCast _ (after ops V (main_v133 : DevRef τ sig)) shapeCasts_S1x128x128_S128x128 :=
  stage_reshape (ops_writes (F := F)) 198 main_v133 main_v134 rfl _ _ _ rfl (by decide) (by decide) V

theorem st_main_v135 (V : Valuation τ sig (Elt F)) :
    after ops V (main_v135 : DevRef τ sig) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (main_v132 : DevRef τ sig)) (after ops V (main_v134 : DevRef τ sig)) :=
  stage_binary (ops_writes (F := F)) 199 main_v132 main_v134 main_v135 _ _ _ _ rfl (by decide) (by decide) (by decide) V

theorem st_main_v136 (V : Valuation τ sig (Elt F)) :
    after ops V (main_v136 : DevRef τ sig) = ((extractStridedSlice S1x128 ![2, 0] · slices_S3x128_S1x128_2_0) : (⟨S3x128, .f32⟩ : BufTy).Contents (Elt F) → (⟨S1x128, .f32⟩ : BufTy).Contents (Elt F)) (after ops V (main_arg4 : DevRef τ sig)) :=
  stage_unary (ops_writes (F := F)) 200 main_arg4 main_v136 _ _ _ rfl (by decide) (by decide) V

theorem st_main_v137 (V : Valuation τ sig (Elt F)) :
    after ops V (main_v137 : DevRef τ sig) = shapeCast _ (after ops V (main_v136 : DevRef τ sig)) shapeCasts_S1x128_S128 :=
  stage_reshape (ops_writes (F := F)) 201 main_v136 main_v137 rfl _ _ _ rfl (by decide) (by decide) V

theorem st_main_v138 (V : Valuation τ sig (Elt F)) :
    after ops V (main_v138 : DevRef τ sig) = (broadcastInDim S1x128 ![1] bcast_S128_S1x128_1 : (⟨S128, .f32⟩ : BufTy).Contents (Elt F) → (⟨S1x128, .f32⟩ : BufTy).Contents (Elt F)) (after ops V (main_v137 : DevRef τ sig)) :=
  stage_unary (ops_writes (F := F)) 202 main_v137 main_v138 _ _ _ rfl (by decide) (by decide) V

theorem st_main_v139 (V : Valuation τ sig (Elt F)) :
    after ops V (main_v139 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v138 : DevRef τ sig)) :=
  stage_unary (ops_writes (F := F)) 203 main_v138 main_v139 _ _ _ rfl (by decide) (by decide) V

theorem st_main_v140 (V : Valuation τ sig (Elt F)) :
    after ops V (main_v140 : DevRef τ sig) = (addf : (⟨S50000x128, .f32⟩ : BufTy).Contents (Elt F) → (⟨S50000x128, .f32⟩ : BufTy).Contents (Elt F) → (⟨S50000x128, .f32⟩ : BufTy).Contents (Elt F)) (after ops V (main_v135 : DevRef τ sig)) (after ops V (main_v139 : DevRef τ sig)) :=
  stage_binary (ops_writes (F := F)) 204 main_v135 main_v139 main_v140 _ _ _ _ rfl (by decide) (by decide) (by decide) V

theorem st_main_cst_20 (V : Valuation τ sig (Elt F)) :
    after ops V (main_cst_20 : DevRef τ sig) = (constant S_ .f32 0x00000000#32) :=
  stage_nullary (ops_writes (F := F)) 205 main_cst_20 _ _ rfl (by decide) V

theorem st_main_v141 (V : Valuation τ sig (Elt F)) :
    after ops V (main_v141 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_v140 : DevRef τ sig)) (after ops V (main_cst_20 : DevRef τ sig)) :=
  stage_binary (ops_writes (F := F)) 206 main_v140 main_cst_20 main_v141 _ _ _ _ rfl (by decide) (by decide) (by decide) V

theorem st_main_cst_21 (V : Valuation τ sig (Elt F)) :
    after ops V (main_cst_21 : DevRef τ sig) = (constant S_ .f32 0x47435000#32) :=
  stage_nullary (ops_writes (F := F)) 207 main_cst_21 _ _ rfl (by decide) V

theorem st_main_v142 (V : Valuation τ sig (Elt F)) :
    after ops V (main_v142 : DevRef τ sig) = (broadcastInDim S128 ![] bcast_S_S128 : (⟨S_, .f32⟩ : BufTy).Contents (Elt F) → (⟨S128, .f32⟩ : BufTy).Contents (Elt F)) (after ops V (main_cst_21 : DevRef τ sig)) :=
  stage_unary (ops_writes (F := F)) 208 main_cst_21 main_v142 _ _ _ rfl (by decide) (by decide) V

theorem st_main_v143 (V : Valuation τ sig (Elt F)) :
    after ops V (main_v143 : DevRef τ sig) = (Host.divf : (⟨S128, .f32⟩ : BufTy).Contents (Elt F) → (⟨S128, .f32⟩ : BufTy).Contents (Elt F) → (⟨S128, .f32⟩ : BufTy).Contents (Elt F)) (after ops V (main_v141 : DevRef τ sig)) (after ops V (main_v142 : DevRef τ sig)) :=
  stage_binary (ops_writes (F := F)) 209 main_v141 main_v142 main_v143 _ _ _ _ rfl (by decide) (by decide) (by decide) V

theorem st_main_c_22 (V : Valuation τ sig (Elt F)) :
    after ops V (main_c_22 : DevRef τ sig) = (constantI S_ 32 0#32) :=
  stage_nullary (ops_writes (F := F)) 210 main_c_22 _ _ rfl (by decide) V

theorem st_main_call2_cst (V : Valuation τ sig (Elt F)) :
    after ops V (main_call2_cst : DevRef τ sig) = (constant S_ .f32 0x00000000#32) :=
  stage_nullary (ops_writes (F := F)) 211 main_call2_cst _ _ rfl (by decide) V

theorem st_main_call2_v0 (V : Valuation τ sig (Elt F)) :
    after ops V (main_call2_v0 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_v140 : DevRef τ sig)) (after ops V (main_call2_cst : DevRef τ sig)) :=
  stage_binary (ops_writes (F := F)) 212 main_v140 main_call2_cst main_call2_v0 _ _ _ _ rfl (by decide) (by decide) (by decide) V

theorem st_main_call2_v1 (V : Valuation τ sig (Elt F)) :
    after ops V (main_call2_v1 : DevRef τ sig) = ((broadcastInDim S1x128 ![1] bcast_S128_S1x128_1) : (⟨S128, .f32⟩ : BufTy).Contents (Elt F) → (⟨S1x128, .f32⟩ : BufTy).Contents (Elt F)) (after ops V (main_call2_v0 : DevRef τ sig)) :=
  stage_unary (ops_writes (F := F)) 213 main_call2_v0 main_call2_v1 _ _ _ rfl (by decide) (by decide) V

theorem st_main_call2_cst_0 (V : Valuation τ sig (Elt F)) :
    after ops V (main_call2_cst_0 : DevRef τ sig) = (constant S_ .f32 0x47435000#32) :=
  stage_nullary (ops_writes (F := F)) 214 main_call2_cst_0 _ _ rfl (by decide) V

theorem st_main_call2_v2 (V : Valuation τ sig (Elt F)) :
    after ops V (main_call2_v2 : DevRef τ sig) = ((broadcastInDim S1x128 ![] bcast_S_S1x128) : (⟨S_, .f32⟩ : BufTy).Contents (Elt F) → (⟨S1x128, .f32⟩ : BufTy).Contents (Elt F)) (after ops V (main_call2_cst_0 : DevRef τ sig)) :=
  stage_unary (ops_writes (F := F)) 215 main_call2_cst_0 main_call2_v2 _ _ _ rfl (by decide) (by decide) V

theorem st_main_call2_v3 (V : Valuation τ sig (Elt F)) :
    after ops V (main_call2_v3 : DevRef τ sig) = (Host.divf : (⟨S1x128, .f32⟩ : BufTy).Contents (Elt F) → (⟨S1x128, .f32⟩ : BufTy).Contents (Elt F) → (⟨S1x128, .f32⟩ : BufTy).Contents (Elt F)) (after ops V (main_call2_v1 : DevRef τ sig)) (after ops V (main_call2_v2 : DevRef τ sig)) :=
  stage_binary (ops_writes (F := F)) 216 main_call2_v1 main_call2_v2 main_call2_v3 _ _ _ _ rfl (by decide) (by decide) (by decide) V

theorem st_main_call2_v4 (V : Valuation τ sig (Elt F)) :
    after ops V (main_call2_v4 : DevRef τ sig) = ((broadcastInDim S50000x128 ![0, 1] bcast_S1x128_S50000x128_0_1) : (⟨S1x128, .f32⟩ : BufTy).Contents (Elt F) → (⟨S50000x128, .f32⟩ : BufTy).Contents (Elt F)) (after ops V (main_call2_v3 : DevRef τ sig)) :=
  stage_unary (ops_writes (F := F)) 217 main_call2_v3 main_call2_v4 _ _ _ rfl (by decide) (by decide) V

theorem st_main_call2_v5 (V : Valuation τ sig (Elt F)) :
    after ops V (main_call2_v5 : DevRef τ sig) = (subf : (⟨S50000x128, .f32⟩ : BufTy).Contents (Elt F) → (⟨S50000x128, .f32⟩ : BufTy).Contents (Elt F) → (⟨S50000x128, .f32⟩ : BufTy).Contents (Elt F)) (after ops V (main_v140 : DevRef τ sig)) (after ops V (main_call2_v4 : DevRef τ sig)) :=
  stage_binary (ops_writes (F := F)) 218 main_v140 main_call2_v4 main_call2_v5 _ _ _ _ rfl (by decide) (by decide) (by decide) V

theorem st_main_call2_v6 (V : Valuation τ sig (Elt F)) :
    after ops V (main_call2_v6 : DevRef τ sig) = (mulf : (⟨S50000x128, .f32⟩ : BufTy).Contents (Elt F) → (⟨S50000x128, .f32⟩ : BufTy).Contents (Elt F) → (⟨S50000x128, .f32⟩ : BufTy).Contents (Elt F)) (after ops V (main_call2_v5 : DevRef τ sig)) (after ops V (main_call2_v5 : DevRef τ sig)) :=
  stage_binary (ops_writes (F := F)) 219 main_call2_v5 main_call2_v5 main_call2_v6 _ _ _ _ rfl (by decide) (by decide) (by decide) V

theorem st_main_call2_v7 (V : Valuation τ sig (Elt F)) :
    after ops V (main_call2_v7 : DevRef τ sig) = ((sitofp .f32) : (⟨S_, .i32⟩ : BufTy).Contents (Elt F) → (⟨S_, .f32⟩ : BufTy).Contents (Elt F)) (after ops V (main_c_22 : DevRef τ sig)) :=
  stage_unary (ops_writes (F := F)) 220 main_c_22 main_call2_v7 _ _ _ rfl (by decide) (by decide) V

theorem st_main_call2_cst_1 (V : Valuation τ sig (Elt F)) :
    after ops V (main_call2_cst_1 : DevRef τ sig) = (constant S_ .f32 0x47435000#32) :=
  stage_nullary (ops_writes (F := F)) 221 main_call2_cst_1 _ _ rfl (by decide) V

theorem st_main_call2_v8 (V : Valuation τ sig (Elt F)) :
    after ops V (main_call2_v8 : DevRef τ sig) = (subf : (⟨S_, .f32⟩ : BufTy).Contents (Elt F) → (⟨S_, .f32⟩ : BufTy).Contents (Elt F) → (⟨S_, .f32⟩ : BufTy).Contents (Elt F)) (after ops V (main_call2_cst_1 : DevRef τ sig)) (after ops V (main_call2_v7 : DevRef τ sig)) :=
  stage_binary (ops_writes (F := F)) 222 main_call2_cst_1 main_call2_v7 main_call2_v8 _ _ _ _ rfl (by decide) (by decide) (by decide) V

theorem st_main_call2_cst_2 (V : Valuation τ sig (Elt F)) :
    after ops V (main_call2_cst_2 : DevRef τ sig) = (constant S_ .f32 0x00000000#32) :=
  stage_nullary (ops_writes (F := F)) 223 main_call2_cst_2 _ _ rfl (by decide) V

theorem st_main_call2_v9 (V : Valuation τ sig (Elt F)) :
    after ops V (main_call2_v9 : DevRef τ sig) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (main_call2_v6 : DevRef τ sig)) (after ops V (main_call2_cst_2 : DevRef τ sig)) :=
  stage_binary (ops_writes (F := F)) 224 main_call2_v6 main_call2_cst_2 main_call2_v9 _ _ _ _ rfl (by decide) (by decide) (by decide) V

theorem st_main_call2_v10 (V : Valuation τ sig (Elt F)) :
    after ops V (main_call2_v10 : DevRef τ sig) = ((broadcastInDim S128 ![] bcast_S_S128) : (⟨S_, .f32⟩ : BufTy).Contents (Elt F) → (⟨S128, .f32⟩ : BufTy).Contents (Elt F)) (after ops V (main_call2_v8 : DevRef τ sig)) :=
  stage_unary (ops_writes (F := F)) 225 main_call2_v8 main_call2_v10 _ _ _ rfl (by decide) (by decide) V

theorem st_main_call2_v11 (V : Valuation τ sig (Elt F)) :
    after ops V (main_call2_v11 : DevRef τ sig) = (Host.divf : (⟨S128, .f32⟩ : BufTy).Contents (Elt F) → (⟨S128, .f32⟩ : BufTy).Contents (Elt F) → (⟨S128, .f32⟩ : BufTy).Contents (Elt F)) (after ops V (main_call2_v9 : DevRef τ sig)) (after ops V (main_call2_v10 : DevRef τ sig)) :=
  stage_binary (ops_writes (F := F)) 226 main_call2_v9 main_call2_v10 main_call2_v11 _ _ _ _ rfl (by decide) (by decide) (by decide) V

theorem st_main_call2_cst_3 (V : Valuation τ sig (Elt F)) :
    after ops V (main_call2_cst_3 : DevRef τ sig) = (constant S_ .f32 0x00000000#32) :=
  stage_nullary (ops_writes (F := F)) 227 main_call2_cst_3 _ _ rfl (by decide) V

theorem st_main_call2_v12 (V : Valuation τ sig (Elt F)) :
    after ops V (main_call2_v12 : DevRef τ sig) = ((cmpf .ogt) : (⟨S_, .f32⟩ : BufTy).Contents (Elt F) → (⟨S_, .f32⟩ : BufTy).Contents (Elt F) → (⟨S_, .i1⟩ : BufTy).Contents (Elt F)) (after ops V (main_call2_v8 : DevRef τ sig)) (after ops V (main_call2_cst_3 : DevRef τ sig)) :=
  stage_binary (ops_writes (F := F)) 228 main_call2_v8 main_call2_cst_3 main_call2_v12 _ _ _ _ rfl (by decide) (by decide) (by decide) V

theorem st_main_call2_cst_4 (V : Valuation τ sig (Elt F)) :
    after ops V (main_call2_cst_4 : DevRef τ sig) = (constant S_ .f32 0x7FC00000#32) :=
  stage_nullary (ops_writes (F := F)) 229 main_call2_cst_4 _ _ rfl (by decide) V

theorem st_main_call2_call0_v0 (V : Valuation τ sig (Elt F)) :
    after ops V (main_call2_call0_v0 : DevRef τ sig) = (id : (⟨S_, .f32⟩ : BufTy).Contents (Elt F) → (⟨S_, .f32⟩ : BufTy).Contents (Elt F)) (after ops V (main_call2_cst_4 : DevRef τ sig)) :=
  stage_unary (ops_writes (F := F)) 230 main_call2_cst_4 main_call2_call0_v0 _ _ _ rfl (by decide) (by decide) V

theorem st_main_call2_call0_v1 (V : Valuation τ sig (Elt F)) :
    after ops V (main_call2_call0_v1 : DevRef τ sig) = ((broadcastInDim S128 ![] bcast_S_S128) : (⟨S_, .f32⟩ : BufTy).Contents (Elt F) → (⟨S128, .f32⟩ : BufTy).Contents (Elt F)) (after ops V (main_call2_call0_v0 : DevRef τ sig)) :=
  stage_unary (ops_writes (F := F)) 231 main_call2_call0_v0 main_call2_call0_v1 _ _ _ rfl (by decide) (by decide) V

set_option maxHeartbeats 4000000 in
theorem st_main_v144 (V : Valuation τ sig (Elt F)) :
    after ops V (main_v144 : DevRef τ sig) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops V (main_call2_v12 : DevRef τ sig)) (after ops V (main_call2_v11 : DevRef τ sig)) (after ops V (main_call2_call0_v1 : DevRef τ sig)) :=
  stage_ternary (ops_writes (F := F)) 232 main_call2_v12 main_call2_v11 main_call2_call0_v1 main_v144 _ _ _ _ _ rfl (by decide) (by decide) (by decide) (by decide) V

theorem st_main_v145 (V : Valuation τ sig (Elt F)) :
    after ops V (main_v145 : DevRef τ sig) = (broadcastInDim S1x128 ![1] bcast_S128_S1x128_1 : (⟨S128, .f32⟩ : BufTy).Contents (Elt F) → (⟨S1x128, .f32⟩ : BufTy).Contents (Elt F)) (after ops V (main_v143 : DevRef τ sig)) :=
  stage_unary (ops_writes (F := F)) 233 main_v143 main_v145 _ _ _ rfl (by decide) (by decide) V

theorem st_main_v146 (V : Valuation τ sig (Elt F)) :
    after ops V (main_v146 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v145 : DevRef τ sig)) :=
  stage_unary (ops_writes (F := F)) 234 main_v145 main_v146 _ _ _ rfl (by decide) (by decide) V

theorem st_main_v147 (V : Valuation τ sig (Elt F)) :
    after ops V (main_v147 : DevRef τ sig) = (subf : (⟨S50000x128, .f32⟩ : BufTy).Contents (Elt F) → (⟨S50000x128, .f32⟩ : BufTy).Contents (Elt F) → (⟨S50000x128, .f32⟩ : BufTy).Contents (Elt F)) (after ops V (main_v140 : DevRef τ sig)) (after ops V (main_v146 : DevRef τ sig)) :=
  stage_binary (ops_writes (F := F)) 235 main_v140 main_v146 main_v147 _ _ _ _ rfl (by decide) (by decide) (by decide) V

theorem st_main_cst_23 (V : Valuation τ sig (Elt F)) :
    after ops V (main_cst_23 : DevRef τ sig) = (constant S_ .f32 0x3727C5AC#32) :=
  stage_nullary (ops_writes (F := F)) 236 main_cst_23 _ _ rfl (by decide) V

theorem st_main_v148 (V : Valuation τ sig (Elt F)) :
    after ops V (main_v148 : DevRef τ sig) = (broadcastInDim S128 ![] bcast_S_S128 : (⟨S_, .f32⟩ : BufTy).Contents (Elt F) → (⟨S128, .f32⟩ : BufTy).Contents (Elt F)) (after ops V (main_cst_23 : DevRef τ sig)) :=
  stage_unary (ops_writes (F := F)) 237 main_cst_23 main_v148 _ _ _ rfl (by decide) (by decide) V

theorem st_main_v149 (V : Valuation τ sig (Elt F)) :
    after ops V (main_v149 : DevRef τ sig) = (addf : (⟨S128, .f32⟩ : BufTy).Contents (Elt F) → (⟨S128, .f32⟩ : BufTy).Contents (Elt F) → (⟨S128, .f32⟩ : BufTy).Contents (Elt F)) (after ops V (main_v144 : DevRef τ sig)) (after ops V (main_v148 : DevRef τ sig)) :=
  stage_binary (ops_writes (F := F)) 238 main_v144 main_v148 main_v149 _ _ _ _ rfl (by decide) (by decide) (by decide) V

theorem st_main_v150 (V : Valuation τ sig (Elt F)) :
    after ops V (main_v150 : DevRef τ sig) = (Host.rsqrt : (⟨S128, .f32⟩ : BufTy).Contents (Elt F) → (⟨S128, .f32⟩ : BufTy).Contents (Elt F)) (after ops V (main_v149 : DevRef τ sig)) :=
  stage_unary (ops_writes (F := F)) 239 main_v149 main_v150 _ _ _ rfl (by decide) (by decide) V

theorem st_main_v151 (V : Valuation τ sig (Elt F)) :
    after ops V (main_v151 : DevRef τ sig) = (broadcastInDim S1x128 ![1] bcast_S128_S1x128_1 : (⟨S128, .f32⟩ : BufTy).Contents (Elt F) → (⟨S1x128, .f32⟩ : BufTy).Contents (Elt F)) (after ops V (main_v150 : DevRef τ sig)) :=
  stage_unary (ops_writes (F := F)) 240 main_v150 main_v151 _ _ _ rfl (by decide) (by decide) V

theorem st_main_v152 (V : Valuation τ sig (Elt F)) :
    after ops V (main_v152 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v151 : DevRef τ sig)) :=
  stage_unary (ops_writes (F := F)) 241 main_v151 main_v152 _ _ _ rfl (by decide) (by decide) V

theorem st_main_v153 (V : Valuation τ sig (Elt F)) :
    after ops V (main_v153 : DevRef τ sig) = (mulf : (⟨S50000x128, .f32⟩ : BufTy).Contents (Elt F) → (⟨S50000x128, .f32⟩ : BufTy).Contents (Elt F) → (⟨S50000x128, .f32⟩ : BufTy).Contents (Elt F)) (after ops V (main_v147 : DevRef τ sig)) (after ops V (main_v152 : DevRef τ sig)) :=
  stage_binary (ops_writes (F := F)) 242 main_v147 main_v152 main_v153 _ _ _ _ rfl (by decide) (by decide) (by decide) V

theorem st_main_v154 (V : Valuation τ sig (Elt F)) :
    after ops V (main_v154 : DevRef τ sig) = ((extractStridedSlice S1x128 ![2, 0] · slices_S3x128_S1x128_2_0) : (⟨S3x128, .f32⟩ : BufTy).Contents (Elt F) → (⟨S1x128, .f32⟩ : BufTy).Contents (Elt F)) (after ops V (main_arg5 : DevRef τ sig)) :=
  stage_unary (ops_writes (F := F)) 243 main_arg5 main_v154 _ _ _ rfl (by decide) (by decide) V

theorem st_main_v155 (V : Valuation τ sig (Elt F)) :
    after ops V (main_v155 : DevRef τ sig) = shapeCast _ (after ops V (main_v154 : DevRef τ sig)) shapeCasts_S1x128_S128 :=
  stage_reshape (ops_writes (F := F)) 244 main_v154 main_v155 rfl _ _ _ rfl (by decide) (by decide) V

theorem st_main_v156 (V : Valuation τ sig (Elt F)) :
    after ops V (main_v156 : DevRef τ sig) = (broadcastInDim S1x128 ![1] bcast_S128_S1x128_1 : (⟨S128, .f32⟩ : BufTy).Contents (Elt F) → (⟨S1x128, .f32⟩ : BufTy).Contents (Elt F)) (after ops V (main_v155 : DevRef τ sig)) :=
  stage_unary (ops_writes (F := F)) 245 main_v155 main_v156 _ _ _ rfl (by decide) (by decide) V

theorem st_main_v157 (V : Valuation τ sig (Elt F)) :
    after ops V (main_v157 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v156 : DevRef τ sig)) :=
  stage_unary (ops_writes (F := F)) 246 main_v156 main_v157 _ _ _ rfl (by decide) (by decide) V

theorem st_main_v158 (V : Valuation τ sig (Elt F)) :
    after ops V (main_v158 : DevRef τ sig) = (mulf : (⟨S50000x128, .f32⟩ : BufTy).Contents (Elt F) → (⟨S50000x128, .f32⟩ : BufTy).Contents (Elt F) → (⟨S50000x128, .f32⟩ : BufTy).Contents (Elt F)) (after ops V (main_v153 : DevRef τ sig)) (after ops V (main_v157 : DevRef τ sig)) :=
  stage_binary (ops_writes (F := F)) 247 main_v153 main_v157 main_v158 _ _ _ _ rfl (by decide) (by decide) (by decide) V

theorem st_main_v159 (V : Valuation τ sig (Elt F)) :
    after ops V (main_v159 : DevRef τ sig) = ((extractStridedSlice S1x128 ![2, 0] · slices_S3x128_S1x128_2_0) : (⟨S3x128, .f32⟩ : BufTy).Contents (Elt F) → (⟨S1x128, .f32⟩ : BufTy).Contents (Elt F)) (after ops V (main_arg6 : DevRef τ sig)) :=
  stage_unary (ops_writes (F := F)) 248 main_arg6 main_v159 _ _ _ rfl (by decide) (by decide) V

theorem st_main_v160 (V : Valuation τ sig (Elt F)) :
    after ops V (main_v160 : DevRef τ sig) = shapeCast _ (after ops V (main_v159 : DevRef τ sig)) shapeCasts_S1x128_S128 :=
  stage_reshape (ops_writes (F := F)) 249 main_v159 main_v160 rfl _ _ _ rfl (by decide) (by decide) V

theorem st_main_v161 (V : Valuation τ sig (Elt F)) :
    after ops V (main_v161 : DevRef τ sig) = (broadcastInDim S1x128 ![1] bcast_S128_S1x128_1 : (⟨S128, .f32⟩ : BufTy).Contents (Elt F) → (⟨S1x128, .f32⟩ : BufTy).Contents (Elt F)) (after ops V (main_v160 : DevRef τ sig)) :=
  stage_unary (ops_writes (F := F)) 250 main_v160 main_v161 _ _ _ rfl (by decide) (by decide) V

theorem st_main_v162 (V : Valuation τ sig (Elt F)) :
    after ops V (main_v162 : DevRef τ sig) = (broadcastInDim S50000x128 ![0, 1] bcast_S1x128_S50000x128_0_1 : (⟨S1x128, .f32⟩ : BufTy).Contents (Elt F) → (⟨S50000x128, .f32⟩ : BufTy).Contents (Elt F)) (after ops V (main_v161 : DevRef τ sig)) :=
  stage_unary (ops_writes (F := F)) 251 main_v161 main_v162 _ _ _ rfl (by decide) (by decide) V

theorem st_main_v163 (V : Valuation τ sig (Elt F)) :
    after ops V (main_v163 : DevRef τ sig) = (addf : (⟨S50000x128, .f32⟩ : BufTy).Contents (Elt F) → (⟨S50000x128, .f32⟩ : BufTy).Contents (Elt F) → (⟨S50000x128, .f32⟩ : BufTy).Contents (Elt F)) (after ops V (main_v158 : DevRef τ sig)) (after ops V (main_v162 : DevRef τ sig)) :=
  stage_binary (ops_writes (F := F)) 252 main_v158 main_v162 main_v163 _ _ _ _ rfl (by decide) (by decide) (by decide) V

theorem st_main_cst_24 (V : Valuation τ sig (Elt F)) :
    after ops V (main_cst_24 : DevRef τ sig) = (constant S_ .f32 0x00000000#32) :=
  stage_nullary (ops_writes (F := F)) 253 main_cst_24 _ _ rfl (by decide) V

theorem st_main_v164 (V : Valuation τ sig (Elt F)) :
    after ops V (main_v164 : DevRef τ sig) = (broadcastInDim S50000x128 ![] bcast_S_S50000x128 : (⟨S_, .f32⟩ : BufTy).Contents (Elt F) → (⟨S50000x128, .f32⟩ : BufTy).Contents (Elt F)) (after ops V (main_cst_24 : DevRef τ sig)) :=
  stage_unary (ops_writes (F := F)) 254 main_cst_24 main_v164 _ _ _ rfl (by decide) (by decide) V

theorem st_main_v165 (V : Valuation τ sig (Elt F)) :
    after ops V (main_v165 : DevRef τ sig) = (maximumf : (⟨S50000x128, .f32⟩ : BufTy).Contents (Elt F) → (⟨S50000x128, .f32⟩ : BufTy).Contents (Elt F) → (⟨S50000x128, .f32⟩ : BufTy).Contents (Elt F)) (after ops V (main_v163 : DevRef τ sig)) (after ops V (main_v164 : DevRef τ sig)) :=
  stage_binary (ops_writes (F := F)) 255 main_v163 main_v164 main_v165 _ _ _ _ rfl (by decide) (by decide) (by decide) V

theorem st_main_cst_25 (V : Valuation τ sig (Elt F)) :
    after ops V (main_cst_25 : DevRef τ sig) = (constant S_ .f32 0x00000000#32) :=
  stage_nullary (ops_writes (F := F)) 256 main_cst_25 _ _ rfl (by decide) V

theorem st_main_v166 (V : Valuation τ sig (Elt F)) :
    after ops V (main_v166 : DevRef τ sig) = (broadcastInDim S64x128 ![] bcast_S_S64x128 : (⟨S_, .f32⟩ : BufTy).Contents (Elt F) → (⟨S64x128, .f32⟩ : BufTy).Contents (Elt F)) (after ops V (main_cst_25 : DevRef τ sig)) :=
  stage_unary (ops_writes (F := F)) 257 main_cst_25 main_v166 _ _ _ rfl (by decide) (by decide) V

theorem st_main_v167 (V : Valuation τ sig (Elt F)) :
    after ops V (main_v167 : DevRef τ sig) = (broadcastInDim S50000x1 ![0] bcast_S50000_S50000x1_0 : (⟨S50000, .i32⟩ : BufTy).Contents (Elt F) → (⟨S50000x1, .i32⟩ : BufTy).Contents (Elt F)) (after ops V (main_arg10 : DevRef τ sig)) :=
  stage_unary (ops_writes (F := F)) 258 main_arg10 main_v167 _ _ _ rfl (by decide) (by decide) V

theorem st_main_v168 (V : Valuation τ sig (Elt F)) :
    after ops V (main_v168 : DevRef τ sig) = ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)) (after ops V (main_v166 : DevRef τ sig)) (after ops V (main_v167 : DevRef τ sig)) (after ops V (main_v165 : DevRef τ sig)) :=
  stage_ternary (ops_writes (F := F)) 259 main_v166 main_v167 main_v165 main_v168 _ _ _ _ _ rfl (by decide) (by decide) (by decide) (by decide) V

theorem st_main_v169 (V : Valuation τ sig (Elt F)) :
    after ops V (main_v169 : DevRef τ sig) = ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)) (after ops V (main_v168 : DevRef τ sig)) (after ops V (main_arg7 : DevRef τ sig)) :=
  stage_binary (ops_writes (F := F)) 260 main_v168 main_arg7 main_v169 _ _ _ _ rfl (by decide) (by decide) (by decide) V

theorem st_main_v170 (V : Valuation τ sig (Elt F)) :
    after ops V (main_v170 : DevRef τ sig) = (broadcastInDim S1x10 ![1] bcast_S10_S1x10_1 : (⟨S10, .f32⟩ : BufTy).Contents (Elt F) → (⟨S1x10, .f32⟩ : BufTy).Contents (Elt F)) (after ops V (main_arg8 : DevRef τ sig)) :=
  stage_unary (ops_writes (F := F)) 261 main_arg8 main_v170 _ _ _ rfl (by decide) (by decide) V

theorem st_main_v171 (V : Valuation τ sig (Elt F)) :
    after ops V (main_v171 : DevRef τ sig) = (broadcastInDim S64x10 ![0, 1] bcast_S1x10_S64x10_0_1 : (⟨S1x10, .f32⟩ : BufTy).Contents (Elt F) → (⟨S64x10, .f32⟩ : BufTy).Contents (Elt F)) (after ops V (main_v170 : DevRef τ sig)) :=
  stage_unary (ops_writes (F := F)) 262 main_v170 main_v171 _ _ _ rfl (by decide) (by decide) V

theorem st_main_v172 (V : Valuation τ sig (Elt F)) :
    after ops V (main_v172 : DevRef τ sig) = (addf : (⟨S64x10, .f32⟩ : BufTy).Contents (Elt F) → (⟨S64x10, .f32⟩ : BufTy).Contents (Elt F) → (⟨S64x10, .f32⟩ : BufTy).Contents (Elt F)) (after ops V (main_v169 : DevRef τ sig)) (after ops V (main_v171 : DevRef τ sig)) :=
  stage_binary (ops_writes (F := F)) 263 main_v169 main_v171 main_v172 _ _ _ _ rfl (by decide) (by decide) (by decide) V

end Cert.ReferenceIdeal.RefRun

end
-- ==== Proof.RefRunLayer.lean ====
/- The reference program's run read layer by layer: each layer's array before normalisation, its mean and variance
   vectors, its output, and the final result, each as the composition of the printed operations over the
   previous boundary's contents and the arguments' launch contents. -/
import proofs.«141774_j48919677501954_2_alg».proof.Proof.RefRunStage

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed terms

Each is the literal composition of the operations between two boundaries, nothing simplified: an operation's
function applied to its operands' terms, a boundary buffer a variable. -/

/-- The first index vector (each edge's source node): row 0 of the 2×800000 edge table, as a vector. -/
def srcTerm (e : (⟨S2x800000, .i32⟩ : BufTy).Contents (Elt F)) :
    (⟨S800000, .i32⟩ : BufTy).Contents (Elt F) :=
  (shapeCast _ (extractStridedSlice S1x800000 ![0, 0] e slices_S2x800000_S1x800000_0_0 : (⟨S1x800000, .i32⟩ : BufTy).Contents (Elt F)) shapeCasts_S1x800000_S800000)

/-- The second index vector (each edge's target node): row 1 of the edge table, as a vector. -/
def dstTerm (e : (⟨S2x800000, .i32⟩ : BufTy).Contents (Elt F)) :
    (⟨S800000, .i32⟩ : BufTy).Contents (Elt F) :=
  (shapeCast _ (extractStridedSlice S1x800000 ![1, 0] e slices_S2x800000_S1x800000_1_0 : (⟨S1x800000, .i32⟩ : BufTy).Contents (Elt F)) shapeCasts_S1x800000_S800000)

/-- Layer 1's array before normalisation from the layer's input `x`, the two index vectors and the stacked weights: the rows of `x` gathered at the sources (a negative index wrapped by 50000) and scatter-added at the targets onto zeros, added to `x`, through the two dense maps at slice 0 (product, bias, maximum with zero; product, bias). -/
def hTerm1 (x : (⟨S50000x128, .f32⟩ : BufTy).Contents (Elt F)) (src : (⟨S800000, .i32⟩ : BufTy).Contents (Elt F)) (dst : (⟨S800000, .i32⟩ : BufTy).Contents (Elt F)) (w1 : (⟨S3x128x128, .f32⟩ : BufTy).Contents (Elt F)) (b1 : (⟨S3x128, .f32⟩ : BufTy).Contents (Elt F)) (w2 : (⟨S3x128x128, .f32⟩ : BufTy).Contents (Elt F)) (b2 : (⟨S3x128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (Host.dotGeneral dot_S50000x128_S128x128_S50000x128_1_0_0_1_n_n none ((maximumf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (Host.dotGeneral dot_S50000x128_S128x128_S50000x128_1_0_0_1_n_n none ((addf : (⟨S50000x128, .f32⟩ : BufTy).Contents (Elt F) → (⟨S50000x128, .f32⟩ : BufTy).Contents (Elt F) → (⟨S50000x128, .f32⟩ : BufTy).Contents (Elt F)) x (Host.scatterAdd scatter_S50000x128_S800000x1_S800000x128_1_0_0_1 ((broadcastInDim S50000x128 ![] bcast_S_S50000x128 : (⟨S_, .f32⟩ : BufTy).Contents (Elt F) → (⟨S50000x128, .f32⟩ : BufTy).Contents (Elt F)) (constant S_ .f32 0x00000000#32)) ((broadcastInDim S800000x1 ![0] bcast_S800000_S800000x1_0 : (⟨S800000, .i32⟩ : BufTy).Contents (Elt F) → (⟨S800000x1, .i32⟩ : BufTy).Contents (Elt F)) dst) (Host.gather gather_S50000x128_S800000x1_S800000x128_1_0_n_n_0_1_1128 x ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) (constantI S_ 32 50000#32))) src)) : (⟨S800000x128, .f32⟩ : BufTy).Contents (Elt F)) : (⟨S50000x128, .f32⟩ : BufTy).Contents (Elt F))) (shapeCast _ (extractStridedSlice S1x128x128 ![0, 0, 0] w1 slices_S3x128x128_S1x128x128_0_0_0 : (⟨S1x128x128, .f32⟩ : BufTy).Contents (Elt F)) shapeCasts_S1x128x128_S128x128) : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![0, 0] b1 slices_S3x128_S1x128_0_0 : (⟨S1x128, .f32⟩ : BufTy).Contents (Elt F)) shapeCasts_S1x128_S128)))) ((broadcastInDim S50000x128 ![] bcast_S_S50000x128 : (⟨S_, .f32⟩ : BufTy).Contents (Elt F) → (⟨S50000x128, .f32⟩ : BufTy).Contents (Elt F)) (constant S_ .f32 0x00000000#32))) (shapeCast _ (extractStridedSlice S1x128x128 ![0, 0, 0] w2 slices_S3x128x128_S1x128x128_0_0_0 : (⟨S1x128x128, .f32⟩ : BufTy).Contents (Elt F)) shapeCasts_S1x128x128_S128x128) : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![0, 0] b2 slices_S3x128_S1x128_0_0 : (⟨S1x128, .f32⟩ : BufTy).Contents (Elt F)) shapeCasts_S1x128_S128))))

/-- Layer 2's array before normalisation, as `hTerm1` with the dense maps at slice 1. -/
def hTerm2 (x : (⟨S50000x128, .f32⟩ : BufTy).Contents (Elt F)) (src : (⟨S800000, .i32⟩ : BufTy).Contents (Elt F)) (dst : (⟨S800000, .i32⟩ : BufTy).Contents (Elt F)) (w1 : (⟨S3x128x128, .f32⟩ : BufTy).Contents (Elt F)) (b1 : (⟨S3x128, .f32⟩ : BufTy).Contents (Elt F)) (w2 : (⟨S3x128x128, .f32⟩ : BufTy).Contents (Elt F)) (b2 : (⟨S3x128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (Host.dotGeneral dot_S50000x128_S128x128_S50000x128_1_0_0_1_n_n none ((maximumf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (Host.dotGeneral dot_S50000x128_S128x128_S50000x128_1_0_0_1_n_n none ((addf : (⟨S50000x128, .f32⟩ : BufTy).Contents (Elt F) → (⟨S50000x128, .f32⟩ : BufTy).Contents (Elt F) → (⟨S50000x128, .f32⟩ : BufTy).Contents (Elt F)) x (Host.scatterAdd scatter_S50000x128_S800000x1_S800000x128_1_0_0_1 ((broadcastInDim S50000x128 ![] bcast_S_S50000x128 : (⟨S_, .f32⟩ : BufTy).Contents (Elt F) → (⟨S50000x128, .f32⟩ : BufTy).Contents (Elt F)) (constant S_ .f32 0x00000000#32)) ((broadcastInDim S800000x1 ![0] bcast_S800000_S800000x1_0 : (⟨S800000, .i32⟩ : BufTy).Contents (Elt F) → (⟨S800000x1, .i32⟩ : BufTy).Contents (Elt F)) dst) (Host.gather gather_S50000x128_S800000x1_S800000x128_1_0_n_n_0_1_1128 x ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) (constantI S_ 32 50000#32))) src)) : (⟨S800000x128, .f32⟩ : BufTy).Contents (Elt F)) : (⟨S50000x128, .f32⟩ : BufTy).Contents (Elt F))) (shapeCast _ (extractStridedSlice S1x128x128 ![1, 0, 0] w1 slices_S3x128x128_S1x128x128_1_0_0 : (⟨S1x128x128, .f32⟩ : BufTy).Contents (Elt F)) shapeCasts_S1x128x128_S128x128) : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![1, 0] b1 slices_S3x128_S1x128_1_0 : (⟨S1x128, .f32⟩ : BufTy).Contents (Elt F)) shapeCasts_S1x128_S128)))) ((broadcastInDim S50000x128 ![] bcast_S_S50000x128 : (⟨S_, .f32⟩ : BufTy).Contents (Elt F) → (⟨S50000x128, .f32⟩ : BufTy).Contents (Elt F)) (constant S_ .f32 0x00000000#32))) (shapeCast _ (extractStridedSlice S1x128x128 ![1, 0, 0] w2 slices_S3x128x128_S1x128x128_1_0_0 : (⟨S1x128x128, .f32⟩ : BufTy).Contents (Elt F)) shapeCasts_S1x128x128_S128x128) : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![1, 0] b2 slices_S3x128_S1x128_1_0 : (⟨S1x128, .f32⟩ : BufTy).Contents (Elt F)) shapeCasts_S1x128_S128))))

/-- Layer 3's array before normalisation, as `hTerm1` with the dense maps at slice 2. -/
def hTerm3 (x : (⟨S50000x128, .f32⟩ : BufTy).Contents (Elt F)) (src : (⟨S800000, .i32⟩ : BufTy).Contents (Elt F)) (dst : (⟨S800000, .i32⟩ : BufTy).Contents (Elt F)) (w1 : (⟨S3x128x128, .f32⟩ : BufTy).Contents (Elt F)) (b1 : (⟨S3x128, .f32⟩ : BufTy).Contents (Elt F)) (w2 : (⟨S3x128x128, .f32⟩ : BufTy).Contents (Elt F)) (b2 : (⟨S3x128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (Host.dotGeneral dot_S50000x128_S128x128_S50000x128_1_0_0_1_n_n none ((maximumf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (Host.dotGeneral dot_S50000x128_S128x128_S50000x128_1_0_0_1_n_n none ((addf : (⟨S50000x128, .f32⟩ : BufTy).Contents (Elt F) → (⟨S50000x128, .f32⟩ : BufTy).Contents (Elt F) → (⟨S50000x128, .f32⟩ : BufTy).Contents (Elt F)) x (Host.scatterAdd scatter_S50000x128_S800000x1_S800000x128_1_0_0_1 ((broadcastInDim S50000x128 ![] bcast_S_S50000x128 : (⟨S_, .f32⟩ : BufTy).Contents (Elt F) → (⟨S50000x128, .f32⟩ : BufTy).Contents (Elt F)) (constant S_ .f32 0x00000000#32)) ((broadcastInDim S800000x1 ![0] bcast_S800000_S800000x1_0 : (⟨S800000, .i32⟩ : BufTy).Contents (Elt F) → (⟨S800000x1, .i32⟩ : BufTy).Contents (Elt F)) dst) (Host.gather gather_S50000x128_S800000x1_S800000x128_1_0_n_n_0_1_1128 x ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) (constantI S_ 32 50000#32))) src)) : (⟨S800000x128, .f32⟩ : BufTy).Contents (Elt F)) : (⟨S50000x128, .f32⟩ : BufTy).Contents (Elt F))) (shapeCast _ (extractStridedSlice S1x128x128 ![2, 0, 0] w1 slices_S3x128x128_S1x128x128_2_0_0 : (⟨S1x128x128, .f32⟩ : BufTy).Contents (Elt F)) shapeCasts_S1x128x128_S128x128) : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![2, 0] b1 slices_S3x128_S1x128_2_0 : (⟨S1x128, .f32⟩ : BufTy).Contents (Elt F)) shapeCasts_S1x128_S128)))) ((broadcastInDim S50000x128 ![] bcast_S_S50000x128 : (⟨S_, .f32⟩ : BufTy).Contents (Elt F) → (⟨S50000x128, .f32⟩ : BufTy).Contents (Elt F)) (constant S_ .f32 0x00000000#32))) (shapeCast _ (extractStridedSlice S1x128x128 ![2, 0, 0] w2 slices_S3x128x128_S1x128x128_2_0_0 : (⟨S1x128x128, .f32⟩ : BufTy).Contents (Elt F)) shapeCasts_S1x128x128_S128x128) : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![2, 0] b2 slices_S3x128_S1x128_2_0 : (⟨S1x128, .f32⟩ : BufTy).Contents (Elt F)) shapeCasts_S1x128_S128))))

/-- A layer's mean vector: the column sums of `h` from zero, divided by 50000. -/
def meanTerm (h : (⟨S50000x128, .f32⟩ : BufTy).Contents (Elt F)) :
    (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (Host.reduceAdd h (constant S_ .f32 0x00000000#32) reducesTo_S50000x128_S128_d0 h_S_ : (⟨S128, .f32⟩ : BufTy).Contents (Elt F)) ((broadcastInDim S128 ![] bcast_S_S128 : (⟨S_, .f32⟩ : BufTy).Contents (Elt F) → (⟨S128, .f32⟩ : BufTy).Contents (Elt F)) (constant S_ .f32 0x47435000#32)))

/-- A layer's variance vector, the outlined variance function's operations composed: `h` minus its column means (sums over 50000), squared, summed by column and divided by 50000 minus the correction 0 converted to a float, where that divisor is positive, and the quiet-NaN constant elsewhere. -/
def varTerm (h : (⟨S50000x128, .f32⟩ : BufTy).Contents (Elt F)) :
    (⟨S128, .f32⟩ : BufTy).Contents (Elt F) :=
  (select (broadcastInDim S128 ![] bcast_S_S128 (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32) (((sitofp .f32) : (⟨S_, .i32⟩ : BufTy).Contents (Elt F) → (⟨S_, .f32⟩ : BufTy).Contents (Elt F)) (constantI S_ 32 0#32))) (constant S_ .f32 0x00000000#32))) ((Host.divf : (⟨S128, .f32⟩ : BufTy).Contents (Elt F) → (⟨S128, .f32⟩ : BufTy).Contents (Elt F) → (⟨S128, .f32⟩ : BufTy).Contents (Elt F)) (Host.reduceAdd ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) h (((broadcastInDim S50000x128 ![0, 1] bcast_S1x128_S50000x128_0_1) : (⟨S1x128, .f32⟩ : BufTy).Contents (Elt F) → (⟨S50000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (Host.reduceAdd h (constant S_ .f32 0x00000000#32) reducesTo_S50000x128_S128_d0 h_S_ : (⟨S128, .f32⟩ : BufTy).Contents (Elt F))) (((broadcastInDim S1x128 ![] bcast_S_S1x128) : (⟨S_, .f32⟩ : BufTy).Contents (Elt F) → (⟨S1x128, .f32⟩ : BufTy).Contents (Elt F)) (constant S_ .f32 0x47435000#32))))) ((subf : (⟨S50000x128, .f32⟩ : BufTy).Contents (Elt F) → (⟨S50000x128, .f32⟩ : BufTy).Contents (Elt F) → (⟨S50000x128, .f32⟩ : BufTy).Contents (Elt F)) h (((broadcastInDim S50000x128 ![0, 1] bcast_S1x128_S50000x128_0_1) : (⟨S1x128, .f32⟩ : BufTy).Contents (Elt F) → (⟨S50000x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) (((broadcastInDim S1x128 ![1] bcast_S128_S1x128_1) : (⟨S128, .f32⟩ : BufTy).Contents (Elt F) → (⟨S1x128, .f32⟩ : BufTy).Contents (Elt F)) (Host.reduceAdd h (constant S_ .f32 0x00000000#32) reducesTo_S50000x128_S128_d0 h_S_ : (⟨S128, .f32⟩ : BufTy).Contents (Elt F))) (((broadcastInDim S1x128 ![] bcast_S_S1x128) : (⟨S_, .f32⟩ : BufTy).Contents (Elt F) → (⟨S1x128, .f32⟩ : BufTy).Contents (Elt F)) (constant S_ .f32 0x47435000#32)))))) (constant S_ .f32 0x00000000#32) reducesTo_S50000x128_S128_d0 h_S_ : (⟨S128, .f32⟩ : BufTy).Contents (Elt F)) (((broadcastInDim S128 ![] bcast_S_S128) : (⟨S_, .f32⟩ : BufTy).Contents (Elt F) → (⟨S128, .f32⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x47435000#32) (((sitofp .f32) : (⟨S_, .i32⟩ : BufTy).Contents (Elt F) → (⟨S_, .f32⟩ : BufTy).Contents (Elt F)) (constantI S_ 32 0#32))))) (((broadcastInDim S128 ![] bcast_S_S128) : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) (constant S_ .f32 0x7FC00000#32))) : (⟨S128, .f32⟩ : BufTy).Contents (Elt F))

/-- Layer 1's output from `h`, its mean and variance vectors and the stacked scale and shift: `h` minus the mean, times the reciprocal square root of the variance plus 1e-5, times the scale at slice 0, plus the shift at slice 0, maximum with zero. -/
def outTerm1 (h : (⟨S50000x128, .f32⟩ : BufTy).Contents (Elt F)) (mu : (⟨S128, .f32⟩ : BufTy).Contents (Elt F)) (var : (⟨S128, .f32⟩ : BufTy).Contents (Elt F)) (gamma : (⟨S3x128, .f32⟩ : BufTy).Contents (Elt F)) (beta : (⟨S3x128, .f32⟩ : BufTy).Contents (Elt F)) :
    (⟨S50000x128, .f32⟩ : BufTy).Contents (Elt F) :=
  ((maximumf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) var ((broadcastInDim S128 ![] bcast_S_S128 : (⟨S_, .f32⟩ : BufTy).Contents (Elt F) → (⟨S128, .f32⟩ : BufTy).Contents (Elt F)) (constant S_ .f32 0x3727C5AC#32))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![0, 0] gamma slices_S3x128_S1x128_0_0 : (⟨S1x128, .f32⟩ : BufTy).Contents (Elt F)) shapeCasts_S1x128_S128)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![0, 0] beta slices_S3x128_S1x128_0_0 : (⟨S1x128, .f32⟩ : BufTy).Contents (Elt F)) shapeCasts_S1x128_S128)))) ((broadcastInDim S50000x128 ![] bcast_S_S50000x128 : (⟨S_, .f32⟩ : BufTy).Contents (Elt F) → (⟨S50000x128, .f32⟩ : BufTy).Contents (Elt F)) (constant S_ .f32 0x00000000#32)))

/-- Layer 2's output, as `outTerm1` with the scale and shift at slice 1. -/
def outTerm2 (h : (⟨S50000x128, .f32⟩ : BufTy).Contents (Elt F)) (mu : (⟨S128, .f32⟩ : BufTy).Contents (Elt F)) (var : (⟨S128, .f32⟩ : BufTy).Contents (Elt F)) (gamma : (⟨S3x128, .f32⟩ : BufTy).Contents (Elt F)) (beta : (⟨S3x128, .f32⟩ : BufTy).Contents (Elt F)) :
    (⟨S50000x128, .f32⟩ : BufTy).Contents (Elt F) :=
  ((maximumf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) var ((broadcastInDim S128 ![] bcast_S_S128 : (⟨S_, .f32⟩ : BufTy).Contents (Elt F) → (⟨S128, .f32⟩ : BufTy).Contents (Elt F)) (constant S_ .f32 0x3727C5AC#32))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![1, 0] gamma slices_S3x128_S1x128_1_0 : (⟨S1x128, .f32⟩ : BufTy).Contents (Elt F)) shapeCasts_S1x128_S128)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![1, 0] beta slices_S3x128_S1x128_1_0 : (⟨S1x128, .f32⟩ : BufTy).Contents (Elt F)) shapeCasts_S1x128_S128)))) ((broadcastInDim S50000x128 ![] bcast_S_S50000x128 : (⟨S_, .f32⟩ : BufTy).Contents (Elt F) → (⟨S50000x128, .f32⟩ : BufTy).Contents (Elt F)) (constant S_ .f32 0x00000000#32)))

/-- Layer 3's output, as `outTerm1` with the scale and shift at slice 2. -/
def outTerm3 (h : (⟨S50000x128, .f32⟩ : BufTy).Contents (Elt F)) (mu : (⟨S128, .f32⟩ : BufTy).Contents (Elt F)) (var : (⟨S128, .f32⟩ : BufTy).Contents (Elt F)) (gamma : (⟨S3x128, .f32⟩ : BufTy).Contents (Elt F)) (beta : (⟨S3x128, .f32⟩ : BufTy).Contents (Elt F)) :
    (⟨S50000x128, .f32⟩ : BufTy).Contents (Elt F) :=
  ((maximumf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) var ((broadcastInDim S128 ![] bcast_S_S128 : (⟨S_, .f32⟩ : BufTy).Contents (Elt F) → (⟨S128, .f32⟩ : BufTy).Contents (Elt F)) (constant S_ .f32 0x3727C5AC#32))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![2, 0] gamma slices_S3x128_S1x128_2_0 : (⟨S1x128, .f32⟩ : BufTy).Contents (Elt F)) shapeCasts_S1x128_S128)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast _ (extractStridedSlice S1x128 ![2, 0] beta slices_S3x128_S1x128_2_0 : (⟨S1x128, .f32⟩ : BufTy).Contents (Elt F)) shapeCasts_S1x128_S128)))) ((broadcastInDim S50000x128 ![] bcast_S_S50000x128 : (⟨S_, .f32⟩ : BufTy).Contents (Elt F) → (⟨S50000x128, .f32⟩ : BufTy).Contents (Elt F)) (constant S_ .f32 0x00000000#32)))

/-- The result from layer 3's output `y`, the group index of each node and the last dense map: the rows of `y` scatter-added by group onto 64 zero rows, times the weight matrix, plus the bias. -/
def logitsTerm (y : (⟨S50000x128, .f32⟩ : BufTy).Contents (Elt F)) (g : (⟨S50000, .i32⟩ : BufTy).Contents (Elt F)) (w : (⟨S128x10, .f32⟩ : BufTy).Contents (Elt F)) (b : (⟨S10, .f32⟩ : BufTy).Contents (Elt F)) :
    (⟨S64x10, .f32⟩ : BufTy).Contents (Elt F) :=
  ((addf : (⟨S64x10, .f32⟩ : BufTy).Contents (Elt F) → (⟨S64x10, .f32⟩ : BufTy).Contents (Elt F) → (⟨S64x10, .f32⟩ : BufTy).Contents (Elt F)) (Host.dotGeneral dot_S64x128_S128x10_S64x10_1_0_0_1_n_n none (Host.scatterAdd scatter_S64x128_S50000x1_S50000x128_1_0_0_1 ((broadcastInDim S64x128 ![] bcast_S_S64x128 : (⟨S_, .f32⟩ : BufTy).Contents (Elt F) → (⟨S64x128, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) g) y : (⟨S64x128, .f32⟩ : BufTy).Contents (Elt F)) w : (⟨S64x10, .f32⟩ : BufTy).Contents (Elt F)) ((broadcastInDim S64x10 ![0, 1] bcast_S1x10_S64x10_0_1 : (⟨S1x10, .f32⟩ : BufTy).Contents (Elt F) → (⟨S64x10, .f32⟩ : BufTy).Contents (Elt F)) ((broadcastInDim S1x10 ![1] bcast_S10_S1x10_1 : (⟨S10, .f32⟩ : BufTy).Contents (Elt F) → (⟨S1x10, .f32⟩ : BufTy).Contents (Elt F)) b)))

/-! ## The run at the boundaries

Each by rewriting the buffer's contents with its operation's equation, then its operands' with theirs, down to the
boundary; the gather, the scatter-add and the reduction stay folded. -/

attribute [local irreducible] Host.reduceAdd Host.gather Host.scatterAdd

set_option maxRecDepth 8192 in
theorem src_eq (V : Valuation τ sig (Elt F)) :
    after ops V (main_v1 : DevRef τ sig) = srcTerm (V (main_arg9 : DevRef τ sig)) := by
  rw [st_main_v1 V, st_main_v0 V, st_main_arg9 V]
  rfl

set_option maxRecDepth 8192 in
theorem dst_eq (V : Valuation τ sig (Elt F)) :
    after ops V (main_v3 : DevRef τ sig) = dstTerm (V (main_arg9 : DevRef τ sig)) := by
  rw [st_main_v3 V, st_main_v2 V, st_main_arg9 V]
  rfl

set_option maxRecDepth 8192 in
theorem layer1_h (V : Valuation τ sig (Elt F)) :
    after ops V (main_v32 : DevRef τ sig) = hTerm1 (V (main_arg0 : DevRef τ sig)) (after ops V (main_v1 : DevRef τ sig)) (after ops V (main_v3 : DevRef τ sig)) (V (main_arg1 : DevRef τ sig)) (V (main_arg2 : DevRef τ sig)) (V (main_arg3 : DevRef τ sig)) (V (main_arg4 : DevRef τ sig)) := by
  rw [st_main_v32 V, st_main_v31 V, st_main_v30 V, st_main_v29 V, st_main_v28 V, st_main_v27 V,
    st_main_v26 V, st_main_v25 V, st_main_v24 V, st_main_v23 V, st_main_cst_1 V, st_main_v22 V,
    st_main_v21 V, st_main_v20 V, st_main_v19 V, st_main_v18 V, st_main_v17 V, st_main_v16 V,
    st_main_v15 V, st_main_v14 V, st_main_v13 V, st_main_v12 V, st_main_v11 V, st_main_cst V,
    st_main_v10 V, st_main_v9 V, st_main_v8 V, st_main_v7 V, st_main_v6 V, st_main_c_0 V,
    st_main_v5 V, st_main_v4 V, st_main_c V, st_main_arg0 V, st_main_arg1 V, st_main_arg2 V,
    st_main_arg3 V, st_main_arg4 V]
  rfl

set_option maxRecDepth 8192 in
theorem layer1_mean (V : Valuation τ sig (Elt F)) :
    after ops V (main_v35 : DevRef τ sig) = meanTerm (after ops V (main_v32 : DevRef τ sig)) := by
  rw [st_main_v35 V, st_main_v34 V, st_main_cst_3 V, st_main_v33 V, st_main_cst_2 V]
  rfl

set_option maxRecDepth 8192 in
theorem layer1_var (V : Valuation τ sig (Elt F)) :
    after ops V (main_v36 : DevRef τ sig) = varTerm (after ops V (main_v32 : DevRef τ sig)) := by
  rw [st_main_v36 V, st_main_call0_call0_v1 V, st_main_call0_call0_v0 V, st_main_call0_cst_4 V, st_main_call0_v12 V, st_main_call0_cst_3 V,
    st_main_call0_v11 V, st_main_call0_v10 V, st_main_call0_v9 V, st_main_call0_cst_2 V, st_main_call0_v8 V, st_main_call0_cst_1 V,
    st_main_call0_v7 V, st_main_call0_v6 V, st_main_call0_v5 V, st_main_call0_v4 V, st_main_call0_v3 V, st_main_call0_v2 V,
    st_main_call0_cst_0 V, st_main_call0_v1 V, st_main_call0_v0 V, st_main_call0_cst V, st_main_c_4 V]
  rfl

set_option maxRecDepth 8192 in
theorem layer1_out (V : Valuation τ sig (Elt F)) :
    after ops V (main_v57 : DevRef τ sig) = outTerm1 (after ops V (main_v32 : DevRef τ sig)) (after ops V (main_v35 : DevRef τ sig)) (after ops V (main_v36 : DevRef τ sig)) (V (main_arg5 : DevRef τ sig)) (V (main_arg6 : DevRef τ sig)) := by
  rw [st_main_v57 V, st_main_v56 V, st_main_cst_6 V, st_main_v55 V, st_main_v54 V, st_main_v53 V,
    st_main_v52 V, st_main_v51 V, st_main_v50 V, st_main_v49 V, st_main_v48 V, st_main_v47 V,
    st_main_v46 V, st_main_v45 V, st_main_v44 V, st_main_v43 V, st_main_v42 V, st_main_v41 V,
    st_main_v40 V, st_main_cst_5 V, st_main_v39 V, st_main_v38 V, st_main_v37 V, st_main_arg5 V,
    st_main_arg6 V]
  rfl

set_option maxRecDepth 8192 in
theorem layer2_h (V : Valuation τ sig (Elt F)) :
    after ops V (main_v86 : DevRef τ sig) = hTerm2 (after ops V (main_v57 : DevRef τ sig)) (after ops V (main_v1 : DevRef τ sig)) (after ops V (main_v3 : DevRef τ sig)) (V (main_arg1 : DevRef τ sig)) (V (main_arg2 : DevRef τ sig)) (V (main_arg3 : DevRef τ sig)) (V (main_arg4 : DevRef τ sig)) := by
  rw [st_main_v86 V, st_main_v85 V, st_main_v84 V, st_main_v83 V, st_main_v82 V, st_main_v81 V,
    st_main_v80 V, st_main_v79 V, st_main_v78 V, st_main_v77 V, st_main_cst_10 V, st_main_v76 V,
    st_main_v75 V, st_main_v74 V, st_main_v73 V, st_main_v72 V, st_main_v71 V, st_main_v70 V,
    st_main_v69 V, st_main_v68 V, st_main_v67 V, st_main_v66 V, st_main_v65 V, st_main_cst_9 V,
    st_main_v64 V, st_main_v63 V, st_main_v62 V, st_main_v61 V, st_main_v60 V, st_main_c_8 V,
    st_main_v59 V, st_main_v58 V, st_main_c_7 V, st_main_arg1 V, st_main_arg2 V, st_main_arg3 V,
    st_main_arg4 V]
  rfl

set_option maxRecDepth 8192 in
theorem layer2_mean (V : Valuation τ sig (Elt F)) :
    after ops V (main_v89 : DevRef τ sig) = meanTerm (after ops V (main_v86 : DevRef τ sig)) := by
  rw [st_main_v89 V, st_main_v88 V, st_main_cst_12 V, st_main_v87 V, st_main_cst_11 V]
  rfl

set_option maxRecDepth 8192 in
theorem layer2_var (V : Valuation τ sig (Elt F)) :
    after ops V (main_v90 : DevRef τ sig) = varTerm (after ops V (main_v86 : DevRef τ sig)) := by
  rw [st_main_v90 V, st_main_call1_call0_v1 V, st_main_call1_call0_v0 V, st_main_call1_cst_4 V, st_main_call1_v12 V, st_main_call1_cst_3 V,
    st_main_call1_v11 V, st_main_call1_v10 V, st_main_call1_v9 V, st_main_call1_cst_2 V, st_main_call1_v8 V, st_main_call1_cst_1 V,
    st_main_call1_v7 V, st_main_call1_v6 V, st_main_call1_v5 V, st_main_call1_v4 V, st_main_call1_v3 V, st_main_call1_v2 V,
    st_main_call1_cst_0 V, st_main_call1_v1 V, st_main_call1_v0 V, st_main_call1_cst V, st_main_c_13 V]
  rfl

set_option maxRecDepth 8192 in
theorem layer2_out (V : Valuation τ sig (Elt F)) :
    after ops V (main_v111 : DevRef τ sig) = outTerm2 (after ops V (main_v86 : DevRef τ sig)) (after ops V (main_v89 : DevRef τ sig)) (after ops V (main_v90 : DevRef τ sig)) (V (main_arg5 : DevRef τ sig)) (V (main_arg6 : DevRef τ sig)) := by
  rw [st_main_v111 V, st_main_v110 V, st_main_cst_15 V, st_main_v109 V, st_main_v108 V, st_main_v107 V,
    st_main_v106 V, st_main_v105 V, st_main_v104 V, st_main_v103 V, st_main_v102 V, st_main_v101 V,
    st_main_v100 V, st_main_v99 V, st_main_v98 V, st_main_v97 V, st_main_v96 V, st_main_v95 V,
    st_main_v94 V, st_main_cst_14 V, st_main_v93 V, st_main_v92 V, st_main_v91 V, st_main_arg5 V,
    st_main_arg6 V]
  rfl

set_option maxRecDepth 8192 in
theorem layer3_h (V : Valuation τ sig (Elt F)) :
    after ops V (main_v140 : DevRef τ sig) = hTerm3 (after ops V (main_v111 : DevRef τ sig)) (after ops V (main_v1 : DevRef τ sig)) (after ops V (main_v3 : DevRef τ sig)) (V (main_arg1 : DevRef τ sig)) (V (main_arg2 : DevRef τ sig)) (V (main_arg3 : DevRef τ sig)) (V (main_arg4 : DevRef τ sig)) := by
  rw [st_main_v140 V, st_main_v139 V, st_main_v138 V, st_main_v137 V, st_main_v136 V, st_main_v135 V,
    st_main_v134 V, st_main_v133 V, st_main_v132 V, st_main_v131 V, st_main_cst_19 V, st_main_v130 V,
    st_main_v129 V, st_main_v128 V, st_main_v127 V, st_main_v126 V, st_main_v125 V, st_main_v124 V,
    st_main_v123 V, st_main_v122 V, st_main_v121 V, st_main_v120 V, st_main_v119 V, st_main_cst_18 V,
    st_main_v118 V, st_main_v117 V, st_main_v116 V, st_main_v115 V, st_main_v114 V, st_main_c_17 V,
    st_main_v113 V, st_main_v112 V, st_main_c_16 V, st_main_arg1 V, st_main_arg2 V, st_main_arg3 V,
    st_main_arg4 V]
  rfl

set_option maxRecDepth 8192 in
theorem layer3_mean (V : Valuation τ sig (Elt F)) :
    after ops V (main_v143 : DevRef τ sig) = meanTerm (after ops V (main_v140 : DevRef τ sig)) := by
  rw [st_main_v143 V, st_main_v142 V, st_main_cst_21 V, st_main_v141 V, st_main_cst_20 V]
  rfl

set_option maxRecDepth 8192 in
theorem layer3_var (V : Valuation τ sig (Elt F)) :
    after ops V (main_v144 : DevRef τ sig) = varTerm (after ops V (main_v140 : DevRef τ sig)) := by
  rw [st_main_v144 V, st_main_call2_call0_v1 V, st_main_call2_call0_v0 V, st_main_call2_cst_4 V, st_main_call2_v12 V, st_main_call2_cst_3 V,
    st_main_call2_v11 V, st_main_call2_v10 V, st_main_call2_v9 V, st_main_call2_cst_2 V, st_main_call2_v8 V, st_main_call2_cst_1 V,
    st_main_call2_v7 V, st_main_call2_v6 V, st_main_call2_v5 V, st_main_call2_v4 V, st_main_call2_v3 V, st_main_call2_v2 V,
    st_main_call2_cst_0 V, st_main_call2_v1 V, st_main_call2_v0 V, st_main_call2_cst V, st_main_c_22 V]
  rfl

set_option maxRecDepth 8192 in
theorem layer3_out (V : Valuation τ sig (Elt F)) :
    after ops V (main_v165 : DevRef τ sig) = outTerm3 (after ops V (main_v140 : DevRef τ sig)) (after ops V (main_v143 : DevRef τ sig)) (after ops V (main_v144 : DevRef τ sig)) (V (main_arg5 : DevRef τ sig)) (V (main_arg6 : DevRef τ sig)) := by
  rw [st_main_v165 V, st_main_v164 V, st_main_cst_24 V, st_main_v163 V, st_main_v162 V, st_main_v161 V,
    st_main_v160 V, st_main_v159 V, st_main_v158 V, st_main_v157 V, st_main_v156 V, st_main_v155 V,
    st_main_v154 V, st_main_v153 V, st_main_v152 V, st_main_v151 V, st_main_v150 V, st_main_v149 V,
    st_main_v148 V, st_main_cst_23 V, st_main_v147 V, st_main_v146 V, st_main_v145 V, st_main_arg5 V,
    st_main_arg6 V]
  rfl

set_option maxRecDepth 8192 in
theorem result_eq (V : Valuation τ sig (Elt F)) :
    after ops V (main_v172 : DevRef τ sig) = logitsTerm (after ops V (main_v165 : DevRef τ sig)) (V (main_arg10 : DevRef τ sig)) (V (main_arg7 : DevRef τ sig)) (V (main_arg8 : DevRef τ sig)) := by
  rw [st_main_v172 V, st_main_v171 V, st_main_v170 V, st_main_v169 V, st_main_v168 V, st_main_v167 V,
    st_main_v166 V, st_main_cst_25 V, st_main_arg10 V, st_main_arg7 V, st_main_arg8 V]
  rfl

end Cert.ReferenceIdeal.RefRun

end
-- ==== Proof.RefValue.lean ====
/- The reference program's result as the network's function of its arguments: the run read layer by layer, each
   layer the host's spelling of the network's layer with the statistics over all rows at once, the last stage the
   per-graph sums through the last dense layer; and the run in the shape of the claim's post. -/
import proofs.«141774_j48919677501954_2_alg».proof.Proof.RefRunLayer
import proofs.«141774_j48919677501954_2_alg».proof.Proof.HostStages

noncomputable section

namespace Cert.ReferenceIdeal.RVal

open Cert.ReferenceIdeal Cert.ReferenceIdeal.Gen Cert.ReferenceIdeal.RefRun Idealize.ShloMosaic Idealize.ShloMosaic.TcCoe Idealize.SL.Sem
  Idealize.ShloMosaic.StableHlo

/-- The two index vectors and the three index columns as @main computes them from its integer arguments. -/
def srcVec (e : IVec S2x800000 32) : IVec S800000 32 :=
  shapeCast S800000 (extractStridedSlice S1x800000 ![0, 0] e slices_S2x800000_S1x800000_0_0) shapeCasts_S1x800000_S800000
def dstVec (e : IVec S2x800000 32) : IVec S800000 32 :=
  shapeCast S800000 (extractStridedSlice S1x800000 ![1, 0] e slices_S2x800000_S1x800000_1_0) shapeCasts_S1x800000_S800000
def colOfSrc (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
def colOfDst (v : IVec S800000 32) : IVec S800000x1 32 := broadcastInDim S800000x1 ![0] bcast_S800000_S800000x1_0 v
def gidCol (b : IVec S50000 32) : IVec S50000x1 32 := broadcastInDim S50000x1 ![0] bcast_S50000_S50000x1_0 b

section Args

variable (m : (ℓ : Loc nD τ sig) → Buf (Elt Ideal) ℓ)

/-- The launch memory's argument arrays as the network's arguments. -/
def argsOf (c : Dev nD) : Cert.Gin.Args where
  x := m ((c : Thread nD τ).loc main_arg0)
  W1s := m ((c : Thread nD τ).loc main_arg1)
  b1s := m ((c : Thread nD τ).loc main_arg2)
  W2s := m ((c : Thread nD τ).loc main_arg3)
  b2s := m ((c : Thread nD τ).loc main_arg4)
  gs := m ((c : Thread nD τ).loc main_arg5)
  bes := m ((c : Thread nD τ).loc main_arg6)
  Wlin := m ((c : Thread nD τ).loc main_arg7)
  blin := m ((c : Thread nD τ).loc main_arg8)
  src := colOfSrc (srcVec (m ((c : Thread nD τ).loc main_arg9)))
  dst := colOfDst (dstVec (m ((c : Thread nD τ).loc main_arg9)))
  gid := gidCol (m ((c : Thread nD τ).loc main_arg10))

end Args

-- the gather, the scatter-add and the reduction stay folded while the composed terms are matched
attribute [local irreducible] Host.reduceAdd Host.gather Host.scatterAdd

set_option maxRecDepth 8192 in
set_option maxHeartbeats 4000000 in
/-- Layer 1 as the run composes it — the array before normalisation, its mean and variance vectors, the
    normalisation — is the network's layer 0 with the statistics over all rows at once: the stacked parameters'
    slices are that layer's matrices and vectors, and the composition is the host's spelling of one layer. -/
theorem layer1_value (X : FVec Ideal S50000x128 .f32) (e : IVec S2x800000 32)
    (W1s : FVec Ideal S3x128x128 .f32) (b1s : FVec Ideal S3x128 .f32) (W2s : FVec Ideal S3x128x128 .f32)
    (b2s gs bes : FVec Ideal S3x128 .f32) :
    outTerm1 (F := Ideal) (hTerm1 X (srcTerm e) (dstTerm e) W1s b1s W2s b2s)
        (meanTerm (hTerm1 X (srcTerm e) (dstTerm e) W1s b1s W2s b2s))
        (varTerm (hTerm1 X (srcTerm e) (dstTerm e) W1s b1s W2s b2s)) gs bes
      = Cert.Gin.refLayer
          (Cert.Gin.pre (colOfSrc (srcVec e)) (colOfDst (dstVec e)) X (Cert.Gin.matAt 0 W1s) (Cert.Gin.vecAt 0 b1s)
            (Cert.Gin.matAt 0 W2s) (Cert.Gin.vecAt 0 b2s))
          (Cert.Gin.vecAt 0 gs) (Cert.Gin.vecAt 0 bes) := by
  rw [← Cert.Gin.Host.sliceMat0_eq W1s slices_S3x128x128_S1x128x128_0_0_0 shapeCasts_S1x128x128_S128x128,
    ← Cert.Gin.Host.sliceMat0_eq W2s slices_S3x128x128_S1x128x128_0_0_0 shapeCasts_S1x128x128_S128x128,
    ← Cert.Gin.Host.sliceVec0_eq b1s slices_S3x128_S1x128_0_0 shapeCasts_S1x128_S128,
    ← Cert.Gin.Host.sliceVec0_eq b2s slices_S3x128_S1x128_0_0 shapeCasts_S1x128_S128,
    ← Cert.Gin.Host.sliceVec0_eq gs slices_S3x128_S1x128_0_0 shapeCasts_S1x128_S128,
    ← Cert.Gin.Host.sliceVec0_eq bes slices_S3x128_S1x128_0_0 shapeCasts_S1x128_S128]
  exact Cert.Gin.Host.refLayerHost_eq gather_S50000x128_S800000x1_S800000x128_1_0_n_n_0_1_1128_wf gather_S50000x128_S800000x1_S800000x128_1_0_n_n_0_1_1128 rfl scatter_S50000x128_S800000x1_S800000x128_1_0_0_1_wf scatter_S50000x128_S800000x1_S800000x128_1_0_0_1 rfl dot_S50000x128_S128x128_S50000x128_1_0_0_1_n_n rfl reducesTo_S50000x128_S128_d0 (by decide) h_S_ bcast_S128_S1x128_1 bcast_S_S1x128 bcast_S1x128_S50000x128_0_1 bcast_S_S128 bcast_S_S50000x128
    X (colOfSrc (srcVec e)) (colOfDst (dstVec e)) _ _ _ _ _ _

set_option maxRecDepth 8192 in
set_option maxHeartbeats 4000000 in
/-- Layer 2 as the run composes it — the array before normalisation, its mean and variance vectors, the
    normalisation — is the network's layer 1 with the statistics over all rows at once: the stacked parameters'
    slices are that layer's matrices and vectors, and the composition is the host's spelling of one layer. -/
theorem layer2_value (X : FVec Ideal S50000x128 .f32) (e : IVec S2x800000 32)
    (W1s : FVec Ideal S3x128x128 .f32) (b1s : FVec Ideal S3x128 .f32) (W2s : FVec Ideal S3x128x128 .f32)
    (b2s gs bes : FVec Ideal S3x128 .f32) :
    outTerm2 (F := Ideal) (hTerm2 X (srcTerm e) (dstTerm e) W1s b1s W2s b2s)
        (meanTerm (hTerm2 X (srcTerm e) (dstTerm e) W1s b1s W2s b2s))
        (varTerm (hTerm2 X (srcTerm e) (dstTerm e) W1s b1s W2s b2s)) gs bes
      = Cert.Gin.refLayer
          (Cert.Gin.pre (colOfSrc (srcVec e)) (colOfDst (dstVec e)) X (Cert.Gin.matAt 1 W1s) (Cert.Gin.vecAt 1 b1s)
            (Cert.Gin.matAt 1 W2s) (Cert.Gin.vecAt 1 b2s))
          (Cert.Gin.vecAt 1 gs) (Cert.Gin.vecAt 1 bes) := by
  rw [← Cert.Gin.Host.sliceMat1_eq W1s slices_S3x128x128_S1x128x128_1_0_0 shapeCasts_S1x128x128_S128x128,
    ← Cert.Gin.Host.sliceMat1_eq W2s slices_S3x128x128_S1x128x128_1_0_0 shapeCasts_S1x128x128_S128x128,
    ← Cert.Gin.Host.sliceVec1_eq b1s slices_S3x128_S1x128_1_0 shapeCasts_S1x128_S128,
    ← Cert.Gin.Host.sliceVec1_eq b2s slices_S3x128_S1x128_1_0 shapeCasts_S1x128_S128,
    ← Cert.Gin.Host.sliceVec1_eq gs slices_S3x128_S1x128_1_0 shapeCasts_S1x128_S128,
    ← Cert.Gin.Host.sliceVec1_eq bes slices_S3x128_S1x128_1_0 shapeCasts_S1x128_S128]
  exact Cert.Gin.Host.refLayerHost_eq gather_S50000x128_S800000x1_S800000x128_1_0_n_n_0_1_1128_wf gather_S50000x128_S800000x1_S800000x128_1_0_n_n_0_1_1128 rfl scatter_S50000x128_S800000x1_S800000x128_1_0_0_1_wf scatter_S50000x128_S800000x1_S800000x128_1_0_0_1 rfl dot_S50000x128_S128x128_S50000x128_1_0_0_1_n_n rfl reducesTo_S50000x128_S128_d0 (by decide) h_S_ bcast_S128_S1x128_1 bcast_S_S1x128 bcast_S1x128_S50000x128_0_1 bcast_S_S128 bcast_S_S50000x128
    X (colOfSrc (srcVec e)) (colOfDst (dstVec e)) _ _ _ _ _ _

set_option maxRecDepth 8192 in
set_option maxHeartbeats 4000000 in
/-- Layer 3 as the run composes it — the array before normalisation, its mean and variance vectors, the
    normalisation — is the network's layer 2 with the statistics over all rows at once: the stacked parameters'
    slices are that layer's matrices and vectors, and the composition is the host's spelling of one layer. -/
theorem layer3_value (X : FVec Ideal S50000x128 .f32) (e : IVec S2x800000 32)
    (W1s : FVec Ideal S3x128x128 .f32) (b1s : FVec Ideal S3x128 .f32) (W2s : FVec Ideal S3x128x128 .f32)
    (b2s gs bes : FVec Ideal S3x128 .f32) :
    outTerm3 (F := Ideal) (hTerm3 X (srcTerm e) (dstTerm e) W1s b1s W2s b2s)
        (meanTerm (hTerm3 X (srcTerm e) (dstTerm e) W1s b1s W2s b2s))
        (varTerm (hTerm3 X (srcTerm e) (dstTerm e) W1s b1s W2s b2s)) gs bes
      = Cert.Gin.refLayer
          (Cert.Gin.pre (colOfSrc (srcVec e)) (colOfDst (dstVec e)) X (Cert.Gin.matAt 2 W1s) (Cert.Gin.vecAt 2 b1s)
            (Cert.Gin.matAt 2 W2s) (Cert.Gin.vecAt 2 b2s))
          (Cert.Gin.vecAt 2 gs) (Cert.Gin.vecAt 2 bes) := by
  rw [← Cert.Gin.Host.sliceMat2_eq W1s slices_S3x128x128_S1x128x128_2_0_0 shapeCasts_S1x128x128_S128x128,
    ← Cert.Gin.Host.sliceMat2_eq W2s slices_S3x128x128_S1x128x128_2_0_0 shapeCasts_S1x128x128_S128x128,
    ← Cert.Gin.Host.sliceVec2_eq b1s slices_S3x128_S1x128_2_0 shapeCasts_S1x128_S128,
    ← Cert.Gin.Host.sliceVec2_eq b2s slices_S3x128_S1x128_2_0 shapeCasts_S1x128_S128,
    ← Cert.Gin.Host.sliceVec2_eq gs slices_S3x128_S1x128_2_0 shapeCasts_S1x128_S128,
    ← Cert.Gin.Host.sliceVec2_eq bes slices_S3x128_S1x128_2_0 shapeCasts_S1x128_S128]
  exact Cert.Gin.Host.refLayerHost_eq gather_S50000x128_S800000x1_S800000x128_1_0_n_n_0_1_1128_wf gather_S50000x128_S800000x1_S800000x128_1_0_n_n_0_1_1128 rfl scatter_S50000x128_S800000x1_S800000x128_1_0_0_1_wf scatter_S50000x128_S800000x1_S800000x128_1_0_0_1 rfl dot_S50000x128_S128x128_S50000x128_1_0_0_1_n_n rfl reducesTo_S50000x128_S128_d0 (by decide) h_S_ bcast_S128_S1x128_1 bcast_S_S1x128 bcast_S1x128_S50000x128_0_1 bcast_S_S128 bcast_S_S50000x128
    X (colOfSrc (srcVec e)) (colOfDst (dstVec e)) _ _ _ _ _ _

section Value

variable (m : (ℓ : Loc nD τ sig) → Buf (Elt Ideal) ℓ)

set_option maxRecDepth 8192 in
set_option maxHeartbeats 4000000 in
/-- The result buffer after the run holds the network's value at the launch memory's arguments. -/
theorem value (c : Dev nD) :
    StableHlo.after RefRun.ops (launchContents m c) (main_v172 : DevRef τ sig) = Cert.Gin.refNet (argsOf m c) := by
  have e1 : after RefRun.ops (launchContents m c) (main_v57 : DevRef τ sig)
      = Cert.Gin.refAt (argsOf m c) 0 (argsOf m c).x := by
    rw [layer1_out, layer1_mean, layer1_var, layer1_h, src_eq, dst_eq]
    exact layer1_value _ _ _ _ _ _ _ _
  have e2 : after RefRun.ops (launchContents m c) (main_v111 : DevRef τ sig)
      = Cert.Gin.refAt (argsOf m c) 1 (Cert.Gin.refAt (argsOf m c) 0 (argsOf m c).x) := by
    rw [layer2_out, layer2_mean, layer2_var, layer2_h, src_eq, dst_eq, e1]
    exact layer2_value _ _ _ _ _ _ _ _
  have e3 : after RefRun.ops (launchContents m c) (main_v165 : DevRef τ sig)
      = Cert.Gin.refAt (argsOf m c) 2 (Cert.Gin.refAt (argsOf m c) 1 (Cert.Gin.refAt (argsOf m c) 0 (argsOf m c).x)) := by
    rw [layer3_out, layer3_mean, layer3_var, layer3_h, src_eq, dst_eq, e2]
    exact layer3_value _ _ _ _ _ _ _ _
  rw [result_eq, e3]
  exact Cert.Gin.Host.hostHead_eq dot_S64x128_S128x10_S64x10_1_0_0_1_n_n rfl scatter_S64x128_S50000x1_S50000x128_1_0_0_1_wf
    scatter_S64x128_S50000x1_S50000x128_1_0_0_1 rfl bcast_S_S64x128 bcast_S10_S1x10_1 bcast_S1x10_S64x10_0_1 _ _ _ _

/-- On every device, from any memory with zero counters: every weakly fair execution of @main terminates with the result
    buffer at the network's value of the launch memory's arguments and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v172) = Cert.Gin.refNet (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c main_v172).trans (value m c),
      (h c main_arg0).trans (st_main_arg0 (launchContents m c)),
      (h c main_arg1).trans (st_main_arg1 (launchContents m c)),
      (h c main_arg2).trans (st_main_arg2 (launchContents m c)),
      (h c main_arg3).trans (st_main_arg3 (launchContents m c)),
      (h c main_arg4).trans (st_main_arg4 (launchContents m c)),
      (h c main_arg5).trans (st_main_arg5 (launchContents m c)),
      (h c main_arg6).trans (st_main_arg6 (launchContents m c)),
      (h c main_arg7).trans (st_main_arg7 (launchContents m c)),
      (h c main_arg8).trans (st_main_arg8 (launchContents m c)),
      (h c main_arg9).trans (st_main_arg9 (launchContents m c)),
      (h c main_arg10).trans (st_main_arg10 (launchContents m c))⟩)
    (RefRun.run_main m ρ)

end Value

end Cert.ReferenceIdeal.RVal

end
-- ==== Proof.Law.lean ====
/-
  The law joining the two arrangements of a layer's column statistics.

  Cut the 50000 rows into 10 tiles of 5000.  For real entries z, with μ_t the mean of tile t and μ any real:
  * the tile means' sum times 5000 over 50000 is the mean of all rows, since (S_t / 5000) · 5000 = S_t and the
    tile sums S_t add up to the sum over all rows;
  * within a tile, Σ_r (z_r − μ)² = Σ_r (z_r − μ_t)² + 5000 · (μ_t − μ)², since
    (z_r − μ)² = (z_r − μ_t)² + 2 (μ_t − μ)(z_r − μ_t) + (μ_t − μ)² and Σ_r (z_r − μ_t) = 0;
  * so the pooled variance is the mean squared deviation over all rows, a mean of squares, which is not negative,
    and the cut below at zero leaves it unchanged.
  Over the extended reals these steps use distributivity, which holds where every entry is real; the entries of a
  layer stay real because the variance is a nonnegative real and the stabiliser a positive real.
-/
import proofs.«141774_j48919677501954_2_alg».proof.Proof.Spec
import proofs.«141774_j48919677501954_2_alg».proof.Proof.LibSageAlgebra

noncomputable section

namespace Cert.Gin

open Idealize.ShloMosaic Idealize.ShloMosaic.ValueIdx Cert.DenseLib Cert.RowsLib Cert.Sage Cert.RowNorm
  Cert.RowBlocks

/-! ## The three float words -/

/-- The word 0x47435000: sign 0, exponent field 142, fraction field 4411392, so
    (2^23 + 4411392) · 2^(142 − 127 − 23) = 12800000 / 256 = 50000. -/
theorem lit_cN : cN = ((50000 : ℝ) : EReal) := by
  unfold cN
  simp [Ideal.ofBits, Ideal.ieee, -EReal.coe_mul]; norm_num

/-- The word 0x459C4000: sign 0, exponent field 139, fraction field 1851392, so
    (2^23 + 1851392) · 2^(139 − 127 − 23) = 10240000 / 2048 = 5000. -/
theorem lit_cT : cT = ((5000 : ℝ) : EReal) := by
  unfold cT
  simp [Ideal.ofBits, Ideal.ieee, -EReal.coe_mul]; norm_num

/-- The stabiliser is a positive real. -/
theorem lit_eps' : ∃ e : ℝ, 0 < e ∧ eps = (e : EReal) := lit_eps

/-- The node count is a positive real. -/
theorem cN_pos : ∃ r : ℝ, 0 < r ∧ cN = (r : EReal) := ⟨50000, by norm_num, lit_cN⟩

/-! ## The pooling law in the reals -/

/-- Within one tile of T reals with mean a = (Σ f) / T, the squared deviations from any m split as the squared
    deviations from a plus T · (a − m)², because the deviations from a add up to zero. -/
theorem tile_shift {T : ℕ} (f : Fin T → ℝ) (c : ℝ) (hc : (T : ℝ) = c) (hc0 : c ≠ 0) (m : ℝ) :
    ∑ r, (f r - m) * (f r - m)
      = ∑ r, (f r - (∑ s, f s) / c) * (f r - (∑ s, f s) / c)
        + c * (((∑ s, f s) / c - m) * ((∑ s, f s) / c - m)) := by
  obtain ⟨a, ha⟩ : ∃ a : ℝ, a = (∑ s, f s) / c := ⟨_, rfl⟩
  rw [← ha]
  have hsum : ∑ r, (f r - a) = 0 := by
    rw [Finset.sum_sub_distrib, Finset.sum_const, Finset.card_univ, Fintype.card_fin, nsmul_eq_mul, hc, ha,
      mul_div_cancel₀ _ hc0, sub_self]
  have hterm : ∀ r, (f r - m) * (f r - m)
      = (f r - a) * (f r - a) + 2 * (a - m) * (f r - a) + (a - m) * (a - m) := fun r => by ring
  simp only [hterm, Finset.sum_add_distrib, ← Finset.mul_sum, hsum, Finset.sum_const, Finset.card_univ,
    Fintype.card_fin, nsmul_eq_mul, hc]
  ring

/-- The tile means' sum times the tile height over the count is the sum of all entries over the count. -/
theorem pool_mean {B T : ℕ} (f : Fin B → Fin T → ℝ) (cT cN : ℝ) (hT : cT ≠ 0) :
    ((∑ t, (∑ r, f t r) / cT) * cT) / cN = (∑ t, ∑ r, f t r) / cN := by
  rw [← Finset.sum_div, div_mul_cancel₀ _ hT]

/-- The within-tile sums of squares plus the tile height times the squared deviations of the tile means from any m
    are the squared deviations of all entries from m. -/
theorem pool_var {B T : ℕ} (f : Fin B → Fin T → ℝ) (c : ℝ) (hc : (T : ℝ) = c) (hc0 : c ≠ 0) (m : ℝ) :
    (∑ t, ∑ r, (f t r - (∑ s, f t s) / c) * (f t r - (∑ s, f t s) / c))
        + c * (∑ t, ((∑ s, f t s) / c - m) * ((∑ s, f t s) / c - m))
      = ∑ t, ∑ r, (f t r - m) * (f t r - m) := by
  rw [Finset.mul_sum, ← Finset.sum_add_distrib]
  exact Finset.sum_congr rfl fun t _ => (tile_shift (f t) c hc hc0 m).symm

/-! ## The rows regrouped into tiles -/

/-- Row r of tile t is the row numbered r + 5000 · t. -/
theorem tileRow_eq (t : Fin 10) (r : Fin 5000) : tileRow t r = finProdFinEquiv (t, r) := by
  apply Fin.ext
  show t.val * 5000 + r.val = r.val + 5000 * t.val
  ring

/-- A sum over all 50000 rows is the sum over the 10 tiles of the sums over each tile's 5000 rows. -/
theorem sum_tiles {α : Type} [AddCommMonoid α] (F : Fin 50000 → α) :
    ∑ n : Fin 50000, F n = ∑ t : Fin 10, ∑ r : Fin 5000, F (tileRow t r) := by
  have e : ∑ n : Fin (10 * 5000), F n = ∑ t : Fin 10, ∑ r : Fin 5000, F (tileRow t r) := by
    rw [← Equiv.sum_comp finProdFinEquiv (fun n : Fin (10 * 5000) => F n), Fintype.sum_prod_type]
    refine Finset.sum_congr rfl fun t _ => Finset.sum_congr rfl fun r _ => ?_
    rw [tileRow_eq]
  exact e

/-! ## The statistics of real entries, as reals -/

/-- A matrix of reals. -/
abbrev RMat : Type := (⟨2, ![50000, 128]⟩ : Shape).Idx → ℝ

/-- The tile mean of real entries. -/
def rtm (z : RMat) (t : Fin 10) (q : Fin 128) : ℝ := (∑ r : Fin 5000, z (ix2 (tileRow t r) q)) / 5000

/-- The mean of a column of real entries over all rows. -/
def rmu (z : RMat) (q : Fin 128) : ℝ := (∑ n : Fin 50000, z (ix2 n q)) / 50000

theorem tmean_coe (z : RMat) (t : Fin 10) (q : Fin 128) :
    tmean (fun i => (z i : EReal)) t q = ((rtm z t q : ℝ) : EReal) := by
  show Ideal.div (∑ r : Fin 5000, ((z (ix2 (tileRow t r) q) : ℝ) : EReal)) cT = _
  rw [lit_cT, Ideal.div_coe (by norm_num), ← coe_sum, ← EReal.coe_mul, mul_one_div]
  rfl

theorem tm2_coe (z : RMat) (t : Fin 10) (q : Fin 128) :
    tm2 (fun i => (z i : EReal)) t q
      = ((∑ r : Fin 5000, (z (ix2 (tileRow t r) q) - rtm z t q) * (z (ix2 (tileRow t r) q) - rtm z t q) : ℝ) : EReal) := by
  show ∑ r : Fin 5000, (((z (ix2 (tileRow t r) q) : ℝ) : EReal) - tmean (fun i => (z i : EReal)) t q)
      * (((z (ix2 (tileRow t r) q) : ℝ) : EReal) - tmean (fun i => (z i : EReal)) t q) = _
  rw [tmean_coe]
  simp only [← EReal.coe_sub, ← EReal.coe_mul, ← coe_sum]

/-- The pooled mean of real entries is the real mean over all rows. -/
theorem kmean_coe (z : RMat) (q : Fin 128) :
    kmean (fun i => (z i : EReal)) (ix1 q) = ((rmu z q : ℝ) : EReal) := by
  show Ideal.div ((0 + ∑ t : Fin 10, tmean (fun i => (z i : EReal)) t q) * cT) cN = _
  simp only [tmean_coe]
  rw [lit_cT, lit_cN, zero_add, ← coe_sum, ← EReal.coe_mul, Ideal.div_coe (by norm_num), ← EReal.coe_mul,
    mul_one_div]
  refine congrArg Real.toEReal ?_
  unfold rtm rmu
  rw [pool_mean (fun t r => z (ix2 (tileRow t r) q)) 5000 50000 (by norm_num),
    sum_tiles (fun n => z (ix2 n q))]

/-- The column mean of real entries over all rows. -/
theorem colMean_coe (z : RMat) (q : Fin 128) :
    colMean cN (fun i => (z i : EReal)) (ix1 q) = ((rmu z q : ℝ) : EReal) := by
  show Ideal.div (0 + ∑ n : Fin 50000, ((z (ix2 n q) : ℝ) : EReal)) cN = _
  rw [lit_cN, Ideal.div_coe (by norm_num), zero_add, ← coe_sum, ← EReal.coe_mul, mul_one_div]
  rfl

/-- The mean squared deviation of real entries, as a real. -/
theorem varTwo_coe (z : RMat) (q : Fin 128) :
    varTwo (fun i => (z i : EReal)) (ix1 q)
      = (((∑ n : Fin 50000, (z (ix2 n q) - rmu z q) * (z (ix2 n q) - rmu z q)) / 50000 : ℝ) : EReal) := by
  show Ideal.div (0 + ∑ n : Fin 50000, (((z (ix2 n q) : ℝ) : EReal) - colMean cN (fun i => (z i : EReal)) (ix1 q))
      * (((z (ix2 n q) : ℝ) : EReal) - colMean cN (fun i => (z i : EReal)) (ix1 q))) cN = _
  rw [colMean_coe]
  simp only [← EReal.coe_sub, ← EReal.coe_mul]
  rw [lit_cN, Ideal.div_coe (by norm_num), zero_add, ← coe_sum, ← EReal.coe_mul, mul_one_div]

/-- The pooled variance of real entries, as a real: by the pooling law it is the mean squared deviation over all
    rows, which is not negative, so the cut at zero leaves it. -/
theorem kvar_coe (z : RMat) (q : Fin 128) :
    kvar (fun i => (z i : EReal)) (ix1 q)
      = (((∑ n : Fin 50000, (z (ix2 n q) - rmu z q) * (z (ix2 n q) - rmu z q)) / 50000 : ℝ) : EReal) := by
  show max (Ideal.div ((0 + ∑ t : Fin 10, tm2 (fun i => (z i : EReal)) t q)
      + cT * (0 + ∑ t : Fin 10, (tmean (fun i => (z i : EReal)) t q - kmean (fun i => (z i : EReal)) (ix1 q))
        * (tmean (fun i => (z i : EReal)) t q - kmean (fun i => (z i : EReal)) (ix1 q)))) cN) 0 = _
  rw [kmean_coe]
  simp only [tmean_coe, tm2_coe]
  simp only [← EReal.coe_sub, ← EReal.coe_mul]
  rw [lit_cT, lit_cN, zero_add, zero_add, ← coe_sum, ← coe_sum, ← EReal.coe_mul, ← EReal.coe_add,
    Ideal.div_coe (by norm_num), ← EReal.coe_mul, mul_one_div, ← EReal.coe_zero, coe_max_real]
  refine congrArg Real.toEReal ?_
  have hpool := pool_var (fun t r => z (ix2 (tileRow t r) q)) 5000 (by norm_num) (by norm_num) (rmu z q)
  have hall := sum_tiles (fun n => (z (ix2 n q) - rmu z q) * (z (ix2 n q) - rmu z q))
  unfold rtm
  rw [hpool, ← hall]
  exact max_eq_left (div_nonneg (Finset.sum_nonneg fun n _ => mul_self_nonneg _) (by norm_num))

/-! ## The two arrangements of the statistics agree -/

/-- The pooled mean is the column mean where the entries are real. -/
theorem kmean_eq (h : Mat 50000 128) (hh : IsFin h) : kmean h = colMean cN h := by
  obtain ⟨z, rfl⟩ := hh.exists_real
  funext j
  obtain ⟨q, rfl⟩ : ∃ q : Fin 128, j = ix1 q := ⟨j 0, eq_ix1 j⟩
  rw [kmean_coe, colMean_coe]

/-- The pooled variance is the mean squared deviation where the entries are real. -/
theorem kvar_eq (h : Mat 50000 128) (hh : IsFin h) : kvar h = varTwo h := by
  obtain ⟨z, rfl⟩ := hh.exists_real
  funext j
  obtain ⟨q, rfl⟩ : ∃ q : Fin 128, j = ix1 q := ⟨j 0, eq_ix1 j⟩
  rw [kvar_coe, varTwo_coe]

/-- THE TWO NORMALISATIONS AGREE where the entries are real: equal means, equal variances, the same function of them. -/
theorem kerLayer_eq (h : Mat 50000 128) (g be : Vc 128) (hh : IsFin h) : kerLayer h g be = refLayer h g be := by
  unfold kerLayer refLayer
  rw [kmean_eq h hh, kvar_eq h hh]

/-! ## A layer keeps the entries real -/

theorem isFin_matAt (l : Fin 3) {Ws : Cube 3 128 128} (hW : IsFin Ws) : IsFin (matAt l Ws) := fun _ => hW _

theorem isFin_vecAt (l : Fin 3) {bs : Mat 3 128} (hb : IsFin bs) : IsFin (vecAt l bs) := fun _ => hb _

theorem isFin_rows {M n : ℕ} {b : Vc n} (hb : IsFin b) : IsFin (rows (M := M) (asFun b)) := fun _ => hb _

theorem isFin_pre (src dst : ICol 800000) {X : Mat 50000 128} {W1 W2 : Mat 128 128} {b1 b2 : Vc 128}
    (hX : IsFin X) (hW1 : IsFin W1) (hb1 : IsFin b1) (hW2 : IsFin W2) (hb2 : IsFin b2) :
    IsFin (pre src dst X W1 b1 W2 b2) :=
  isFin_plus (isFin_mm (isFin_relu (isFin_plus
    (isFin_mm (isFin_plus hX (isFin_segSum dst (isFin_takeRows nodes_pos src hX))) hW1) (isFin_rows hb1))) hW2)
    (isFin_rows hb2)

theorem isFin_preAt (a : Args) (ha : a.Fin) (l : Fin 3) {X : Mat 50000 128} (hX : IsFin X) : IsFin (preAt a l X) :=
  isFin_pre a.src a.dst hX (isFin_matAt l ha.W1s) (isFin_vecAt l ha.b1s) (isFin_matAt l ha.W2s)
    (isFin_vecAt l ha.b2s)

/-- A normalised layer of real entries is real: the variance is a mean of squares of reals, a nonnegative real, and
    the stabiliser a positive real, so the reciprocal root is real. -/
theorem isFin_refLayer {h : Mat 50000 128} {g be : Vc 128} (hh : IsFin h) (hg : IsFin g) (hbe : IsFin be) :
    IsFin (refLayer h g be) :=
  have hmu := isFin_colMean cN cN_pos hh
  isFin_bnRelu eps lit_eps' hh hmu (colMean_nonneg cN cN_pos (sqDev_nonneg hh hmu)) hg hbe

theorem isFin_refAt (a : Args) (ha : a.Fin) (l : Fin 3) {X : Mat 50000 128} (hX : IsFin X) : IsFin (refAt a l X) :=
  isFin_refLayer (isFin_preAt a ha l hX) (isFin_vecAt l ha.gs) (isFin_vecAt l ha.bes)

/-! ## The networks agree -/

/-- A layer with the pooled statistics is the layer with the statistics over all rows, on real entries. -/
theorem kerAt_eq (a : Args) (ha : a.Fin) (l : Fin 3) {X : Mat 50000 128} (hX : IsFin X) :
    kerAt a l X = refAt a l X :=
  kerLayer_eq _ _ _ (isFin_preAt a ha l hX)

/-- THE TWO NETWORKS AGREE where every float argument is real: layer by layer the entries stay real, so each layer's
    pooled statistics are the statistics over all rows. -/
theorem kerNet_eq_refNet (a : Args) (ha : a.Fin) : kerNet a = refNet a := by
  unfold kerNet refNet
  rw [kerAt_eq a ha 0 ha.x, kerAt_eq a ha 1 (isFin_refAt a ha 0 ha.x),
    kerAt_eq a ha 2 (isFin_refAt a ha 1 (isFin_refAt a ha 0 ha.x))]

end Cert.Gin

end
-- ==== Proof.Finite.lean ====
/-
  The precondition read back. The printed predicate is a conjunction, by the one-bit `and`, of nine terms, one per float
  argument: the `and` over every entry of "the absolute value of the entry is below plus infinity". When the predicate
  is one, each of the nine terms is one, so every entry of every float argument has an absolute value below plus
  infinity in the extended reals, which is to say that it is a real number. The two integer arguments are not
  constrained.
-/
import proofs.«141774_j48919677501954_2_alg».proof.Proof.Gen.Pre_finite_inputs
import proofs.«141774_j48919677501954_2_alg».proof.Proof.LibSageSpec
import Idealize.ShloMosaic.Lib.ReduceAll
import Idealize.ShloMosaic.PureOps.Ideal

noncomputable section

namespace Cert.Gin.Finite

open Idealize.ShloMosaic

/-- An extended real whose absolute value `max x (-x)` is strictly below the value of the pattern of plus infinity is
    a real number: at either infinity the absolute value is plus infinity itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- For any shape: when the `and` over all entries of `|X| < +inf` (the bound a constant laid over the whole shape) is
    one, every entry of `X` is a real number. The reduction is never evaluated: a fold by `and` that is one met a one at
    every entry. -/
theorem isFin_of_all {s t u c : Shape} [Subsingleton t.Idx] {axes : List (Fin s.rank)} {dims : Fin c.rank → Fin s.rank}
    (X : FVec Ideal s .f32) (hb : c.BroadcastsInDim s dims) (hr : s.ReducesTo axes t) (hu : 0 < u.numel)
    (init : IVec u 1) (j : t.Idx)
    (e : Host.reduce IntOp.andi (cmpf .olt (Host.absf X) (broadcastInDim s dims hb (constant c .f32 0x7F800000#32)))
      init hr hu j = 1#1) : Cert.Sage.IsFin X := by
  intro i
  exact real_of_abs_lt_inf (X i) (Host.reduce_andi_all _ init hr hu j e i)

/-- The rank-zero shape has one index. -/
instance subsingleton_S_ : Subsingleton Cert.Pre_finite_inputs.S_.Idx := ⟨fun a b => funext fun d => d.elim0⟩

/-- A one-bit `and` of two arrays is one at an index exactly when both are. -/
theorem andi_apply_eq_one {s : Shape} (a b : IVec s 1) (i : s.Idx) :
    Idealize.ShloMosaic.andi a b i = 1#1 ↔ a i = 1#1 ∧ b i = 1#1 := IntOp.andi_eq_one

/-- THE PRECONDITION DECODED: the printed predicate is all ones, so every entry of each of the nine float arguments is
    a real number. -/
theorem fin_of_pre (x : FVec Ideal Cert.Pre_finite_inputs.S50000x128 .f32)
    (W1s : FVec Ideal Cert.Pre_finite_inputs.S3x128x128 .f32) (b1s : FVec Ideal Cert.Pre_finite_inputs.S3x128 .f32)
    (W2s : FVec Ideal Cert.Pre_finite_inputs.S3x128x128 .f32) (b2s gs bes : FVec Ideal Cert.Pre_finite_inputs.S3x128 .f32)
    (Wlin : FVec Ideal Cert.Pre_finite_inputs.S128x10 .f32) (blin : FVec Ideal Cert.Pre_finite_inputs.S10 .f32)
    (e : IVec Cert.Pre_finite_inputs.S2x800000 32) (bt : IVec Cert.Pre_finite_inputs.S50000 32)
    (h : Cert.Pre_finite_inputs.fn (F := Ideal) x W1s b1s W2s b2s gs bes Wlin blin e bt = fun _ => 1#1) :
    Cert.Sage.IsFin x ∧ Cert.Sage.IsFin W1s ∧ Cert.Sage.IsFin b1s ∧ Cert.Sage.IsFin W2s ∧ Cert.Sage.IsFin b2s
      ∧ Cert.Sage.IsFin gs ∧ Cert.Sage.IsFin bes ∧ Cert.Sage.IsFin Wlin ∧ Cert.Sage.IsFin blin := by
  have e0 := congrFun h ValueIdx.ix0
  dsimp only [Cert.Pre_finite_inputs.fn, Cert.Pre_finite_inputs.fn_part1, Cert.Pre_finite_inputs.fn_part2] at e0
  simp only [andi_apply_eq_one] at e0
  obtain ⟨⟨⟨⟨⟨⟨⟨⟨h0, h1⟩, h2⟩, h3⟩, h4⟩, h5⟩, h6⟩, h7⟩, h8⟩ := e0
  exact ⟨isFin_of_all _ _ _ _ _ _ h0, isFin_of_all _ _ _ _ _ _ h1, isFin_of_all _ _ _ _ _ _ h2,
    isFin_of_all _ _ _ _ _ _ h3, isFin_of_all _ _ _ _ _ _ h4, isFin_of_all _ _ _ _ _ _ h5,
    isFin_of_all _ _ _ _ _ _ h6, isFin_of_all _ _ _ _ _ _ h7, isFin_of_all _ _ _ _ _ _ h8⟩

end Cert.Gin.Finite

end
-- ==== Proof.lean ====
/-
  The certificate of a three-layer graph network: a program of six kernel launches among host stretches against a plain
  host program, equal results over the extended reals under the precondition that every float input is finite.

  Each layer adds to every node's row the sum of the rows carried along the edges into it, passes the result through
  two dense layers, normalises every column over the 50000 nodes and cuts at zero; the rows are then summed per graph
  and passed through one more dense layer.  The two programs differ in the column statistics only: the host program
  takes the column mean and the mean squared deviation from it over all rows; the kernel program takes, for each of 10
  tiles of 5000 rows, the tile's column mean and sum of squared deviations from its own mean, and pools them (the mean
  of the tile means; the within-tile sums of squares plus 5000 times the squared deviations of the tile means from the
  pooled mean).  Over the reals the two are the same numbers — the cross term of the decomposition vanishes because
  the deviations from a tile's mean sum to zero, and a mean of squares is not negative, so the cut at zero is inert —
  and under the precondition every entry met along the way is real: sums and products of reals, and a reciprocal
  root of a nonnegative real plus a positive one.

  The modules: `Spec` states both arrangements as whole-array functions; `Law` proves them equal on real entries;
  `Finite` reads the precondition; `KerRun` and `KerValue` give the kernel program's run and read its result as the
  pooled arrangement (`Region0` … `Region5` read each launch's output arrays as one function of its input arrays,
  `HostStages` and `HostPool` the host stretches); `RefRun` and `RefValue` do the same for the host program.
-/
import proofs.«141774_j48919677501954_2_alg».proof.Defs
import proofs.«141774_j48919677501954_2_alg».proof.Proof.Gen.Kernel
import proofs.«141774_j48919677501954_2_alg».proof.Proof.Gen.Kernel.Frame
import proofs.«141774_j48919677501954_2_alg».proof.Proof.Gen.KernelIdeal
import proofs.«141774_j48919677501954_2_alg».proof.Proof.Gen.KernelIdeal.Frame
import proofs.«141774_j48919677501954_2_alg».proof.Proof.Gen.ReferenceIdeal
import proofs.«141774_j48919677501954_2_alg».proof.Proof.Gen.Pre_finite_inputs
import proofs.«141774_j48919677501954_2_alg».proof.Proof.KerRun
import proofs.«141774_j48919677501954_2_alg».proof.Proof.KerValue
import proofs.«141774_j48919677501954_2_alg».proof.Proof.RefValue
import proofs.«141774_j48919677501954_2_alg».proof.Proof.Law
import proofs.«141774_j48919677501954_2_alg».proof.Proof.Finite

noncomputable section

namespace Cert.Proof

open Idealize.ShloMosaic Idealize.SL.Sem

/-- The two programs' argument records agree when their launch memories agree on the arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RVal.argsOf m' c = Cert.KernelIdeal.KVal.argsOf m c := by
  unfold Cert.ReferenceIdeal.RVal.argsOf Cert.KernelIdeal.KVal.argsOf
  rw [h0, h1, h2, h3, h4, h5, h6, h7, h8, h9, h10]
  rfl

/-- Under the precondition every float argument of the kernel program's record is real-valued. -/
theorem args_fin (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (Cert.KernelIdeal.KVal.argsOf m c).Fin := by
  obtain ⟨f0, f1, f2, f3, f4, f5, f6, f7, f8⟩ := Cert.Gin.Finite.fin_of_pre _ _ _ _ _ _ _ _ _ _ _ (hpre c)
  exact ⟨f0, f1, f2, f3, f4, f5, f6, f7, f8⟩

theorem frame_p : Cert.frame_Kernel := fun m ρ _ => Cert.Kernel.Gen.frame m ρ

theorem frame_pi : Cert.frame_KernelIdeal := fun m ρ _ => Cert.KernelIdeal.Gen.frame m ρ

/-- The host program's run with the result dropped. -/
theorem frame_ri : Cert.frame_ReferenceIdeal := fun m ρ _ =>
  (θ_run Cert.ReferenceIdeal.defs _ _).mono (fun _ h c => (h c).2) (Cert.ReferenceIdeal.RVal.run m ρ)

/-- The ideal pass rewrote nothing. -/
theorem preserves : Cert.preserves_Kernel_KernelIdeal := trivial

/-- Both programs end with the network's value of the arguments: the kernel program with the pooled statistics, the
    host program with the statistics over all rows, and on real-valued arguments these are one function. -/
theorem algebraic : Cert.algebraic_KernelIdeal_ReferenceIdeal := by
  intro m ρ m' ρ' hpre hagree
  refine ⟨fun c => Cert.Gin.kerNet (Cert.KernelIdeal.KVal.argsOf m c), ?_, ?_⟩
  · exact (θ_run Cert.KernelIdeal.defs _ _).mono
      (fun _ h c => ⟨(h c).1.trans (Cert.KernelIdeal.KVal.value m ρ c), (h c).2⟩) (Cert.KernelIdeal.KRun.run_out m ρ)
  · refine (θ_run Cert.ReferenceIdeal.defs _ _).mono (fun _ h c => ⟨(h c).1.trans ?_, (h c).2⟩)
      (Cert.ReferenceIdeal.RVal.run m' ρ')
    obtain ⟨h0, h1, h2, h3, h4, h5, h6, h7, h8, h9, h10⟩ := hagree c
    rw [args_eq m m' c h0 h1 h2 h3 h4 h5 h6 h7 h8 h9 h10]
    exact (Cert.Gin.kerNet_eq_refNet _ (args_fin m hpre c)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
